-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S100000x64 : Shape := ⟨2, ![100000, 64]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S1000000 32) (main_arg1 : IVec S1000000 32) (main_arg2 : FVec F S1000000 .f32) (main_arg3 : FVec F S100000x64 .f32) : IVec S_ 1 :=
  let main_v0 : FVec F S1000000 .f32 := Host.absf main_arg2
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_c_2 : IVec S_ 32 := constantI S_ 32 0#32
  let main_v9 : IVec S1000000 32 := broadcastInDim S1000000 ![] bcast_S_S1000000 main_c_2
  let main_v10 : IVec S1000000 1 := cmpi .sge main_arg1 main_v9
  let main_c_3 : IVec S_ 1 := constantI S_ 1 1#1
  let main_v11 : IVec S_ 1 := (fun x v => Host.reduce IntOp.andi x v reducesTo_S1000000_S_d0 h_S_) main_v10 main_c_3
  let main_v12 : IVec S_ 1 := andi main_v8 main_v11
  let main_c_4 : IVec S_ 32 := constantI S_ 32 100000#32
  let main_v13 : IVec S1000000 32 := broadcastInDim S1000000 ![] bcast_S_S1000000 main_c_4
  let main_v14 : IVec S1000000 1 := cmpi .slt main_arg1 main_v13
  let main_c_5 : IVec S_ 1 := constantI S_ 1 1#1
  let main_v15 : IVec S_ 1 := (fun x v => Host.reduce IntOp.andi x v reducesTo_S1000000_S_d0 h_S_) main_v14 main_c_5
  fn_part1 (F := F) main_v12 main_v15
-- ==== Kernel.lean ====
abbrev S1000000 : Shape := ⟨1, ![1000000]⟩
abbrev S100000x64 : Shape := ⟨2, ![100000, 64]⟩
abbrev S_ : Shape := ⟨0, ![]⟩
abbrev S1001472 : Shape := ⟨1, ![1001472]⟩
abbrev S100352x64 : Shape := ⟨2, ![100352, 64]⟩
abbrev S1001472x1 : Shape := ⟨2, ![1001472, 1]⟩
abbrev S489x2048 : Shape := ⟨2, ![489, 2048]⟩
abbrev S489 : Shape := ⟨1, ![489]⟩
abbrev S1001472x64 : Shape := ⟨2, ![1001472, 64]⟩
abbrev S2048x1 : Shape := ⟨2, ![2048, 1]⟩
abbrev S1024x64 : Shape := ⟨2, ![1024, 64]⟩
abbrev S2048x64 : Shape := ⟨2, ![2048, 64]⟩
abbrev S1 : Shape := ⟨1, ![1]⟩
abbrev S2048x1024 : Shape := ⟨2, ![2048, 1024]⟩

abbrev nBuf : Space → Nat
  | .hbm => 80
  | .vmem => 16
  | .smem => 4
  | _ => 0

abbrev bufTy : (tb : Table) → Fin (tcTables nBuf tb) → BufTy
  | .hbm, ⟨0, _⟩ => ⟨S1000000, .i32⟩
  | .hbm, ⟨1, _⟩ => ⟨S1000000, .i32⟩
  | .hbm, ⟨2, _⟩ => ⟨S1000000, .f32⟩
  | .hbm, ⟨3, _⟩ => ⟨S100000x64, .f32⟩
  | .hbm, ⟨4, _⟩ => ⟨S_, .i32⟩
  | .hbm, ⟨5, _⟩ => ⟨S_, .i32⟩
  | .hbm, ⟨6, _⟩ => ⟨S1001472, .i32⟩
  | .hbm, ⟨7, _⟩ => ⟨S_, .i32⟩
  | .hbm, ⟨8, _⟩ => ⟨S_, .i32⟩
  | .hbm, ⟨9, _⟩ => ⟨S1001472, .i32⟩
  | .hbm, ⟨10, _⟩ => ⟨S_, .f32⟩
  | .hbm, ⟨11, _⟩ => ⟨S_, .f32⟩
  | .hbm, ⟨12, _⟩ => ⟨S1001472, .f32⟩
  | .hbm, ⟨13, _⟩ => ⟨S_, .i32⟩
  | .hbm, ⟨14, _⟩ => ⟨S_, .f32⟩
  | .hbm, ⟨15, _⟩ => ⟨S100352x64, .f32⟩
  | .hbm, ⟨16, _⟩ => ⟨S100352x64, .bf16⟩
  | .hbm, ⟨17, _⟩ => ⟨S1001472, .i32⟩
  | .hbm, ⟨18, _⟩ => ⟨S1001472, .i32⟩
  | .hbm, ⟨19, _⟩ => ⟨S1001472, .i32⟩
  | .hbm, ⟨20, _⟩ => ⟨S_, .i32⟩
  | .hbm, ⟨21, _⟩ => ⟨S1001472, .i32⟩
  | .hbm, ⟨22, _⟩ => ⟨S1001472, .i1⟩
  | .hbm, ⟨23, _⟩ => ⟨S_, .i32⟩
  | .hbm, ⟨24, _⟩ => ⟨S1001472, .i32⟩
  | .hbm, ⟨25, _⟩ => ⟨S1001472, .i32⟩
  | .hbm, ⟨26, _⟩ => ⟨S1001472, .i32⟩
  | .hbm, ⟨27, _⟩ => ⟨S1001472x1, .i32⟩
  | .hbm, ⟨28, _⟩ => ⟨S1001472, .i32⟩
  | .hbm, ⟨29, _⟩ => ⟨S_, .i32⟩
  | .hbm, ⟨30, _⟩ => ⟨S1001472, .i32⟩
  | .hbm, ⟨31, _⟩ => ⟨S1001472, .i1⟩
  | .hbm, ⟨32, _⟩ => ⟨S_, .i32⟩
  | .hbm, ⟨33, _⟩ => ⟨S1001472, .i32⟩
  | .hbm, ⟨34, _⟩ => ⟨S1001472, .i32⟩
  | .hbm, ⟨35, _⟩ => ⟨S1001472, .i32⟩
  | .hbm, ⟨36, _⟩ => ⟨S1001472x1, .i32⟩
  | .hbm, ⟨37, _⟩ => ⟨S1001472, .i32⟩
  | .hbm, ⟨38, _⟩ => ⟨S_, .i32⟩
  | .hbm, ⟨39, _⟩ => ⟨S1001472, .i32⟩
  | .hbm, ⟨40, _⟩ => ⟨S1001472, .i1⟩
  | .hbm, ⟨41, _⟩ => ⟨S_, .i32⟩
  | .hbm, ⟨42, _⟩ => ⟨S1001472, .i32⟩
  | .hbm, ⟨43, _⟩ => ⟨S1001472, .i32⟩
  | .hbm, ⟨44, _⟩ => ⟨S1001472, .i32⟩
  | .hbm, ⟨45, _⟩ => ⟨S1001472x1, .i32⟩
  | .hbm, ⟨46, _⟩ => ⟨S1001472, .f32⟩
  | .hbm, ⟨47, _⟩ => ⟨S489x2048, .i32⟩
  | .hbm, ⟨48, _⟩ => ⟨S_, .i32⟩
  | .hbm, ⟨49, _⟩ => ⟨S_, .i32⟩
  | .hbm, ⟨50, _⟩ => ⟨S1001472x1, .i32⟩
  | .hbm, ⟨51, _⟩ => ⟨S1001472x1, .f32⟩
  | .hbm, ⟨52, _⟩ => ⟨S1001472x64, .bf16⟩
  | .hbm, ⟨53, _⟩ => ⟨S1001472, .i32⟩
  | .hbm, ⟨54, _⟩ => ⟨S1001472, .i32⟩
  | .hbm, ⟨55, _⟩ => ⟨S1001472, .i32⟩
  | .hbm, ⟨56, _⟩ => ⟨S_, .i32⟩
  | .hbm, ⟨57, _⟩ => ⟨S1001472, .i32⟩
  | .hbm, ⟨58, _⟩ => ⟨S1001472, .i1⟩
  | .hbm, ⟨59, _⟩ => ⟨S_, .i32⟩
  | .hbm, ⟨60, _⟩ => ⟨S1001472, .i32⟩
  | .hbm, ⟨61, _⟩ => ⟨S1001472, .i32⟩
  | .hbm, ⟨62, _⟩ => ⟨S1001472, .i32⟩
  | .hbm, ⟨63, _⟩ => ⟨S1001472x1, .i32⟩
  | .hbm, ⟨64, _⟩ => ⟨S1001472, .i32⟩
  | .hbm, ⟨65, _⟩ => ⟨S_, .i32⟩
  | .hbm, ⟨66, _⟩ => ⟨S1001472, .i32⟩
  | .hbm, ⟨67, _⟩ => ⟨S1001472, .i1⟩
  | .hbm, ⟨68, _⟩ => ⟨S_, .i32⟩
  | .hbm, ⟨69, _⟩ => ⟨S1001472, .i32⟩
  | .hbm, ⟨70, _⟩ => ⟨S1001472, .i32⟩
  | .hbm, ⟨71, _⟩ => ⟨S1001472, .i32⟩
  | .hbm, ⟨72, _⟩ => ⟨S1001472x1, .i32⟩
  | .hbm, ⟨73, _⟩ => ⟨S1001472x64, .bf16⟩
  | .hbm, ⟨74, _⟩ => ⟨S489x2048, .i32⟩
  | .hbm, ⟨75, _⟩ => ⟨S_, .i32⟩
  | .hbm, ⟨76, _⟩ => ⟨S_, .i32⟩
  | .hbm, ⟨77, _⟩ => ⟨S1001472x1, .i32⟩
  | .hbm, ⟨78, _⟩ => ⟨S100352x64, .f32⟩
  | .hbm, ⟨79, _⟩ => ⟨S100000x64, .f32⟩
  | .local _ .vmem, ⟨0, _⟩ => ⟨S2048x1, .i32⟩
  | .local _ .vmem, ⟨1, _⟩ => ⟨S2048x1, .i32⟩
  | .local _ .vmem, ⟨2, _⟩ => ⟨S2048x1, .f32⟩
  | .local _ .vmem, ⟨3, _⟩ => ⟨S2048x1, .f32⟩
  | .local _ .vmem, ⟨4, _⟩ => ⟨S1024x64, .bf16⟩
  | .local _ .vmem, ⟨5, _⟩ => ⟨S1024x64, .bf16⟩
  | .local _ .vmem, ⟨6, _⟩ => ⟨S2048x64, .bf16⟩
  | .local _ .vmem, ⟨7, _⟩ => ⟨S2048x64, .bf16⟩
  | .local _ .vmem, ⟨8, _⟩ => ⟨S2048x64, .f32⟩
  | .local _ .vmem, ⟨9, _⟩ => ⟨S2048x1, .i32⟩
  | .local _ .vmem, ⟨10, _⟩ => ⟨S2048x1, .i32⟩
  | .local _ .vmem, ⟨11, _⟩ => ⟨S2048x64, .bf16⟩
  | .local _ .vmem, ⟨12, _⟩ => ⟨S2048x64, .bf16⟩
  | .local _ .vmem, ⟨13, _⟩ => ⟨S1024x64, .f32⟩
  | .local _ .vmem, ⟨14, _⟩ => ⟨S1024x64, .f32⟩
  | .local _ .vmem, ⟨15, _⟩ => ⟨S1024x64, .f32⟩
  | .local _ .smem, ⟨0, _⟩ => ⟨S489, .i32⟩
  | .local _ .smem, ⟨1, _⟩ => ⟨S489, .i32⟩
  | .local _ .smem, ⟨2, _⟩ => ⟨S489, .i32⟩
  | .local _ .smem, ⟨3, _⟩ => ⟨S489, .i32⟩
  | _, _ => ⟨S1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_cst : Ref sig .tc := ⟨.hbm, 10, rfl⟩
abbrev main_call2_v0 : Ref sig .tc := ⟨.hbm, 11, rfl⟩
abbrev main_v2 : Ref sig .tc := ⟨.hbm, 12, rfl⟩
abbrev main_c_1 : Ref sig .tc := ⟨.hbm, 13, rfl⟩
abbrev main_call3_v0 : Ref sig .tc := ⟨.hbm, 14, rfl⟩
abbrev main_v3 : Ref sig .tc := ⟨.hbm, 15, rfl⟩
abbrev main_v4 : Ref sig .tc := ⟨.hbm, 16, rfl⟩
abbrev main_call4_v0 : Ref sig .tc := ⟨.hbm, 17, rfl⟩
abbrev main_call4_v1_0 : Ref sig .tc := ⟨.hbm, 18, rfl⟩
abbrev main_v5 : Ref sig .tc := ⟨.hbm, 19, rfl⟩
abbrev main_c_2 : Ref sig .tc := ⟨.hbm, 20, rfl⟩
abbrev main_v6 : Ref sig .tc := ⟨.hbm, 21, rfl⟩
abbrev main_v7 : Ref sig .tc := ⟨.hbm, 22, rfl⟩
abbrev main_c_3 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_4 : Ref sig .tc := ⟨.hbm, 29, rfl⟩
abbrev main_v13 : Ref sig .tc := ⟨.hbm, 30, rfl⟩
abbrev main_v14 : Ref sig .tc := ⟨.hbm, 31, rfl⟩
abbrev main_c_5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_6 : Ref sig .tc := ⟨.hbm, 38, rfl⟩
abbrev main_v20 : Ref sig .tc := ⟨.hbm, 39, rfl⟩
abbrev main_v21 : Ref sig .tc := ⟨.hbm, 40, rfl⟩
abbrev main_c_7 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_8 : Ref sig .tc := ⟨.hbm, 48, rfl⟩
abbrev main_c_9 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call5_v0 : Ref sig .tc := ⟨.hbm, 53, rfl⟩
abbrev main_call5_v1_0 : Ref sig .tc := ⟨.hbm, 54, rfl⟩
abbrev main_v33 : Ref sig .tc := ⟨.hbm, 55, rfl⟩
abbrev main_c_10 : Ref sig .tc := ⟨.hbm, 56, rfl⟩
abbrev main_v34 : Ref sig .tc := ⟨.hbm, 57, rfl⟩
abbrev main_v35 : Ref sig .tc := ⟨.hbm, 58, rfl⟩
abbrev main_c_11 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_12 : Ref sig .tc := ⟨.hbm, 65, rfl⟩
abbrev main_v41 : Ref sig .tc := ⟨.hbm, 66, rfl⟩
abbrev main_v42 : Ref sig .tc := ⟨.hbm, 67, rfl⟩
abbrev main_c_13 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_14 : Ref sig .tc := ⟨.hbm, 75, rfl⟩
abbrev main_c_15 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v28 : Ref sig .tc := ⟨.smem, 0, rfl⟩
abbrev main_v29 : Ref sig .tc := ⟨.smem, 1, rfl⟩
abbrev main_v49 : Ref sig .tc := ⟨.smem, 2, rfl⟩
abbrev main_v50 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![489, 98], ![false, false]⟩

abbrev pre0 : Pipeline.Prefetch sig := ⟨2, ![main_v28.idx, main_v29.idx], fun | 0 => main_v28.names | 1 => main_v29.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v4 : Index := Scalar.indexCast arg0
  ![v4.toNat]
def k0_cond3 (i : grid0.Coords) : BitVec 1 :=
  let arg1 : BitVec 32 := BitVec.ofNat 32 (i 1).val
  let c97_i32 : BitVec 32 := 97#32
  let v15 : BitVec 1 := Scalar.cmpi .eq arg1 c97_i32
  let v16 : BitVec 32 := Scalar.extui v15
  let c0_i32_3 : BitVec 32 := 0#32
  let v17 : BitVec 1 := Scalar.cmpi .ne v16 c0_i32_3
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![98, 489], ![false, false]⟩

abbrev pre1 : Pipeline.Prefetch sig := ⟨2, ![main_v49.idx, main_v50.idx], fun | 0 => main_v49.names | 1 => main_v50.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg1 : BitVec 32 := BitVec.ofNat 32 (i 1).val
  let v4 : Index := Scalar.indexCast arg1
  ![v4.toNat]
def k1_cond3 (i : grid1.Coords) : BitVec 1 :=
  let arg1 : BitVec 32 := BitVec.ofNat 32 (i 1).val
  let c488_i32 : BitVec 32 := 488#32
  let v15 : BitVec 1 := Scalar.cmpi .eq arg1 c488_i32
  let v16 : BitVec 32 := Scalar.extui v15
  let c0_i32_3 : BitVec 32 := 0#32
  let v17 : BitVec 1 := Scalar.cmpi .ne v16 c0_i32_3
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  pads_S1000000_S1001472_014720 : S1000000.Pads (![0] : Fin 1 → Nat) ![1472] ![0] S1001472
  h_S_ : 0 < S_.numel
  pads_S100000x64_S100352x64_03520_000 : S100000x64.Pads (![0, 0] : Fin 2 → Nat) ![352, 0] ![0, 0] S100352x64
  bitsLt_bf16_f32 : FTy.bits .bf16 < FTy.bits .f32
  bcast_S_S1001472 : S_.BroadcastsInDim S1001472 (![] : Fin 0 → Fin S1001472.rank)
  bcast_S1001472_S1001472x1_0 : S1001472.BroadcastsInDim S1001472x1 (![0] : Fin 1 → Fin S1001472x1.rank)
  shapeCasts_S1001472_S489x2048 : S1001472.ShapeCasts S489x2048
  reducesTo_S489x2048_S489_d1 : S489x2048.ReducesTo [1] S489
  shapeCasts_S1001472_S1001472x1 : S1001472.ShapeCasts S1001472x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  numel1_S1 : S1.numel = 1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x1024_d1_w32 : S2048x1024.Iotas .tc 32 [1]
  broadcasts_S2048x1_S2048x1024 : S2048x1.Broadcasts S2048x1024
  natLt_1_32 : 1 < 32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  broadcasts_S2048x1_S2048x64 : S2048x1.Broadcasts S2048x64
  packedbf16_S2048x64_S2048x64_0_0 : (Rect.unit (s := S2048x64) ![0, 0] S2048x64.size inb_S2048x64_S2048x64_0_0).PackedRows (EltTy.packing .bf16)
  slices_S100352x64_S100000x64_0_0 : S100352x64.Slices ![0, 0] S100000x64
  gather_S1001472_S1001472x1_S1001472_n_0_n_n_0_1_1_wf : GatherDims.WF S1001472 S1001472x1 S1001472 [] [0] [] [0] [] 1 ![1]
  dot_S2048x1024_S1024x64_S2048x64_1_0_0_1_n_n_wf : DotDims.WF S2048x1024 S1024x64 S2048x64 [1] [0] [0] [1] [] []
  gather_S1001472x64_S1001472x1_S1001472x64_1_0_n_n_0_1_164_wf : GatherDims.WF S1001472x64 S1001472x1 S1001472x64 [1] [0] [] [0] [] 1 ![1, 64]
  dot_S2048x1024_S2048x64_S1024x64_0_0_1_1_n_n_wf : DotDims.WF S2048x1024 S2048x64 S1024x64 [0] [0] [1] [1] [] []
  hrank0 : 0 < grid0.rank
  k0_off1_inb : ∀ i : grid0.Coords, ∀ a, (k0_off1 i) a + S1.size a ≤ S489.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S1001472x1.size a
  hwx0_0 : ∀ i : grid0.Coords, EltTy.bits .i32 = 32 ∨ (Rect.block (s := S1001472x1) S2048x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S1001472x1.size a
  hwx0_1 : ∀ i : grid0.Coords, EltTy.bits .f32 = 32 ∨ (Rect.block (s := S1001472x1) S2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S100352x64.size a
  hwx0_2 : ∀ i : grid0.Coords, EltTy.bits .bf16 = 32 ∨ (Rect.block (s := S100352x64) S1024x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S1001472x64.size a
  hwx0_3 : ∀ i : grid0.Coords, EltTy.bits .bf16 = 32 ∨ (Rect.block (s := S1001472x64) S2048x64.size (cc0_transform_3 i) (hinb0_3 i)).WholeWords (EltTy.packing .bf16)
  hrank1 : 0 < grid1.rank
  k1_off1_inb : ∀ i : grid1.Coords, ∀ a, (k1_off1 i) a + S1.size a ≤ S489.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1.size a ≤ S1001472x1.size a
  hwx1_0 : ∀ i : grid1.Coords, EltTy.bits .i32 = 32 ∨ (Rect.block (s := S1001472x1) S2048x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S1001472x64.size a
  hwx1_1 : ∀ i : grid1.Coords, EltTy.bits .bf16 = 32 ∨ (Rect.block (s := S1001472x64) S2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S100352x64.size a
  hwx1_2 : ∀ i : grid1.Coords, EltTy.bits .f32 = 32 ∨ (Rect.block (s := S100352x64) S1024x64.size (cc1_transform_2 i) (hinb1_2 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S1001472_S1001472x1_S1001472_n_0_n_n_0_1_1 : GatherDims S1001472 S1001472x1 S1001472 where
  offsetDims := []
  collapsedSliceDims := [0]
  operandBatchingDims := []
  startIndicesBatchingDims := []
  startIndexMap := [0]
  indexVectorDim := 1
  sliceSizes := ![1]
  wf := gather_S1001472_S1001472x1_S1001472_n_0_n_n_0_1_1_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def gather_S1001472x64_S1001472x1_S1001472x64_1_0_n_n_0_1_164 : GatherDims S1001472x64 S1001472x1 S1001472x64 where
  offsetDims := [1]
  collapsedSliceDims := [0]
  operandBatchingDims := []
  startIndicesBatchingDims := []
  startIndexMap := [0]
  indexVectorDim := 1
  sliceSizes := ![1, 64]
  wf := gather_S1001472x64_S1001472x1_S1001472x64_1_0_n_n_0_1_164_wf
def dot_S2048x1024_S2048x64_S1024x64_0_0_1_1_n_n : DotDims S2048x1024 S2048x64 S1024x64 where
  lhsContracting := [0]
  rhsContracting := [0]
  lhsNonContracting := [1]
  rhsNonContracting := [1]
  lhsBatch := []
  rhsBatch := []
  wf := dot_S2048x1024_S2048x64_S1024x64_0_0_1_1_n_n_wf

abbrev spec0_0 : Pipeline.WinSpec sig grid0.rank :=
  Pipeline.WinSpec.ofSpec (Memref.whole main_v30) S2048x1.size reads0_0 false false 2 stage0_0 sem0_0 nbuf0_0 hstage0_0

abbrev spec0_1 : Pipeline.WinSpec sig grid0.rank :=
  Pipeline.WinSpec.ofSpec (Memref.whole main_v31) S2048x1.size reads0_1 false false 2 stage0_1 sem0_1 nbuf0_1 hstage0_1

abbrev spec0_2 : Pipeline.WinSpec sig grid0.rank :=
  Pipeline.WinSpec.ofSpec (Memref.whole main_v4) S1024x64.size reads0_2 false false 2 stage0_2 sem0_2 nbuf0_2 hstage0_2

abbrev spec0_3 : Pipeline.WinSpec sig grid0.rank :=
  Pipeline.WinSpec.ofSpec (Memref.whole main_v32) S2048x64.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))
abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

abbrev spec1_0 : Pipeline.WinSpec sig grid1.rank :=
  Pipeline.WinSpec.ofSpec (Memref.whole main_v51) S2048x1.size reads1_0 false false 2 stage1_0 sem1_0 nbuf1_0 hstage1_0

abbrev spec1_1 : Pipeline.WinSpec sig grid1.rank :=
  Pipeline.WinSpec.ofSpec (Memref.whole main_v47) S2048x64.size reads1_1 false false 2 stage1_1 sem1_1 nbuf1_1 hstage1_1

abbrev spec1_2 : Pipeline.WinSpec sig grid1.rank :=
  Pipeline.WinSpec.ofSpec (Memref.whole main_v52) S1024x64.size reads1_2 true false 2 stage1_2 sem1_2 nbuf1_2 hstage1_2

abbrev spec1 : Fin 3 → Pipeline.WinSpec sig grid1.rank := fun | 0 => spec1_0 | 1 => spec1_1 | 2 => spec1_2 | ⟨_ + 3, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | ⟨_ + 3, h⟩ => absurd h (Nat.not_lt.2 (Nat.le_add_left _ _))
abbrev ix1 (pf : pre1.Contents (Elt F)) : (w : Fin 3) → grid1.Coords → Fin (spec1 w).shape.rank → Nat := fun | 0 => cc1_transform_0 | 1 => cc1_transform_1 | 2 => cc1_transform_2 | ⟨_ + 3, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | ⟨_ + 3, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | ⟨_ + 3, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | ⟨_ + 3, h⟩ => absurd h (Nat.not_lt.2 (Nat.le_add_left _ _))
abbrev idle1 : Fin 3 → grid1.Coords → Bool := fun | 0 => fun _ => false | 1 => fun _ => false | 2 => fun i => !(k1_cond3 i == 1#1) | ⟨_ + 3, h⟩ => absurd h (Nat.not_lt.2 (Nat.le_add_left _ _))

class Facts : Prop extends Facts₀ where
  harr0 : ∀ w, (spec0 w).arr.IsWhole
  harr1 : ∀ w, (spec1 w).arr.IsWhole

variable [Facts]
-- ==== ReferenceIdeal.lean ====
abbrev S1000000 : Shape := ⟨1, ![1000000]⟩
abbrev S100000x64 : Shape := ⟨2, ![100000, 64]⟩
abbrev S_ : Shape := ⟨0, ![]⟩
abbrev S1000000x1 : Shape := ⟨2, ![1000000, 1]⟩
abbrev S1000000x64 : Shape := ⟨2, ![1000000, 64]⟩

abbrev nBuf : Space → Nat
  | .hbm => 20
  | .vmem => 0
  | .smem => 0
  | _ => 0

abbrev bufTy : (tb : Table) → Fin (tcTables nBuf tb) → BufTy
  | .hbm, ⟨0, _⟩ => ⟨S1000000, .i32⟩
  | .hbm, ⟨1, _⟩ => ⟨S1000000, .i32⟩
  | .hbm, ⟨2, _⟩ => ⟨S1000000, .f32⟩
  | .hbm, ⟨3, _⟩ => ⟨S100000x64, .f32⟩
  | .hbm, ⟨4, _⟩ => ⟨S_, .i32⟩
  | .hbm, ⟨5, _⟩ => ⟨S1000000, .i32⟩
  | .hbm, ⟨6, _⟩ => ⟨S1000000, .i1⟩
  | .hbm, ⟨7, _⟩ => ⟨S_, .i32⟩
  | .hbm, ⟨8, _⟩ => ⟨S1000000, .i32⟩
  | .hbm, ⟨9, _⟩ => ⟨S1000000, .i32⟩
  | .hbm, ⟨10, _⟩ => ⟨S1000000, .i32⟩
  | .hbm, ⟨11, _⟩ => ⟨S1000000x1, .i32⟩
  | .hbm, ⟨12, _⟩ => ⟨S1000000x64, .f32⟩
  | .hbm, ⟨13, _⟩ => ⟨S1000000x1, .f32⟩
  | .hbm, ⟨14, _⟩ => ⟨S1000000x64, .f32⟩
  | .hbm, ⟨15, _⟩ => ⟨S1000000x64, .f32⟩
  | .hbm, ⟨16, _⟩ => ⟨S_, .f32⟩
  | .hbm, ⟨17, _⟩ => ⟨S100000x64, .f32⟩
  | .hbm, ⟨18, _⟩ => ⟨S1000000x1, .i32⟩
  | .hbm, ⟨19, _⟩ => ⟨S100000x64, .f32⟩
  | _, _ => ⟨S1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.GatherRuns.lean ====
/-
  The gather kernel's body, run once per way its three decisions can fall.

  The body decides three things at a grid point: whether the point is the FIRST along the accumulated axis (it then
  clears its accumulator), whether the point's block is ACTIVE (the two table words read at the point's edge block say
  the block of 1024 node rows at hand meets the edge block's range of identifiers; it then adds one masked product
  to the accumulator), and whether the point is the LAST along the accumulated axis (it then stores the
  scaled accumulator into the output block).  First and last cannot both hold, which leaves six ways.  For each, on
  whole staging buffers holding the point's input blocks, with the two tables and the accumulator at any contents,
  the body runs to its end without a fault and hands everything back: the inputs and the tables as they were, the
  accumulator at contents the run determines, and the output block either untouched (not last) or overwritten
  whole (last).  The statements hold for every interpretation of the floats.
-/
import proofs.«179733_j56453050138798_2_alg».proof.Proof.Gen.KernelIdeal.Skeleton
import proofs.«179733_j56453050138798_2_alg».proof.Proof.Gen.KernelIdeal.Launch
import Idealize.ShloMosaic.Lib.Pipeline.FrameBody
import Idealize.ShloMosaic.Lib.Ring
import Idealize.ShloMosaic.Lib.Tactic

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The two tables and the accumulator as whole buffers. -/
abbrev tbM0_0 : Memref sig .tc .smem S489 .i32 := Memref.whole main_v28
abbrev tbM0_1 : Memref sig .tc .smem S489 .i32 := Memref.whole main_v29
abbrev scM0_0 : Memref sig .tc .vmem S2048x64 .f32 := Memref.whole cc0_scratch0

/-- The word the body reads from each table: the entry at the point's edge block. -/
abbrev word0_0 (T : S489.Idx → Elt F .i32) (i : grid0.Coords) : BitVec 32 :=
  View.readAt (Elt F) (tbM0_0).view (Rect.unit (s := S489) (k0_off1 i) S1.size (k0_off1_inb i)).toLoadRect T (Shape.Idx.first (numel1_S1.symm ▸ Nat.one_pos))
abbrev word0_1 (T : S489.Idx → Elt F .i32) (i : grid0.Coords) : BitVec 32 :=
  View.readAt (Elt F) (tbM0_1).view (Rect.unit (s := S489) (k0_off1 i) S1.size (k0_off1_inb i)).toLoadRect T (Shape.Idx.first (numel1_S1.symm ▸ Nat.one_pos))

/-- The three decisions, as the body computes them. -/
abbrev isFirst0 (i : grid0.Coords) : Prop :=
  (Scalar.cmpi .ne (Scalar.extui (Scalar.cmpi .eq (BitVec.ofNat 32 (i 1).val) 0#32)) 0#32) = 1#1
abbrev isActive0 (T0 T1 : S489.Idx → Elt F .i32) (i : grid0.Coords) : Prop :=
  (Scalar.cmpi .ne (Scalar.extui (Scalar.andi
      (Scalar.cmpi .sge (word0_1 T1 i) (Scalar.muli (BitVec.ofNat 32 (i 1).val) 1024#32))
      (Scalar.cmpi .sle (word0_0 T0 i) (Scalar.subi (Scalar.addi (Scalar.muli (BitVec.ofNat 32 (i 1).val) 1024#32) 1024#32) 1#32)))) 0#32) = 1#1
abbrev isLast0 (i : grid0.Coords) : Prop := k0_cond3 i = 1#1

/-- One staging buffer of the output window, through which its contents are stated. -/
abbrev VO0 : View sig .tc .vmem S2048x64 .bf16 := (Memref.whole cc0_stg3_0 : Memref sig .tc .vmem S2048x64 .bf16).view

set_option maxHeartbeats 8000000 in
/-- The body at a point that is first, active, not last: the output block is left as it was; the accumulator ends at the run's contents. -/
noncomputable def kernelRun0_A (c : Dev nD) (i : grid0.Coords) (arg4 : Memref sig .tc .vmem S2048x1 .i32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .bf16) (harg7 : arg7.IsWhole)
    (qT : PosShare TreeShare) (T0 T1 : S489.Idx → Elt F .i32) (x0 : S2048x1.Idx → Elt F .i32) (x1 : S2048x1.Idx → Elt F .f32) (x2 : S1024x64.Idx → Elt F .bf16)
    (h1 : isFirst0 i) (hc : isActive0 (F := F) T0 T1 i) (h3 : ¬isLast0 i) :
    { out0 : Buf (Elt F) ((c : Thread nD τ).loc cc0_scratch0) //
      ∀ (y : (S2048x64.Idx → Elt F .bf16)) (xa0 : Buf (Elt F) ((c : Thread nD τ).loc cc0_scratch0)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{qT} T0)
          ∗ (tbM0_1.view.loc (c : Thread nD τ) ↦{qT} T1)
          ∗ owns (c : Thread nD τ) arg7 fullShare y
          ∗ (scM0_0.view.loc (c : Thread nD τ) ↦{fullShare} xa0)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{qT} T0)
              ∗ (tbM0_1.view.loc (c : Thread nD τ) ↦{qT} T1)
              ∗ owns (c : Thread nD τ) arg7 fullShare y
              ∗ (scM0_0.view.loc (c : Thread nD τ) ↦{fullShare} out0)) -∗ K ⟨⟩))
          ⊢ wp frame (wpE (defs₀ (F := F)) Variants.none c none) Set.univ (cc0__gather_kernel i tbM0_0 (Memref.isWhole_whole _) tbM0_1 (Memref.isWhole_whole _) arg4 harg4 arg5 harg5 arg6 harg6 arg7 harg7 scM0_0 (Memref.isWhole_whole _)) K } :=
  ⟨_, fun (y : (S2048x64.Idx → Elt F .bf16)) (xa0 : Buf (Elt F) ((c : Thread nD τ).loc cc0_scratch0)) K => by
    unfold owns
    rw [cc0__gather_kernel_eq_skeleton]; unfold cc0__gather_kernel_skel
    iintro ⟨H0, H1, H2, HT0, HT1, ⟨%fo, %hfo, HO⟩, HS0, Hk⟩
    obtain rfl := harg7.eq_unread hfo
    have hS0 : scM0_0.IsWhole := Memref.isWhole_whole _
    have hT0 : tbM0_0.IsWhole := Memref.isWhole_whole _
    have hT1 : tbM0_1.IsWhole := Memref.isWhole_whole _
    sl_exec! (disch := first | exact h1 | exact hc | exact h3)
    sl_step
    iapply Hk
    isplitl [H0]; · iexact H0
    isplitl [H1]; · iexact H1
    isplitl [H2]; · iexact H2
    isplitl [HT0]; · iexact HT0
    isplitl [HT1]; · iexact HT1
    isplitl [HO]
    · iexists _; isplitr; · ipureintro; exact harg7.read_unread _
      iexact HO
    iexact HS0⟩

set_option maxHeartbeats 8000000 in
/-- The body at a point that is first, not active, not last: the output block is left as it was; the accumulator ends at the run's contents. -/
noncomputable def kernelRun0_B (c : Dev nD) (i : grid0.Coords) (arg4 : Memref sig .tc .vmem S2048x1 .i32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .bf16) (harg7 : arg7.IsWhole)
    (qT : PosShare TreeShare) (T0 T1 : S489.Idx → Elt F .i32) (x0 : S2048x1.Idx → Elt F .i32) (x1 : S2048x1.Idx → Elt F .f32) (x2 : S1024x64.Idx → Elt F .bf16)
    (h1 : isFirst0 i) (hc : ¬isActive0 (F := F) T0 T1 i) (h3 : ¬isLast0 i) :
    { out0 : Buf (Elt F) ((c : Thread nD τ).loc cc0_scratch0) //
      ∀ (y : (S2048x64.Idx → Elt F .bf16)) (xa0 : Buf (Elt F) ((c : Thread nD τ).loc cc0_scratch0)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{qT} T0)
          ∗ (tbM0_1.view.loc (c : Thread nD τ) ↦{qT} T1)
          ∗ owns (c : Thread nD τ) arg7 fullShare y
          ∗ (scM0_0.view.loc (c : Thread nD τ) ↦{fullShare} xa0)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{qT} T0)
              ∗ (tbM0_1.view.loc (c : Thread nD τ) ↦{qT} T1)
              ∗ owns (c : Thread nD τ) arg7 fullShare y
              ∗ (scM0_0.view.loc (c : Thread nD τ) ↦{fullShare} out0)) -∗ K ⟨⟩))
          ⊢ wp frame (wpE (defs₀ (F := F)) Variants.none c none) Set.univ (cc0__gather_kernel i tbM0_0 (Memref.isWhole_whole _) tbM0_1 (Memref.isWhole_whole _) arg4 harg4 arg5 harg5 arg6 harg6 arg7 harg7 scM0_0 (Memref.isWhole_whole _)) K } :=
  ⟨_, fun (y : (S2048x64.Idx → Elt F .bf16)) (xa0 : Buf (Elt F) ((c : Thread nD τ).loc cc0_scratch0)) K => by
    unfold owns
    rw [cc0__gather_kernel_eq_skeleton]; unfold cc0__gather_kernel_skel
    iintro ⟨H0, H1, H2, HT0, HT1, ⟨%fo, %hfo, HO⟩, HS0, Hk⟩
    obtain rfl := harg7.eq_unread hfo
    have hS0 : scM0_0.IsWhole := Memref.isWhole_whole _
    have hT0 : tbM0_0.IsWhole := Memref.isWhole_whole _
    have hT1 : tbM0_1.IsWhole := Memref.isWhole_whole _
    sl_exec! (disch := first | exact h1 | exact hc | exact h3)
    sl_step
    iapply Hk
    isplitl [H0]; · iexact H0
    isplitl [H1]; · iexact H1
    isplitl [H2]; · iexact H2
    isplitl [HT0]; · iexact HT0
    isplitl [HT1]; · iexact HT1
    isplitl [HO]
    · iexists _; isplitr; · ipureintro; exact harg7.read_unread _
      iexact HO
    iexact HS0⟩

set_option maxHeartbeats 8000000 in
/-- The body at a point that is not first, active, not last: the output block is left as it was; the accumulator ends at the run's contents. -/
noncomputable def kernelRun0_C (c : Dev nD) (i : grid0.Coords) (arg4 : Memref sig .tc .vmem S2048x1 .i32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .bf16) (harg7 : arg7.IsWhole)
    (qT : PosShare TreeShare) (T0 T1 : S489.Idx → Elt F .i32) (x0 : S2048x1.Idx → Elt F .i32) (x1 : S2048x1.Idx → Elt F .f32) (x2 : S1024x64.Idx → Elt F .bf16)
    (xa0 : Buf (Elt F) ((c : Thread nD τ).loc cc0_scratch0))
    (h1 : ¬isFirst0 i) (hc : isActive0 (F := F) T0 T1 i) (h3 : ¬isLast0 i) :
    { out0 : Buf (Elt F) ((c : Thread nD τ).loc cc0_scratch0) //
      ∀ (y : (S2048x64.Idx → Elt F .bf16)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{qT} T0)
          ∗ (tbM0_1.view.loc (c : Thread nD τ) ↦{qT} T1)
          ∗ owns (c : Thread nD τ) arg7 fullShare y
          ∗ (scM0_0.view.loc (c : Thread nD τ) ↦{fullShare} xa0)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{qT} T0)
              ∗ (tbM0_1.view.loc (c : Thread nD τ) ↦{qT} T1)
              ∗ owns (c : Thread nD τ) arg7 fullShare y
              ∗ (scM0_0.view.loc (c : Thread nD τ) ↦{fullShare} out0)) -∗ K ⟨⟩))
          ⊢ wp frame (wpE (defs₀ (F := F)) Variants.none c none) Set.univ (cc0__gather_kernel i tbM0_0 (Memref.isWhole_whole _) tbM0_1 (Memref.isWhole_whole _) arg4 harg4 arg5 harg5 arg6 harg6 arg7 harg7 scM0_0 (Memref.isWhole_whole _)) K } :=
  ⟨_, fun (y : (S2048x64.Idx → Elt F .bf16)) K => by
    unfold owns
    rw [cc0__gather_kernel_eq_skeleton]; unfold cc0__gather_kernel_skel
    iintro ⟨H0, H1, H2, HT0, HT1, ⟨%fo, %hfo, HO⟩, HS0, Hk⟩
    obtain rfl := harg7.eq_unread hfo
    have hS0 : scM0_0.IsWhole := Memref.isWhole_whole _
    have hT0 : tbM0_0.IsWhole := Memref.isWhole_whole _
    have hT1 : tbM0_1.IsWhole := Memref.isWhole_whole _
    sl_exec! (disch := first | exact h1 | exact hc | exact h3)
    sl_step
    iapply Hk
    isplitl [H0]; · iexact H0
    isplitl [H1]; · iexact H1
    isplitl [H2]; · iexact H2
    isplitl [HT0]; · iexact HT0
    isplitl [HT1]; · iexact HT1
    isplitl [HO]
    · iexists _; isplitr; · ipureintro; exact harg7.read_unread _
      iexact HO
    iexact HS0⟩

set_option maxHeartbeats 8000000 in
/-- The body at a point that is not first, not active, not last: the output block is left as it was; the accumulator ends at the run's contents. -/
noncomputable def kernelRun0_D (c : Dev nD) (i : grid0.Coords) (arg4 : Memref sig .tc .vmem S2048x1 .i32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .bf16) (harg7 : arg7.IsWhole)
    (qT : PosShare TreeShare) (T0 T1 : S489.Idx → Elt F .i32) (x0 : S2048x1.Idx → Elt F .i32) (x1 : S2048x1.Idx → Elt F .f32) (x2 : S1024x64.Idx → Elt F .bf16)
    (xa0 : Buf (Elt F) ((c : Thread nD τ).loc cc0_scratch0))
    (h1 : ¬isFirst0 i) (hc : ¬isActive0 (F := F) T0 T1 i) (h3 : ¬isLast0 i) :
    { out0 : Buf (Elt F) ((c : Thread nD τ).loc cc0_scratch0) //
      ∀ (y : (S2048x64.Idx → Elt F .bf16)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{qT} T0)
          ∗ (tbM0_1.view.loc (c : Thread nD τ) ↦{qT} T1)
          ∗ owns (c : Thread nD τ) arg7 fullShare y
          ∗ (scM0_0.view.loc (c : Thread nD τ) ↦{fullShare} xa0)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{qT} T0)
              ∗ (tbM0_1.view.loc (c : Thread nD τ) ↦{qT} T1)
              ∗ owns (c : Thread nD τ) arg7 fullShare y
              ∗ (scM0_0.view.loc (c : Thread nD τ) ↦{fullShare} out0)) -∗ K ⟨⟩))
          ⊢ wp frame (wpE (defs₀ (F := F)) Variants.none c none) Set.univ (cc0__gather_kernel i tbM0_0 (Memref.isWhole_whole _) tbM0_1 (Memref.isWhole_whole _) arg4 harg4 arg5 harg5 arg6 harg6 arg7 harg7 scM0_0 (Memref.isWhole_whole _)) K } :=
  ⟨_, fun (y : (S2048x64.Idx → Elt F .bf16)) K => by
    unfold owns
    rw [cc0__gather_kernel_eq_skeleton]; unfold cc0__gather_kernel_skel
    iintro ⟨H0, H1, H2, HT0, HT1, ⟨%fo, %hfo, HO⟩, HS0, Hk⟩
    obtain rfl := harg7.eq_unread hfo
    have hS0 : scM0_0.IsWhole := Memref.isWhole_whole _
    have hT0 : tbM0_0.IsWhole := Memref.isWhole_whole _
    have hT1 : tbM0_1.IsWhole := Memref.isWhole_whole _
    sl_exec! (disch := first | exact h1 | exact hc | exact h3)
    sl_step
    iapply Hk
    isplitl [H0]; · iexact H0
    isplitl [H1]; · iexact H1
    isplitl [H2]; · iexact H2
    isplitl [HT0]; · iexact HT0
    isplitl [HT1]; · iexact HT1
    isplitl [HO]
    · iexists _; isplitr; · ipureintro; exact harg7.read_unread _
      iexact HO
    iexact HS0⟩

set_option maxHeartbeats 8000000 in
/-- The body at a point that is not first, active, last: the output block is overwritten by the run's pieces; the accumulator ends at the
    run's contents. -/
noncomputable def kernelRun0_E (c : Dev nD) (i : grid0.Coords) (arg4 : Memref sig .tc .vmem S2048x1 .i32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .bf16) (harg7 : arg7.IsWhole)
    (qT : PosShare TreeShare) (T0 T1 : S489.Idx → Elt F .i32) (x0 : S2048x1.Idx → Elt F .i32) (x1 : S2048x1.Idx → Elt F .f32) (x2 : S1024x64.Idx → Elt F .bf16)
    (xa0 : Buf (Elt F) ((c : Thread nD τ).loc cc0_scratch0))
    (h1 : ¬isFirst0 i) (hc : isActive0 (F := F) T0 T1 i) (h3 : isLast0 i) :
    Σ' (outp : List (View.Piece (Elt F) S2048x64 .bf16)), { out0 : Buf (Elt F) ((c : Thread nD τ).loc cc0_scratch0) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{qT} T0)
          ∗ (tbM0_1.view.loc (c : Thread nD τ) ↦{qT} T1)
          ∗ (∃ d, owns (c : Thread nD τ) arg7 fullShare d)
          ∗ (scM0_0.view.loc (c : Thread nD τ) ↦{fullShare} xa0)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{qT} T0)
              ∗ (tbM0_1.view.loc (c : Thread nD τ) ↦{qT} T1)
              ∗ (∃ f, arg7.view.loc (c : Thread nD τ) ↦[arg7.view.set]{fullShare} arg7.view.writes (Elt F) f outp)
              ∗ (scM0_0.view.loc (c : Thread nD τ) ↦{fullShare} out0)) -∗ K ⟨⟩))
          ⊢ wp frame (wpE (defs₀ (F := F)) Variants.none c none) Set.univ (cc0__gather_kernel i tbM0_0 (Memref.isWhole_whole _) tbM0_1 (Memref.isWhole_whole _) arg4 harg4 arg5 harg5 arg6 harg6 arg7 harg7 scM0_0 (Memref.isWhole_whole _)) K } :=
  ⟨_, _, fun K => by
    unfold owns
    rw [cc0__gather_kernel_eq_skeleton]; unfold cc0__gather_kernel_skel
    iintro ⟨H0, H1, H2, HT0, HT1, ⟨%dO, %fo, -, HO⟩, HS0, Hk⟩
    have hS0 : scM0_0.IsWhole := Memref.isWhole_whole _
    have hT0 : tbM0_0.IsWhole := Memref.isWhole_whole _
    have hT1 : tbM0_1.IsWhole := Memref.isWhole_whole _
    sl_exec! (disch := first | exact h1 | exact hc | exact h3)
    sl_step
    iapply Hk
    isplitl [H0]; · iexact H0
    isplitl [H1]; · iexact H1
    isplitl [H2]; · iexact H2
    isplitl [HT0]; · iexact HT0
    isplitl [HT1]; · iexact HT1
    isplitl [HO]; · iexists _; iexact HO
    iexact HS0⟩

/-- That run's pieces cover the output block (one store of the whole block). -/
theorem cover0_E (c : Dev nD) (i : grid0.Coords) (arg4 : Memref sig .tc .vmem S2048x1 .i32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .bf16) (harg7 : arg7.IsWhole)
    (qT : PosShare TreeShare) (T0 T1 : S489.Idx → Elt F .i32) (x0 : S2048x1.Idx → Elt F .i32) (x1 : S2048x1.Idx → Elt F .f32) (x2 : S1024x64.Idx → Elt F .bf16)
    (xa0 : Buf (Elt F) ((c : Thread nD τ).loc cc0_scratch0))
    (h1 : ¬isFirst0 i) (hc : isActive0 (F := F) T0 T1 i) (h3 : isLast0 i) (y : S2048x64.Idx) :
    ∃ pc ∈ (kernelRun0_E c i arg4 harg4 arg5 harg5 arg6 harg6 arg7 harg7 qT T0 T1 x0 x1 x2 xa0 h1 hc h3).1, y ∈ pc.1.set :=
  View.cover_of_tiledL (kernelRun0_E c i arg4 harg4 arg5 harg5 arg6 harg6 arg7 harg7 qT T0 T1 x0 x1 x2 xa0 h1 hc h3).1 S2048x64.size (by sl_kernel_rfl) y

/-- What that run leaves in the output block: its pieces read back. -/
def out0_E (c : Dev nD) (i : grid0.Coords) (arg4 : Memref sig .tc .vmem S2048x1 .i32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .bf16) (harg7 : arg7.IsWhole)
    (qT : PosShare TreeShare) (T0 T1 : S489.Idx → Elt F .i32) (x0 : S2048x1.Idx → Elt F .i32) (x1 : S2048x1.Idx → Elt F .f32) (x2 : S1024x64.Idx → Elt F .bf16)
    (xa0 : Buf (Elt F) ((c : Thread nD τ).loc cc0_scratch0))
    (h1 : ¬isFirst0 i) (hc : isActive0 (F := F) T0 T1 i) (h3 : isLast0 i) : S2048x64.Idx → Elt F .bf16 :=
  VO0.read (Elt F) (VO0.writes (Elt F) VO0.junk (kernelRun0_E c i arg4 harg4 arg5 harg5 arg6 harg6 arg7 harg7 qT T0 T1 x0 x1 x2 xa0 h1 hc h3).1)

set_option maxHeartbeats 8000000 in
/-- The body at a point that is not first, not active, last: the output block is overwritten by the run's pieces; the accumulator ends at the
    run's contents. -/
noncomputable def kernelRun0_G (c : Dev nD) (i : grid0.Coords) (arg4 : Memref sig .tc .vmem S2048x1 .i32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .bf16) (harg7 : arg7.IsWhole)
    (qT : PosShare TreeShare) (T0 T1 : S489.Idx → Elt F .i32) (x0 : S2048x1.Idx → Elt F .i32) (x1 : S2048x1.Idx → Elt F .f32) (x2 : S1024x64.Idx → Elt F .bf16)
    (xa0 : Buf (Elt F) ((c : Thread nD τ).loc cc0_scratch0))
    (h1 : ¬isFirst0 i) (hc : ¬isActive0 (F := F) T0 T1 i) (h3 : isLast0 i) :
    Σ' (outp : List (View.Piece (Elt F) S2048x64 .bf16)), { out0 : Buf (Elt F) ((c : Thread nD τ).loc cc0_scratch0) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{qT} T0)
          ∗ (tbM0_1.view.loc (c : Thread nD τ) ↦{qT} T1)
          ∗ (∃ d, owns (c : Thread nD τ) arg7 fullShare d)
          ∗ (scM0_0.view.loc (c : Thread nD τ) ↦{fullShare} xa0)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{qT} T0)
              ∗ (tbM0_1.view.loc (c : Thread nD τ) ↦{qT} T1)
              ∗ (∃ f, arg7.view.loc (c : Thread nD τ) ↦[arg7.view.set]{fullShare} arg7.view.writes (Elt F) f outp)
              ∗ (scM0_0.view.loc (c : Thread nD τ) ↦{fullShare} out0)) -∗ K ⟨⟩))
          ⊢ wp frame (wpE (defs₀ (F := F)) Variants.none c none) Set.univ (cc0__gather_kernel i tbM0_0 (Memref.isWhole_whole _) tbM0_1 (Memref.isWhole_whole _) arg4 harg4 arg5 harg5 arg6 harg6 arg7 harg7 scM0_0 (Memref.isWhole_whole _)) K } :=
  ⟨_, _, fun K => by
    unfold owns
    rw [cc0__gather_kernel_eq_skeleton]; unfold cc0__gather_kernel_skel
    iintro ⟨H0, H1, H2, HT0, HT1, ⟨%dO, %fo, -, HO⟩, HS0, Hk⟩
    have hS0 : scM0_0.IsWhole := Memref.isWhole_whole _
    have hT0 : tbM0_0.IsWhole := Memref.isWhole_whole _
    have hT1 : tbM0_1.IsWhole := Memref.isWhole_whole _
    sl_exec! (disch := first | exact h1 | exact hc | exact h3)
    sl_step
    iapply Hk
    isplitl [H0]; · iexact H0
    isplitl [H1]; · iexact H1
    isplitl [H2]; · iexact H2
    isplitl [HT0]; · iexact HT0
    isplitl [HT1]; · iexact HT1
    isplitl [HO]; · iexists _; iexact HO
    iexact HS0⟩

/-- That run's pieces cover the output block (one store of the whole block). -/
theorem cover0_G (c : Dev nD) (i : grid0.Coords) (arg4 : Memref sig .tc .vmem S2048x1 .i32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .bf16) (harg7 : arg7.IsWhole)
    (qT : PosShare TreeShare) (T0 T1 : S489.Idx → Elt F .i32) (x0 : S2048x1.Idx → Elt F .i32) (x1 : S2048x1.Idx → Elt F .f32) (x2 : S1024x64.Idx → Elt F .bf16)
    (xa0 : Buf (Elt F) ((c : Thread nD τ).loc cc0_scratch0))
    (h1 : ¬isFirst0 i) (hc : ¬isActive0 (F := F) T0 T1 i) (h3 : isLast0 i) (y : S2048x64.Idx) :
    ∃ pc ∈ (kernelRun0_G c i arg4 harg4 arg5 harg5 arg6 harg6 arg7 harg7 qT T0 T1 x0 x1 x2 xa0 h1 hc h3).1, y ∈ pc.1.set :=
  View.cover_of_tiledL (kernelRun0_G c i arg4 harg4 arg5 harg5 arg6 harg6 arg7 harg7 qT T0 T1 x0 x1 x2 xa0 h1 hc h3).1 S2048x64.size (by sl_kernel_rfl) y

/-- What that run leaves in the output block: its pieces read back. -/
def out0_G (c : Dev nD) (i : grid0.Coords) (arg4 : Memref sig .tc .vmem S2048x1 .i32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .bf16) (harg7 : arg7.IsWhole)
    (qT : PosShare TreeShare) (T0 T1 : S489.Idx → Elt F .i32) (x0 : S2048x1.Idx → Elt F .i32) (x1 : S2048x1.Idx → Elt F .f32) (x2 : S1024x64.Idx → Elt F .bf16)
    (xa0 : Buf (Elt F) ((c : Thread nD τ).loc cc0_scratch0))
    (h1 : ¬isFirst0 i) (hc : ¬isActive0 (F := F) T0 T1 i) (h3 : isLast0 i) : S2048x64.Idx → Elt F .bf16 :=
  VO0.read (Elt F) (VO0.writes (Elt F) VO0.junk (kernelRun0_G c i arg4 harg4 arg5 harg5 arg6 harg6 arg7 harg7 qT T0 T1 x0 x1 x2 xa0 h1 hc h3).1)

end Cert.KernelIdeal.Gen

end
-- ==== Proof.ScatterRuns.lean ====
/-
  The scatter kernel's body, run once per way its three decisions can fall.

  The body decides three things at a grid point: whether the point is the FIRST along the accumulated axis (it then
  clears its accumulator), whether the point's block is ACTIVE (the two table words read at the point's edge block say
  the block of 1024 node rows at hand meets the edge block's range of identifiers; it then adds one masked product
  to the accumulator), and whether the point is the LAST along the accumulated axis (it then stores the
  accumulator into the output block).  First and last cannot both hold, which leaves six ways.  For each, on
  whole staging buffers holding the point's input blocks, with the two tables and the accumulator at any contents,
  the body runs to its end without a fault and hands everything back: the inputs and the tables as they were, the
  accumulator at contents the run determines, and the output block either untouched (not last) or overwritten
  whole (last).  The statements hold for every interpretation of the floats.
-/
import proofs.«179733_j56453050138798_2_alg».proof.Proof.Gen.KernelIdeal.Skeleton
import proofs.«179733_j56453050138798_2_alg».proof.Proof.Gen.KernelIdeal.Launch
import Idealize.ShloMosaic.Lib.Pipeline.FrameBody
import Idealize.ShloMosaic.Lib.Ring
import Idealize.ShloMosaic.Lib.Tactic

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The two tables and the accumulator as whole buffers. -/
abbrev tbM1_0 : Memref sig .tc .smem S489 .i32 := Memref.whole main_v49
abbrev tbM1_1 : Memref sig .tc .smem S489 .i32 := Memref.whole main_v50
abbrev scM1_0 : Memref sig .tc .vmem S1024x64 .f32 := Memref.whole cc1_scratch0

/-- The word the body reads from each table: the entry at the point's edge block. -/
abbrev word1_0 (T : S489.Idx → Elt F .i32) (i : grid1.Coords) : BitVec 32 :=
  View.readAt (Elt F) (tbM1_0).view (Rect.unit (s := S489) (k1_off1 i) S1.size (k1_off1_inb i)).toLoadRect T (Shape.Idx.first (numel1_S1.symm ▸ Nat.one_pos))
abbrev word1_1 (T : S489.Idx → Elt F .i32) (i : grid1.Coords) : BitVec 32 :=
  View.readAt (Elt F) (tbM1_1).view (Rect.unit (s := S489) (k1_off1 i) S1.size (k1_off1_inb i)).toLoadRect T (Shape.Idx.first (numel1_S1.symm ▸ Nat.one_pos))

/-- The three decisions, as the body computes them. -/
abbrev isFirst1 (i : grid1.Coords) : Prop :=
  (Scalar.cmpi .ne (Scalar.extui (Scalar.cmpi .eq (BitVec.ofNat 32 (i 1).val) 0#32)) 0#32) = 1#1
abbrev isActive1 (T0 T1 : S489.Idx → Elt F .i32) (i : grid1.Coords) : Prop :=
  (Scalar.cmpi .ne (Scalar.extui (Scalar.andi
      (Scalar.cmpi .sge (word1_1 T1 i) (Scalar.muli (BitVec.ofNat 32 (i 0).val) 1024#32))
      (Scalar.cmpi .sle (word1_0 T0 i) (Scalar.subi (Scalar.addi (Scalar.muli (BitVec.ofNat 32 (i 0).val) 1024#32) 1024#32) 1#32)))) 0#32) = 1#1
abbrev isLast1 (i : grid1.Coords) : Prop := k1_cond3 i = 1#1

/-- One staging buffer of the output window, through which its contents are stated. -/
abbrev VO1 : View sig .tc .vmem S1024x64 .f32 := (Memref.whole cc1_stg2_0 : Memref sig .tc .vmem S1024x64 .f32).view

set_option maxHeartbeats 8000000 in
/-- The body at a point that is first, active, not last: the output block is left as it was; the accumulator ends at the run's contents. -/
noncomputable def kernelRun1_A (c : Dev nD) (i : grid1.Coords) (arg4 : Memref sig .tc .vmem S2048x1 .i32) (harg4 : arg4.IsWhole) (arg5 : Memref sig .tc .vmem S2048x64 .bf16) (harg5 : arg5.IsWhole) (arg6 : Memref sig .tc .vmem S1024x64 .f32) (harg6 : arg6.IsWhole)
    (qT : PosShare TreeShare) (T0 T1 : S489.Idx → Elt F .i32) (x0 : S2048x1.Idx → Elt F .i32) (x1 : S2048x64.Idx → Elt F .bf16)
    (h1 : isFirst1 i) (hc : isActive1 (F := F) T0 T1 i) (h3 : ¬isLast1 i) :
    { out0 : Buf (Elt F) ((c : Thread nD τ).loc cc1_scratch0) //
      ∀ (y : (S1024x64.Idx → Elt F .f32)) (xa0 : Buf (Elt F) ((c : Thread nD τ).loc cc1_scratch0)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (tbM1_0.view.loc (c : Thread nD τ) ↦{qT} T0)
          ∗ (tbM1_1.view.loc (c : Thread nD τ) ↦{qT} T1)
          ∗ owns (c : Thread nD τ) arg6 fullShare y
          ∗ (scM1_0.view.loc (c : Thread nD τ) ↦{fullShare} xa0)
          ∗ (iprop((arg4.view.loc (c : Thread nD τ) ↦[arg4.view.set]{fullShare} arg4.view.rep x0)
              ∗ (arg5.view.loc (c : Thread nD τ) ↦[arg5.view.set]{fullShare} arg5.view.rep x1)
              ∗ (tbM1_0.view.loc (c : Thread nD τ) ↦{qT} T0)
              ∗ (tbM1_1.view.loc (c : Thread nD τ) ↦{qT} T1)
              ∗ owns (c : Thread nD τ) arg6 fullShare y
              ∗ (scM1_0.view.loc (c : Thread nD τ) ↦{fullShare} out0)) -∗ K ⟨⟩))
          ⊢ wp frame (wpE (defs₀ (F := F)) Variants.none c none) Set.univ (cc1__scatter_kernel i tbM1_0 (Memref.isWhole_whole _) tbM1_1 (Memref.isWhole_whole _) arg4 harg4 arg5 harg5 arg6 harg6 scM1_0 (Memref.isWhole_whole _)) K } :=
  ⟨_, fun (y : (S1024x64.Idx → Elt F .f32)) (xa0 : Buf (Elt F) ((c : Thread nD τ).loc cc1_scratch0)) K => by
    unfold owns
    rw [cc1__scatter_kernel_eq_skeleton]; unfold cc1__scatter_kernel_skel
    iintro ⟨H0, H1, HT0, HT1, ⟨%fo, %hfo, HO⟩, HS0, Hk⟩
    obtain rfl := harg6.eq_unread hfo
    have hS0 : scM1_0.IsWhole := Memref.isWhole_whole _
    have hT0 : tbM1_0.IsWhole := Memref.isWhole_whole _
    have hT1 : tbM1_1.IsWhole := Memref.isWhole_whole _
    sl_exec! (disch := first | exact h1 | exact hc | exact h3)
    sl_step
    iapply Hk
    isplitl [H0]; · iexact H0
    isplitl [H1]; · iexact H1
    isplitl [HT0]; · iexact HT0
    isplitl [HT1]; · iexact HT1
    isplitl [HO]
    · iexists _; isplitr; · ipureintro; exact harg6.read_unread _
      iexact HO
    iexact HS0⟩

set_option maxHeartbeats 8000000 in
/-- The body at a point that is first, not active, not last: the output block is left as it was; the accumulator ends at the run's contents. -/
noncomputable def kernelRun1_B (c : Dev nD) (i : grid1.Coords) (arg4 : Memref sig .tc .vmem S2048x1 .i32) (harg4 : arg4.IsWhole) (arg5 : Memref sig .tc .vmem S2048x64 .bf16) (harg5 : arg5.IsWhole) (arg6 : Memref sig .tc .vmem S1024x64 .f32) (harg6 : arg6.IsWhole)
    (qT : PosShare TreeShare) (T0 T1 : S489.Idx → Elt F .i32) (x0 : S2048x1.Idx → Elt F .i32) (x1 : S2048x64.Idx → Elt F .bf16)
    (h1 : isFirst1 i) (hc : ¬isActive1 (F := F) T0 T1 i) (h3 : ¬isLast1 i) :
    { out0 : Buf (Elt F) ((c : Thread nD τ).loc cc1_scratch0) //
      ∀ (y : (S1024x64.Idx → Elt F .f32)) (xa0 : Buf (Elt F) ((c : Thread nD τ).loc cc1_scratch0)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (tbM1_0.view.loc (c : Thread nD τ) ↦{qT} T0)
          ∗ (tbM1_1.view.loc (c : Thread nD τ) ↦{qT} T1)
          ∗ owns (c : Thread nD τ) arg6 fullShare y
          ∗ (scM1_0.view.loc (c : Thread nD τ) ↦{fullShare} xa0)
          ∗ (iprop((arg4.view.loc (c : Thread nD τ) ↦[arg4.view.set]{fullShare} arg4.view.rep x0)
              ∗ (arg5.view.loc (c : Thread nD τ) ↦[arg5.view.set]{fullShare} arg5.view.rep x1)
              ∗ (tbM1_0.view.loc (c : Thread nD τ) ↦{qT} T0)
              ∗ (tbM1_1.view.loc (c : Thread nD τ) ↦{qT} T1)
              ∗ owns (c : Thread nD τ) arg6 fullShare y
              ∗ (scM1_0.view.loc (c : Thread nD τ) ↦{fullShare} out0)) -∗ K ⟨⟩))
          ⊢ wp frame (wpE (defs₀ (F := F)) Variants.none c none) Set.univ (cc1__scatter_kernel i tbM1_0 (Memref.isWhole_whole _) tbM1_1 (Memref.isWhole_whole _) arg4 harg4 arg5 harg5 arg6 harg6 scM1_0 (Memref.isWhole_whole _)) K } :=
  ⟨_, fun (y : (S1024x64.Idx → Elt F .f32)) (xa0 : Buf (Elt F) ((c : Thread nD τ).loc cc1_scratch0)) K => by
    unfold owns
    rw [cc1__scatter_kernel_eq_skeleton]; unfold cc1__scatter_kernel_skel
    iintro ⟨H0, H1, HT0, HT1, ⟨%fo, %hfo, HO⟩, HS0, Hk⟩
    obtain rfl := harg6.eq_unread hfo
    have hS0 : scM1_0.IsWhole := Memref.isWhole_whole _
    have hT0 : tbM1_0.IsWhole := Memref.isWhole_whole _
    have hT1 : tbM1_1.IsWhole := Memref.isWhole_whole _
    sl_exec! (disch := first | exact h1 | exact hc | exact h3)
    sl_step
    iapply Hk
    isplitl [H0]; · iexact H0
    isplitl [H1]; · iexact H1
    isplitl [HT0]; · iexact HT0
    isplitl [HT1]; · iexact HT1
    isplitl [HO]
    · iexists _; isplitr; · ipureintro; exact harg6.read_unread _
      iexact HO
    iexact HS0⟩

set_option maxHeartbeats 8000000 in
/-- The body at a point that is not first, active, not last: the output block is left as it was; the accumulator ends at the run's contents. -/
noncomputable def kernelRun1_C (c : Dev nD) (i : grid1.Coords) (arg4 : Memref sig .tc .vmem S2048x1 .i32) (harg4 : arg4.IsWhole) (arg5 : Memref sig .tc .vmem S2048x64 .bf16) (harg5 : arg5.IsWhole) (arg6 : Memref sig .tc .vmem S1024x64 .f32) (harg6 : arg6.IsWhole)
    (qT : PosShare TreeShare) (T0 T1 : S489.Idx → Elt F .i32) (x0 : S2048x1.Idx → Elt F .i32) (x1 : S2048x64.Idx → Elt F .bf16)
    (xa0 : Buf (Elt F) ((c : Thread nD τ).loc cc1_scratch0))
    (h1 : ¬isFirst1 i) (hc : isActive1 (F := F) T0 T1 i) (h3 : ¬isLast1 i) :
    { out0 : Buf (Elt F) ((c : Thread nD τ).loc cc1_scratch0) //
      ∀ (y : (S1024x64.Idx → Elt F .f32)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (tbM1_0.view.loc (c : Thread nD τ) ↦{qT} T0)
          ∗ (tbM1_1.view.loc (c : Thread nD τ) ↦{qT} T1)
          ∗ owns (c : Thread nD τ) arg6 fullShare y
          ∗ (scM1_0.view.loc (c : Thread nD τ) ↦{fullShare} xa0)
          ∗ (iprop((arg4.view.loc (c : Thread nD τ) ↦[arg4.view.set]{fullShare} arg4.view.rep x0)
              ∗ (arg5.view.loc (c : Thread nD τ) ↦[arg5.view.set]{fullShare} arg5.view.rep x1)
              ∗ (tbM1_0.view.loc (c : Thread nD τ) ↦{qT} T0)
              ∗ (tbM1_1.view.loc (c : Thread nD τ) ↦{qT} T1)
              ∗ owns (c : Thread nD τ) arg6 fullShare y
              ∗ (scM1_0.view.loc (c : Thread nD τ) ↦{fullShare} out0)) -∗ K ⟨⟩))
          ⊢ wp frame (wpE (defs₀ (F := F)) Variants.none c none) Set.univ (cc1__scatter_kernel i tbM1_0 (Memref.isWhole_whole _) tbM1_1 (Memref.isWhole_whole _) arg4 harg4 arg5 harg5 arg6 harg6 scM1_0 (Memref.isWhole_whole _)) K } :=
  ⟨_, fun (y : (S1024x64.Idx → Elt F .f32)) K => by
    unfold owns
    rw [cc1__scatter_kernel_eq_skeleton]; unfold cc1__scatter_kernel_skel
    iintro ⟨H0, H1, HT0, HT1, ⟨%fo, %hfo, HO⟩, HS0, Hk⟩
    obtain rfl := harg6.eq_unread hfo
    have hS0 : scM1_0.IsWhole := Memref.isWhole_whole _
    have hT0 : tbM1_0.IsWhole := Memref.isWhole_whole _
    have hT1 : tbM1_1.IsWhole := Memref.isWhole_whole _
    sl_exec! (disch := first | exact h1 | exact hc | exact h3)
    sl_step
    iapply Hk
    isplitl [H0]; · iexact H0
    isplitl [H1]; · iexact H1
    isplitl [HT0]; · iexact HT0
    isplitl [HT1]; · iexact HT1
    isplitl [HO]
    · iexists _; isplitr; · ipureintro; exact harg6.read_unread _
      iexact HO
    iexact HS0⟩

set_option maxHeartbeats 8000000 in
/-- The body at a point that is not first, not active, not last: the output block is left as it was; the accumulator ends at the run's contents. -/
noncomputable def kernelRun1_D (c : Dev nD) (i : grid1.Coords) (arg4 : Memref sig .tc .vmem S2048x1 .i32) (harg4 : arg4.IsWhole) (arg5 : Memref sig .tc .vmem S2048x64 .bf16) (harg5 : arg5.IsWhole) (arg6 : Memref sig .tc .vmem S1024x64 .f32) (harg6 : arg6.IsWhole)
    (qT : PosShare TreeShare) (T0 T1 : S489.Idx → Elt F .i32) (x0 : S2048x1.Idx → Elt F .i32) (x1 : S2048x64.Idx → Elt F .bf16)
    (xa0 : Buf (Elt F) ((c : Thread nD τ).loc cc1_scratch0))
    (h1 : ¬isFirst1 i) (hc : ¬isActive1 (F := F) T0 T1 i) (h3 : ¬isLast1 i) :
    { out0 : Buf (Elt F) ((c : Thread nD τ).loc cc1_scratch0) //
      ∀ (y : (S1024x64.Idx → Elt F .f32)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (tbM1_0.view.loc (c : Thread nD τ) ↦{qT} T0)
          ∗ (tbM1_1.view.loc (c : Thread nD τ) ↦{qT} T1)
          ∗ owns (c : Thread nD τ) arg6 fullShare y
          ∗ (scM1_0.view.loc (c : Thread nD τ) ↦{fullShare} xa0)
          ∗ (iprop((arg4.view.loc (c : Thread nD τ) ↦[arg4.view.set]{fullShare} arg4.view.rep x0)
              ∗ (arg5.view.loc (c : Thread nD τ) ↦[arg5.view.set]{fullShare} arg5.view.rep x1)
              ∗ (tbM1_0.view.loc (c : Thread nD τ) ↦{qT} T0)
              ∗ (tbM1_1.view.loc (c : Thread nD τ) ↦{qT} T1)
              ∗ owns (c : Thread nD τ) arg6 fullShare y
              ∗ (scM1_0.view.loc (c : Thread nD τ) ↦{fullShare} out0)) -∗ K ⟨⟩))
          ⊢ wp frame (wpE (defs₀ (F := F)) Variants.none c none) Set.univ (cc1__scatter_kernel i tbM1_0 (Memref.isWhole_whole _) tbM1_1 (Memref.isWhole_whole _) arg4 harg4 arg5 harg5 arg6 harg6 scM1_0 (Memref.isWhole_whole _)) K } :=
  ⟨_, fun (y : (S1024x64.Idx → Elt F .f32)) K => by
    unfold owns
    rw [cc1__scatter_kernel_eq_skeleton]; unfold cc1__scatter_kernel_skel
    iintro ⟨H0, H1, HT0, HT1, ⟨%fo, %hfo, HO⟩, HS0, Hk⟩
    obtain rfl := harg6.eq_unread hfo
    have hS0 : scM1_0.IsWhole := Memref.isWhole_whole _
    have hT0 : tbM1_0.IsWhole := Memref.isWhole_whole _
    have hT1 : tbM1_1.IsWhole := Memref.isWhole_whole _
    sl_exec! (disch := first | exact h1 | exact hc | exact h3)
    sl_step
    iapply Hk
    isplitl [H0]; · iexact H0
    isplitl [H1]; · iexact H1
    isplitl [HT0]; · iexact HT0
    isplitl [HT1]; · iexact HT1
    isplitl [HO]
    · iexists _; isplitr; · ipureintro; exact harg6.read_unread _
      iexact HO
    iexact HS0⟩

set_option maxHeartbeats 8000000 in
/-- The body at a point that is not first, active, last: the output block is overwritten by the run's pieces; the accumulator ends at the
    run's contents. -/
noncomputable def kernelRun1_E (c : Dev nD) (i : grid1.Coords) (arg4 : Memref sig .tc .vmem S2048x1 .i32) (harg4 : arg4.IsWhole) (arg5 : Memref sig .tc .vmem S2048x64 .bf16) (harg5 : arg5.IsWhole) (arg6 : Memref sig .tc .vmem S1024x64 .f32) (harg6 : arg6.IsWhole)
    (qT : PosShare TreeShare) (T0 T1 : S489.Idx → Elt F .i32) (x0 : S2048x1.Idx → Elt F .i32) (x1 : S2048x64.Idx → Elt F .bf16)
    (xa0 : Buf (Elt F) ((c : Thread nD τ).loc cc1_scratch0))
    (h1 : ¬isFirst1 i) (hc : isActive1 (F := F) T0 T1 i) (h3 : isLast1 i) :
    Σ' (outp : List (View.Piece (Elt F) S1024x64 .f32)), { out0 : Buf (Elt F) ((c : Thread nD τ).loc cc1_scratch0) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (tbM1_0.view.loc (c : Thread nD τ) ↦{qT} T0)
          ∗ (tbM1_1.view.loc (c : Thread nD τ) ↦{qT} T1)
          ∗ (∃ d, owns (c : Thread nD τ) arg6 fullShare d)
          ∗ (scM1_0.view.loc (c : Thread nD τ) ↦{fullShare} xa0)
          ∗ (iprop((arg4.view.loc (c : Thread nD τ) ↦[arg4.view.set]{fullShare} arg4.view.rep x0)
              ∗ (arg5.view.loc (c : Thread nD τ) ↦[arg5.view.set]{fullShare} arg5.view.rep x1)
              ∗ (tbM1_0.view.loc (c : Thread nD τ) ↦{qT} T0)
              ∗ (tbM1_1.view.loc (c : Thread nD τ) ↦{qT} T1)
              ∗ (∃ f, arg6.view.loc (c : Thread nD τ) ↦[arg6.view.set]{fullShare} arg6.view.writes (Elt F) f outp)
              ∗ (scM1_0.view.loc (c : Thread nD τ) ↦{fullShare} out0)) -∗ K ⟨⟩))
          ⊢ wp frame (wpE (defs₀ (F := F)) Variants.none c none) Set.univ (cc1__scatter_kernel i tbM1_0 (Memref.isWhole_whole _) tbM1_1 (Memref.isWhole_whole _) arg4 harg4 arg5 harg5 arg6 harg6 scM1_0 (Memref.isWhole_whole _)) K } :=
  ⟨_, _, fun K => by
    unfold owns
    rw [cc1__scatter_kernel_eq_skeleton]; unfold cc1__scatter_kernel_skel
    iintro ⟨H0, H1, HT0, HT1, ⟨%dO, %fo, -, HO⟩, HS0, Hk⟩
    have hS0 : scM1_0.IsWhole := Memref.isWhole_whole _
    have hT0 : tbM1_0.IsWhole := Memref.isWhole_whole _
    have hT1 : tbM1_1.IsWhole := Memref.isWhole_whole _
    sl_exec! (disch := first | exact h1 | exact hc | exact h3)
    sl_step
    iapply Hk
    isplitl [H0]; · iexact H0
    isplitl [H1]; · iexact H1
    isplitl [HT0]; · iexact HT0
    isplitl [HT1]; · iexact HT1
    isplitl [HO]; · iexists _; iexact HO
    iexact HS0⟩

/-- That run's pieces cover the output block (one store of the whole block). -/
theorem cover1_E (c : Dev nD) (i : grid1.Coords) (arg4 : Memref sig .tc .vmem S2048x1 .i32) (harg4 : arg4.IsWhole) (arg5 : Memref sig .tc .vmem S2048x64 .bf16) (harg5 : arg5.IsWhole) (arg6 : Memref sig .tc .vmem S1024x64 .f32) (harg6 : arg6.IsWhole)
    (qT : PosShare TreeShare) (T0 T1 : S489.Idx → Elt F .i32) (x0 : S2048x1.Idx → Elt F .i32) (x1 : S2048x64.Idx → Elt F .bf16)
    (xa0 : Buf (Elt F) ((c : Thread nD τ).loc cc1_scratch0))
    (h1 : ¬isFirst1 i) (hc : isActive1 (F := F) T0 T1 i) (h3 : isLast1 i) (y : S1024x64.Idx) :
    ∃ pc ∈ (kernelRun1_E c i arg4 harg4 arg5 harg5 arg6 harg6 qT T0 T1 x0 x1 xa0 h1 hc h3).1, y ∈ pc.1.set :=
  View.cover_of_tiledL (kernelRun1_E c i arg4 harg4 arg5 harg5 arg6 harg6 qT T0 T1 x0 x1 xa0 h1 hc h3).1 S1024x64.size (by sl_kernel_rfl) y

/-- What that run leaves in the output block: its pieces read back. -/
def out1_E (c : Dev nD) (i : grid1.Coords) (arg4 : Memref sig .tc .vmem S2048x1 .i32) (harg4 : arg4.IsWhole) (arg5 : Memref sig .tc .vmem S2048x64 .bf16) (harg5 : arg5.IsWhole) (arg6 : Memref sig .tc .vmem S1024x64 .f32) (harg6 : arg6.IsWhole)
    (qT : PosShare TreeShare) (T0 T1 : S489.Idx → Elt F .i32) (x0 : S2048x1.Idx → Elt F .i32) (x1 : S2048x64.Idx → Elt F .bf16)
    (xa0 : Buf (Elt F) ((c : Thread nD τ).loc cc1_scratch0))
    (h1 : ¬isFirst1 i) (hc : isActive1 (F := F) T0 T1 i) (h3 : isLast1 i) : S1024x64.Idx → Elt F .f32 :=
  VO1.read (Elt F) (VO1.writes (Elt F) VO1.junk (kernelRun1_E c i arg4 harg4 arg5 harg5 arg6 harg6 qT T0 T1 x0 x1 xa0 h1 hc h3).1)

set_option maxHeartbeats 8000000 in
/-- The body at a point that is not first, not active, last: the output block is overwritten by the run's pieces; the accumulator ends at the
    run's contents. -/
noncomputable def kernelRun1_G (c : Dev nD) (i : grid1.Coords) (arg4 : Memref sig .tc .vmem S2048x1 .i32) (harg4 : arg4.IsWhole) (arg5 : Memref sig .tc .vmem S2048x64 .bf16) (harg5 : arg5.IsWhole) (arg6 : Memref sig .tc .vmem S1024x64 .f32) (harg6 : arg6.IsWhole)
    (qT : PosShare TreeShare) (T0 T1 : S489.Idx → Elt F .i32) (x0 : S2048x1.Idx → Elt F .i32) (x1 : S2048x64.Idx → Elt F .bf16)
    (xa0 : Buf (Elt F) ((c : Thread nD τ).loc cc1_scratch0))
    (h1 : ¬isFirst1 i) (hc : ¬isActive1 (F := F) T0 T1 i) (h3 : isLast1 i) :
    Σ' (outp : List (View.Piece (Elt F) S1024x64 .f32)), { out0 : Buf (Elt F) ((c : Thread nD τ).loc cc1_scratch0) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (tbM1_0.view.loc (c : Thread nD τ) ↦{qT} T0)
          ∗ (tbM1_1.view.loc (c : Thread nD τ) ↦{qT} T1)
          ∗ (∃ d, owns (c : Thread nD τ) arg6 fullShare d)
          ∗ (scM1_0.view.loc (c : Thread nD τ) ↦{fullShare} xa0)
          ∗ (iprop((arg4.view.loc (c : Thread nD τ) ↦[arg4.view.set]{fullShare} arg4.view.rep x0)
              ∗ (arg5.view.loc (c : Thread nD τ) ↦[arg5.view.set]{fullShare} arg5.view.rep x1)
              ∗ (tbM1_0.view.loc (c : Thread nD τ) ↦{qT} T0)
              ∗ (tbM1_1.view.loc (c : Thread nD τ) ↦{qT} T1)
              ∗ (∃ f, arg6.view.loc (c : Thread nD τ) ↦[arg6.view.set]{fullShare} arg6.view.writes (Elt F) f outp)
              ∗ (scM1_0.view.loc (c : Thread nD τ) ↦{fullShare} out0)) -∗ K ⟨⟩))
          ⊢ wp frame (wpE (defs₀ (F := F)) Variants.none c none) Set.univ (cc1__scatter_kernel i tbM1_0 (Memref.isWhole_whole _) tbM1_1 (Memref.isWhole_whole _) arg4 harg4 arg5 harg5 arg6 harg6 scM1_0 (Memref.isWhole_whole _)) K } :=
  ⟨_, _, fun K => by
    unfold owns
    rw [cc1__scatter_kernel_eq_skeleton]; unfold cc1__scatter_kernel_skel
    iintro ⟨H0, H1, HT0, HT1, ⟨%dO, %fo, -, HO⟩, HS0, Hk⟩
    have hS0 : scM1_0.IsWhole := Memref.isWhole_whole _
    have hT0 : tbM1_0.IsWhole := Memref.isWhole_whole _
    have hT1 : tbM1_1.IsWhole := Memref.isWhole_whole _
    sl_exec! (disch := first | exact h1 | exact hc | exact h3)
    sl_step
    iapply Hk
    isplitl [H0]; · iexact H0
    isplitl [H1]; · iexact H1
    isplitl [HT0]; · iexact HT0
    isplitl [HT1]; · iexact HT1
    isplitl [HO]; · iexists _; iexact HO
    iexact HS0⟩

/-- That run's pieces cover the output block (one store of the whole block). -/
theorem cover1_G (c : Dev nD) (i : grid1.Coords) (arg4 : Memref sig .tc .vmem S2048x1 .i32) (harg4 : arg4.IsWhole) (arg5 : Memref sig .tc .vmem S2048x64 .bf16) (harg5 : arg5.IsWhole) (arg6 : Memref sig .tc .vmem S1024x64 .f32) (harg6 : arg6.IsWhole)
    (qT : PosShare TreeShare) (T0 T1 : S489.Idx → Elt F .i32) (x0 : S2048x1.Idx → Elt F .i32) (x1 : S2048x64.Idx → Elt F .bf16)
    (xa0 : Buf (Elt F) ((c : Thread nD τ).loc cc1_scratch0))
    (h1 : ¬isFirst1 i) (hc : ¬isActive1 (F := F) T0 T1 i) (h3 : isLast1 i) (y : S1024x64.Idx) :
    ∃ pc ∈ (kernelRun1_G c i arg4 harg4 arg5 harg5 arg6 harg6 qT T0 T1 x0 x1 xa0 h1 hc h3).1, y ∈ pc.1.set :=
  View.cover_of_tiledL (kernelRun1_G c i arg4 harg4 arg5 harg5 arg6 harg6 qT T0 T1 x0 x1 xa0 h1 hc h3).1 S1024x64.size (by sl_kernel_rfl) y

/-- What that run leaves in the output block: its pieces read back. -/
def out1_G (c : Dev nD) (i : grid1.Coords) (arg4 : Memref sig .tc .vmem S2048x1 .i32) (harg4 : arg4.IsWhole) (arg5 : Memref sig .tc .vmem S2048x64 .bf16) (harg5 : arg5.IsWhole) (arg6 : Memref sig .tc .vmem S1024x64 .f32) (harg6 : arg6.IsWhole)
    (qT : PosShare TreeShare) (T0 T1 : S489.Idx → Elt F .i32) (x0 : S2048x1.Idx → Elt F .i32) (x1 : S2048x64.Idx → Elt F .bf16)
    (xa0 : Buf (Elt F) ((c : Thread nD τ).loc cc1_scratch0))
    (h1 : ¬isFirst1 i) (hc : ¬isActive1 (F := F) T0 T1 i) (h3 : isLast1 i) : S1024x64.Idx → Elt F .f32 :=
  VO1.read (Elt F) (VO1.writes (Elt F) VO1.junk (kernelRun1_G c i arg4 harg4 arg5 harg5 arg6 harg6 qT T0 T1 x0 x1 xa0 h1 hc h3).1)

end Cert.KernelIdeal.Gen

end
-- ==== Proof.LibSelector.lean ====
/-
  General laws for kernels that write a gather or a scatter-add as a product with a 0/1 selector matrix, on the extended
  reals (only 0 · x = 0, 1 · x = x and commutativity / associativity of + are used, so no finiteness is needed):
  * a selector ROW [s = n] against a vector picks the entry at s, or nothing when s is no index (a one-hot gather);
  * a selector COLUMN [d e = n] against a vector is the sum over the e with d e = n (a one-hot scatter-add);
  * a sum taken in C chunks of B consecutive entries is the whole sum; padding entries that are zero drop out, in two
    spellings (an appended block, or a predicate e < N on a longer range);
  * a 32-bit word equals the word of a number below 2³¹ exactly when, read signed, it is that number — which turns the
    kernel's comparison of a loaded identifier with an iota into an equation between integers.
  It imports only the extended-real instance.
-/
import Idealize.ShloMosaic.PureOps.Ideal

noncomputable section

open scoped BigOperators

namespace Cert.Lib.Selector

/-- The selector row of an identifier that is index `a`'s picks entry `a`. -/
theorem selector_row_mul {M : ℕ} (s : ℤ) (a : Fin M) (hs : s = ((a : ℕ) : ℤ)) (f : Fin M → EReal) :
    ∑ n : Fin M, (if s = ((n : ℕ) : ℤ) then (1 : EReal) else 0) * f n = f a := by
  subst hs
  rw [Finset.sum_eq_single a]
  · simp
  · intro n _ hn
    have hne : ¬ (((a : ℕ) : ℤ) = ((n : ℕ) : ℤ)) := fun h => hn (Fin.ext (by exact_mod_cast h.symm))
    simp [hne]
  · intro h; exact absurd (Finset.mem_univ a) h

/-- The selector row of an identifier that is no index's is zero: the product picks nothing. -/
theorem selector_row_mul_of_ne {M : ℕ} (s : ℤ) (hs : ∀ n : Fin M, s ≠ ((n : ℕ) : ℤ)) (f : Fin M → EReal) :
    ∑ n : Fin M, (if s = ((n : ℕ) : ℤ) then (1 : EReal) else 0) * f n = 0 :=
  Finset.sum_eq_zero fun n _ => by simp [hs n]

/-- Column `n` of the transposed selector against a vector: the sum of the entries whose identifier is `n`. -/
theorem selector_col_mul {E M : ℕ} (d : Fin E → ℤ) (n : Fin M) (g : Fin E → EReal) :
    ∑ e : Fin E, (if d e = ((n : ℕ) : ℤ) then (1 : EReal) else 0) * g e
      = ∑ e ∈ Finset.univ.filter (fun e : Fin E => d e = ((n : ℕ) : ℤ)), g e := by
  rw [Finset.sum_filter]
  exact Finset.sum_congr rfl fun e _ => by split_ifs <;> simp

/-- A sum taken chunk by chunk (C chunks of B consecutive entries) is the whole sum. -/
theorem sum_chunks {C B : ℕ} (f : Fin (C * B) → EReal) :
    ∑ c : Fin C, ∑ i : Fin B, f (finProdFinEquiv (c, i)) = ∑ n : Fin (C * B), f n :=
  calc ∑ c : Fin C, ∑ i : Fin B, f (finProdFinEquiv (c, i))
      = ∑ p : Fin C × Fin B, f (finProdFinEquiv p) := (Fintype.sum_prod_type (fun p : Fin C × Fin B => f (finProdFinEquiv p))).symm
    _ = ∑ n : Fin (C * B), f n := Fintype.sum_equiv finProdFinEquiv _ _ (fun _ => rfl)

/-- An appended block of zero entries does not change a sum. -/
theorem sum_padded {E P : ℕ} (g : Fin (E + P) → EReal) (hz : ∀ p : Fin P, g (Fin.natAdd E p) = 0) :
    ∑ e : Fin (E + P), g e = ∑ e : Fin E, g (Fin.castAdd P e) := by
  rw [Fin.sum_univ_add]; simp [hz]

/-- A sum over a longer range of terms that vanish beyond N is the sum over the first N. -/
theorem sum_padding {M N : ℕ} (hNM : N ≤ M) (G : Fin N → EReal) :
    ∑ E : Fin M, (if h : E.val < N then G ⟨E.val, h⟩ else 0) = ∑ e : Fin N, G e := by
  calc ∑ E : Fin M, (if h : E.val < N then G ⟨E.val, h⟩ else 0)
      = ∑ E ∈ Finset.univ.map (Fin.castLEEmb hNM), (if h : E.val < N then G ⟨E.val, h⟩ else 0) := by
        refine (Finset.sum_subset (Finset.subset_univ _) (fun E _ hE => ?_)).symm
        have hnlt : ¬ E.val < N := fun hlt => hE (Finset.mem_map.mpr ⟨⟨E.val, hlt⟩, Finset.mem_univ _, Fin.ext rfl⟩)
        rw [dif_neg hnlt]
    _ = ∑ e : Fin N, (if h : (Fin.castLEEmb hNM e).val < N then G ⟨(Fin.castLEEmb hNM e).val, h⟩ else 0) :=
        Finset.sum_map _ _ _
    _ = ∑ e : Fin N, G e := Finset.sum_congr rfl (fun e _ => by
        have he : (Fin.castLEEmb hNM e).val < N := e.isLt
        rw [dif_pos he]
        exact congrArg G (Fin.ext rfl))

/-- The word of a number below 2³¹, read signed, is the number. -/
theorem toInt_ofNat_small (p : ℕ) (hp : p < 2147483648) : (BitVec.ofNat 32 p).toInt = (p : ℤ) := by
  rw [BitVec.toInt_eq_toNat_cond, BitVec.toNat_ofNat]
  have h1 : p % 2 ^ 32 = p := Nat.mod_eq_of_lt (by omega)
  rw [h1]
  split <;> omega

/-- A word is the word of a number below 2³¹ exactly when, read signed, it is that number. -/
theorem word_eq_iff (v : BitVec 32) (p : ℕ) (hp : p < 2147483648) : v = BitVec.ofNat 32 p ↔ v.toInt = (p : ℤ) := by
  constructor
  · intro h; rw [h]; exact toInt_ofNat_small p hp
  · intro h; exact BitVec.eq_of_toInt_eq (by rw [h, toInt_ofNat_small p hp])

end Cert.Lib.Selector

end
-- ==== Proof.Decisions.lean ====
/-
  The kernel bodies' three decisions at a grid point, as plain arithmetic.

  Each body compares the point's coordinate on the accumulated axis with zero (the first point clears the
  accumulator) and with the axis's last value (the last point stores), by an equality of 32-bit words widened to a
  word and tested against zero: for coordinates below 2³² that is the equality of the numbers.  It is active when the
  edge block's largest identifier is at least the first row `off = 1024 * b` of the block of rows at hand and the
  smallest is at most `off + 1023`, both compared signed; as `off + 1023` stays below 2³¹ the two words read
  signed are those numbers.  The two identifiers are read from tables at the entry the point's edge block numbers.
-/
import proofs.«179733_j56453050138798_2_alg».proof.Proof.GatherRuns
import proofs.«179733_j56453050138798_2_alg».proof.Proof.ScatterRuns
import proofs.«179733_j56453050138798_2_alg».proof.Proof.LibSelector
import Idealize.ShloMosaic.Lib.ValueIdx

noncomputable section

namespace Cert.KernelIdeal.Decisions

open Idealize.ShloMosaic Idealize.ShloMosaic.ValueIdx Cert.KernelIdeal Cert.KernelIdeal.Gen

variable {F : FTy → Type} [FloatOps F]

/-! ## Words -/

/-- A bit widened to a word and tested against zero is the bit. -/
theorem flag_iff (b : Bool) : Scalar.cmpi .ne (Scalar.extui (BitVec.ofBool b)) 0#32 = 1#1 ↔ b = true := by
  cases b <;> decide

/-- The words of two numbers below 2³² are equal exactly when the numbers are. -/
theorem ofNat_beq_iff (n k : ℕ) (hn : n < 2 ^ 32) (hk : k < 2 ^ 32) :
    (BitVec.ofNat 32 n == BitVec.ofNat 32 k) = true ↔ n = k := by
  rw [beq_iff_eq]
  constructor
  · intro h
    have h' := congrArg BitVec.toNat h
    rw [BitVec.toNat_ofNat, BitVec.toNat_ofNat, Nat.mod_eq_of_lt hn, Nat.mod_eq_of_lt hk] at h'
    exact h'
  · rintro rfl; rfl

/-- The body's test "coordinate `n` is `k`", for numbers below 2³². -/
theorem coord_test_iff (n k : ℕ) (hn : n < 2 ^ 32) (hk : k < 2 ^ 32) :
    Scalar.cmpi .ne (Scalar.extui (Scalar.cmpi .eq (BitVec.ofNat 32 n) (BitVec.ofNat 32 k))) 0#32 = 1#1 ↔ n = k :=
  (flag_iff (BitVec.ofNat 32 n == BitVec.ofNat 32 k)).trans (ofNat_beq_iff n k hn hk)

/-- The conjunction of two bits as words is the bit of the conjunction. -/
theorem andi_bits (p q : Bool) : Scalar.andi (BitVec.ofBool p) (BitVec.ofBool q) = BitVec.ofBool (p && q) := by
  cases p <;> cases q <;> decide

/-- The word of a block's first row: the block number times 1024. -/
theorem first_row_word (b : ℕ) : Scalar.muli (BitVec.ofNat 32 b) 1024#32 = BitVec.ofNat 32 (1024 * b) := by
  show BitVec.ofNat 32 b * BitVec.ofNat 32 1024 = _
  rw [← BitVec.ofNat_mul, Nat.mul_comm]

/-- The word of a block's last row: the first row plus 1024 less 1. -/
theorem last_row_word (b : ℕ) :
    Scalar.subi (Scalar.addi (Scalar.muli (BitVec.ofNat 32 b) 1024#32) 1024#32) 1#32
      = BitVec.ofNat 32 (1024 * b + 1023) := by
  rw [first_row_word]
  show BitVec.ofNat 32 (1024 * b) + BitVec.ofNat 32 1024 - BitVec.ofNat 32 1 = _
  rw [← BitVec.ofNat_add, show 1024 * b + 1024 = (1024 * b + 1023) + 1 from by omega, BitVec.ofNat_add,
    BitVec.add_sub_cancel]

/-- The body's test "the range `[w0, w1]` meets the block of rows `[1024 b, 1024 b + 1023]`", for a block number
    below 98: both comparisons are signed, and neither bound wraps. -/
theorem active_test_iff (w0 w1 : BitVec 32) (b : ℕ) (hb : b < 98) :
    Scalar.cmpi .ne (Scalar.extui (Scalar.andi
        (Scalar.cmpi .sge w1 (Scalar.muli (BitVec.ofNat 32 b) 1024#32))
        (Scalar.cmpi .sle w0 (Scalar.subi (Scalar.addi (Scalar.muli (BitVec.ofNat 32 b) 1024#32) 1024#32) 1#32)))) 0#32
      = 1#1
      ↔ (1024 * (b : ℤ) ≤ w1.toInt ∧ w0.toInt ≤ 1024 * (b : ℤ) + 1023) := by
  rw [last_row_word, first_row_word]
  have h1 : (BitVec.ofNat 32 (1024 * b)).toInt = ((1024 * b : ℕ) : ℤ) :=
    Cert.Lib.Selector.toInt_ofNat_small _ (by omega)
  have h2 : (BitVec.ofNat 32 (1024 * b + 1023)).toInt = ((1024 * b + 1023 : ℕ) : ℤ) :=
    Cert.Lib.Selector.toInt_ofNat_small _ (by omega)
  rw [show Scalar.cmpi .sge w1 (BitVec.ofNat 32 (1024 * b)) = BitVec.ofBool ((BitVec.ofNat 32 (1024 * b)).sle w1) from rfl,
    show Scalar.cmpi .sle w0 (BitVec.ofNat 32 (1024 * b + 1023))
      = BitVec.ofBool (w0.sle (BitVec.ofNat 32 (1024 * b + 1023))) from rfl, andi_bits]
  refine (flag_iff ((BitVec.ofNat 32 (1024 * b)).sle w1 && w0.sle (BitVec.ofNat 32 (1024 * b + 1023)))).trans ?_
  rw [Bool.and_eq_true, BitVec.sle, BitVec.sle, decide_eq_true_iff, decide_eq_true_iff, h1, h2]
  push_cast
  exact Iff.rfl

/-! ## First and last along the accumulated axis -/

theorem isFirst0_iff (i : grid0.Coords) : isFirst0 i ↔ (i 1).val = 0 := by
  have hb : (i 1).val < 98 := (i 1).isLt
  exact coord_test_iff (i 1).val 0 (by omega) (by omega)

theorem isLast0_iff (i : grid0.Coords) : isLast0 i ↔ (i 1).val = 97 := by
  have hb : (i 1).val < 98 := (i 1).isLt
  exact coord_test_iff (i 1).val 97 (by omega) (by omega)

theorem not_last0_of_first0 {i : grid0.Coords} (h : isFirst0 i) : ¬ isLast0 i := by
  rw [isFirst0_iff] at h
  rw [isLast0_iff]
  omega

theorem isFirst1_iff (i : grid1.Coords) : isFirst1 i ↔ (i 1).val = 0 := by
  have hb : (i 1).val < 489 := (i 1).isLt
  exact coord_test_iff (i 1).val 0 (by omega) (by omega)

theorem isLast1_iff (i : grid1.Coords) : isLast1 i ↔ (i 1).val = 488 := by
  have hb : (i 1).val < 489 := (i 1).isLt
  exact coord_test_iff (i 1).val 488 (by omega) (by omega)

theorem not_last1_of_first1 {i : grid1.Coords} (h : isFirst1 i) : ¬ isLast1 i := by
  rw [isFirst1_iff] at h
  rw [isLast1_iff]
  omega

/-! ## Active -/

theorem isActive0_iff (T0 T1 : S489.Idx → Elt F .i32) (i : grid0.Coords) :
    isActive0 (F := F) T0 T1 i
      ↔ (1024 * ((i 1).val : ℤ) ≤ (word0_1 T1 i).toInt ∧ (word0_0 T0 i).toInt ≤ 1024 * ((i 1).val : ℤ) + 1023) :=
  active_test_iff (word0_0 T0 i) (word0_1 T1 i) (i 1).val (i 1).isLt

theorem isActive1_iff (T0 T1 : S489.Idx → Elt F .i32) (i : grid1.Coords) :
    isActive1 (F := F) T0 T1 i
      ↔ (1024 * ((i 0).val : ℤ) ≤ (word1_1 T1 i).toInt ∧ (word1_0 T0 i).toInt ≤ 1024 * ((i 0).val : ℤ) + 1023) :=
  active_test_iff (word1_0 T0 i) (word1_1 T1 i) (i 0).val (i 0).isLt

/-! ## The table words

Each table word is read through a one-entry window of the whole table at the offset the point's edge block numbers;
the offset is the coordinate's 32-bit word read back as a number, which for a coordinate below 489 is the coordinate. -/

/-- A grid coordinate's word read back as a number is the coordinate. -/
theorem coord_word (n : ℕ) (hn : n < 2 ^ 32) : (BitVec.ofNat 32 n).toNat = n := by
  rw [BitVec.toNat_ofNat]; exact Nat.mod_eq_of_lt hn

theorem word0_0_eq (T : S489.Idx → Elt F .i32) (i : grid0.Coords) :
    word0_0 T i = T (ValueIdx.ix1 ⟨(i 0).val, (i 0).isLt⟩) := by
  have hb : (i 0).val < 489 := (i 0).isLt
  refine congrArg T (funext fun a => Fin.ext ?_)
  match a with
  | ⟨0, _⟩ =>
    show (BitVec.ofNat 32 (i 0).val).toNat + 1 * 0 = (i 0).val
    rw [coord_word _ (by omega), Nat.mul_zero, Nat.add_zero]

theorem word0_1_eq (T : S489.Idx → Elt F .i32) (i : grid0.Coords) :
    word0_1 T i = T (ValueIdx.ix1 ⟨(i 0).val, (i 0).isLt⟩) := by
  have hb : (i 0).val < 489 := (i 0).isLt
  refine congrArg T (funext fun a => Fin.ext ?_)
  match a with
  | ⟨0, _⟩ =>
    show (BitVec.ofNat 32 (i 0).val).toNat + 1 * 0 = (i 0).val
    rw [coord_word _ (by omega), Nat.mul_zero, Nat.add_zero]

theorem word1_0_eq (T : S489.Idx → Elt F .i32) (i : grid1.Coords) :
    word1_0 T i = T (ValueIdx.ix1 ⟨(i 1).val, (i 1).isLt⟩) := by
  have hb : (i 1).val < 489 := (i 1).isLt
  refine congrArg T (funext fun a => Fin.ext ?_)
  match a with
  | ⟨0, _⟩ =>
    show (BitVec.ofNat 32 (i 1).val).toNat + 1 * 0 = (i 1).val
    rw [coord_word _ (by omega), Nat.mul_zero, Nat.add_zero]

theorem word1_1_eq (T : S489.Idx → Elt F .i32) (i : grid1.Coords) :
    word1_1 T i = T (ValueIdx.ix1 ⟨(i 1).val, (i 1).isLt⟩) := by
  have hb : (i 1).val < 489 := (i 1).isLt
  refine congrArg T (funext fun a => Fin.ext ?_)
  match a with
  | ⟨0, _⟩ =>
    show (BitVec.ofNat 32 (i 1).val).toNat + 1 * 0 = (i 1).val
    rw [coord_word _ (by omega), Nat.mul_zero, Nat.add_zero]

end Cert.KernelIdeal.Decisions

end
-- ==== Proof.GatherData.lean ====
/-
  The gather call as a pipeline: what its staging buffers and its accumulator hold point by point, and the body's
  obligation at every grid point.

  The call runs over a grid of 489 edge blocks by 98 node blocks, the node block the fast coordinate.  For one edge
  block the body clears its accumulator at the first node block, adds one masked product at every node block the two
  table words call active, and at the last node block stores the accumulator times the edge weights into the output
  block.  The output block is therefore left alone at every point but the last of a row, is written back only there
  (the next point's edge block is the same until then), and what the accumulator holds before a point is what the
  points before it left.  This module states that trajectory by recursion over the points, each step being whichever
  of the body's six runs the decisions at the point select; takes as the invariant between points "the accumulator at
  the trajectory's contents, the two tables, the core's other scoped buffers"; and proves that from the invariant and
  the windows' blocks the body at any point runs to its end and re-establishes the invariant at the next point, the
  inputs' buffers unchanged and the output's buffer at the trajectory's block where the point stores it.
-/
import proofs.«179733_j56453050138798_2_alg».proof.Proof.GatherRuns
import proofs.«179733_j56453050138798_2_alg».proof.Proof.Decisions
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (a : (pcfg0 (F := F)).Adm)

abbrev cfgA0 : Pipeline.Cfg sig Λ₀ := cfg0 (F := F) a
abbrev crd0 (t : Fin (cfgA0 a).N) : (cfgA0 a).grid.Coords := (cfgA0 a).grid.coords t

abbrev ms0_0 (t : Fin (cfgA0 a).N) : Memref sig .tc .vmem S2048x1 .i32 := spec0_0.stage ((cfgA0 a).slots t (0 : Fin 4))
abbrev hs0_0 (t : Fin (cfgA0 a).N) : (ms0_0 a t).IsWhole := hstage0_0 (((cfgA0 a).slots t (0 : Fin 4)).cast nbuf0_0)
abbrev ms0_1 (t : Fin (cfgA0 a).N) : Memref sig .tc .vmem S2048x1 .f32 := spec0_1.stage ((cfgA0 a).slots t (1 : Fin 4))
abbrev hs0_1 (t : Fin (cfgA0 a).N) : (ms0_1 a t).IsWhole := hstage0_1 (((cfgA0 a).slots t (1 : Fin 4)).cast nbuf0_1)
abbrev ms0_2 (t : Fin (cfgA0 a).N) : Memref sig .tc .vmem S1024x64 .bf16 := spec0_2.stage ((cfgA0 a).slots t (2 : Fin 4))
abbrev hs0_2 (t : Fin (cfgA0 a).N) : (ms0_2 a t).IsWhole := hstage0_2 (((cfgA0 a).slots t (2 : Fin 4)).cast nbuf0_2)
abbrev ms0_3 (t : Fin (cfgA0 a).N) : Memref sig .tc .vmem S2048x64 .bf16 := spec0_3.stage ((cfgA0 a).slots t (3 : Fin 4))
abbrev hs0_3 (t : Fin (cfgA0 a).N) : (ms0_3 a t).IsWhole := hstage0_3 (((cfgA0 a).slots t (3 : Fin 4)).cast nbuf0_3)

abbrev bodyAt0 (t : Fin (cfgA0 a).N) : Prog (TpuEff nD τ sig (Elt F) Λ₀ .tc) PUnit :=
  cc0__gather_kernel (crd0 a t) tbM0_0 (Memref.isWhole_whole _) tbM0_1 (Memref.isWhole_whole _) (ms0_0 a t) (hs0_0 a t) (ms0_1 a t) (hs0_1 a t)
    (ms0_2 a t) (hs0_2 a t) (ms0_3 a t) (hs0_3 a t) scM0_0 (Memref.isWhole_whole _)

theorem body_eq0 (t : Fin (cfgA0 a).N) : defs₀ (F := F) .tc (cfgA0 a).body ((cfgA0 a).bodyArgs t ((cfgA0 a).slots t)) = bodyAt0 a t := rfl
theorem N_eq0 : (cfgA0 a).N = 47922 := N_0
theorem index3 (t : Fin (cfgA0 a).N) : ((cfgA0 a).win (3 : Fin 4)).index t = cc0_transform_3 (crd0 a t) := rfl
theorem idle3 (t : Fin (cfgA0 a).N) : (cfgA0 a).idle (3 : Fin 4) (crd0 a t) = !(k0_cond3 (crd0 a t) == 1#1) := rfl
theorem idle0 (t : Fin (cfgA0 a).N) : (cfgA0 a).idle (0 : Fin 4) (crd0 a t) = false := rfl
theorem isOut3 : ((cfgA0 a).win (3 : Fin 4)).isOut = true := rfl

/-! ## Grid arithmetic -/

/-! ## The blocks, the tables, the trajectory -/

variable (V : (c : Dev nD) → (b : Ref sig .tc) → Buf (Elt F) ((c : Thread nD τ).loc b))

/-- The two tables' contents the pipeline runs at. -/
abbrev tb0_0 : S489.Idx → Elt F .i32 := a.1 (0 : Fin 2)
abbrev tb0_1 : S489.Idx → Elt F .i32 := a.1 (1 : Fin 2)

/-- Window `w`'s block at point `t`, read off its array as the region finds it. -/
def iblk0 (c : Dev nD) (w : Fin (cfgA0 a).W) (t : Fin (cfgA0 a).N) : (((cfgA0 a).win w).xblock (crd0 a t)).Idx → Elt F ((cfgA0 a).win w).elt :=
  (((cfgA0 a).win w).blk t).view.read (Elt F) (V c (Pipeline.arrRef spec0 w))

abbrev ScrBuf0 (c : Dev nD) : Type := Buf (Elt F) ((c : Thread nD τ).loc cc0_scratch0)

/-- One point of the trajectory: from the accumulator's contents before the point, its contents after it and what the
    output block holds after it (junk where the point stores nothing there). -/
def step0 (c : Dev nD) (t : Fin (cfgA0 a).N) (prev : ScrBuf0 (F := F) c) : ScrBuf0 (F := F) c × (S2048x64.Idx → Elt F .bf16) :=
  if h1 : isFirst0 (crd0 a t) then
    if hc : isActive0 (F := F) (tb0_0 a) (tb0_1 a) (crd0 a t) then
      ((kernelRun0_A c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) h1 hc (Decisions.not_last0_of_first0 h1)).1, VO0.read (Elt F) VO0.junk)
    else
      ((kernelRun0_B c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) h1 hc (Decisions.not_last0_of_first0 h1)).1, VO0.read (Elt F) VO0.junk)
  else if h3 : isLast0 (crd0 a t) then
    if hc : isActive0 (F := F) (tb0_0 a) (tb0_1 a) (crd0 a t) then
      ((kernelRun0_E c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) prev h1 hc h3).2.1,
       out0_E c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) prev h1 hc h3)
    else
      ((kernelRun0_G c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) prev h1 hc h3).2.1,
       out0_G c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) prev h1 hc h3)
  else
    if hc : isActive0 (F := F) (tb0_0 a) (tb0_1 a) (crd0 a t) then
      ((kernelRun0_C c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) prev h1 hc h3).1, VO0.read (Elt F) VO0.junk)
    else
      ((kernelRun0_D c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) prev h1 hc h3).1, VO0.read (Elt F) VO0.junk)

/-- The accumulator's contents BEFORE position `n` (junk before the first point, which clears it). -/
def acc0 (c : Dev nD) : ℕ → ScrBuf0 (F := F) c
  | 0 => (View.whole cc0_scratch0).junk
  | n + 1 => if h : n < (cfgA0 a).N then (step0 a V c ⟨n, h⟩ (acc0 c n)).1 else acc0 c n

theorem acc0_succ (c : Dev nD) (t : Fin (cfgA0 a).N) : acc0 a V c (t.val + 1) = (step0 a V c t (acc0 a V c t.val)).1 := by
  rw [acc0, dif_pos t.isLt]

/-- What the output block holds after point `t`. -/
def out0At (c : Dev nD) (t : Fin (cfgA0 a).N) : S2048x64.Idx → Elt F .bf16 := (step0 a V c t (acc0 a V c t.val)).2

/-- The tables as the region holds them, one by one. -/
theorem prefHeld0_eq (c : Dev nD) (q : Fin 2 → PosShare TreeShare) (v : pre0.Contents (Elt F)) :
    (Pipeline.prefHeld (Ix := Unit) (Name := ℕ) (U := Pipeline.UD sig nD τ) (Lvl := ℕ) pre0 c q v : sProp 𝕄)
      = iprop((((c : Thread nD τ).loc main_v28) ↦{q 0} v 0) ∗ (((c : Thread nD τ).loc main_v29) ↦{q 1} v 1)) := by
  unfold Pipeline.prefHeld
  rw [show (Finset.univ : Finset (Fin 2)) = {(0 : Fin 2), (1 : Fin 2)} from by decide, bigSep_insert (by decide), bigSep_singleton]
  rfl

/-- The scoped buffers of the core that are neither a staging buffer of this call nor its accumulator. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- THE INVARIANT before position `t`: the accumulator at what the trajectory says (anything before the first point),
    the two tables, the other scoped buffers. -/
def Phi0 (c : Dev nD) (t : Fin ((cfgA0 a).N + 1)) : sProp 𝕄 :=
  iprop((∃ x, ⌜t.val ≠ 0 → x = acc0 a V c t.val⌝ ∗ (scM0_0.view.loc (c : Thread nD τ) ↦{fullShare} x))
    ∗ (tbM0_0.view.loc (c : Thread nD τ) ↦{fullShare} tb0_0 a) ∗ (tbM0_1.view.loc (c : Thread nD τ) ↦{fullShare} tb0_1 a)
    ∗ others0 c)

/-- The proof data of the gather call on core `c`, at the contents `V` the region is entered with. -/
def dat0 (c : Dev nD) : Dat τ (Elt F) Unit ℕ (Pipeline.UD sig nD τ) ℕ (cfgA0 a) c where
  A w := V c (Pipeline.arrRef spec0 w)
  after w t := match w with
    | ⟨0, _⟩ => iblk0 a V c 0 t
    | ⟨1, _⟩ => iblk0 a V c 1 t
    | ⟨2, _⟩ => iblk0 a V c 2 t
    | ⟨3, _⟩ => out0At a V c t
  Φ t := Phi0 a V c t
  q _ := fullShare
  owed _ := 0

theorem A_eq0 (c : Dev nD) (w : Fin (cfgA0 a).W) : (dat0 a V c).A w = V c (Pipeline.arrRef spec0 w) := by dsimp only [dat0]
theorem after0_0 (c : Dev nD) (t : Fin (cfgA0 a).N) : (dat0 a V c).after 0 t = iblk0 a V c 0 t := rfl
theorem after0_1 (c : Dev nD) (t : Fin (cfgA0 a).N) : (dat0 a V c).after 1 t = iblk0 a V c 1 t := rfl
theorem after0_2 (c : Dev nD) (t : Fin (cfgA0 a).N) : (dat0 a V c).after 2 t = iblk0 a V c 2 t := rfl
theorem after0_3 (c : Dev nD) (t : Fin (cfgA0 a).N) : (dat0 a V c).after 3 t = out0At a V c t := rfl

/-- Each input window's current staging buffer holds its block at every point, fetched there or not. -/
theorem before0_0 (c : Dev nD) (t : Fin (cfgA0 a).N) (d) : (dat0 a V c).before (0 : Fin 4) t d = iblk0 a V c 0 t :=
  ((dat0 a V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin (cfgA0 a).N) (d) : (dat0 a V c).before (1 : Fin 4) t d = iblk0 a V c 1 t :=
  ((dat0 a V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin (cfgA0 a).N) (d) : (dat0 a V c).before (2 : Fin 4) t d = iblk0 a V c 2 t :=
  ((dat0 a V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The schedule of the output window -/

theorem crd_val0 (t : Fin (cfgA0 a).N) : (crd0 a t 0).val = t.val / 98 % 489 := rfl
theorem crd_val1 (t : Fin (cfgA0 a).N) : (crd0 a t 1).val = t.val % 98 := by
  show t.val / 1 % 98 = _
  rw [Nat.div_one]

/-- At a point that is not the last along the accumulated axis the output block is not written back: the next point has
    the same edge block. -/
theorem flush3_of_not_last (t : Fin (cfgA0 a).N) (h3 : ¬ isLast0 (crd0 a t)) : ((cfgA0 a).win (3 : Fin 4)).flush t = false := by
  have hj : t.val % 98 ≠ 97 := fun h => h3 ((Decisions.isLast0_iff _).2 ((crd_val1 a t).trans h))
  have hN : (cfgA0 a).N = 47922 := N_0
  have hN' : (cfgA0 a).grid.N = 47922 := N_0
  have htN := t.isLt
  unfold Window.flush
  rw [isOut3, Bool.true_and, Bool.or_eq_false_iff]
  refine ⟨decide_eq_false (by omega), decide_eq_false ?_⟩
  rintro ⟨h, hne⟩
  apply hne
  rw [index3, index3]
  unfold cc0_transform_3
  dsimp only
  have e : (crd0 a ⟨t.val + 1, h⟩ 0).val = (crd0 a t 0).val := by
    rw [crd_val0, crd_val0]; show (t.val + 1) / 98 % 489 = t.val / 98 % 489
    have : (t.val + 1) / 98 = t.val / 98 := by omega
    rw [this]
  rw [e]

/-- The first position is a first point. -/
theorem isFirst0_of_zero (t : Fin (cfgA0 a).N) (h0 : t.val = 0) : isFirst0 (crd0 a t) :=
  (Decisions.isFirst0_iff _).2 (by rw [crd_val1, h0])

/-! ## The trajectory's step, path by path -/

theorem step0_A (c : Dev nD) (t : Fin (cfgA0 a).N) (prev : ScrBuf0 (F := F) c) (h1 : isFirst0 (crd0 a t)) (hc : isActive0 (F := F) (tb0_0 a) (tb0_1 a) (crd0 a t)) :
    step0 a V c t prev = ((kernelRun0_A c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) h1 hc (Decisions.not_last0_of_first0 h1)).1, VO0.read (Elt F) VO0.junk) := by
  unfold step0; rw [dif_pos h1, dif_pos hc]
theorem step0_B (c : Dev nD) (t : Fin (cfgA0 a).N) (prev : ScrBuf0 (F := F) c) (h1 : isFirst0 (crd0 a t)) (hc : ¬ isActive0 (F := F) (tb0_0 a) (tb0_1 a) (crd0 a t)) :
    step0 a V c t prev = ((kernelRun0_B c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) h1 hc (Decisions.not_last0_of_first0 h1)).1, VO0.read (Elt F) VO0.junk) := by
  unfold step0; rw [dif_pos h1, dif_neg hc]
theorem step0_C (c : Dev nD) (t : Fin (cfgA0 a).N) (prev : ScrBuf0 (F := F) c) (h1 : ¬ isFirst0 (crd0 a t)) (hc : isActive0 (F := F) (tb0_0 a) (tb0_1 a) (crd0 a t)) (h3 : ¬ isLast0 (crd0 a t)) :
    step0 a V c t prev = ((kernelRun0_C c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) prev h1 hc h3).1, VO0.read (Elt F) VO0.junk) := by
  unfold step0; rw [dif_neg h1, dif_neg h3, dif_pos hc]
theorem step0_D (c : Dev nD) (t : Fin (cfgA0 a).N) (prev : ScrBuf0 (F := F) c) (h1 : ¬ isFirst0 (crd0 a t)) (hc : ¬ isActive0 (F := F) (tb0_0 a) (tb0_1 a) (crd0 a t)) (h3 : ¬ isLast0 (crd0 a t)) :
    step0 a V c t prev = ((kernelRun0_D c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) prev h1 hc h3).1, VO0.read (Elt F) VO0.junk) := by
  unfold step0; rw [dif_neg h1, dif_neg h3, dif_neg hc]
theorem step0_E (c : Dev nD) (t : Fin (cfgA0 a).N) (prev : ScrBuf0 (F := F) c) (h1 : ¬ isFirst0 (crd0 a t)) (hc : isActive0 (F := F) (tb0_0 a) (tb0_1 a) (crd0 a t)) (h3 : isLast0 (crd0 a t)) :
    step0 a V c t prev = ((kernelRun0_E c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) prev h1 hc h3).2.1,
       out0_E c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) prev h1 hc h3) := by
  unfold step0; rw [dif_neg h1, dif_pos h3, dif_pos hc]
theorem step0_G (c : Dev nD) (t : Fin (cfgA0 a).N) (prev : ScrBuf0 (F := F) c) (h1 : ¬ isFirst0 (crd0 a t)) (hc : ¬ isActive0 (F := F) (tb0_0 a) (tb0_1 a) (crd0 a t)) (h3 : isLast0 (crd0 a t)) :
    step0 a V c t prev = ((kernelRun0_G c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) prev h1 hc h3).2.1,
       out0_G c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) prev h1 hc h3) := by
  unfold step0; rw [dif_neg h1, dif_pos h3, dif_neg hc]

/-! ## The body obligation -/

theorem idle3_of_not_last (t : Fin (cfgA0 a).N) (h3 : ¬ isLast0 (crd0 a t)) : (cfgA0 a).idle (3 : Fin 4) (crd0 a t) = true := by
  rw [idle3]; simp only [Bool.not_eq_true', beq_eq_false_iff_ne, ne_eq]; exact h3
theorem idle3_of_last (t : Fin (cfgA0 a).N) (h3 : isLast0 (crd0 a t)) : (cfgA0 a).idle (3 : Fin 4) (crd0 a t) = false := by
  rw [idle3]; simp only [Bool.not_eq_false', beq_iff_eq]; exact h3

set_option maxHeartbeats 4000000 in
/-- The body at any point: the decisions there tell the path; the inputs hold their blocks, the accumulator what the
    trajectory says; the path's run applies and leaves what the trajectory says next. -/
theorem sound_body0 (c : Dev nD) (t : Fin (cfgA0 a).N) :
    iprop((dat0 a V c).Φ t.castSucc ∗ (dat0 a V c).owesAt () t.castSucc
        ∗ (∃ d, owns (c : Thread nD τ) (ms0_0 a t) fullShare ((dat0 a V c).before (0 : Fin 4) t d))
        ∗ (∃ d, owns (c : Thread nD τ) (ms0_1 a t) fullShare ((dat0 a V c).before (1 : Fin 4) t d))
        ∗ (∃ d, owns (c : Thread nD τ) (ms0_2 a t) fullShare ((dat0 a V c).before (2 : Fin 4) t d))
        ∗ (∃ d, owns (c : Thread nD τ) (ms0_3 a t) fullShare ((dat0 a V c).before (3 : Fin 4) t d)))
      ⊢ wp frame (wpE (defs₀ (F := F)) Variants.none c none) Set.univ (bodyAt0 a t) fun _ =>
          iprop((dat0 a V c).Φ t.succ ∗ (dat0 a V c).owesAt () t.succ
            ∗ bigSep Finset.univ fun w : Fin (cfgA0 a).W =>
                match (cfgA0 a).idle w ((cfgA0 a).grid.coords t) with
                | true =>
                  match ((cfgA0 a).win w).flush t with
                  | false => iprop(∃ d, owns (c : Thread nD τ) (((cfgA0 a).win w).stage ((cfgA0 a).slots t w)) fullShare ((dat0 a V c).before w t d))
                  | true => owns (c : Thread nD τ) (((cfgA0 a).win w).stage ((cfgA0 a).slots t w)) fullShare ((dat0 a V c).after w t)
                | false => owns (c : Thread nD τ) (((cfgA0 a).win w).stage ((cfgA0 a).slots t w)) fullShare ((dat0 a V c).after w t)) := by
  rw [bigSep_W0]
  rewrite [show (cfgA0 a).idle (0 : Fin 4) ((cfgA0 a).grid.coords t) = false from rfl]
  try rewrite [show (cfgA0 a).idle (1 : Fin 4) ((cfgA0 a).grid.coords t) = false from rfl]
  try rewrite [show (cfgA0 a).idle (2 : Fin 4) ((cfgA0 a).grid.coords t) = false from rfl]
  rewrite [show (dat0 a V c).Φ t.succ = Phi0 a V c t.succ from rfl, show (dat0 a V c).Φ t.castSucc = Phi0 a V c t.castSucc from rfl,
    show (dat0 a V c).owesAt () t.succ = (dat0 a V c).owesAt () t.castSucc from rfl]
  by_cases h1 : isFirst0 (crd0 a t)
  · have h3 : ¬ isLast0 (crd0 a t) := Decisions.not_last0_of_first0 h1
    by_cases hc : isActive0 (F := F) (tb0_0 a) (tb0_1 a) (crd0 a t)
    ·
      rewrite [show (cfgA0 a).idle (3 : Fin 4) ((cfgA0 a).grid.coords t) = true from idle3_of_not_last a t h3, flush3_of_not_last a t h3]
      simp only [before0_0, before0_1, before0_2, after0_0, after0_1, after0_2, after0_3]
      unfold Phi0
      simp only [Fin.val_castSucc, Fin.val_succ]
      iintro ⟨⟨⟨%x, %hx, HS0⟩, HT0, HT1, Hoth⟩, Ho, ⟨%d0, H0⟩, ⟨%d1, H1⟩, ⟨%d2, H2⟩, ⟨%d3, H3⟩⟩
      iapply ((kernelRun0_A c (crd0 a t) (ms0_0 a t) (hs0_0 a t) (ms0_1 a t) (hs0_1 a t) (ms0_2 a t) (hs0_2 a t) (ms0_3 a t) (hs0_3 a t) fullShare (tb0_0 a) (tb0_1 a)
          (iblk0 a V c 0 t) (iblk0 a V c 1 t) (iblk0 a V c 2 t) h1 hc h3).2 _ x _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      isplitl [HS0]; · iexact HS0
      iintro ⟨H0, H1, H2, HT0, HT1, H3, HS0⟩
      isplitl [HS0 HT0 HT1 Hoth]
      · isplitl [HS0]
        · iexists _; isplitr; swap
          · iexact HS0
          · ipureintro; intro _; rw [acc0_succ, step0_A a V c t _ h1 hc]
        isplitl [HT0]; · iexact HT0
        isplitl [HT1]; · iexact HT1
        iexact Hoth
      isplitl [Ho]; · iexact Ho
      isplitl [H0]; · iapply owns_of_rep; iexact H0
      isplitl [H1]; · iapply owns_of_rep; iexact H1
      isplitl [H2]; · iapply owns_of_rep; iexact H2
      iexists d3; iexact H3
    ·
      rewrite [show (cfgA0 a).idle (3 : Fin 4) ((cfgA0 a).grid.coords t) = true from idle3_of_not_last a t h3, flush3_of_not_last a t h3]
      simp only [before0_0, before0_1, before0_2, after0_0, after0_1, after0_2, after0_3]
      unfold Phi0
      simp only [Fin.val_castSucc, Fin.val_succ]
      iintro ⟨⟨⟨%x, %hx, HS0⟩, HT0, HT1, Hoth⟩, Ho, ⟨%d0, H0⟩, ⟨%d1, H1⟩, ⟨%d2, H2⟩, ⟨%d3, H3⟩⟩
      iapply ((kernelRun0_B c (crd0 a t) (ms0_0 a t) (hs0_0 a t) (ms0_1 a t) (hs0_1 a t) (ms0_2 a t) (hs0_2 a t) (ms0_3 a t) (hs0_3 a t) fullShare (tb0_0 a) (tb0_1 a)
          (iblk0 a V c 0 t) (iblk0 a V c 1 t) (iblk0 a V c 2 t) h1 hc h3).2 _ x _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      isplitl [HS0]; · iexact HS0
      iintro ⟨H0, H1, H2, HT0, HT1, H3, HS0⟩
      isplitl [HS0 HT0 HT1 Hoth]
      · isplitl [HS0]
        · iexists _; isplitr; swap
          · iexact HS0
          · ipureintro; intro _; rw [acc0_succ, step0_B a V c t _ h1 hc]
        isplitl [HT0]; · iexact HT0
        isplitl [HT1]; · iexact HT1
        iexact Hoth
      isplitl [Ho]; · iexact Ho
      isplitl [H0]; · iapply owns_of_rep; iexact H0
      isplitl [H1]; · iapply owns_of_rep; iexact H1
      isplitl [H2]; · iapply owns_of_rep; iexact H2
      iexists d3; iexact H3
  · have hx0 : t.val ≠ 0 := fun h0 => h1 (isFirst0_of_zero a t h0)
    by_cases h3 : isLast0 (crd0 a t)
    · by_cases hc : isActive0 (F := F) (tb0_0 a) (tb0_1 a) (crd0 a t)
      ·
        rewrite [show (cfgA0 a).idle (3 : Fin 4) ((cfgA0 a).grid.coords t) = false from idle3_of_last a t h3]
        simp only [before0_0, before0_1, before0_2, after0_0, after0_1, after0_2, after0_3]
        unfold Phi0
        simp only [Fin.val_castSucc, Fin.val_succ]
        iintro ⟨⟨⟨%x, %hx, HS0⟩, HT0, HT1, Hoth⟩, Ho, ⟨%d0, H0⟩, ⟨%d1, H1⟩, ⟨%d2, H2⟩, ⟨%d3, H3⟩⟩
        obtain rfl := hx hx0
        iapply ((kernelRun0_E c (crd0 a t) (ms0_0 a t) (hs0_0 a t) (ms0_1 a t) (hs0_1 a t) (ms0_2 a t) (hs0_2 a t) (ms0_3 a t) (hs0_3 a t) fullShare (tb0_0 a) (tb0_1 a)
            (iblk0 a V c 0 t) (iblk0 a V c 1 t) (iblk0 a V c 2 t) (acc0 a V c t.val) h1 hc h3).2.2 _)
        isplitl [H0]; · iapply rep_of_owns; iexact H0
        isplitl [H1]; · iapply rep_of_owns; iexact H1
        isplitl [H2]; · iapply rep_of_owns; iexact H2
        isplitl [HT0]; · iexact HT0
        isplitl [HT1]; · iexact HT1
        isplitl [H3]; · iexists _; iexact H3
        isplitl [HS0]; · iexact HS0
        iintro ⟨H0, H1, H2, HT0, HT1, ⟨%e3, H3⟩, HS0⟩
        isplitl [HS0 HT0 HT1 Hoth]
        · isplitl [HS0]
          · iexists _; isplitr; swap
            · iexact HS0
            · ipureintro; intro _; rw [acc0_succ, step0_E a V c t _ h1 hc h3]
          isplitl [HT0]; · iexact HT0
          isplitl [HT1]; · iexact HT1
          iexact Hoth
        isplitl [Ho]; · iexact Ho
        isplitl [H0]; · iapply owns_of_rep; iexact H0
        isplitl [H1]; · iapply owns_of_rep; iexact H1
        isplitl [H2]; · iapply owns_of_rep; iexact H2
        unfold out0At; rw [step0_E a V c t _ h1 hc h3]; dsimp only; unfold out0_E
        unfold owns; iexists _; isplitr
        swap; · iexact H3
        ipureintro; exact View.read_writes_of_cover _ _ _ _ _ (cover0_E c (crd0 a t) (ms0_0 a t) (hs0_0 a t) (ms0_1 a t) (hs0_1 a t) (ms0_2 a t) (hs0_2 a t) (ms0_3 a t) (hs0_3 a t) fullShare (tb0_0 a) (tb0_1 a)
            (iblk0 a V c 0 t) (iblk0 a V c 1 t) (iblk0 a V c 2 t) (acc0 a V c t.val) h1 hc h3)
      ·
        rewrite [show (cfgA0 a).idle (3 : Fin 4) ((cfgA0 a).grid.coords t) = false from idle3_of_last a t h3]
        simp only [before0_0, before0_1, before0_2, after0_0, after0_1, after0_2, after0_3]
        unfold Phi0
        simp only [Fin.val_castSucc, Fin.val_succ]
        iintro ⟨⟨⟨%x, %hx, HS0⟩, HT0, HT1, Hoth⟩, Ho, ⟨%d0, H0⟩, ⟨%d1, H1⟩, ⟨%d2, H2⟩, ⟨%d3, H3⟩⟩
        obtain rfl := hx hx0
        iapply ((kernelRun0_G c (crd0 a t) (ms0_0 a t) (hs0_0 a t) (ms0_1 a t) (hs0_1 a t) (ms0_2 a t) (hs0_2 a t) (ms0_3 a t) (hs0_3 a t) fullShare (tb0_0 a) (tb0_1 a)
            (iblk0 a V c 0 t) (iblk0 a V c 1 t) (iblk0 a V c 2 t) (acc0 a V c t.val) h1 hc h3).2.2 _)
        isplitl [H0]; · iapply rep_of_owns; iexact H0
        isplitl [H1]; · iapply rep_of_owns; iexact H1
        isplitl [H2]; · iapply rep_of_owns; iexact H2
        isplitl [HT0]; · iexact HT0
        isplitl [HT1]; · iexact HT1
        isplitl [H3]; · iexists _; iexact H3
        isplitl [HS0]; · iexact HS0
        iintro ⟨H0, H1, H2, HT0, HT1, ⟨%e3, H3⟩, HS0⟩
        isplitl [HS0 HT0 HT1 Hoth]
        · isplitl [HS0]
          · iexists _; isplitr; swap
            · iexact HS0
            · ipureintro; intro _; rw [acc0_succ, step0_G a V c t _ h1 hc h3]
          isplitl [HT0]; · iexact HT0
          isplitl [HT1]; · iexact HT1
          iexact Hoth
        isplitl [Ho]; · iexact Ho
        isplitl [H0]; · iapply owns_of_rep; iexact H0
        isplitl [H1]; · iapply owns_of_rep; iexact H1
        isplitl [H2]; · iapply owns_of_rep; iexact H2
        unfold out0At; rw [step0_G a V c t _ h1 hc h3]; dsimp only; unfold out0_G
        unfold owns; iexists _; isplitr
        swap; · iexact H3
        ipureintro; exact View.read_writes_of_cover _ _ _ _ _ (cover0_G c (crd0 a t) (ms0_0 a t) (hs0_0 a t) (ms0_1 a t) (hs0_1 a t) (ms0_2 a t) (hs0_2 a t) (ms0_3 a t) (hs0_3 a t) fullShare (tb0_0 a) (tb0_1 a)
            (iblk0 a V c 0 t) (iblk0 a V c 1 t) (iblk0 a V c 2 t) (acc0 a V c t.val) h1 hc h3)
    · by_cases hc : isActive0 (F := F) (tb0_0 a) (tb0_1 a) (crd0 a t)
      ·
        rewrite [show (cfgA0 a).idle (3 : Fin 4) ((cfgA0 a).grid.coords t) = true from idle3_of_not_last a t h3, flush3_of_not_last a t h3]
        simp only [before0_0, before0_1, before0_2, after0_0, after0_1, after0_2, after0_3]
        unfold Phi0
        simp only [Fin.val_castSucc, Fin.val_succ]
        iintro ⟨⟨⟨%x, %hx, HS0⟩, HT0, HT1, Hoth⟩, Ho, ⟨%d0, H0⟩, ⟨%d1, H1⟩, ⟨%d2, H2⟩, ⟨%d3, H3⟩⟩
        obtain rfl := hx hx0
        iapply ((kernelRun0_C c (crd0 a t) (ms0_0 a t) (hs0_0 a t) (ms0_1 a t) (hs0_1 a t) (ms0_2 a t) (hs0_2 a t) (ms0_3 a t) (hs0_3 a t) fullShare (tb0_0 a) (tb0_1 a)
            (iblk0 a V c 0 t) (iblk0 a V c 1 t) (iblk0 a V c 2 t) (acc0 a V c t.val) h1 hc h3).2 _ _)
        isplitl [H0]; · iapply rep_of_owns; iexact H0
        isplitl [H1]; · iapply rep_of_owns; iexact H1
        isplitl [H2]; · iapply rep_of_owns; iexact H2
        isplitl [HT0]; · iexact HT0
        isplitl [HT1]; · iexact HT1
        isplitl [H3]; · iexact H3
        isplitl [HS0]; · iexact HS0
        iintro ⟨H0, H1, H2, HT0, HT1, H3, HS0⟩
        isplitl [HS0 HT0 HT1 Hoth]
        · isplitl [HS0]
          · iexists _; isplitr; swap
            · iexact HS0
            · ipureintro; intro _; rw [acc0_succ, step0_C a V c t _ h1 hc h3]
          isplitl [HT0]; · iexact HT0
          isplitl [HT1]; · iexact HT1
          iexact Hoth
        isplitl [Ho]; · iexact Ho
        isplitl [H0]; · iapply owns_of_rep; iexact H0
        isplitl [H1]; · iapply owns_of_rep; iexact H1
        isplitl [H2]; · iapply owns_of_rep; iexact H2
        iexists d3; iexact H3
      ·
        rewrite [show (cfgA0 a).idle (3 : Fin 4) ((cfgA0 a).grid.coords t) = true from idle3_of_not_last a t h3, flush3_of_not_last a t h3]
        simp only [before0_0, before0_1, before0_2, after0_0, after0_1, after0_2, after0_3]
        unfold Phi0
        simp only [Fin.val_castSucc, Fin.val_succ]
        iintro ⟨⟨⟨%x, %hx, HS0⟩, HT0, HT1, Hoth⟩, Ho, ⟨%d0, H0⟩, ⟨%d1, H1⟩, ⟨%d2, H2⟩, ⟨%d3, H3⟩⟩
        obtain rfl := hx hx0
        iapply ((kernelRun0_D c (crd0 a t) (ms0_0 a t) (hs0_0 a t) (ms0_1 a t) (hs0_1 a t) (ms0_2 a t) (hs0_2 a t) (ms0_3 a t) (hs0_3 a t) fullShare (tb0_0 a) (tb0_1 a)
            (iblk0 a V c 0 t) (iblk0 a V c 1 t) (iblk0 a V c 2 t) (acc0 a V c t.val) h1 hc h3).2 _ _)
        isplitl [H0]; · iapply rep_of_owns; iexact H0
        isplitl [H1]; · iapply rep_of_owns; iexact H1
        isplitl [H2]; · iapply rep_of_owns; iexact H2
        isplitl [HT0]; · iexact HT0
        isplitl [HT1]; · iexact HT1
        isplitl [H3]; · iexact H3
        isplitl [HS0]; · iexact HS0
        iintro ⟨H0, H1, H2, HT0, HT1, H3, HS0⟩
        isplitl [HS0 HT0 HT1 Hoth]
        · isplitl [HS0]
          · iexists _; isplitr; swap
            · iexact HS0
            · ipureintro; intro _; rw [acc0_succ, step0_D a V c t _ h1 hc h3]
          isplitl [HT0]; · iexact HT0
          isplitl [HT1]; · iexact HT1
          iexact Hoth
        isplitl [Ho]; · iexact Ho
        isplitl [H0]; · iapply owns_of_rep; iexact H0
        isplitl [H1]; · iapply owns_of_rep; iexact H1
        isplitl [H2]; · iapply owns_of_rep; iexact H2
        iexists d3; iexact H3

/-- The library's body obligation, at every point. -/
theorem body_obligation0 (c : Dev nD) : BodyObligation (dat0 (F := F) a V c) (defs₀ (F := F)) Variants.none () Set.univ := fun t => by
  rw [bigSep_W0]
  exact sound_body0 a V c t

end Cert.KernelIdeal.Gen

end
-- ==== Proof.ScatterData.lean ====
/-
  The scatter call as a pipeline: what its staging buffers and its accumulator hold point by point, and the body's
  obligation at every grid point.

  The call runs over a grid of 98 node blocks by 489 edge blocks, the edge block the fast coordinate.  For one node
  block the body clears its accumulator at the first edge block, adds one masked transposed product (the 0/1 selector
  of the edges' destination words against the edges' scaled rows) at every edge block the two table words call
  active, and at the last edge block stores the accumulator into the output block.  The output block is therefore
  left alone at every point but the last of a row, is written back only there (the next point's node block is the
  same until then), and what the accumulator holds before a point is what the points before it left.  This module
  states that trajectory by recursion over the points, each step being whichever of the body's six runs the
  decisions at the point select; takes as the invariant between points "the accumulator at the trajectory's contents,
  the two tables, the core's other scoped buffers"; and proves that from the invariant and the windows' blocks the body
  at any point runs to its end and re-establishes the invariant at the next point, the inputs' buffers unchanged and the
  output's buffer at the trajectory's block where the point stores it.
-/
import proofs.«179733_j56453050138798_2_alg».proof.Proof.ScatterRuns
import proofs.«179733_j56453050138798_2_alg».proof.Proof.Decisions
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (a : (pcfg1 (F := F)).Adm)

abbrev cfgA1 : Pipeline.Cfg sig Λ₀ := cfg1 (F := F) a
abbrev crd1 (t : Fin (cfgA1 a).N) : (cfgA1 a).grid.Coords := (cfgA1 a).grid.coords t

abbrev ms1_0 (t : Fin (cfgA1 a).N) : Memref sig .tc .vmem S2048x1 .i32 := spec1_0.stage ((cfgA1 a).slots t (0 : Fin 3))
abbrev hs1_0 (t : Fin (cfgA1 a).N) : (ms1_0 a t).IsWhole := hstage1_0 (((cfgA1 a).slots t (0 : Fin 3)).cast nbuf1_0)
abbrev ms1_1 (t : Fin (cfgA1 a).N) : Memref sig .tc .vmem S2048x64 .bf16 := spec1_1.stage ((cfgA1 a).slots t (1 : Fin 3))
abbrev hs1_1 (t : Fin (cfgA1 a).N) : (ms1_1 a t).IsWhole := hstage1_1 (((cfgA1 a).slots t (1 : Fin 3)).cast nbuf1_1)
abbrev ms1_2 (t : Fin (cfgA1 a).N) : Memref sig .tc .vmem S1024x64 .f32 := spec1_2.stage ((cfgA1 a).slots t (2 : Fin 3))
abbrev hs1_2 (t : Fin (cfgA1 a).N) : (ms1_2 a t).IsWhole := hstage1_2 (((cfgA1 a).slots t (2 : Fin 3)).cast nbuf1_2)

abbrev bodyAt1 (t : Fin (cfgA1 a).N) : Prog (TpuEff nD τ sig (Elt F) Λ₀ .tc) PUnit :=
  cc1__scatter_kernel (crd1 a t) tbM1_0 (Memref.isWhole_whole _) tbM1_1 (Memref.isWhole_whole _) (ms1_0 a t) (hs1_0 a t) (ms1_1 a t) (hs1_1 a t)
    (ms1_2 a t) (hs1_2 a t) scM1_0 (Memref.isWhole_whole _)

theorem body_eq1 (t : Fin (cfgA1 a).N) : defs₀ (F := F) .tc (cfgA1 a).body ((cfgA1 a).bodyArgs t ((cfgA1 a).slots t)) = bodyAt1 a t := rfl
theorem N_eq1 : (cfgA1 a).N = 47922 := N_1
theorem index1_2 (t : Fin (cfgA1 a).N) : ((cfgA1 a).win (2 : Fin 3)).index t = cc1_transform_2 (crd1 a t) := rfl
theorem idleW1_2 (t : Fin (cfgA1 a).N) : (cfgA1 a).idle (2 : Fin 3) (crd1 a t) = !(k1_cond3 (crd1 a t) == 1#1) := rfl
theorem idleW1_0 (t : Fin (cfgA1 a).N) : (cfgA1 a).idle (0 : Fin 3) (crd1 a t) = false := rfl
theorem isOut1_2 : ((cfgA1 a).win (2 : Fin 3)).isOut = true := rfl

/-! ## The blocks, the tables, the trajectory -/

variable (V : (c : Dev nD) → (b : Ref sig .tc) → Buf (Elt F) ((c : Thread nD τ).loc b))

/-- The two tables' contents the pipeline runs at. -/
abbrev tb1_0 : S489.Idx → Elt F .i32 := a.1 (0 : Fin 2)
abbrev tb1_1 : S489.Idx → Elt F .i32 := a.1 (1 : Fin 2)

/-- Window `w`'s block at point `t`, read off its array as the region finds it. -/
def iblk1 (c : Dev nD) (w : Fin (cfgA1 a).W) (t : Fin (cfgA1 a).N) : (((cfgA1 a).win w).xblock (crd1 a t)).Idx → Elt F ((cfgA1 a).win w).elt :=
  (((cfgA1 a).win w).blk t).view.read (Elt F) (V c (Pipeline.arrRef spec1 w))

abbrev ScrBuf1 (c : Dev nD) : Type := Buf (Elt F) ((c : Thread nD τ).loc cc1_scratch0)

/-- One point of the trajectory: from the accumulator's contents before the point, its contents after it and what the
    output block holds after it (junk where the point stores nothing there). -/
def step1 (c : Dev nD) (t : Fin (cfgA1 a).N) (prev : ScrBuf1 (F := F) c) : ScrBuf1 (F := F) c × (S1024x64.Idx → Elt F .f32) :=
  if h1 : isFirst1 (crd1 a t) then
    if hc : isActive1 (F := F) (tb1_0 a) (tb1_1 a) (crd1 a t) then
      ((kernelRun1_A c (crd1 a t) (ms1_0 a t) (hs1_0 a t) (ms1_1 a t) (hs1_1 a t) (ms1_2 a t) (hs1_2 a t) fullShare (tb1_0 a) (tb1_1 a)
        (iblk1 a V c 0 t) (iblk1 a V c 1 t) h1 hc (Decisions.not_last1_of_first1 h1)).1, VO1.read (Elt F) VO1.junk)
    else
      ((kernelRun1_B c (crd1 a t) (ms1_0 a t) (hs1_0 a t) (ms1_1 a t) (hs1_1 a t) (ms1_2 a t) (hs1_2 a t) fullShare (tb1_0 a) (tb1_1 a)
        (iblk1 a V c 0 t) (iblk1 a V c 1 t) h1 hc (Decisions.not_last1_of_first1 h1)).1, VO1.read (Elt F) VO1.junk)
  else if h3 : isLast1 (crd1 a t) then
    if hc : isActive1 (F := F) (tb1_0 a) (tb1_1 a) (crd1 a t) then
      ((kernelRun1_E c (crd1 a t) (ms1_0 a t) (hs1_0 a t) (ms1_1 a t) (hs1_1 a t) (ms1_2 a t) (hs1_2 a t) fullShare (tb1_0 a) (tb1_1 a)
        (iblk1 a V c 0 t) (iblk1 a V c 1 t) prev h1 hc h3).2.1,
       out1_E c (crd1 a t) (ms1_0 a t) (hs1_0 a t) (ms1_1 a t) (hs1_1 a t) (ms1_2 a t) (hs1_2 a t) fullShare (tb1_0 a) (tb1_1 a)
        (iblk1 a V c 0 t) (iblk1 a V c 1 t) prev h1 hc h3)
    else
      ((kernelRun1_G c (crd1 a t) (ms1_0 a t) (hs1_0 a t) (ms1_1 a t) (hs1_1 a t) (ms1_2 a t) (hs1_2 a t) fullShare (tb1_0 a) (tb1_1 a)
        (iblk1 a V c 0 t) (iblk1 a V c 1 t) prev h1 hc h3).2.1,
       out1_G c (crd1 a t) (ms1_0 a t) (hs1_0 a t) (ms1_1 a t) (hs1_1 a t) (ms1_2 a t) (hs1_2 a t) fullShare (tb1_0 a) (tb1_1 a)
        (iblk1 a V c 0 t) (iblk1 a V c 1 t) prev h1 hc h3)
  else
    if hc : isActive1 (F := F) (tb1_0 a) (tb1_1 a) (crd1 a t) then
      ((kernelRun1_C c (crd1 a t) (ms1_0 a t) (hs1_0 a t) (ms1_1 a t) (hs1_1 a t) (ms1_2 a t) (hs1_2 a t) fullShare (tb1_0 a) (tb1_1 a)
        (iblk1 a V c 0 t) (iblk1 a V c 1 t) prev h1 hc h3).1, VO1.read (Elt F) VO1.junk)
    else
      ((kernelRun1_D c (crd1 a t) (ms1_0 a t) (hs1_0 a t) (ms1_1 a t) (hs1_1 a t) (ms1_2 a t) (hs1_2 a t) fullShare (tb1_0 a) (tb1_1 a)
        (iblk1 a V c 0 t) (iblk1 a V c 1 t) prev h1 hc h3).1, VO1.read (Elt F) VO1.junk)

/-- The accumulator's contents BEFORE position `n` (junk before the first point, which clears it). -/
def acc1 (c : Dev nD) : ℕ → ScrBuf1 (F := F) c
  | 0 => (View.whole cc1_scratch0).junk
  | n + 1 => if h : n < (cfgA1 a).N then (step1 a V c ⟨n, h⟩ (acc1 c n)).1 else acc1 c n

theorem acc1_succ (c : Dev nD) (t : Fin (cfgA1 a).N) : acc1 a V c (t.val + 1) = (step1 a V c t (acc1 a V c t.val)).1 := by
  rw [acc1, dif_pos t.isLt]

/-- What the output block holds after point `t`. -/
def out1At (c : Dev nD) (t : Fin (cfgA1 a).N) : S1024x64.Idx → Elt F .f32 := (step1 a V c t (acc1 a V c t.val)).2

/-- The tables as the region holds them, one by one. -/
theorem prefHeld1_eq (c : Dev nD) (q : Fin 2 → PosShare TreeShare) (v : pre1.Contents (Elt F)) :
    (Pipeline.prefHeld (Ix := Unit) (Name := ℕ) (U := Pipeline.UD sig nD τ) (Lvl := ℕ) pre1 c q v : sProp 𝕄)
      = iprop((((c : Thread nD τ).loc main_v49) ↦{q 0} v 0) ∗ (((c : Thread nD τ).loc main_v50) ↦{q 1} v 1)) := by
  unfold Pipeline.prefHeld
  rw [show (Finset.univ : Finset (Fin 2)) = {(0 : Fin 2), (1 : Fin 2)} from by decide, bigSep_insert (by decide), bigSep_singleton]
  rfl

/-- The scoped buffers of the core that are neither a staging buffer of this call nor its accumulator. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- THE INVARIANT before position `t`: the accumulator at what the trajectory says (anything before the first point),
    the two tables, the other scoped buffers. -/
def Phi1 (c : Dev nD) (t : Fin ((cfgA1 a).N + 1)) : sProp 𝕄 :=
  iprop((∃ x, ⌜t.val ≠ 0 → x = acc1 a V c t.val⌝ ∗ (scM1_0.view.loc (c : Thread nD τ) ↦{fullShare} x))
    ∗ (tbM1_0.view.loc (c : Thread nD τ) ↦{fullShare} tb1_0 a) ∗ (tbM1_1.view.loc (c : Thread nD τ) ↦{fullShare} tb1_1 a)
    ∗ others1 c)

/-- The proof data of the scatter call on core `c`, at the contents `V` the region is entered with. -/
def dat1 (c : Dev nD) : Dat τ (Elt F) Unit ℕ (Pipeline.UD sig nD τ) ℕ (cfgA1 a) c where
  A w := V c (Pipeline.arrRef spec1 w)
  after w t := match w with
    | ⟨0, _⟩ => iblk1 a V c 0 t
    | ⟨1, _⟩ => iblk1 a V c 1 t
    | ⟨2, _⟩ => out1At a V c t
  Φ t := Phi1 a V c t
  q _ := fullShare
  owed _ := 0

theorem A_eq1 (c : Dev nD) (w : Fin (cfgA1 a).W) : (dat1 a V c).A w = V c (Pipeline.arrRef spec1 w) := by dsimp only [dat1]
theorem after1_0 (c : Dev nD) (t : Fin (cfgA1 a).N) : (dat1 a V c).after 0 t = iblk1 a V c 0 t := rfl
theorem after1_1 (c : Dev nD) (t : Fin (cfgA1 a).N) : (dat1 a V c).after 1 t = iblk1 a V c 1 t := rfl
theorem after1_2 (c : Dev nD) (t : Fin (cfgA1 a).N) : (dat1 a V c).after 2 t = out1At a V c t := rfl

/-- Each input window's current staging buffer holds its block at every point, fetched there or not. -/
theorem before1_0 (c : Dev nD) (t : Fin (cfgA1 a).N) (d) : (dat1 a V c).before (0 : Fin 3) t d = iblk1 a V c 0 t :=
  ((dat1 a V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin (cfgA1 a).N) (d) : (dat1 a V c).before (1 : Fin 3) t d = iblk1 a V c 1 t :=
  ((dat1 a V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! ## The schedule of the output window -/

theorem crd1_val0 (t : Fin (cfgA1 a).N) : (crd1 a t 0).val = t.val / 489 % 98 := rfl
theorem crd1_val1 (t : Fin (cfgA1 a).N) : (crd1 a t 1).val = t.val % 489 := by
  show t.val / 1 % 489 = _
  rw [Nat.div_one]

/-- At a point that is not the last along the accumulated axis the output block is not written back: the next point has
    the same node block. -/
theorem flush2_of_not_last (t : Fin (cfgA1 a).N) (h3 : ¬ isLast1 (crd1 a t)) : ((cfgA1 a).win (2 : Fin 3)).flush t = false := by
  have hj : t.val % 489 ≠ 488 := fun h => h3 ((Decisions.isLast1_iff _).2 ((crd1_val1 a t).trans h))
  have hN : (cfgA1 a).N = 47922 := N_1
  have hN' : (cfgA1 a).grid.N = 47922 := N_1
  have htN := t.isLt
  unfold Window.flush
  rw [isOut1_2, Bool.true_and, Bool.or_eq_false_iff]
  refine ⟨decide_eq_false (by omega), decide_eq_false ?_⟩
  rintro ⟨h, hne⟩
  apply hne
  rw [index1_2, index1_2]
  unfold cc1_transform_2
  dsimp only
  have e : (crd1 a ⟨t.val + 1, h⟩ 0).val = (crd1 a t 0).val := by
    rw [crd1_val0, crd1_val0]; show (t.val + 1) / 489 % 98 = t.val / 489 % 98
    have : (t.val + 1) / 489 = t.val / 489 := by omega
    rw [this]
  rw [e]

/-- The first position is a first point. -/
theorem isFirst1_of_zero (t : Fin (cfgA1 a).N) (h0 : t.val = 0) : isFirst1 (crd1 a t) :=
  (Decisions.isFirst1_iff _).2 (by rw [crd1_val1, h0])

/-! ## The trajectory's step, path by path -/

theorem step1_A (c : Dev nD) (t : Fin (cfgA1 a).N) (prev : ScrBuf1 (F := F) c) (h1 : isFirst1 (crd1 a t)) (hc : isActive1 (F := F) (tb1_0 a) (tb1_1 a) (crd1 a t)) :
    step1 a V c t prev = ((kernelRun1_A c (crd1 a t) (ms1_0 a t) (hs1_0 a t) (ms1_1 a t) (hs1_1 a t) (ms1_2 a t) (hs1_2 a t) fullShare (tb1_0 a) (tb1_1 a)
        (iblk1 a V c 0 t) (iblk1 a V c 1 t) h1 hc (Decisions.not_last1_of_first1 h1)).1, VO1.read (Elt F) VO1.junk) := by
  unfold step1; rw [dif_pos h1, dif_pos hc]
theorem step1_B (c : Dev nD) (t : Fin (cfgA1 a).N) (prev : ScrBuf1 (F := F) c) (h1 : isFirst1 (crd1 a t)) (hc : ¬ isActive1 (F := F) (tb1_0 a) (tb1_1 a) (crd1 a t)) :
    step1 a V c t prev = ((kernelRun1_B c (crd1 a t) (ms1_0 a t) (hs1_0 a t) (ms1_1 a t) (hs1_1 a t) (ms1_2 a t) (hs1_2 a t) fullShare (tb1_0 a) (tb1_1 a)
        (iblk1 a V c 0 t) (iblk1 a V c 1 t) h1 hc (Decisions.not_last1_of_first1 h1)).1, VO1.read (Elt F) VO1.junk) := by
  unfold step1; rw [dif_pos h1, dif_neg hc]
theorem step1_C (c : Dev nD) (t : Fin (cfgA1 a).N) (prev : ScrBuf1 (F := F) c) (h1 : ¬ isFirst1 (crd1 a t)) (hc : isActive1 (F := F) (tb1_0 a) (tb1_1 a) (crd1 a t)) (h3 : ¬ isLast1 (crd1 a t)) :
    step1 a V c t prev = ((kernelRun1_C c (crd1 a t) (ms1_0 a t) (hs1_0 a t) (ms1_1 a t) (hs1_1 a t) (ms1_2 a t) (hs1_2 a t) fullShare (tb1_0 a) (tb1_1 a)
        (iblk1 a V c 0 t) (iblk1 a V c 1 t) prev h1 hc h3).1, VO1.read (Elt F) VO1.junk) := by
  unfold step1; rw [dif_neg h1, dif_neg h3, dif_pos hc]
theorem step1_D (c : Dev nD) (t : Fin (cfgA1 a).N) (prev : ScrBuf1 (F := F) c) (h1 : ¬ isFirst1 (crd1 a t)) (hc : ¬ isActive1 (F := F) (tb1_0 a) (tb1_1 a) (crd1 a t)) (h3 : ¬ isLast1 (crd1 a t)) :
    step1 a V c t prev = ((kernelRun1_D c (crd1 a t) (ms1_0 a t) (hs1_0 a t) (ms1_1 a t) (hs1_1 a t) (ms1_2 a t) (hs1_2 a t) fullShare (tb1_0 a) (tb1_1 a)
        (iblk1 a V c 0 t) (iblk1 a V c 1 t) prev h1 hc h3).1, VO1.read (Elt F) VO1.junk) := by
  unfold step1; rw [dif_neg h1, dif_neg h3, dif_neg hc]
theorem step1_E (c : Dev nD) (t : Fin (cfgA1 a).N) (prev : ScrBuf1 (F := F) c) (h1 : ¬ isFirst1 (crd1 a t)) (hc : isActive1 (F := F) (tb1_0 a) (tb1_1 a) (crd1 a t)) (h3 : isLast1 (crd1 a t)) :
    step1 a V c t prev = ((kernelRun1_E c (crd1 a t) (ms1_0 a t) (hs1_0 a t) (ms1_1 a t) (hs1_1 a t) (ms1_2 a t) (hs1_2 a t) fullShare (tb1_0 a) (tb1_1 a)
        (iblk1 a V c 0 t) (iblk1 a V c 1 t) prev h1 hc h3).2.1,
       out1_E c (crd1 a t) (ms1_0 a t) (hs1_0 a t) (ms1_1 a t) (hs1_1 a t) (ms1_2 a t) (hs1_2 a t) fullShare (tb1_0 a) (tb1_1 a)
        (iblk1 a V c 0 t) (iblk1 a V c 1 t) prev h1 hc h3) := by
  unfold step1; rw [dif_neg h1, dif_pos h3, dif_pos hc]
theorem step1_G (c : Dev nD) (t : Fin (cfgA1 a).N) (prev : ScrBuf1 (F := F) c) (h1 : ¬ isFirst1 (crd1 a t)) (hc : ¬ isActive1 (F := F) (tb1_0 a) (tb1_1 a) (crd1 a t)) (h3 : isLast1 (crd1 a t)) :
    step1 a V c t prev = ((kernelRun1_G c (crd1 a t) (ms1_0 a t) (hs1_0 a t) (ms1_1 a t) (hs1_1 a t) (ms1_2 a t) (hs1_2 a t) fullShare (tb1_0 a) (tb1_1 a)
        (iblk1 a V c 0 t) (iblk1 a V c 1 t) prev h1 hc h3).2.1,
       out1_G c (crd1 a t) (ms1_0 a t) (hs1_0 a t) (ms1_1 a t) (hs1_1 a t) (ms1_2 a t) (hs1_2 a t) fullShare (tb1_0 a) (tb1_1 a)
        (iblk1 a V c 0 t) (iblk1 a V c 1 t) prev h1 hc h3) := by
  unfold step1; rw [dif_neg h1, dif_pos h3, dif_neg hc]

/-! ## The body obligation -/

theorem idle2_of_not_last (t : Fin (cfgA1 a).N) (h3 : ¬ isLast1 (crd1 a t)) : (cfgA1 a).idle (2 : Fin 3) (crd1 a t) = true := by
  rw [idleW1_2]; simp only [Bool.not_eq_true', beq_eq_false_iff_ne, ne_eq]; exact h3
theorem idle2_of_last (t : Fin (cfgA1 a).N) (h3 : isLast1 (crd1 a t)) : (cfgA1 a).idle (2 : Fin 3) (crd1 a t) = false := by
  rw [idleW1_2]; simp only [Bool.not_eq_false', beq_iff_eq]; exact h3

set_option maxHeartbeats 4000000 in
/-- The body at any point: the decisions there tell the path; the inputs hold their blocks, the accumulator what the
    trajectory says; the path's run applies and leaves what the trajectory says next. -/
theorem sound_body1 (c : Dev nD) (t : Fin (cfgA1 a).N) :
    iprop((dat1 a V c).Φ t.castSucc ∗ (dat1 a V c).owesAt () t.castSucc
        ∗ (∃ d, owns (c : Thread nD τ) (ms1_0 a t) fullShare ((dat1 a V c).before (0 : Fin 3) t d))
        ∗ (∃ d, owns (c : Thread nD τ) (ms1_1 a t) fullShare ((dat1 a V c).before (1 : Fin 3) t d))
        ∗ (∃ d, owns (c : Thread nD τ) (ms1_2 a t) fullShare ((dat1 a V c).before (2 : Fin 3) t d)))
      ⊢ wp frame (wpE (defs₀ (F := F)) Variants.none c none) Set.univ (bodyAt1 a t) fun _ =>
          iprop((dat1 a V c).Φ t.succ ∗ (dat1 a V c).owesAt () t.succ
            ∗ bigSep Finset.univ fun w : Fin (cfgA1 a).W =>
                match (cfgA1 a).idle w ((cfgA1 a).grid.coords t) with
                | true =>
                  match ((cfgA1 a).win w).flush t with
                  | false => iprop(∃ d, owns (c : Thread nD τ) (((cfgA1 a).win w).stage ((cfgA1 a).slots t w)) fullShare ((dat1 a V c).before w t d))
                  | true => owns (c : Thread nD τ) (((cfgA1 a).win w).stage ((cfgA1 a).slots t w)) fullShare ((dat1 a V c).after w t)
                | false => owns (c : Thread nD τ) (((cfgA1 a).win w).stage ((cfgA1 a).slots t w)) fullShare ((dat1 a V c).after w t)) := by
  rw [bigSep_W1]
  rewrite [show (cfgA1 a).idle (0 : Fin 3) ((cfgA1 a).grid.coords t) = false from rfl]
  try rewrite [show (cfgA1 a).idle (1 : Fin 3) ((cfgA1 a).grid.coords t) = false from rfl]
  rewrite [show (dat1 a V c).Φ t.succ = Phi1 a V c t.succ from rfl, show (dat1 a V c).Φ t.castSucc = Phi1 a V c t.castSucc from rfl,
    show (dat1 a V c).owesAt () t.succ = (dat1 a V c).owesAt () t.castSucc from rfl]
  by_cases h1 : isFirst1 (crd1 a t)
  · have h3 : ¬ isLast1 (crd1 a t) := Decisions.not_last1_of_first1 h1
    by_cases hc : isActive1 (F := F) (tb1_0 a) (tb1_1 a) (crd1 a t)
    ·
      rewrite [show (cfgA1 a).idle (2 : Fin 3) ((cfgA1 a).grid.coords t) = true from idle2_of_not_last a t h3, flush2_of_not_last a t h3]
      simp only [before1_0, before1_1, after1_0, after1_1, after1_2]
      unfold Phi1
      simp only [Fin.val_castSucc, Fin.val_succ]
      iintro ⟨⟨⟨%x, %hx, HS0⟩, HT0, HT1, Hoth⟩, Ho, ⟨%d0, H0⟩, ⟨%d1, H1⟩, ⟨%d2, H2⟩⟩
      iapply ((kernelRun1_A c (crd1 a t) (ms1_0 a t) (hs1_0 a t) (ms1_1 a t) (hs1_1 a t) (ms1_2 a t) (hs1_2 a t) fullShare (tb1_0 a) (tb1_1 a)
        (iblk1 a V c 0 t) (iblk1 a V c 1 t) h1 hc h3).2 _ x _)
      isplitl [H0]; · iapply rep_of_owns; iexact H0
      isplitl [H1]; · iapply rep_of_owns; iexact H1
      isplitl [HT0]; · iexact HT0
      isplitl [HT1]; · iexact HT1
      isplitl [H2]; · iexact H2
      isplitl [HS0]; · iexact HS0
      iintro ⟨H0, H1, HT0, HT1, H2, HS0⟩
      isplitl [HS0 HT0 HT1 Hoth]
      · isplitl [HS0]
        · iexists _; isplitr; swap
          · iexact HS0
          · ipureintro; intro _; rw [acc1_succ, step1_A a V c t _ h1 hc]
        isplitl [HT0]; · iexact HT0
        isplitl [HT1]; · iexact HT1
        iexact Hoth
      isplitl [Ho]; · iexact Ho
      isplitl [H0]; · iapply owns_of_rep; iexact H0
      isplitl [H1]; · iapply owns_of_rep; iexact H1
      iexists d2; iexact H2
    ·
      rewrite [show (cfgA1 a).idle (2 : Fin 3) ((cfgA1 a).grid.coords t) = true from idle2_of_not_last a t h3, flush2_of_not_last a t h3]
      simp only [before1_0, before1_1, after1_0, after1_1, after1_2]
      unfold Phi1
      simp only [Fin.val_castSucc, Fin.val_succ]
      iintro ⟨⟨⟨%x, %hx, HS0⟩, HT0, HT1, Hoth⟩, Ho, ⟨%d0, H0⟩, ⟨%d1, H1⟩, ⟨%d2, H2⟩⟩
      iapply ((kernelRun1_B c (crd1 a t) (ms1_0 a t) (hs1_0 a t) (ms1_1 a t) (hs1_1 a t) (ms1_2 a t) (hs1_2 a t) fullShare (tb1_0 a) (tb1_1 a)
        (iblk1 a V c 0 t) (iblk1 a V c 1 t) h1 hc h3).2 _ x _)
      isplitl [H0]; · iapply rep_of_owns; iexact H0
      isplitl [H1]; · iapply rep_of_owns; iexact H1
      isplitl [HT0]; · iexact HT0
      isplitl [HT1]; · iexact HT1
      isplitl [H2]; · iexact H2
      isplitl [HS0]; · iexact HS0
      iintro ⟨H0, H1, HT0, HT1, H2, HS0⟩
      isplitl [HS0 HT0 HT1 Hoth]
      · isplitl [HS0]
        · iexists _; isplitr; swap
          · iexact HS0
          · ipureintro; intro _; rw [acc1_succ, step1_B a V c t _ h1 hc]
        isplitl [HT0]; · iexact HT0
        isplitl [HT1]; · iexact HT1
        iexact Hoth
      isplitl [Ho]; · iexact Ho
      isplitl [H0]; · iapply owns_of_rep; iexact H0
      isplitl [H1]; · iapply owns_of_rep; iexact H1
      iexists d2; iexact H2
  · have hx0 : t.val ≠ 0 := fun h0 => h1 (isFirst1_of_zero a t h0)
    by_cases h3 : isLast1 (crd1 a t)
    · by_cases hc : isActive1 (F := F) (tb1_0 a) (tb1_1 a) (crd1 a t)
      ·
        rewrite [show (cfgA1 a).idle (2 : Fin 3) ((cfgA1 a).grid.coords t) = false from idle2_of_last a t h3]
        simp only [before1_0, before1_1, after1_0, after1_1, after1_2]
        unfold Phi1
        simp only [Fin.val_castSucc, Fin.val_succ]
        iintro ⟨⟨⟨%x, %hx, HS0⟩, HT0, HT1, Hoth⟩, Ho, ⟨%d0, H0⟩, ⟨%d1, H1⟩, ⟨%d2, H2⟩⟩
        obtain rfl := hx hx0
        iapply ((kernelRun1_E c (crd1 a t) (ms1_0 a t) (hs1_0 a t) (ms1_1 a t) (hs1_1 a t) (ms1_2 a t) (hs1_2 a t) fullShare (tb1_0 a) (tb1_1 a)
        (iblk1 a V c 0 t) (iblk1 a V c 1 t) (acc1 a V c t.val) h1 hc h3).2.2 _)
        isplitl [H0]; · iapply rep_of_owns; iexact H0
        isplitl [H1]; · iapply rep_of_owns; iexact H1
        isplitl [HT0]; · iexact HT0
        isplitl [HT1]; · iexact HT1
        isplitl [H2]; · iexists _; iexact H2
        isplitl [HS0]; · iexact HS0
        iintro ⟨H0, H1, HT0, HT1, ⟨%e2, H2⟩, HS0⟩
        isplitl [HS0 HT0 HT1 Hoth]
        · isplitl [HS0]
          · iexists _; isplitr; swap
            · iexact HS0
            · ipureintro; intro _; rw [acc1_succ, step1_E a V c t _ h1 hc h3]
          isplitl [HT0]; · iexact HT0
          isplitl [HT1]; · iexact HT1
          iexact Hoth
        isplitl [Ho]; · iexact Ho
        isplitl [H0]; · iapply owns_of_rep; iexact H0
        isplitl [H1]; · iapply owns_of_rep; iexact H1
        unfold out1At; rw [step1_E a V c t _ h1 hc h3]; dsimp only; unfold out1_E
        unfold owns; iexists _; isplitr
        swap; · iexact H2
        ipureintro; exact View.read_writes_of_cover _ _ _ _ _ (cover1_E c (crd1 a t) (ms1_0 a t) (hs1_0 a t) (ms1_1 a t) (hs1_1 a t) (ms1_2 a t) (hs1_2 a t) fullShare (tb1_0 a) (tb1_1 a)
        (iblk1 a V c 0 t) (iblk1 a V c 1 t) (acc1 a V c t.val) h1 hc h3)
      ·
        rewrite [show (cfgA1 a).idle (2 : Fin 3) ((cfgA1 a).grid.coords t) = false from idle2_of_last a t h3]
        simp only [before1_0, before1_1, after1_0, after1_1, after1_2]
        unfold Phi1
        simp only [Fin.val_castSucc, Fin.val_succ]
        iintro ⟨⟨⟨%x, %hx, HS0⟩, HT0, HT1, Hoth⟩, Ho, ⟨%d0, H0⟩, ⟨%d1, H1⟩, ⟨%d2, H2⟩⟩
        obtain rfl := hx hx0
        iapply ((kernelRun1_G c (crd1 a t) (ms1_0 a t) (hs1_0 a t) (ms1_1 a t) (hs1_1 a t) (ms1_2 a t) (hs1_2 a t) fullShare (tb1_0 a) (tb1_1 a)
        (iblk1 a V c 0 t) (iblk1 a V c 1 t) (acc1 a V c t.val) h1 hc h3).2.2 _)
        isplitl [H0]; · iapply rep_of_owns; iexact H0
        isplitl [H1]; · iapply rep_of_owns; iexact H1
        isplitl [HT0]; · iexact HT0
        isplitl [HT1]; · iexact HT1
        isplitl [H2]; · iexists _; iexact H2
        isplitl [HS0]; · iexact HS0
        iintro ⟨H0, H1, HT0, HT1, ⟨%e2, H2⟩, HS0⟩
        isplitl [HS0 HT0 HT1 Hoth]
        · isplitl [HS0]
          · iexists _; isplitr; swap
            · iexact HS0
            · ipureintro; intro _; rw [acc1_succ, step1_G a V c t _ h1 hc h3]
          isplitl [HT0]; · iexact HT0
          isplitl [HT1]; · iexact HT1
          iexact Hoth
        isplitl [Ho]; · iexact Ho
        isplitl [H0]; · iapply owns_of_rep; iexact H0
        isplitl [H1]; · iapply owns_of_rep; iexact H1
        unfold out1At; rw [step1_G a V c t _ h1 hc h3]; dsimp only; unfold out1_G
        unfold owns; iexists _; isplitr
        swap; · iexact H2
        ipureintro; exact View.read_writes_of_cover _ _ _ _ _ (cover1_G c (crd1 a t) (ms1_0 a t) (hs1_0 a t) (ms1_1 a t) (hs1_1 a t) (ms1_2 a t) (hs1_2 a t) fullShare (tb1_0 a) (tb1_1 a)
        (iblk1 a V c 0 t) (iblk1 a V c 1 t) (acc1 a V c t.val) h1 hc h3)
    · by_cases hc : isActive1 (F := F) (tb1_0 a) (tb1_1 a) (crd1 a t)
      ·
        rewrite [show (cfgA1 a).idle (2 : Fin 3) ((cfgA1 a).grid.coords t) = true from idle2_of_not_last a t h3, flush2_of_not_last a t h3]
        simp only [before1_0, before1_1, after1_0, after1_1, after1_2]
        unfold Phi1
        simp only [Fin.val_castSucc, Fin.val_succ]
        iintro ⟨⟨⟨%x, %hx, HS0⟩, HT0, HT1, Hoth⟩, Ho, ⟨%d0, H0⟩, ⟨%d1, H1⟩, ⟨%d2, H2⟩⟩
        obtain rfl := hx hx0
        iapply ((kernelRun1_C c (crd1 a t) (ms1_0 a t) (hs1_0 a t) (ms1_1 a t) (hs1_1 a t) (ms1_2 a t) (hs1_2 a t) fullShare (tb1_0 a) (tb1_1 a)
        (iblk1 a V c 0 t) (iblk1 a V c 1 t) (acc1 a V c t.val) h1 hc h3).2 _ _)
        isplitl [H0]; · iapply rep_of_owns; iexact H0
        isplitl [H1]; · iapply rep_of_owns; iexact H1
        isplitl [HT0]; · iexact HT0
        isplitl [HT1]; · iexact HT1
        isplitl [H2]; · iexact H2
        isplitl [HS0]; · iexact HS0
        iintro ⟨H0, H1, HT0, HT1, H2, HS0⟩
        isplitl [HS0 HT0 HT1 Hoth]
        · isplitl [HS0]
          · iexists _; isplitr; swap
            · iexact HS0
            · ipureintro; intro _; rw [acc1_succ, step1_C a V c t _ h1 hc h3]
          isplitl [HT0]; · iexact HT0
          isplitl [HT1]; · iexact HT1
          iexact Hoth
        isplitl [Ho]; · iexact Ho
        isplitl [H0]; · iapply owns_of_rep; iexact H0
        isplitl [H1]; · iapply owns_of_rep; iexact H1
        iexists d2; iexact H2
      ·
        rewrite [show (cfgA1 a).idle (2 : Fin 3) ((cfgA1 a).grid.coords t) = true from idle2_of_not_last a t h3, flush2_of_not_last a t h3]
        simp only [before1_0, before1_1, after1_0, after1_1, after1_2]
        unfold Phi1
        simp only [Fin.val_castSucc, Fin.val_succ]
        iintro ⟨⟨⟨%x, %hx, HS0⟩, HT0, HT1, Hoth⟩, Ho, ⟨%d0, H0⟩, ⟨%d1, H1⟩, ⟨%d2, H2⟩⟩
        obtain rfl := hx hx0
        iapply ((kernelRun1_D c (crd1 a t) (ms1_0 a t) (hs1_0 a t) (ms1_1 a t) (hs1_1 a t) (ms1_2 a t) (hs1_2 a t) fullShare (tb1_0 a) (tb1_1 a)
        (iblk1 a V c 0 t) (iblk1 a V c 1 t) (acc1 a V c t.val) h1 hc h3).2 _ _)
        isplitl [H0]; · iapply rep_of_owns; iexact H0
        isplitl [H1]; · iapply rep_of_owns; iexact H1
        isplitl [HT0]; · iexact HT0
        isplitl [HT1]; · iexact HT1
        isplitl [H2]; · iexact H2
        isplitl [HS0]; · iexact HS0
        iintro ⟨H0, H1, HT0, HT1, H2, HS0⟩
        isplitl [HS0 HT0 HT1 Hoth]
        · isplitl [HS0]
          · iexists _; isplitr; swap
            · iexact HS0
            · ipureintro; intro _; rw [acc1_succ, step1_D a V c t _ h1 hc h3]
          isplitl [HT0]; · iexact HT0
          isplitl [HT1]; · iexact HT1
          iexact Hoth
        isplitl [Ho]; · iexact Ho
        isplitl [H0]; · iapply owns_of_rep; iexact H0
        isplitl [H1]; · iapply owns_of_rep; iexact H1
        iexists d2; iexact H2

/-- The library's body obligation, at every point. -/
theorem body_obligation1 (c : Dev nD) : BodyObligation (dat1 (F := F) a V c) (defs₀ (F := F)) Variants.none () Set.univ := fun t => by
  rw [bigSep_W1]
  exact sound_body1 a V c t

end Cert.KernelIdeal.Gen

end
-- ==== Proof.Run.lean ====
/-
  The run of the kernel's whole program: host operations, the gather call, host operations, the scatter call, a slice.

  The contents of every buffer at each boundary between two items of the program are a fold from the launch memory:
  a stretch of host operations applies its operations; a call leaves each of its arrays at what its write-backs leave
  (the inputs as entered) and every other buffer as it was.  Each call is entered with the two tables the host
  computed just before it, which the call's invariant holds while it runs and gives back; the accumulator and the
  core's other scoped buffers are held at some contents around the call.  From the two calls' body obligations the
  composition rule for a program of several calls gives: from any memory, every weakly fair execution terminates
  without a fault, the result buffer ends at the last boundary's contents, and every argument array ends as
  launched — no host operation writes an argument and no call has one among its arrays.
-/
import proofs.«179733_j56453050138798_2_alg».proof.Proof.GatherData
import proofs.«179733_j56453050138798_2_alg».proof.Proof.ScatterData
import proofs.«179733_j56453050138798_2_alg».proof.Proof.Gen.KernelIdeal.Regions
import Idealize.ShloMosaic.Lib.Pipeline.FrameBody
import Idealize.ShloMosaic.Lib.Pipeline.Kit
import Idealize.ShloMosaic.Lib.Pipeline.Regions
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-! # The run of @main: the buffers' contents at every boundary, a fold from the launch memory -/

variable (m : (ℓ : Loc nD τ sig) → Buf (Elt F) ℓ) (ρ : Dev nD → PrngReg)

abbrev W0 : Dev nD → Valuation τ sig (Elt F) := fun c b => m ((c : Dev nD), b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
abbrev W4 (c : Dev nD) : Valuation τ sig (Elt F) := StableHlo.after hostOps0_3 (W3 m c)
abbrev W5 (c : Dev nD) : Valuation τ sig (Elt F) := StableHlo.after hostOps0_4 (W4 m c)
abbrev W6 (c : Dev nD) : Valuation τ sig (Elt F) := StableHlo.after hostOps0_5 (W5 m c)
abbrev W7 (c : Dev nD) : Valuation τ sig (Elt F) := StableHlo.after hostOps0_6 (W6 m c)
abbrev W8 (c : Dev nD) : Valuation τ sig (Elt F) := StableHlo.after hostOps0_7 (W7 m c)
abbrev W9 (c : Dev nD) : Valuation τ sig (Elt F) := StableHlo.after hostOps0_8 (W8 m c)
abbrev W10 (c : Dev nD) : Valuation τ sig (Elt F) := StableHlo.after hostOps0_9 (W9 m c)
/-- The contents the gather call is entered with. -/
def W11 (c : Dev nD) : Valuation τ sig (Elt F) := StableHlo.after hostOps0_10 (W10 m c)
abbrev E11 : (c : Dev nD) → (b : Ref sig .tc) → Buf (Elt F) ((c : Thread nD τ).loc b) := fun c b => W11 m c b

/-- The gather call's two tables: what the host wrote into them before the call. -/
def adm0 : (pcfg0 (F := F)).Adm := ⟨fun | 0 => E11 m (0 : Dev nD) main_v28 | 1 => E11 m (0 : Dev nD) main_v29 | ⟨_ + 2, h⟩ => absurd h (Nat.not_lt.2 (Nat.le_add_left _ _)), trivial⟩

/-- After the gather call: its arrays at what its write-backs leave, every other buffer as entered. -/
def W12 (c : Dev nD) : Valuation τ sig (Elt F) :=
  Pipeline.withArrays spec0 c (W11 m c) fun w => (dat0 (adm0 m) (E11 m) c).arrAt w (cfgA0 (adm0 m)).N
abbrev E12 : (c : Dev nD) → (b : Ref sig .tc) → Buf (Elt F) ((c : Thread nD τ).loc b) := fun c b => W12 m c b
abbrev W13 (c : Dev nD) : Valuation τ sig (Elt F) := StableHlo.after hostOps1 (W12 m c)
/-- The contents the scatter call is entered with. -/
def W14 (c : Dev nD) : Valuation τ sig (Elt F) := StableHlo.after hostOps1_1 (W13 m c)
abbrev E14 : (c : Dev nD) → (b : Ref sig .tc) → Buf (Elt F) ((c : Thread nD τ).loc b) := fun c b => W14 m c b
def adm1 : (pcfg1 (F := F)).Adm := ⟨fun | 0 => E14 m (0 : Dev nD) main_v49 | 1 => E14 m (0 : Dev nD) main_v50 | ⟨_ + 2, h⟩ => absurd h (Nat.not_lt.2 (Nat.le_add_left _ _)), trivial⟩
def W15 (c : Dev nD) : Valuation τ sig (Elt F) :=
  Pipeline.withArrays spec1 c (W14 m c) fun w => (dat1 (adm1 m) (E14 m) c).arrAt w (cfgA1 (adm1 m)).N
abbrev E15 : (c : Dev nD) → (b : Ref sig .tc) → Buf (Elt F) ((c : Thread nD τ).loc b) := fun c b => W15 m c b
/-- The contents @main returns with. -/
def W16 (c : Dev nD) : Valuation τ sig (Elt F) := StableHlo.after hostOps2 (W15 m c)

theorem W12_arr (c : Dev nD) (w : Fin (cfgA0 (adm0 m)).W) :
    W12 m c (Proc.devRef .tc (Pipeline.arrRef spec0 w)) = (dat0 (adm0 m) (E11 m) c).arrAt w (cfgA0 (adm0 m)).N := by
  unfold W12; exact Pipeline.withArrays_arr spec0 (launch0 (F := F)).win.arr_inj c _ _ w
theorem W12_of_ne (c : Dev nD) (b : Ref sig .tc) (hb : ∀ w, Pipeline.arrRef spec0 w ≠ b) :
    W12 m c (Proc.devRef .tc b) = W11 m c (Proc.devRef .tc b) := by
  unfold W12; exact Pipeline.withArrays_of_ne spec0 c _ _ b hb
theorem hF0 (c : Dev nD) (w : Fin (cfgA0 (adm0 m)).W) : (dat0 (adm0 m) (E11 m) c).arrAt w (cfgA0 (adm0 m)).N = E12 m c (Pipeline.arrRef spec0 w) :=
  (W12_arr m c w).symm
theorem hrest0 (c : Dev nD) : ∀ b, b ∉ Finset.univ.image (Pipeline.arrRef spec0) → E12 m c b = E11 m c b :=
  fun b hb => W12_of_ne m c b fun w e => hb (Finset.mem_image.mpr ⟨w, Finset.mem_univ _, e⟩)
theorem W15_arr (c : Dev nD) (w : Fin (cfgA1 (adm1 m)).W) :
    W15 m c (Proc.devRef .tc (Pipeline.arrRef spec1 w)) = (dat1 (adm1 m) (E14 m) c).arrAt w (cfgA1 (adm1 m)).N := by
  unfold W15; exact Pipeline.withArrays_arr spec1 (launch1 (F := F)).win.arr_inj c _ _ w
theorem W15_of_ne (c : Dev nD) (b : Ref sig .tc) (hb : ∀ w, Pipeline.arrRef spec1 w ≠ b) :
    W15 m c (Proc.devRef .tc b) = W14 m c (Proc.devRef .tc b) := by
  unfold W15; exact Pipeline.withArrays_of_ne spec1 c _ _ b hb
theorem hF1 (c : Dev nD) (w : Fin (cfgA1 (adm1 m)).W) : (dat1 (adm1 m) (E14 m) c).arrAt w (cfgA1 (adm1 m)).N = E15 m c (Pipeline.arrRef spec1 w) :=
  (W15_arr m c w).symm
theorem hrest1 (c : Dev nD) : ∀ b, b ∉ Finset.univ.image (Pipeline.arrRef spec1) → E15 m c b = E14 m c b :=
  fun b hb => W15_of_ne m c b fun w e => hb (Finset.mem_image.mpr ⟨w, Finset.mem_univ _, e⟩)

/-! ## The proof data family and the thread state -/

abbrev adm : (p : Fin 2) → (pcfgs (F := F) p).Adm := fun | ⟨0, _⟩ => adm0 m | ⟨1, _⟩ => adm1 m | ⟨_ + 2, h⟩ => absurd h (by omega)

def pdats : (p : Fin 2) → (c : Dev nD) → Dat τ (Elt F) Unit ℕ (Pipeline.UD sig nD τ) ℕ (Pipeline.pin (pcfgs (F := F)) (adm m) p) c
  | ⟨0, _⟩ => fun c => dat0 (adm0 m) (E11 m) c
  | ⟨1, _⟩ => fun c => dat1 (adm1 m) (E14 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The gather call as a segment -/

/-- The two tables among the buffers the gather call bypasses. -/
def H0 : Finset (Ref sig .tc) := {main_v28, main_v29}
theorem H0_sub : H0 ⊆ Pipeline.restRefs sig spec0 := by decide

section
attribute [local irreducible] W11
theorem adm0_0 : (adm0 m).1 (0 : Fin 2) = E11 m 0 main_v28 := rfl
theorem adm0_1 : (adm0 m).1 (1 : Fin 2) = E11 m 0 main_v29 := rfl

/-- The two tables, held whole at the contents the host wrote, are the call's prefetched tables. -/
theorem tables0_eq (c : Dev nD) :
    ((bigSep H0 fun b => ((c : Thread nD τ).loc b) ↦{fullShare} E11 m c b) : sProp 𝕄)
      = Pipeline.prefHeld pre0 c (fun _ => fullShare) (adm0 m).1 := by
  obtain rfl : c = 0 := Fin.fin_one_eq_zero c
  rw [prefHeld0_eq, adm0_0, adm0_1]
  show (bigSep ({main_v28, main_v29} : Finset (Ref sig .tc)) fun b => (((0 : Dev nD) : Thread nD τ).loc b) ↦{fullShare} E11 m 0 b : sProp 𝕄) = _
  rw [bigSep_insert (by decide), bigSep_singleton]
  rfl
end

theorem rest0_split (c : Dev nD) :
    (Pipeline.unscopedRest (Ix := Unit) (Name := ℕ) (U := Pipeline.UD sig nD τ) (Lvl := ℕ) spec0 c (E11 m c) : sProp 𝕄)
      = iprop((bigSep H0 fun b => ((c : Thread nD τ).loc b) ↦{fullShare} E11 m c b) ∗ (bigSep (Pipeline.restRefs sig spec0 \ H0) fun b => ((c : Thread nD τ).loc b) ↦{fullShare} E11 m c b)) := by
  unfold Pipeline.unscopedRest; exact BI.bigSep_sdiff_split H0_sub

set_option backward.isDefEq.respectTransparency.types false in
/-- The gather call over the thread state: entered with every unscoped buffer at the contents the host left, left
    with its arrays at what its write-backs leave; the two tables go into the invariant and come back as they were. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (adm0 m) (E11 m) c).loose
  hwaits := Pipeline.hwaits_of_owed_zero _ _ _ _ L lv 0 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(emp)
  Y c := Pipeline.prefHeld pre0 c (fun _ => fullShare) (adm0 m).1
  Z c := iprop((∃ r, prngReg c r) ∗ bigSep (Pipeline.restRefs sig spec0 \ H0) fun b => ((c : Thread nD τ).loc b) ↦{fullShare} E11 m c b)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    ihave H' := (Entails.of_eq (rest0_split m c)) $$ Hrest
    icases H' with ⟨HH, HR⟩
    ihave HT := (Entails.of_eq (tables0_eq m c)) $$ HH
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact HR
  hin c := by
    show iprop(emp ∗ Pipeline.prefHeld pre0 c (fun _ => fullShare) (adm0 m).1 ∗ Pipeline.scopedRest spec0 c) ⊢ Phi0 (adm0 m) (E11 m) c 0
    rw [prefHeld0_eq, scopedRest0_eq]
    unfold Phi0 others0
    iintro ⟨-, ⟨HT0, HT1⟩, ⟨%f, HS⟩, Hoth⟩
    isplitl [HS]
    · iexists f; isplitr; · ipureintro; intro h; exact absurd rfl h
      iexact HS
    isplitl [HT0]; · iexact HT0
    isplitl [HT1]; · iexact HT1
    iexact Hoth
  hout c := by
    rw [Pipeline.ownSems0_none]
    show Phi0 (adm0 m) (E11 m) c (Fin.last _) ⊢ iprop(Pipeline.prefHeld pre0 c (fun _ => fullShare) (adm0 m).1 ∗ emp ∗ Pipeline.scopedRest spec0 c)
    rw [prefHeld0_eq, scopedRest0_eq]
    unfold Phi0 others0
    iintro ⟨⟨%x, -, HS⟩, HT0, HT1, Hoth⟩
    isplitl [HT0 HT1]
    · isplitl [HT0]; · iexact HT0
      iexact HT1
    isplitr; · iempintro
    isplitl [HS]; · iexists x; iexact HS
    iexact Hoth
  hexit c := by
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole c (pdats m) ((pdats m 0 c).share_full fun _ => rfl)
      (E11 m c) (E12 m c) ((pdats m 0 c).arrAt · (cfgA0 (adm0 m)).N) (hF0 m c) (hrest0 m c)
    rw [Pipeline.unscopedBufs_held] at hjoin
    iintro ⟨Ha, HO, HY, ⟨Hp, HR⟩⟩
    ihave HH := (Entails.of_eq (tables0_eq m c).symm) $$ HY
    ihave Hrest := (Entails.of_eq (rest0_split m c).symm) $$ [HH HR]
    · isplitl [HH]; · iexact HH
      iexact HR
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## The scatter call as a segment -/

/-- The two tables among the buffers the scatter call bypasses. -/
def H1 : Finset (Ref sig .tc) := {main_v49, main_v50}
theorem H1_sub : H1 ⊆ Pipeline.restRefs sig spec1 := by decide

section
attribute [local irreducible] W14
theorem adm1_0 : (adm1 m).1 (0 : Fin 2) = E14 m 0 main_v49 := rfl
theorem adm1_1 : (adm1 m).1 (1 : Fin 2) = E14 m 0 main_v50 := rfl

/-- The two tables, held whole at the contents the host wrote, are the call's prefetched tables. -/
theorem tables1_eq (c : Dev nD) :
    ((bigSep H1 fun b => ((c : Thread nD τ).loc b) ↦{fullShare} E14 m c b) : sProp 𝕄)
      = Pipeline.prefHeld pre1 c (fun _ => fullShare) (adm1 m).1 := by
  obtain rfl : c = 0 := Fin.fin_one_eq_zero c
  rw [prefHeld1_eq, adm1_0, adm1_1]
  show (bigSep ({main_v49, main_v50} : Finset (Ref sig .tc)) fun b => (((0 : Dev nD) : Thread nD τ).loc b) ↦{fullShare} E14 m 0 b : sProp 𝕄) = _
  rw [bigSep_insert (by decide), bigSep_singleton]
  rfl
end

theorem rest1_split (c : Dev nD) :
    (Pipeline.unscopedRest (Ix := Unit) (Name := ℕ) (U := Pipeline.UD sig nD τ) (Lvl := ℕ) spec1 c (E14 m c) : sProp 𝕄)
      = iprop((bigSep H1 fun b => ((c : Thread nD τ).loc b) ↦{fullShare} E14 m c b) ∗ (bigSep (Pipeline.restRefs sig spec1 \ H1) fun b => ((c : Thread nD τ).loc b) ↦{fullShare} E14 m c b)) := by
  unfold Pipeline.unscopedRest; exact BI.bigSep_sdiff_split H1_sub

set_option backward.isDefEq.respectTransparency.types false in
/-- The scatter call over the thread state, in the same way. -/
def reg1 : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (adm1 m) (E14 m) c).loose
  hwaits := Pipeline.hwaits_of_owed_zero _ _ _ _ L lv 1 fun _ _ => rfl
  pre c := iprop(StableHlo.held (c : Thread nD τ) (Pipeline.ucRefs τ sig) (W14 m c) ∗ R c)
  post c := iprop(StableHlo.held (c : Thread nD τ) (Pipeline.ucRefs τ sig) (W15 m c) ∗ R c)
  X c := iprop(emp)
  Y c := Pipeline.prefHeld pre1 c (fun _ => fullShare) (adm1 m).1
  Z c := iprop((∃ r, prngReg c r) ∗ bigSep (Pipeline.restRefs sig spec1 \ H1) fun b => ((c : Thread nD τ).loc b) ↦{fullShare} E14 m c b)
  hentry c := by
    rw [Pipeline.ownSems0_none]
    have hsplit := Pipeline.arrays_of_unscopedBufs (p := 1) (pcfgs (F := F)) (adm m) (pdats m) (launch1 (F := F)).win (launch1 (F := F)).arr_whole c
      ((pdats m 1 c).share_full fun _ => rfl) (E14 m c) fun _ => rfl
    rw [Pipeline.unscopedBufs_held] at hsplit
    iintro ⟨⟨Hub, Hp, HO⟩, -, -⟩
    ihave H := hsplit $$ Hub
    icases H with ⟨Ha, Hrest⟩
    ihave H' := (Entails.of_eq (rest1_split m c)) $$ Hrest
    icases H' with ⟨HH, HR⟩
    ihave HT := (Entails.of_eq (tables1_eq m c)) $$ HH
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact HR
  hin c := by
    show iprop(emp ∗ Pipeline.prefHeld pre1 c (fun _ => fullShare) (adm1 m).1 ∗ Pipeline.scopedRest spec1 c) ⊢ Phi1 (adm1 m) (E14 m) c 0
    rw [prefHeld1_eq, scopedRest1_eq]
    unfold Phi1 others1
    iintro ⟨-, ⟨HT0, HT1⟩, HR0, HR1, HR2, HR3, HR4, HR5, HR6, HR7, HR8, ⟨%f, HS⟩⟩
    isplitl [HS]
    · iexists f; isplitr; · ipureintro; intro h; exact absurd rfl h
      iexact HS
    isplitl [HT0]; · iexact HT0
    isplitl [HT1]; · iexact HT1
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    iexact HR8
  hout c := by
    rw [Pipeline.ownSems0_none]
    show Phi1 (adm1 m) (E14 m) c (Fin.last _) ⊢ iprop(Pipeline.prefHeld pre1 c (fun _ => fullShare) (adm1 m).1 ∗ emp ∗ Pipeline.scopedRest spec1 c)
    rw [prefHeld1_eq, scopedRest1_eq]
    unfold Phi1 others1
    iintro ⟨⟨%x, -, HS⟩, HT0, HT1, HR0, HR1, HR2, HR3, HR4, HR5, HR6, HR7, HR8⟩
    isplitl [HT0 HT1]
    · isplitl [HT0]; · iexact HT0
      iexact HT1
    isplitr; · iempintro
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    iexists x; iexact HS
  hexit c := by
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole c (pdats m) ((pdats m 1 c).share_full fun _ => rfl)
      (E14 m c) (E15 m c) ((pdats m 1 c).arrAt · (cfgA1 (adm1 m)).N) (hF1 m c) (hrest1 m c)
    rw [Pipeline.unscopedBufs_held] at hjoin
    iintro ⟨Ha, HO, HY, ⟨Hp, HR⟩⟩
    ihave HH := (Entails.of_eq (tables1_eq m c).symm) $$ HY
    ihave Hrest := (Entails.of_eq (rest1_split m c).symm) $$ [HH HR]
    · isplitl [HH]; · iexact HH
      iexact HR
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## The arguments end as launched -/

theorem W16_main_arg0 (c : Dev nD) : W16 m c (Proc.devRef .tc main_arg0) = m ((c : Thread nD τ).loc main_arg0) :=
  calc W16 m c (Proc.devRef .tc main_arg0)
    _ = W15 m c (Proc.devRef .tc main_arg0) := StableHlo.after_of_writes_sub hostOps2 _ hostOps2_writes (r := main_arg0) (by decide)
    _ = W14 m c (Proc.devRef .tc main_arg0) := W15_of_ne m c main_arg0 (by decide)
    _ = W13 m c (Proc.devRef .tc main_arg0) := StableHlo.after_of_writes_sub hostOps1_1 _ hostOps1_1_writes (r := main_arg0) (by decide)
    _ = W12 m c (Proc.devRef .tc main_arg0) := StableHlo.after_of_writes_sub hostOps1 _ hostOps1_writes (r := main_arg0) (by decide)
    _ = W11 m c (Proc.devRef .tc main_arg0) := W12_of_ne m c main_arg0 (by decide)
    _ = W10 m c (Proc.devRef .tc main_arg0) := StableHlo.after_of_writes_sub hostOps0_10 _ hostOps0_10_writes (r := main_arg0) (by decide)
    _ = W9 m c (Proc.devRef .tc main_arg0) := StableHlo.after_of_writes_sub hostOps0_9 _ hostOps0_9_writes (r := main_arg0) (by decide)
    _ = W8 m c (Proc.devRef .tc main_arg0) := StableHlo.after_of_writes_sub hostOps0_8 _ hostOps0_8_writes (r := main_arg0) (by decide)
    _ = W7 m c (Proc.devRef .tc main_arg0) := StableHlo.after_of_writes_sub hostOps0_7 _ hostOps0_7_writes (r := main_arg0) (by decide)
    _ = W6 m c (Proc.devRef .tc main_arg0) := StableHlo.after_of_writes_sub hostOps0_6 _ hostOps0_6_writes (r := main_arg0) (by decide)
    _ = W5 m c (Proc.devRef .tc main_arg0) := StableHlo.after_of_writes_sub hostOps0_5 _ hostOps0_5_writes (r := main_arg0) (by decide)
    _ = W4 m c (Proc.devRef .tc main_arg0) := StableHlo.after_of_writes_sub hostOps0_4 _ hostOps0_4_writes (r := main_arg0) (by decide)
    _ = W3 m c (Proc.devRef .tc main_arg0) := StableHlo.after_of_writes_sub hostOps0_3 _ hostOps0_3_writes (r := main_arg0) (by decide)
    _ = W2 m c (Proc.devRef .tc main_arg0) := StableHlo.after_of_writes_sub hostOps0_2 _ hostOps0_2_writes (r := main_arg0) (by decide)
    _ = W1 m c (Proc.devRef .tc main_arg0) := StableHlo.after_of_writes_sub hostOps0_1 _ hostOps0_1_writes (r := main_arg0) (by decide)
    _ = W0 m c (Proc.devRef .tc main_arg0) := StableHlo.after_of_writes_sub hostOps0 _ hostOps0_writes (r := main_arg0) (by decide)
    _ = m ((c : Thread nD τ).loc main_arg0) := rfl

theorem W16_main_arg1 (c : Dev nD) : W16 m c (Proc.devRef .tc main_arg1) = m ((c : Thread nD τ).loc main_arg1) :=
  calc W16 m c (Proc.devRef .tc main_arg1)
    _ = W15 m c (Proc.devRef .tc main_arg1) := StableHlo.after_of_writes_sub hostOps2 _ hostOps2_writes (r := main_arg1) (by decide)
    _ = W14 m c (Proc.devRef .tc main_arg1) := W15_of_ne m c main_arg1 (by decide)
    _ = W13 m c (Proc.devRef .tc main_arg1) := StableHlo.after_of_writes_sub hostOps1_1 _ hostOps1_1_writes (r := main_arg1) (by decide)
    _ = W12 m c (Proc.devRef .tc main_arg1) := StableHlo.after_of_writes_sub hostOps1 _ hostOps1_writes (r := main_arg1) (by decide)
    _ = W11 m c (Proc.devRef .tc main_arg1) := W12_of_ne m c main_arg1 (by decide)
    _ = W10 m c (Proc.devRef .tc main_arg1) := StableHlo.after_of_writes_sub hostOps0_10 _ hostOps0_10_writes (r := main_arg1) (by decide)
    _ = W9 m c (Proc.devRef .tc main_arg1) := StableHlo.after_of_writes_sub hostOps0_9 _ hostOps0_9_writes (r := main_arg1) (by decide)
    _ = W8 m c (Proc.devRef .tc main_arg1) := StableHlo.after_of_writes_sub hostOps0_8 _ hostOps0_8_writes (r := main_arg1) (by decide)
    _ = W7 m c (Proc.devRef .tc main_arg1) := StableHlo.after_of_writes_sub hostOps0_7 _ hostOps0_7_writes (r := main_arg1) (by decide)
    _ = W6 m c (Proc.devRef .tc main_arg1) := StableHlo.after_of_writes_sub hostOps0_6 _ hostOps0_6_writes (r := main_arg1) (by decide)
    _ = W5 m c (Proc.devRef .tc main_arg1) := StableHlo.after_of_writes_sub hostOps0_5 _ hostOps0_5_writes (r := main_arg1) (by decide)
    _ = W4 m c (Proc.devRef .tc main_arg1) := StableHlo.after_of_writes_sub hostOps0_4 _ hostOps0_4_writes (r := main_arg1) (by decide)
    _ = W3 m c (Proc.devRef .tc main_arg1) := StableHlo.after_of_writes_sub hostOps0_3 _ hostOps0_3_writes (r := main_arg1) (by decide)
    _ = W2 m c (Proc.devRef .tc main_arg1) := StableHlo.after_of_writes_sub hostOps0_2 _ hostOps0_2_writes (r := main_arg1) (by decide)
    _ = W1 m c (Proc.devRef .tc main_arg1) := StableHlo.after_of_writes_sub hostOps0_1 _ hostOps0_1_writes (r := main_arg1) (by decide)
    _ = W0 m c (Proc.devRef .tc main_arg1) := StableHlo.after_of_writes_sub hostOps0 _ hostOps0_writes (r := main_arg1) (by decide)
    _ = m ((c : Thread nD τ).loc main_arg1) := rfl

theorem W16_main_arg2 (c : Dev nD) : W16 m c (Proc.devRef .tc main_arg2) = m ((c : Thread nD τ).loc main_arg2) :=
  calc W16 m c (Proc.devRef .tc main_arg2)
    _ = W15 m c (Proc.devRef .tc main_arg2) := StableHlo.after_of_writes_sub hostOps2 _ hostOps2_writes (r := main_arg2) (by decide)
    _ = W14 m c (Proc.devRef .tc main_arg2) := W15_of_ne m c main_arg2 (by decide)
    _ = W13 m c (Proc.devRef .tc main_arg2) := StableHlo.after_of_writes_sub hostOps1_1 _ hostOps1_1_writes (r := main_arg2) (by decide)
    _ = W12 m c (Proc.devRef .tc main_arg2) := StableHlo.after_of_writes_sub hostOps1 _ hostOps1_writes (r := main_arg2) (by decide)
    _ = W11 m c (Proc.devRef .tc main_arg2) := W12_of_ne m c main_arg2 (by decide)
    _ = W10 m c (Proc.devRef .tc main_arg2) := StableHlo.after_of_writes_sub hostOps0_10 _ hostOps0_10_writes (r := main_arg2) (by decide)
    _ = W9 m c (Proc.devRef .tc main_arg2) := StableHlo.after_of_writes_sub hostOps0_9 _ hostOps0_9_writes (r := main_arg2) (by decide)
    _ = W8 m c (Proc.devRef .tc main_arg2) := StableHlo.after_of_writes_sub hostOps0_8 _ hostOps0_8_writes (r := main_arg2) (by decide)
    _ = W7 m c (Proc.devRef .tc main_arg2) := StableHlo.after_of_writes_sub hostOps0_7 _ hostOps0_7_writes (r := main_arg2) (by decide)
    _ = W6 m c (Proc.devRef .tc main_arg2) := StableHlo.after_of_writes_sub hostOps0_6 _ hostOps0_6_writes (r := main_arg2) (by decide)
    _ = W5 m c (Proc.devRef .tc main_arg2) := StableHlo.after_of_writes_sub hostOps0_5 _ hostOps0_5_writes (r := main_arg2) (by decide)
    _ = W4 m c (Proc.devRef .tc main_arg2) := StableHlo.after_of_writes_sub hostOps0_4 _ hostOps0_4_writes (r := main_arg2) (by decide)
    _ = W3 m c (Proc.devRef .tc main_arg2) := StableHlo.after_of_writes_sub hostOps0_3 _ hostOps0_3_writes (r := main_arg2) (by decide)
    _ = W2 m c (Proc.devRef .tc main_arg2) := StableHlo.after_of_writes_sub hostOps0_2 _ hostOps0_2_writes (r := main_arg2) (by decide)
    _ = W1 m c (Proc.devRef .tc main_arg2) := StableHlo.after_of_writes_sub hostOps0_1 _ hostOps0_1_writes (r := main_arg2) (by decide)
    _ = W0 m c (Proc.devRef .tc main_arg2) := StableHlo.after_of_writes_sub hostOps0 _ hostOps0_writes (r := main_arg2) (by decide)
    _ = m ((c : Thread nD τ).loc main_arg2) := rfl

theorem W16_main_arg3 (c : Dev nD) : W16 m c (Proc.devRef .tc main_arg3) = m ((c : Thread nD τ).loc main_arg3) :=
  calc W16 m c (Proc.devRef .tc main_arg3)
    _ = W15 m c (Proc.devRef .tc main_arg3) := StableHlo.after_of_writes_sub hostOps2 _ hostOps2_writes (r := main_arg3) (by decide)
    _ = W14 m c (Proc.devRef .tc main_arg3) := W15_of_ne m c main_arg3 (by decide)
    _ = W13 m c (Proc.devRef .tc main_arg3) := StableHlo.after_of_writes_sub hostOps1_1 _ hostOps1_1_writes (r := main_arg3) (by decide)
    _ = W12 m c (Proc.devRef .tc main_arg3) := StableHlo.after_of_writes_sub hostOps1 _ hostOps1_writes (r := main_arg3) (by decide)
    _ = W11 m c (Proc.devRef .tc main_arg3) := W12_of_ne m c main_arg3 (by decide)
    _ = W10 m c (Proc.devRef .tc main_arg3) := StableHlo.after_of_writes_sub hostOps0_10 _ hostOps0_10_writes (r := main_arg3) (by decide)
    _ = W9 m c (Proc.devRef .tc main_arg3) := StableHlo.after_of_writes_sub hostOps0_9 _ hostOps0_9_writes (r := main_arg3) (by decide)
    _ = W8 m c (Proc.devRef .tc main_arg3) := StableHlo.after_of_writes_sub hostOps0_8 _ hostOps0_8_writes (r := main_arg3) (by decide)
    _ = W7 m c (Proc.devRef .tc main_arg3) := StableHlo.after_of_writes_sub hostOps0_7 _ hostOps0_7_writes (r := main_arg3) (by decide)
    _ = W6 m c (Proc.devRef .tc main_arg3) := StableHlo.after_of_writes_sub hostOps0_6 _ hostOps0_6_writes (r := main_arg3) (by decide)
    _ = W5 m c (Proc.devRef .tc main_arg3) := StableHlo.after_of_writes_sub hostOps0_5 _ hostOps0_5_writes (r := main_arg3) (by decide)
    _ = W4 m c (Proc.devRef .tc main_arg3) := StableHlo.after_of_writes_sub hostOps0_4 _ hostOps0_4_writes (r := main_arg3) (by decide)
    _ = W3 m c (Proc.devRef .tc main_arg3) := StableHlo.after_of_writes_sub hostOps0_3 _ hostOps0_3_writes (r := main_arg3) (by decide)
    _ = W2 m c (Proc.devRef .tc main_arg3) := StableHlo.after_of_writes_sub hostOps0_2 _ hostOps0_2_writes (r := main_arg3) (by decide)
    _ = W1 m c (Proc.devRef .tc main_arg3) := StableHlo.after_of_writes_sub hostOps0_1 _ hostOps0_1_writes (r := main_arg3) (by decide)
    _ = W0 m c (Proc.devRef .tc main_arg3) := StableHlo.after_of_writes_sub hostOps0 _ hostOps0_writes (r := main_arg3) (by decide)
    _ = m ((c : Thread nD τ).loc main_arg3) := rfl

/-! ## @main as segments, and the launch -/

abbrev mainSegs : List (Pipeline.Seg (pcfgs (F := F)) (adm m) (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .host (hseg hostOps0_7 hostOps0_7_sub hostOps0_7_fresh (W7 m)),
    .host (hseg hostOps0_8 hostOps0_8_sub hostOps0_8_fresh (W8 m)),
    .host (hseg hostOps0_9 hostOps0_9_sub hostOps0_9_fresh (W9 m)),
    .host (hseg hostOps0_10 hostOps0_10_sub hostOps0_10_fresh (W10 m)),
    .region (reg0 m),
    .host (hseg hostOps1 hostOps1_sub hostOps1_fresh (W12 m)),
    .host (hseg hostOps1_1 hostOps1_1_sub hostOps1_1_fresh (W13 m)),
    .region (reg1 m),
    .host (hseg hostOps2 hostOps2_sub hostOps2_fresh (W15 m)) ]

set_option backward.isDefEq.respectTransparency.types false in
/-- From any memory with zero counters, every weakly fair execution of @main terminates without a fault; it ends with the
    result buffer at the last boundary's contents and every argument array as launched. -/
theorem run : θ_run defs (onTc (τ := τ) (main (F := F))) ⟨m, fun _ => 0, ρ⟩ (fun r => ∀ c : Dev nD,
      r.2.mem ((c.tc : Thread nD τ).loc main_v53) = W16 m c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) (adm m) (pdats m) () (cellOf_inj (adm m)) embL defs₀ 𝒱₀ L lv m ρ main (mainSegs m)
    (fun c Q => by
      rewrite [main_chain c, Pipeline.Seg.run_eq_chain,
        show (mainSegs m).map Pipeline.Seg.prog = [
          StableHlo.seq hostOps0, StableHlo.seq hostOps0_1, StableHlo.seq hostOps0_2, StableHlo.seq hostOps0_3, StableHlo.seq hostOps0_4,
          StableHlo.seq hostOps0_5, StableHlo.seq hostOps0_6, StableHlo.seq hostOps0_7, StableHlo.seq hostOps0_8, StableHlo.seq hostOps0_9,
          StableHlo.seq hostOps0_10, Prog.lift (.customCall (Pipeline.entry 0) ()), StableHlo.seq hostOps1, StableHlo.seq hostOps1_1,
          Prog.lift (.customCall (Pipeline.entry 1) ()), StableHlo.seq hostOps2 ] from rfl]
      exact .rfl)
    (by simp only [mainSegs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W16 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show iprop(StableHlo.held (c : Thread nD τ) (Pipeline.ucRefs τ sig) (W16 m c) ∗ R c)
          ⊢ iprop((StableHlo.held (c : Thread nD τ) (Pipeline.ucRefs τ sig) (W16 m c) ∗ ∃ r, prngReg c r) ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m c b)
    (hfin := fun c s' => by
      iintro ⟨⟨Hh, -⟩, HSI⟩
      unfold StableHlo.held
      imodintro
      iapply (pointsTo_read_all (Pipeline.ucRefs τ sig) (fun b => (((c : Thread nD τ)).1, b)) (W16 m c) s')
      isplitl [Hh] <;> iassumption)
    (hQ := fun s h c =>
      ⟨h c _ (mem_uc main_v53 (by decide)),
       (h c _ (mem_uc main_arg0 (by decide))).trans (W16_main_arg0 m c),
       (h c _ (mem_uc main_arg1 (by decide))).trans (W16_main_arg1 m c),
       (h c _ (mem_uc main_arg2 (by decide))).trans (W16_main_arg2 m c),
       (h c _ (mem_uc main_arg3 (by decide))).trans (W16_main_arg3 m c)⟩)

end Cert.KernelIdeal.Gen

end
-- ==== Proof.Word.GatherRuns.lean ====
/-
  (The same statements and proofs as for the idealized program, here for the program read at the word level:
  the two printed programs differ in no operation.)

  The gather kernel's body, run once per way its three decisions can fall.

  The body decides three things at a grid point: whether the point is the FIRST along the accumulated axis (it then
  clears its accumulator), whether the point's block is ACTIVE (the two table words read at the point's edge block say
  the block of 1024 node rows at hand meets the edge block's range of identifiers; it then adds one masked product
  to the accumulator), and whether the point is the LAST along the accumulated axis (it then stores the
  scaled accumulator into the output block).  First and last cannot both hold, which leaves six ways.  For each, on
  whole staging buffers holding the point's input blocks, with the two tables and the accumulator at any contents,
  the body runs to its end without a fault and hands everything back: the inputs and the tables as they were, the
  accumulator at contents the run determines, and the output block either untouched (not last) or overwritten
  whole (last).  The statements hold for every interpretation of the floats.
-/
import proofs.«179733_j56453050138798_2_alg».proof.Proof.Gen.Kernel.Skeleton
import proofs.«179733_j56453050138798_2_alg».proof.Proof.Gen.Kernel.Launch
import Idealize.ShloMosaic.Lib.Pipeline.FrameBody
import Idealize.ShloMosaic.Lib.Ring
import Idealize.ShloMosaic.Lib.Tactic

set_option maxRecDepth 16384
set_option Elab.async false

noncomputable section

namespace Cert.Kernel.Gen

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The two tables and the accumulator as whole buffers. -/
abbrev tbM0_0 : Memref sig .tc .smem S489 .i32 := Memref.whole main_v28
abbrev tbM0_1 : Memref sig .tc .smem S489 .i32 := Memref.whole main_v29
abbrev scM0_0 : Memref sig .tc .vmem S2048x64 .f32 := Memref.whole cc0_scratch0

/-- The word the body reads from each table: the entry at the point's edge block. -/
abbrev word0_0 (T : S489.Idx → Elt F .i32) (i : grid0.Coords) : BitVec 32 :=
  View.readAt (Elt F) (tbM0_0).view (Rect.unit (s := S489) (k0_off1 i) S1.size (k0_off1_inb i)).toLoadRect T (Shape.Idx.first (numel1_S1.symm ▸ Nat.one_pos))
abbrev word0_1 (T : S489.Idx → Elt F .i32) (i : grid0.Coords) : BitVec 32 :=
  View.readAt (Elt F) (tbM0_1).view (Rect.unit (s := S489) (k0_off1 i) S1.size (k0_off1_inb i)).toLoadRect T (Shape.Idx.first (numel1_S1.symm ▸ Nat.one_pos))

/-- The three decisions, as the body computes them. -/
abbrev isFirst0 (i : grid0.Coords) : Prop :=
  (Scalar.cmpi .ne (Scalar.extui (Scalar.cmpi .eq (BitVec.ofNat 32 (i 1).val) 0#32)) 0#32) = 1#1
abbrev isActive0 (T0 T1 : S489.Idx → Elt F .i32) (i : grid0.Coords) : Prop :=
  (Scalar.cmpi .ne (Scalar.extui (Scalar.andi
      (Scalar.cmpi .sge (word0_1 T1 i) (Scalar.muli (BitVec.ofNat 32 (i 1).val) 1024#32))
      (Scalar.cmpi .sle (word0_0 T0 i) (Scalar.subi (Scalar.addi (Scalar.muli (BitVec.ofNat 32 (i 1).val) 1024#32) 1024#32) 1#32)))) 0#32) = 1#1
abbrev isLast0 (i : grid0.Coords) : Prop := k0_cond3 i = 1#1

/-- One staging buffer of the output window, through which its contents are stated. -/
abbrev VO0 : View sig .tc .vmem S2048x64 .bf16 := (Memref.whole cc0_stg3_0 : Memref sig .tc .vmem S2048x64 .bf16).view

set_option maxHeartbeats 8000000 in
/-- The body at a point that is first, active, not last: the output block is left as it was; the accumulator ends at the run's contents. -/
noncomputable def kernelRun0_A (c : Dev nD) (i : grid0.Coords) (arg4 : Memref sig .tc .vmem S2048x1 .i32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .bf16) (harg7 : arg7.IsWhole)
    (qT : PosShare TreeShare) (T0 T1 : S489.Idx → Elt F .i32) (x0 : S2048x1.Idx → Elt F .i32) (x1 : S2048x1.Idx → Elt F .f32) (x2 : S1024x64.Idx → Elt F .bf16)
    (h1 : isFirst0 i) (hc : isActive0 (F := F) T0 T1 i) (h3 : ¬isLast0 i) :
    { out0 : Buf (Elt F) ((c : Thread nD τ).loc cc0_scratch0) //
      ∀ (y : (S2048x64.Idx → Elt F .bf16)) (xa0 : Buf (Elt F) ((c : Thread nD τ).loc cc0_scratch0)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{qT} T0)
          ∗ (tbM0_1.view.loc (c : Thread nD τ) ↦{qT} T1)
          ∗ owns (c : Thread nD τ) arg7 fullShare y
          ∗ (scM0_0.view.loc (c : Thread nD τ) ↦{fullShare} xa0)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{qT} T0)
              ∗ (tbM0_1.view.loc (c : Thread nD τ) ↦{qT} T1)
              ∗ owns (c : Thread nD τ) arg7 fullShare y
              ∗ (scM0_0.view.loc (c : Thread nD τ) ↦{fullShare} out0)) -∗ K ⟨⟩))
          ⊢ wp frame (wpE (defs₀ (F := F)) Variants.none c none) Set.univ (cc0__gather_kernel i tbM0_0 (Memref.isWhole_whole _) tbM0_1 (Memref.isWhole_whole _) arg4 harg4 arg5 harg5 arg6 harg6 arg7 harg7 scM0_0 (Memref.isWhole_whole _)) K } :=
  ⟨_, fun (y : (S2048x64.Idx → Elt F .bf16)) (xa0 : Buf (Elt F) ((c : Thread nD τ).loc cc0_scratch0)) K => by
    unfold owns
    rw [cc0__gather_kernel_eq_skeleton]; unfold cc0__gather_kernel_skel
    iintro ⟨H0, H1, H2, HT0, HT1, ⟨%fo, %hfo, HO⟩, HS0, Hk⟩
    obtain rfl := harg7.eq_unread hfo
    have hS0 : scM0_0.IsWhole := Memref.isWhole_whole _
    have hT0 : tbM0_0.IsWhole := Memref.isWhole_whole _
    have hT1 : tbM0_1.IsWhole := Memref.isWhole_whole _
    sl_exec! (disch := first | exact h1 | exact hc | exact h3)
    sl_step
    iapply Hk
    isplitl [H0]; · iexact H0
    isplitl [H1]; · iexact H1
    isplitl [H2]; · iexact H2
    isplitl [HT0]; · iexact HT0
    isplitl [HT1]; · iexact HT1
    isplitl [HO]
    · iexists _; isplitr; · ipureintro; exact harg7.read_unread _
      iexact HO
    iexact HS0⟩

set_option maxHeartbeats 8000000 in
/-- The body at a point that is first, not active, not last: the output block is left as it was; the accumulator ends at the run's contents. -/
noncomputable def kernelRun0_B (c : Dev nD) (i : grid0.Coords) (arg4 : Memref sig .tc .vmem S2048x1 .i32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .bf16) (harg7 : arg7.IsWhole)
    (qT : PosShare TreeShare) (T0 T1 : S489.Idx → Elt F .i32) (x0 : S2048x1.Idx → Elt F .i32) (x1 : S2048x1.Idx → Elt F .f32) (x2 : S1024x64.Idx → Elt F .bf16)
    (h1 : isFirst0 i) (hc : ¬isActive0 (F := F) T0 T1 i) (h3 : ¬isLast0 i) :
    { out0 : Buf (Elt F) ((c : Thread nD τ).loc cc0_scratch0) //
      ∀ (y : (S2048x64.Idx → Elt F .bf16)) (xa0 : Buf (Elt F) ((c : Thread nD τ).loc cc0_scratch0)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{qT} T0)
          ∗ (tbM0_1.view.loc (c : Thread nD τ) ↦{qT} T1)
          ∗ owns (c : Thread nD τ) arg7 fullShare y
          ∗ (scM0_0.view.loc (c : Thread nD τ) ↦{fullShare} xa0)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{qT} T0)
              ∗ (tbM0_1.view.loc (c : Thread nD τ) ↦{qT} T1)
              ∗ owns (c : Thread nD τ) arg7 fullShare y
              ∗ (scM0_0.view.loc (c : Thread nD τ) ↦{fullShare} out0)) -∗ K ⟨⟩))
          ⊢ wp frame (wpE (defs₀ (F := F)) Variants.none c none) Set.univ (cc0__gather_kernel i tbM0_0 (Memref.isWhole_whole _) tbM0_1 (Memref.isWhole_whole _) arg4 harg4 arg5 harg5 arg6 harg6 arg7 harg7 scM0_0 (Memref.isWhole_whole _)) K } :=
  ⟨_, fun (y : (S2048x64.Idx → Elt F .bf16)) (xa0 : Buf (Elt F) ((c : Thread nD τ).loc cc0_scratch0)) K => by
    unfold owns
    rw [cc0__gather_kernel_eq_skeleton]; unfold cc0__gather_kernel_skel
    iintro ⟨H0, H1, H2, HT0, HT1, ⟨%fo, %hfo, HO⟩, HS0, Hk⟩
    obtain rfl := harg7.eq_unread hfo
    have hS0 : scM0_0.IsWhole := Memref.isWhole_whole _
    have hT0 : tbM0_0.IsWhole := Memref.isWhole_whole _
    have hT1 : tbM0_1.IsWhole := Memref.isWhole_whole _
    sl_exec! (disch := first | exact h1 | exact hc | exact h3)
    sl_step
    iapply Hk
    isplitl [H0]; · iexact H0
    isplitl [H1]; · iexact H1
    isplitl [H2]; · iexact H2
    isplitl [HT0]; · iexact HT0
    isplitl [HT1]; · iexact HT1
    isplitl [HO]
    · iexists _; isplitr; · ipureintro; exact harg7.read_unread _
      iexact HO
    iexact HS0⟩

set_option maxHeartbeats 8000000 in
/-- The body at a point that is not first, active, not last: the output block is left as it was; the accumulator ends at the run's contents. -/
noncomputable def kernelRun0_C (c : Dev nD) (i : grid0.Coords) (arg4 : Memref sig .tc .vmem S2048x1 .i32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .bf16) (harg7 : arg7.IsWhole)
    (qT : PosShare TreeShare) (T0 T1 : S489.Idx → Elt F .i32) (x0 : S2048x1.Idx → Elt F .i32) (x1 : S2048x1.Idx → Elt F .f32) (x2 : S1024x64.Idx → Elt F .bf16)
    (xa0 : Buf (Elt F) ((c : Thread nD τ).loc cc0_scratch0))
    (h1 : ¬isFirst0 i) (hc : isActive0 (F := F) T0 T1 i) (h3 : ¬isLast0 i) :
    { out0 : Buf (Elt F) ((c : Thread nD τ).loc cc0_scratch0) //
      ∀ (y : (S2048x64.Idx → Elt F .bf16)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{qT} T0)
          ∗ (tbM0_1.view.loc (c : Thread nD τ) ↦{qT} T1)
          ∗ owns (c : Thread nD τ) arg7 fullShare y
          ∗ (scM0_0.view.loc (c : Thread nD τ) ↦{fullShare} xa0)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{qT} T0)
              ∗ (tbM0_1.view.loc (c : Thread nD τ) ↦{qT} T1)
              ∗ owns (c : Thread nD τ) arg7 fullShare y
              ∗ (scM0_0.view.loc (c : Thread nD τ) ↦{fullShare} out0)) -∗ K ⟨⟩))
          ⊢ wp frame (wpE (defs₀ (F := F)) Variants.none c none) Set.univ (cc0__gather_kernel i tbM0_0 (Memref.isWhole_whole _) tbM0_1 (Memref.isWhole_whole _) arg4 harg4 arg5 harg5 arg6 harg6 arg7 harg7 scM0_0 (Memref.isWhole_whole _)) K } :=
  ⟨_, fun (y : (S2048x64.Idx → Elt F .bf16)) K => by
    unfold owns
    rw [cc0__gather_kernel_eq_skeleton]; unfold cc0__gather_kernel_skel
    iintro ⟨H0, H1, H2, HT0, HT1, ⟨%fo, %hfo, HO⟩, HS0, Hk⟩
    obtain rfl := harg7.eq_unread hfo
    have hS0 : scM0_0.IsWhole := Memref.isWhole_whole _
    have hT0 : tbM0_0.IsWhole := Memref.isWhole_whole _
    have hT1 : tbM0_1.IsWhole := Memref.isWhole_whole _
    sl_exec! (disch := first | exact h1 | exact hc | exact h3)
    sl_step
    iapply Hk
    isplitl [H0]; · iexact H0
    isplitl [H1]; · iexact H1
    isplitl [H2]; · iexact H2
    isplitl [HT0]; · iexact HT0
    isplitl [HT1]; · iexact HT1
    isplitl [HO]
    · iexists _; isplitr; · ipureintro; exact harg7.read_unread _
      iexact HO
    iexact HS0⟩

set_option maxHeartbeats 8000000 in
/-- The body at a point that is not first, not active, not last: the output block is left as it was; the accumulator ends at the run's contents. -/
noncomputable def kernelRun0_D (c : Dev nD) (i : grid0.Coords) (arg4 : Memref sig .tc .vmem S2048x1 .i32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .bf16) (harg7 : arg7.IsWhole)
    (qT : PosShare TreeShare) (T0 T1 : S489.Idx → Elt F .i32) (x0 : S2048x1.Idx → Elt F .i32) (x1 : S2048x1.Idx → Elt F .f32) (x2 : S1024x64.Idx → Elt F .bf16)
    (xa0 : Buf (Elt F) ((c : Thread nD τ).loc cc0_scratch0))
    (h1 : ¬isFirst0 i) (hc : ¬isActive0 (F := F) T0 T1 i) (h3 : ¬isLast0 i) :
    { out0 : Buf (Elt F) ((c : Thread nD τ).loc cc0_scratch0) //
      ∀ (y : (S2048x64.Idx → Elt F .bf16)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{qT} T0)
          ∗ (tbM0_1.view.loc (c : Thread nD τ) ↦{qT} T1)
          ∗ owns (c : Thread nD τ) arg7 fullShare y
          ∗ (scM0_0.view.loc (c : Thread nD τ) ↦{fullShare} xa0)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{qT} T0)
              ∗ (tbM0_1.view.loc (c : Thread nD τ) ↦{qT} T1)
              ∗ owns (c : Thread nD τ) arg7 fullShare y
              ∗ (scM0_0.view.loc (c : Thread nD τ) ↦{fullShare} out0)) -∗ K ⟨⟩))
          ⊢ wp frame (wpE (defs₀ (F := F)) Variants.none c none) Set.univ (cc0__gather_kernel i tbM0_0 (Memref.isWhole_whole _) tbM0_1 (Memref.isWhole_whole _) arg4 harg4 arg5 harg5 arg6 harg6 arg7 harg7 scM0_0 (Memref.isWhole_whole _)) K } :=
  ⟨_, fun (y : (S2048x64.Idx → Elt F .bf16)) K => by
    unfold owns
    rw [cc0__gather_kernel_eq_skeleton]; unfold cc0__gather_kernel_skel
    iintro ⟨H0, H1, H2, HT0, HT1, ⟨%fo, %hfo, HO⟩, HS0, Hk⟩
    obtain rfl := harg7.eq_unread hfo
    have hS0 : scM0_0.IsWhole := Memref.isWhole_whole _
    have hT0 : tbM0_0.IsWhole := Memref.isWhole_whole _
    have hT1 : tbM0_1.IsWhole := Memref.isWhole_whole _
    sl_exec! (disch := first | exact h1 | exact hc | exact h3)
    sl_step
    iapply Hk
    isplitl [H0]; · iexact H0
    isplitl [H1]; · iexact H1
    isplitl [H2]; · iexact H2
    isplitl [HT0]; · iexact HT0
    isplitl [HT1]; · iexact HT1
    isplitl [HO]
    · iexists _; isplitr; · ipureintro; exact harg7.read_unread _
      iexact HO
    iexact HS0⟩

set_option maxHeartbeats 8000000 in
/-- The body at a point that is not first, active, last: the output block is overwritten by the run's pieces; the accumulator ends at the
    run's contents. -/
noncomputable def kernelRun0_E (c : Dev nD) (i : grid0.Coords) (arg4 : Memref sig .tc .vmem S2048x1 .i32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .bf16) (harg7 : arg7.IsWhole)
    (qT : PosShare TreeShare) (T0 T1 : S489.Idx → Elt F .i32) (x0 : S2048x1.Idx → Elt F .i32) (x1 : S2048x1.Idx → Elt F .f32) (x2 : S1024x64.Idx → Elt F .bf16)
    (xa0 : Buf (Elt F) ((c : Thread nD τ).loc cc0_scratch0))
    (h1 : ¬isFirst0 i) (hc : isActive0 (F := F) T0 T1 i) (h3 : isLast0 i) :
    Σ' (outp : List (View.Piece (Elt F) S2048x64 .bf16)), { out0 : Buf (Elt F) ((c : Thread nD τ).loc cc0_scratch0) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{qT} T0)
          ∗ (tbM0_1.view.loc (c : Thread nD τ) ↦{qT} T1)
          ∗ (∃ d, owns (c : Thread nD τ) arg7 fullShare d)
          ∗ (scM0_0.view.loc (c : Thread nD τ) ↦{fullShare} xa0)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{qT} T0)
              ∗ (tbM0_1.view.loc (c : Thread nD τ) ↦{qT} T1)
              ∗ (∃ f, arg7.view.loc (c : Thread nD τ) ↦[arg7.view.set]{fullShare} arg7.view.writes (Elt F) f outp)
              ∗ (scM0_0.view.loc (c : Thread nD τ) ↦{fullShare} out0)) -∗ K ⟨⟩))
          ⊢ wp frame (wpE (defs₀ (F := F)) Variants.none c none) Set.univ (cc0__gather_kernel i tbM0_0 (Memref.isWhole_whole _) tbM0_1 (Memref.isWhole_whole _) arg4 harg4 arg5 harg5 arg6 harg6 arg7 harg7 scM0_0 (Memref.isWhole_whole _)) K } :=
  ⟨_, _, fun K => by
    unfold owns
    rw [cc0__gather_kernel_eq_skeleton]; unfold cc0__gather_kernel_skel
    iintro ⟨H0, H1, H2, HT0, HT1, ⟨%dO, %fo, -, HO⟩, HS0, Hk⟩
    have hS0 : scM0_0.IsWhole := Memref.isWhole_whole _
    have hT0 : tbM0_0.IsWhole := Memref.isWhole_whole _
    have hT1 : tbM0_1.IsWhole := Memref.isWhole_whole _
    sl_exec! (disch := first | exact h1 | exact hc | exact h3)
    sl_step
    iapply Hk
    isplitl [H0]; · iexact H0
    isplitl [H1]; · iexact H1
    isplitl [H2]; · iexact H2
    isplitl [HT0]; · iexact HT0
    isplitl [HT1]; · iexact HT1
    isplitl [HO]; · iexists _; iexact HO
    iexact HS0⟩

/-- That run's pieces cover the output block (one store of the whole block). -/
theorem cover0_E (c : Dev nD) (i : grid0.Coords) (arg4 : Memref sig .tc .vmem S2048x1 .i32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .bf16) (harg7 : arg7.IsWhole)
    (qT : PosShare TreeShare) (T0 T1 : S489.Idx → Elt F .i32) (x0 : S2048x1.Idx → Elt F .i32) (x1 : S2048x1.Idx → Elt F .f32) (x2 : S1024x64.Idx → Elt F .bf16)
    (xa0 : Buf (Elt F) ((c : Thread nD τ).loc cc0_scratch0))
    (h1 : ¬isFirst0 i) (hc : isActive0 (F := F) T0 T1 i) (h3 : isLast0 i) (y : S2048x64.Idx) :
    ∃ pc ∈ (kernelRun0_E c i arg4 harg4 arg5 harg5 arg6 harg6 arg7 harg7 qT T0 T1 x0 x1 x2 xa0 h1 hc h3).1, y ∈ pc.1.set :=
  View.cover_of_tiledL (kernelRun0_E c i arg4 harg4 arg5 harg5 arg6 harg6 arg7 harg7 qT T0 T1 x0 x1 x2 xa0 h1 hc h3).1 S2048x64.size (by sl_kernel_rfl) y

/-- What that run leaves in the output block: its pieces read back. -/
def out0_E (c : Dev nD) (i : grid0.Coords) (arg4 : Memref sig .tc .vmem S2048x1 .i32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .bf16) (harg7 : arg7.IsWhole)
    (qT : PosShare TreeShare) (T0 T1 : S489.Idx → Elt F .i32) (x0 : S2048x1.Idx → Elt F .i32) (x1 : S2048x1.Idx → Elt F .f32) (x2 : S1024x64.Idx → Elt F .bf16)
    (xa0 : Buf (Elt F) ((c : Thread nD τ).loc cc0_scratch0))
    (h1 : ¬isFirst0 i) (hc : isActive0 (F := F) T0 T1 i) (h3 : isLast0 i) : S2048x64.Idx → Elt F .bf16 :=
  VO0.read (Elt F) (VO0.writes (Elt F) VO0.junk (kernelRun0_E c i arg4 harg4 arg5 harg5 arg6 harg6 arg7 harg7 qT T0 T1 x0 x1 x2 xa0 h1 hc h3).1)

set_option maxHeartbeats 8000000 in
/-- The body at a point that is not first, not active, last: the output block is overwritten by the run's pieces; the accumulator ends at the
    run's contents. -/
noncomputable def kernelRun0_G (c : Dev nD) (i : grid0.Coords) (arg4 : Memref sig .tc .vmem S2048x1 .i32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .bf16) (harg7 : arg7.IsWhole)
    (qT : PosShare TreeShare) (T0 T1 : S489.Idx → Elt F .i32) (x0 : S2048x1.Idx → Elt F .i32) (x1 : S2048x1.Idx → Elt F .f32) (x2 : S1024x64.Idx → Elt F .bf16)
    (xa0 : Buf (Elt F) ((c : Thread nD τ).loc cc0_scratch0))
    (h1 : ¬isFirst0 i) (hc : ¬isActive0 (F := F) T0 T1 i) (h3 : isLast0 i) :
    Σ' (outp : List (View.Piece (Elt F) S2048x64 .bf16)), { out0 : Buf (Elt F) ((c : Thread nD τ).loc cc0_scratch0) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{qT} T0)
          ∗ (tbM0_1.view.loc (c : Thread nD τ) ↦{qT} T1)
          ∗ (∃ d, owns (c : Thread nD τ) arg7 fullShare d)
          ∗ (scM0_0.view.loc (c : Thread nD τ) ↦{fullShare} xa0)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM0_0.view.loc (c : Thread nD τ) ↦{qT} T0)
              ∗ (tbM0_1.view.loc (c : Thread nD τ) ↦{qT} T1)
              ∗ (∃ f, arg7.view.loc (c : Thread nD τ) ↦[arg7.view.set]{fullShare} arg7.view.writes (Elt F) f outp)
              ∗ (scM0_0.view.loc (c : Thread nD τ) ↦{fullShare} out0)) -∗ K ⟨⟩))
          ⊢ wp frame (wpE (defs₀ (F := F)) Variants.none c none) Set.univ (cc0__gather_kernel i tbM0_0 (Memref.isWhole_whole _) tbM0_1 (Memref.isWhole_whole _) arg4 harg4 arg5 harg5 arg6 harg6 arg7 harg7 scM0_0 (Memref.isWhole_whole _)) K } :=
  ⟨_, _, fun K => by
    unfold owns
    rw [cc0__gather_kernel_eq_skeleton]; unfold cc0__gather_kernel_skel
    iintro ⟨H0, H1, H2, HT0, HT1, ⟨%dO, %fo, -, HO⟩, HS0, Hk⟩
    have hS0 : scM0_0.IsWhole := Memref.isWhole_whole _
    have hT0 : tbM0_0.IsWhole := Memref.isWhole_whole _
    have hT1 : tbM0_1.IsWhole := Memref.isWhole_whole _
    sl_exec! (disch := first | exact h1 | exact hc | exact h3)
    sl_step
    iapply Hk
    isplitl [H0]; · iexact H0
    isplitl [H1]; · iexact H1
    isplitl [H2]; · iexact H2
    isplitl [HT0]; · iexact HT0
    isplitl [HT1]; · iexact HT1
    isplitl [HO]; · iexists _; iexact HO
    iexact HS0⟩

/-- That run's pieces cover the output block (one store of the whole block). -/
theorem cover0_G (c : Dev nD) (i : grid0.Coords) (arg4 : Memref sig .tc .vmem S2048x1 .i32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .bf16) (harg7 : arg7.IsWhole)
    (qT : PosShare TreeShare) (T0 T1 : S489.Idx → Elt F .i32) (x0 : S2048x1.Idx → Elt F .i32) (x1 : S2048x1.Idx → Elt F .f32) (x2 : S1024x64.Idx → Elt F .bf16)
    (xa0 : Buf (Elt F) ((c : Thread nD τ).loc cc0_scratch0))
    (h1 : ¬isFirst0 i) (hc : ¬isActive0 (F := F) T0 T1 i) (h3 : isLast0 i) (y : S2048x64.Idx) :
    ∃ pc ∈ (kernelRun0_G c i arg4 harg4 arg5 harg5 arg6 harg6 arg7 harg7 qT T0 T1 x0 x1 x2 xa0 h1 hc h3).1, y ∈ pc.1.set :=
  View.cover_of_tiledL (kernelRun0_G c i arg4 harg4 arg5 harg5 arg6 harg6 arg7 harg7 qT T0 T1 x0 x1 x2 xa0 h1 hc h3).1 S2048x64.size (by sl_kernel_rfl) y

/-- What that run leaves in the output block: its pieces read back. -/
def out0_G (c : Dev nD) (i : grid0.Coords) (arg4 : Memref sig .tc .vmem S2048x1 .i32) (harg4 : arg4.IsWhole) (arg5 : Memref sig .tc .vmem S2048x1 .f32) (harg5 : arg5.IsWhole) (arg6 : Memref sig .tc .vmem S1024x64 .bf16) (harg6 : arg6.IsWhole) (arg7 : Memref sig .tc .vmem S2048x64 .bf16) (harg7 : arg7.IsWhole)
    (qT : PosShare TreeShare) (T0 T1 : S489.Idx → Elt F .i32) (x0 : S2048x1.Idx → Elt F .i32) (x1 : S2048x1.Idx → Elt F .f32) (x2 : S1024x64.Idx → Elt F .bf16)
    (xa0 : Buf (Elt F) ((c : Thread nD τ).loc cc0_scratch0))
    (h1 : ¬isFirst0 i) (hc : ¬isActive0 (F := F) T0 T1 i) (h3 : isLast0 i) : S2048x64.Idx → Elt F .bf16 :=
  VO0.read (Elt F) (VO0.writes (Elt F) VO0.junk (kernelRun0_G c i arg4 harg4 arg5 harg5 arg6 harg6 arg7 harg7 qT T0 T1 x0 x1 x2 xa0 h1 hc h3).1)

end Cert.Kernel.Gen

end
-- ==== Proof.Word.ScatterRuns.lean ====
/-
  (The same statements and proofs as for the idealized program, here for the program read at the word level:
  the two printed programs differ in no operation.)

  The scatter kernel's body, run once per way its three decisions can fall.

  The body decides three things at a grid point: whether the point is the FIRST along the accumulated axis (it then
  clears its accumulator), whether the point's block is ACTIVE (the two table words read at the point's edge block say
  the block of 1024 node rows at hand meets the edge block's range of identifiers; it then adds one masked product
  to the accumulator), and whether the point is the LAST along the accumulated axis (it then stores the
  accumulator into the output block).  First and last cannot both hold, which leaves six ways.  For each, on
  whole staging buffers holding the point's input blocks, with the two tables and the accumulator at any contents,
  the body runs to its end without a fault and hands everything back: the inputs and the tables as they were, the
  accumulator at contents the run determines, and the output block either untouched (not last) or overwritten
  whole (last).  The statements hold for every interpretation of the floats.
-/
import proofs.«179733_j56453050138798_2_alg».proof.Proof.Gen.Kernel.Skeleton
import proofs.«179733_j56453050138798_2_alg».proof.Proof.Gen.Kernel.Launch
import Idealize.ShloMosaic.Lib.Pipeline.FrameBody
import Idealize.ShloMosaic.Lib.Ring
import Idealize.ShloMosaic.Lib.Tactic

set_option maxRecDepth 16384
set_option Elab.async false

noncomputable section

namespace Cert.Kernel.Gen

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The two tables and the accumulator as whole buffers. -/
abbrev tbM1_0 : Memref sig .tc .smem S489 .i32 := Memref.whole main_v49
abbrev tbM1_1 : Memref sig .tc .smem S489 .i32 := Memref.whole main_v50
abbrev scM1_0 : Memref sig .tc .vmem S1024x64 .f32 := Memref.whole cc1_scratch0

/-- The word the body reads from each table: the entry at the point's edge block. -/
abbrev word1_0 (T : S489.Idx → Elt F .i32) (i : grid1.Coords) : BitVec 32 :=
  View.readAt (Elt F) (tbM1_0).view (Rect.unit (s := S489) (k1_off1 i) S1.size (k1_off1_inb i)).toLoadRect T (Shape.Idx.first (numel1_S1.symm ▸ Nat.one_pos))
abbrev word1_1 (T : S489.Idx → Elt F .i32) (i : grid1.Coords) : BitVec 32 :=
  View.readAt (Elt F) (tbM1_1).view (Rect.unit (s := S489) (k1_off1 i) S1.size (k1_off1_inb i)).toLoadRect T (Shape.Idx.first (numel1_S1.symm ▸ Nat.one_pos))

/-- The three decisions, as the body computes them. -/
abbrev isFirst1 (i : grid1.Coords) : Prop :=
  (Scalar.cmpi .ne (Scalar.extui (Scalar.cmpi .eq (BitVec.ofNat 32 (i 1).val) 0#32)) 0#32) = 1#1
abbrev isActive1 (T0 T1 : S489.Idx → Elt F .i32) (i : grid1.Coords) : Prop :=
  (Scalar.cmpi .ne (Scalar.extui (Scalar.andi
      (Scalar.cmpi .sge (word1_1 T1 i) (Scalar.muli (BitVec.ofNat 32 (i 0).val) 1024#32))
      (Scalar.cmpi .sle (word1_0 T0 i) (Scalar.subi (Scalar.addi (Scalar.muli (BitVec.ofNat 32 (i 0).val) 1024#32) 1024#32) 1#32)))) 0#32) = 1#1
abbrev isLast1 (i : grid1.Coords) : Prop := k1_cond3 i = 1#1

/-- One staging buffer of the output window, through which its contents are stated. -/
abbrev VO1 : View sig .tc .vmem S1024x64 .f32 := (Memref.whole cc1_stg2_0 : Memref sig .tc .vmem S1024x64 .f32).view

set_option maxHeartbeats 8000000 in
/-- The body at a point that is first, active, not last: the output block is left as it was; the accumulator ends at the run's contents. -/
noncomputable def kernelRun1_A (c : Dev nD) (i : grid1.Coords) (arg4 : Memref sig .tc .vmem S2048x1 .i32) (harg4 : arg4.IsWhole) (arg5 : Memref sig .tc .vmem S2048x64 .bf16) (harg5 : arg5.IsWhole) (arg6 : Memref sig .tc .vmem S1024x64 .f32) (harg6 : arg6.IsWhole)
    (qT : PosShare TreeShare) (T0 T1 : S489.Idx → Elt F .i32) (x0 : S2048x1.Idx → Elt F .i32) (x1 : S2048x64.Idx → Elt F .bf16)
    (h1 : isFirst1 i) (hc : isActive1 (F := F) T0 T1 i) (h3 : ¬isLast1 i) :
    { out0 : Buf (Elt F) ((c : Thread nD τ).loc cc1_scratch0) //
      ∀ (y : (S1024x64.Idx → Elt F .f32)) (xa0 : Buf (Elt F) ((c : Thread nD τ).loc cc1_scratch0)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (tbM1_0.view.loc (c : Thread nD τ) ↦{qT} T0)
          ∗ (tbM1_1.view.loc (c : Thread nD τ) ↦{qT} T1)
          ∗ owns (c : Thread nD τ) arg6 fullShare y
          ∗ (scM1_0.view.loc (c : Thread nD τ) ↦{fullShare} xa0)
          ∗ (iprop((arg4.view.loc (c : Thread nD τ) ↦[arg4.view.set]{fullShare} arg4.view.rep x0)
              ∗ (arg5.view.loc (c : Thread nD τ) ↦[arg5.view.set]{fullShare} arg5.view.rep x1)
              ∗ (tbM1_0.view.loc (c : Thread nD τ) ↦{qT} T0)
              ∗ (tbM1_1.view.loc (c : Thread nD τ) ↦{qT} T1)
              ∗ owns (c : Thread nD τ) arg6 fullShare y
              ∗ (scM1_0.view.loc (c : Thread nD τ) ↦{fullShare} out0)) -∗ K ⟨⟩))
          ⊢ wp frame (wpE (defs₀ (F := F)) Variants.none c none) Set.univ (cc1__scatter_kernel i tbM1_0 (Memref.isWhole_whole _) tbM1_1 (Memref.isWhole_whole _) arg4 harg4 arg5 harg5 arg6 harg6 scM1_0 (Memref.isWhole_whole _)) K } :=
  ⟨_, fun (y : (S1024x64.Idx → Elt F .f32)) (xa0 : Buf (Elt F) ((c : Thread nD τ).loc cc1_scratch0)) K => by
    unfold owns
    rw [cc1__scatter_kernel_eq_skeleton]; unfold cc1__scatter_kernel_skel
    iintro ⟨H0, H1, HT0, HT1, ⟨%fo, %hfo, HO⟩, HS0, Hk⟩
    obtain rfl := harg6.eq_unread hfo
    have hS0 : scM1_0.IsWhole := Memref.isWhole_whole _
    have hT0 : tbM1_0.IsWhole := Memref.isWhole_whole _
    have hT1 : tbM1_1.IsWhole := Memref.isWhole_whole _
    sl_exec! (disch := first | exact h1 | exact hc | exact h3)
    sl_step
    iapply Hk
    isplitl [H0]; · iexact H0
    isplitl [H1]; · iexact H1
    isplitl [HT0]; · iexact HT0
    isplitl [HT1]; · iexact HT1
    isplitl [HO]
    · iexists _; isplitr; · ipureintro; exact harg6.read_unread _
      iexact HO
    iexact HS0⟩

set_option maxHeartbeats 8000000 in
/-- The body at a point that is first, not active, not last: the output block is left as it was; the accumulator ends at the run's contents. -/
noncomputable def kernelRun1_B (c : Dev nD) (i : grid1.Coords) (arg4 : Memref sig .tc .vmem S2048x1 .i32) (harg4 : arg4.IsWhole) (arg5 : Memref sig .tc .vmem S2048x64 .bf16) (harg5 : arg5.IsWhole) (arg6 : Memref sig .tc .vmem S1024x64 .f32) (harg6 : arg6.IsWhole)
    (qT : PosShare TreeShare) (T0 T1 : S489.Idx → Elt F .i32) (x0 : S2048x1.Idx → Elt F .i32) (x1 : S2048x64.Idx → Elt F .bf16)
    (h1 : isFirst1 i) (hc : ¬isActive1 (F := F) T0 T1 i) (h3 : ¬isLast1 i) :
    { out0 : Buf (Elt F) ((c : Thread nD τ).loc cc1_scratch0) //
      ∀ (y : (S1024x64.Idx → Elt F .f32)) (xa0 : Buf (Elt F) ((c : Thread nD τ).loc cc1_scratch0)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (tbM1_0.view.loc (c : Thread nD τ) ↦{qT} T0)
          ∗ (tbM1_1.view.loc (c : Thread nD τ) ↦{qT} T1)
          ∗ owns (c : Thread nD τ) arg6 fullShare y
          ∗ (scM1_0.view.loc (c : Thread nD τ) ↦{fullShare} xa0)
          ∗ (iprop((arg4.view.loc (c : Thread nD τ) ↦[arg4.view.set]{fullShare} arg4.view.rep x0)
              ∗ (arg5.view.loc (c : Thread nD τ) ↦[arg5.view.set]{fullShare} arg5.view.rep x1)
              ∗ (tbM1_0.view.loc (c : Thread nD τ) ↦{qT} T0)
              ∗ (tbM1_1.view.loc (c : Thread nD τ) ↦{qT} T1)
              ∗ owns (c : Thread nD τ) arg6 fullShare y
              ∗ (scM1_0.view.loc (c : Thread nD τ) ↦{fullShare} out0)) -∗ K ⟨⟩))
          ⊢ wp frame (wpE (defs₀ (F := F)) Variants.none c none) Set.univ (cc1__scatter_kernel i tbM1_0 (Memref.isWhole_whole _) tbM1_1 (Memref.isWhole_whole _) arg4 harg4 arg5 harg5 arg6 harg6 scM1_0 (Memref.isWhole_whole _)) K } :=
  ⟨_, fun (y : (S1024x64.Idx → Elt F .f32)) (xa0 : Buf (Elt F) ((c : Thread nD τ).loc cc1_scratch0)) K => by
    unfold owns
    rw [cc1__scatter_kernel_eq_skeleton]; unfold cc1__scatter_kernel_skel
    iintro ⟨H0, H1, HT0, HT1, ⟨%fo, %hfo, HO⟩, HS0, Hk⟩
    obtain rfl := harg6.eq_unread hfo
    have hS0 : scM1_0.IsWhole := Memref.isWhole_whole _
    have hT0 : tbM1_0.IsWhole := Memref.isWhole_whole _
    have hT1 : tbM1_1.IsWhole := Memref.isWhole_whole _
    sl_exec! (disch := first | exact h1 | exact hc | exact h3)
    sl_step
    iapply Hk
    isplitl [H0]; · iexact H0
    isplitl [H1]; · iexact H1
    isplitl [HT0]; · iexact HT0
    isplitl [HT1]; · iexact HT1
    isplitl [HO]
    · iexists _; isplitr; · ipureintro; exact harg6.read_unread _
      iexact HO
    iexact HS0⟩

set_option maxHeartbeats 8000000 in
/-- The body at a point that is not first, active, not last: the output block is left as it was; the accumulator ends at the run's contents. -/
noncomputable def kernelRun1_C (c : Dev nD) (i : grid1.Coords) (arg4 : Memref sig .tc .vmem S2048x1 .i32) (harg4 : arg4.IsWhole) (arg5 : Memref sig .tc .vmem S2048x64 .bf16) (harg5 : arg5.IsWhole) (arg6 : Memref sig .tc .vmem S1024x64 .f32) (harg6 : arg6.IsWhole)
    (qT : PosShare TreeShare) (T0 T1 : S489.Idx → Elt F .i32) (x0 : S2048x1.Idx → Elt F .i32) (x1 : S2048x64.Idx → Elt F .bf16)
    (xa0 : Buf (Elt F) ((c : Thread nD τ).loc cc1_scratch0))
    (h1 : ¬isFirst1 i) (hc : isActive1 (F := F) T0 T1 i) (h3 : ¬isLast1 i) :
    { out0 : Buf (Elt F) ((c : Thread nD τ).loc cc1_scratch0) //
      ∀ (y : (S1024x64.Idx → Elt F .f32)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (tbM1_0.view.loc (c : Thread nD τ) ↦{qT} T0)
          ∗ (tbM1_1.view.loc (c : Thread nD τ) ↦{qT} T1)
          ∗ owns (c : Thread nD τ) arg6 fullShare y
          ∗ (scM1_0.view.loc (c : Thread nD τ) ↦{fullShare} xa0)
          ∗ (iprop((arg4.view.loc (c : Thread nD τ) ↦[arg4.view.set]{fullShare} arg4.view.rep x0)
              ∗ (arg5.view.loc (c : Thread nD τ) ↦[arg5.view.set]{fullShare} arg5.view.rep x1)
              ∗ (tbM1_0.view.loc (c : Thread nD τ) ↦{qT} T0)
              ∗ (tbM1_1.view.loc (c : Thread nD τ) ↦{qT} T1)
              ∗ owns (c : Thread nD τ) arg6 fullShare y
              ∗ (scM1_0.view.loc (c : Thread nD τ) ↦{fullShare} out0)) -∗ K ⟨⟩))
          ⊢ wp frame (wpE (defs₀ (F := F)) Variants.none c none) Set.univ (cc1__scatter_kernel i tbM1_0 (Memref.isWhole_whole _) tbM1_1 (Memref.isWhole_whole _) arg4 harg4 arg5 harg5 arg6 harg6 scM1_0 (Memref.isWhole_whole _)) K } :=
  ⟨_, fun (y : (S1024x64.Idx → Elt F .f32)) K => by
    unfold owns
    rw [cc1__scatter_kernel_eq_skeleton]; unfold cc1__scatter_kernel_skel
    iintro ⟨H0, H1, HT0, HT1, ⟨%fo, %hfo, HO⟩, HS0, Hk⟩
    obtain rfl := harg6.eq_unread hfo
    have hS0 : scM1_0.IsWhole := Memref.isWhole_whole _
    have hT0 : tbM1_0.IsWhole := Memref.isWhole_whole _
    have hT1 : tbM1_1.IsWhole := Memref.isWhole_whole _
    sl_exec! (disch := first | exact h1 | exact hc | exact h3)
    sl_step
    iapply Hk
    isplitl [H0]; · iexact H0
    isplitl [H1]; · iexact H1
    isplitl [HT0]; · iexact HT0
    isplitl [HT1]; · iexact HT1
    isplitl [HO]
    · iexists _; isplitr; · ipureintro; exact harg6.read_unread _
      iexact HO
    iexact HS0⟩

set_option maxHeartbeats 8000000 in
/-- The body at a point that is not first, not active, not last: the output block is left as it was; the accumulator ends at the run's contents. -/
noncomputable def kernelRun1_D (c : Dev nD) (i : grid1.Coords) (arg4 : Memref sig .tc .vmem S2048x1 .i32) (harg4 : arg4.IsWhole) (arg5 : Memref sig .tc .vmem S2048x64 .bf16) (harg5 : arg5.IsWhole) (arg6 : Memref sig .tc .vmem S1024x64 .f32) (harg6 : arg6.IsWhole)
    (qT : PosShare TreeShare) (T0 T1 : S489.Idx → Elt F .i32) (x0 : S2048x1.Idx → Elt F .i32) (x1 : S2048x64.Idx → Elt F .bf16)
    (xa0 : Buf (Elt F) ((c : Thread nD τ).loc cc1_scratch0))
    (h1 : ¬isFirst1 i) (hc : ¬isActive1 (F := F) T0 T1 i) (h3 : ¬isLast1 i) :
    { out0 : Buf (Elt F) ((c : Thread nD τ).loc cc1_scratch0) //
      ∀ (y : (S1024x64.Idx → Elt F .f32)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (tbM1_0.view.loc (c : Thread nD τ) ↦{qT} T0)
          ∗ (tbM1_1.view.loc (c : Thread nD τ) ↦{qT} T1)
          ∗ owns (c : Thread nD τ) arg6 fullShare y
          ∗ (scM1_0.view.loc (c : Thread nD τ) ↦{fullShare} xa0)
          ∗ (iprop((arg4.view.loc (c : Thread nD τ) ↦[arg4.view.set]{fullShare} arg4.view.rep x0)
              ∗ (arg5.view.loc (c : Thread nD τ) ↦[arg5.view.set]{fullShare} arg5.view.rep x1)
              ∗ (tbM1_0.view.loc (c : Thread nD τ) ↦{qT} T0)
              ∗ (tbM1_1.view.loc (c : Thread nD τ) ↦{qT} T1)
              ∗ owns (c : Thread nD τ) arg6 fullShare y
              ∗ (scM1_0.view.loc (c : Thread nD τ) ↦{fullShare} out0)) -∗ K ⟨⟩))
          ⊢ wp frame (wpE (defs₀ (F := F)) Variants.none c none) Set.univ (cc1__scatter_kernel i tbM1_0 (Memref.isWhole_whole _) tbM1_1 (Memref.isWhole_whole _) arg4 harg4 arg5 harg5 arg6 harg6 scM1_0 (Memref.isWhole_whole _)) K } :=
  ⟨_, fun (y : (S1024x64.Idx → Elt F .f32)) K => by
    unfold owns
    rw [cc1__scatter_kernel_eq_skeleton]; unfold cc1__scatter_kernel_skel
    iintro ⟨H0, H1, HT0, HT1, ⟨%fo, %hfo, HO⟩, HS0, Hk⟩
    obtain rfl := harg6.eq_unread hfo
    have hS0 : scM1_0.IsWhole := Memref.isWhole_whole _
    have hT0 : tbM1_0.IsWhole := Memref.isWhole_whole _
    have hT1 : tbM1_1.IsWhole := Memref.isWhole_whole _
    sl_exec! (disch := first | exact h1 | exact hc | exact h3)
    sl_step
    iapply Hk
    isplitl [H0]; · iexact H0
    isplitl [H1]; · iexact H1
    isplitl [HT0]; · iexact HT0
    isplitl [HT1]; · iexact HT1
    isplitl [HO]
    · iexists _; isplitr; · ipureintro; exact harg6.read_unread _
      iexact HO
    iexact HS0⟩

set_option maxHeartbeats 8000000 in
/-- The body at a point that is not first, active, last: the output block is overwritten by the run's pieces; the accumulator ends at the
    run's contents. -/
noncomputable def kernelRun1_E (c : Dev nD) (i : grid1.Coords) (arg4 : Memref sig .tc .vmem S2048x1 .i32) (harg4 : arg4.IsWhole) (arg5 : Memref sig .tc .vmem S2048x64 .bf16) (harg5 : arg5.IsWhole) (arg6 : Memref sig .tc .vmem S1024x64 .f32) (harg6 : arg6.IsWhole)
    (qT : PosShare TreeShare) (T0 T1 : S489.Idx → Elt F .i32) (x0 : S2048x1.Idx → Elt F .i32) (x1 : S2048x64.Idx → Elt F .bf16)
    (xa0 : Buf (Elt F) ((c : Thread nD τ).loc cc1_scratch0))
    (h1 : ¬isFirst1 i) (hc : isActive1 (F := F) T0 T1 i) (h3 : isLast1 i) :
    Σ' (outp : List (View.Piece (Elt F) S1024x64 .f32)), { out0 : Buf (Elt F) ((c : Thread nD τ).loc cc1_scratch0) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (tbM1_0.view.loc (c : Thread nD τ) ↦{qT} T0)
          ∗ (tbM1_1.view.loc (c : Thread nD τ) ↦{qT} T1)
          ∗ (∃ d, owns (c : Thread nD τ) arg6 fullShare d)
          ∗ (scM1_0.view.loc (c : Thread nD τ) ↦{fullShare} xa0)
          ∗ (iprop((arg4.view.loc (c : Thread nD τ) ↦[arg4.view.set]{fullShare} arg4.view.rep x0)
              ∗ (arg5.view.loc (c : Thread nD τ) ↦[arg5.view.set]{fullShare} arg5.view.rep x1)
              ∗ (tbM1_0.view.loc (c : Thread nD τ) ↦{qT} T0)
              ∗ (tbM1_1.view.loc (c : Thread nD τ) ↦{qT} T1)
              ∗ (∃ f, arg6.view.loc (c : Thread nD τ) ↦[arg6.view.set]{fullShare} arg6.view.writes (Elt F) f outp)
              ∗ (scM1_0.view.loc (c : Thread nD τ) ↦{fullShare} out0)) -∗ K ⟨⟩))
          ⊢ wp frame (wpE (defs₀ (F := F)) Variants.none c none) Set.univ (cc1__scatter_kernel i tbM1_0 (Memref.isWhole_whole _) tbM1_1 (Memref.isWhole_whole _) arg4 harg4 arg5 harg5 arg6 harg6 scM1_0 (Memref.isWhole_whole _)) K } :=
  ⟨_, _, fun K => by
    unfold owns
    rw [cc1__scatter_kernel_eq_skeleton]; unfold cc1__scatter_kernel_skel
    iintro ⟨H0, H1, HT0, HT1, ⟨%dO, %fo, -, HO⟩, HS0, Hk⟩
    have hS0 : scM1_0.IsWhole := Memref.isWhole_whole _
    have hT0 : tbM1_0.IsWhole := Memref.isWhole_whole _
    have hT1 : tbM1_1.IsWhole := Memref.isWhole_whole _
    sl_exec! (disch := first | exact h1 | exact hc | exact h3)
    sl_step
    iapply Hk
    isplitl [H0]; · iexact H0
    isplitl [H1]; · iexact H1
    isplitl [HT0]; · iexact HT0
    isplitl [HT1]; · iexact HT1
    isplitl [HO]; · iexists _; iexact HO
    iexact HS0⟩

/-- That run's pieces cover the output block (one store of the whole block). -/
theorem cover1_E (c : Dev nD) (i : grid1.Coords) (arg4 : Memref sig .tc .vmem S2048x1 .i32) (harg4 : arg4.IsWhole) (arg5 : Memref sig .tc .vmem S2048x64 .bf16) (harg5 : arg5.IsWhole) (arg6 : Memref sig .tc .vmem S1024x64 .f32) (harg6 : arg6.IsWhole)
    (qT : PosShare TreeShare) (T0 T1 : S489.Idx → Elt F .i32) (x0 : S2048x1.Idx → Elt F .i32) (x1 : S2048x64.Idx → Elt F .bf16)
    (xa0 : Buf (Elt F) ((c : Thread nD τ).loc cc1_scratch0))
    (h1 : ¬isFirst1 i) (hc : isActive1 (F := F) T0 T1 i) (h3 : isLast1 i) (y : S1024x64.Idx) :
    ∃ pc ∈ (kernelRun1_E c i arg4 harg4 arg5 harg5 arg6 harg6 qT T0 T1 x0 x1 xa0 h1 hc h3).1, y ∈ pc.1.set :=
  View.cover_of_tiledL (kernelRun1_E c i arg4 harg4 arg5 harg5 arg6 harg6 qT T0 T1 x0 x1 xa0 h1 hc h3).1 S1024x64.size (by sl_kernel_rfl) y

/-- What that run leaves in the output block: its pieces read back. -/
def out1_E (c : Dev nD) (i : grid1.Coords) (arg4 : Memref sig .tc .vmem S2048x1 .i32) (harg4 : arg4.IsWhole) (arg5 : Memref sig .tc .vmem S2048x64 .bf16) (harg5 : arg5.IsWhole) (arg6 : Memref sig .tc .vmem S1024x64 .f32) (harg6 : arg6.IsWhole)
    (qT : PosShare TreeShare) (T0 T1 : S489.Idx → Elt F .i32) (x0 : S2048x1.Idx → Elt F .i32) (x1 : S2048x64.Idx → Elt F .bf16)
    (xa0 : Buf (Elt F) ((c : Thread nD τ).loc cc1_scratch0))
    (h1 : ¬isFirst1 i) (hc : isActive1 (F := F) T0 T1 i) (h3 : isLast1 i) : S1024x64.Idx → Elt F .f32 :=
  VO1.read (Elt F) (VO1.writes (Elt F) VO1.junk (kernelRun1_E c i arg4 harg4 arg5 harg5 arg6 harg6 qT T0 T1 x0 x1 xa0 h1 hc h3).1)

set_option maxHeartbeats 8000000 in
/-- The body at a point that is not first, not active, last: the output block is overwritten by the run's pieces; the accumulator ends at the
    run's contents. -/
noncomputable def kernelRun1_G (c : Dev nD) (i : grid1.Coords) (arg4 : Memref sig .tc .vmem S2048x1 .i32) (harg4 : arg4.IsWhole) (arg5 : Memref sig .tc .vmem S2048x64 .bf16) (harg5 : arg5.IsWhole) (arg6 : Memref sig .tc .vmem S1024x64 .f32) (harg6 : arg6.IsWhole)
    (qT : PosShare TreeShare) (T0 T1 : S489.Idx → Elt F .i32) (x0 : S2048x1.Idx → Elt F .i32) (x1 : S2048x64.Idx → Elt F .bf16)
    (xa0 : Buf (Elt F) ((c : Thread nD τ).loc cc1_scratch0))
    (h1 : ¬isFirst1 i) (hc : ¬isActive1 (F := F) T0 T1 i) (h3 : isLast1 i) :
    Σ' (outp : List (View.Piece (Elt F) S1024x64 .f32)), { out0 : Buf (Elt F) ((c : Thread nD τ).loc cc1_scratch0) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (tbM1_0.view.loc (c : Thread nD τ) ↦{qT} T0)
          ∗ (tbM1_1.view.loc (c : Thread nD τ) ↦{qT} T1)
          ∗ (∃ d, owns (c : Thread nD τ) arg6 fullShare d)
          ∗ (scM1_0.view.loc (c : Thread nD τ) ↦{fullShare} xa0)
          ∗ (iprop((arg4.view.loc (c : Thread nD τ) ↦[arg4.view.set]{fullShare} arg4.view.rep x0)
              ∗ (arg5.view.loc (c : Thread nD τ) ↦[arg5.view.set]{fullShare} arg5.view.rep x1)
              ∗ (tbM1_0.view.loc (c : Thread nD τ) ↦{qT} T0)
              ∗ (tbM1_1.view.loc (c : Thread nD τ) ↦{qT} T1)
              ∗ (∃ f, arg6.view.loc (c : Thread nD τ) ↦[arg6.view.set]{fullShare} arg6.view.writes (Elt F) f outp)
              ∗ (scM1_0.view.loc (c : Thread nD τ) ↦{fullShare} out0)) -∗ K ⟨⟩))
          ⊢ wp frame (wpE (defs₀ (F := F)) Variants.none c none) Set.univ (cc1__scatter_kernel i tbM1_0 (Memref.isWhole_whole _) tbM1_1 (Memref.isWhole_whole _) arg4 harg4 arg5 harg5 arg6 harg6 scM1_0 (Memref.isWhole_whole _)) K } :=
  ⟨_, _, fun K => by
    unfold owns
    rw [cc1__scatter_kernel_eq_skeleton]; unfold cc1__scatter_kernel_skel
    iintro ⟨H0, H1, HT0, HT1, ⟨%dO, %fo, -, HO⟩, HS0, Hk⟩
    have hS0 : scM1_0.IsWhole := Memref.isWhole_whole _
    have hT0 : tbM1_0.IsWhole := Memref.isWhole_whole _
    have hT1 : tbM1_1.IsWhole := Memref.isWhole_whole _
    sl_exec! (disch := first | exact h1 | exact hc | exact h3)
    sl_step
    iapply Hk
    isplitl [H0]; · iexact H0
    isplitl [H1]; · iexact H1
    isplitl [HT0]; · iexact HT0
    isplitl [HT1]; · iexact HT1
    isplitl [HO]; · iexists _; iexact HO
    iexact HS0⟩

/-- That run's pieces cover the output block (one store of the whole block). -/
theorem cover1_G (c : Dev nD) (i : grid1.Coords) (arg4 : Memref sig .tc .vmem S2048x1 .i32) (harg4 : arg4.IsWhole) (arg5 : Memref sig .tc .vmem S2048x64 .bf16) (harg5 : arg5.IsWhole) (arg6 : Memref sig .tc .vmem S1024x64 .f32) (harg6 : arg6.IsWhole)
    (qT : PosShare TreeShare) (T0 T1 : S489.Idx → Elt F .i32) (x0 : S2048x1.Idx → Elt F .i32) (x1 : S2048x64.Idx → Elt F .bf16)
    (xa0 : Buf (Elt F) ((c : Thread nD τ).loc cc1_scratch0))
    (h1 : ¬isFirst1 i) (hc : ¬isActive1 (F := F) T0 T1 i) (h3 : isLast1 i) (y : S1024x64.Idx) :
    ∃ pc ∈ (kernelRun1_G c i arg4 harg4 arg5 harg5 arg6 harg6 qT T0 T1 x0 x1 xa0 h1 hc h3).1, y ∈ pc.1.set :=
  View.cover_of_tiledL (kernelRun1_G c i arg4 harg4 arg5 harg5 arg6 harg6 qT T0 T1 x0 x1 xa0 h1 hc h3).1 S1024x64.size (by sl_kernel_rfl) y

/-- What that run leaves in the output block: its pieces read back. -/
def out1_G (c : Dev nD) (i : grid1.Coords) (arg4 : Memref sig .tc .vmem S2048x1 .i32) (harg4 : arg4.IsWhole) (arg5 : Memref sig .tc .vmem S2048x64 .bf16) (harg5 : arg5.IsWhole) (arg6 : Memref sig .tc .vmem S1024x64 .f32) (harg6 : arg6.IsWhole)
    (qT : PosShare TreeShare) (T0 T1 : S489.Idx → Elt F .i32) (x0 : S2048x1.Idx → Elt F .i32) (x1 : S2048x64.Idx → Elt F .bf16)
    (xa0 : Buf (Elt F) ((c : Thread nD τ).loc cc1_scratch0))
    (h1 : ¬isFirst1 i) (hc : ¬isActive1 (F := F) T0 T1 i) (h3 : isLast1 i) : S1024x64.Idx → Elt F .f32 :=
  VO1.read (Elt F) (VO1.writes (Elt F) VO1.junk (kernelRun1_G c i arg4 harg4 arg5 harg5 arg6 harg6 qT T0 T1 x0 x1 xa0 h1 hc h3).1)

end Cert.Kernel.Gen

end
-- ==== Proof.Word.Decisions.lean ====
/-
  (The same statements and proofs as for the idealized program, here for the program read at the word level:
  the two printed programs differ in no operation.)

  The kernel bodies' three decisions at a grid point, as plain arithmetic.

  Each body compares the point's coordinate on the accumulated axis with zero (the first point clears the
  accumulator) and with the axis's last value (the last point stores), by an equality of 32-bit words widened to a
  word and tested against zero: for coordinates below 2³² that is the equality of the numbers.  It is active when the
  edge block's largest identifier is at least the first row `off = 1024 * b` of the block of rows at hand and the
  smallest is at most `off + 1023`, both compared signed; as `off + 1023` stays below 2³¹ the two words read
  signed are those numbers.  The two identifiers are read from tables at the entry the point's edge block numbers.
-/
import proofs.«179733_j56453050138798_2_alg».proof.Proof.Word.GatherRuns
import proofs.«179733_j56453050138798_2_alg».proof.Proof.Word.ScatterRuns
import proofs.«179733_j56453050138798_2_alg».proof.Proof.LibSelector
import Idealize.ShloMosaic.Lib.ValueIdx

noncomputable section

namespace Cert.Kernel.Decisions

open Idealize.ShloMosaic Idealize.ShloMosaic.ValueIdx Cert.Kernel Cert.Kernel.Gen

variable {F : FTy → Type} [FloatOps F]

/-! ## Words -/

/-- A bit widened to a word and tested against zero is the bit. -/
theorem flag_iff (b : Bool) : Scalar.cmpi .ne (Scalar.extui (BitVec.ofBool b)) 0#32 = 1#1 ↔ b = true := by
  cases b <;> decide

/-- The words of two numbers below 2³² are equal exactly when the numbers are. -/
theorem ofNat_beq_iff (n k : ℕ) (hn : n < 2 ^ 32) (hk : k < 2 ^ 32) :
    (BitVec.ofNat 32 n == BitVec.ofNat 32 k) = true ↔ n = k := by
  rw [beq_iff_eq]
  constructor
  · intro h
    have h' := congrArg BitVec.toNat h
    rw [BitVec.toNat_ofNat, BitVec.toNat_ofNat, Nat.mod_eq_of_lt hn, Nat.mod_eq_of_lt hk] at h'
    exact h'
  · rintro rfl; rfl

/-- The body's test "coordinate `n` is `k`", for numbers below 2³². -/
theorem coord_test_iff (n k : ℕ) (hn : n < 2 ^ 32) (hk : k < 2 ^ 32) :
    Scalar.cmpi .ne (Scalar.extui (Scalar.cmpi .eq (BitVec.ofNat 32 n) (BitVec.ofNat 32 k))) 0#32 = 1#1 ↔ n = k :=
  (flag_iff (BitVec.ofNat 32 n == BitVec.ofNat 32 k)).trans (ofNat_beq_iff n k hn hk)

/-- The conjunction of two bits as words is the bit of the conjunction. -/
theorem andi_bits (p q : Bool) : Scalar.andi (BitVec.ofBool p) (BitVec.ofBool q) = BitVec.ofBool (p && q) := by
  cases p <;> cases q <;> decide

/-- The word of a block's first row: the block number times 1024. -/
theorem first_row_word (b : ℕ) : Scalar.muli (BitVec.ofNat 32 b) 1024#32 = BitVec.ofNat 32 (1024 * b) := by
  show BitVec.ofNat 32 b * BitVec.ofNat 32 1024 = _
  rw [← BitVec.ofNat_mul, Nat.mul_comm]

/-- The word of a block's last row: the first row plus 1024 less 1. -/
theorem last_row_word (b : ℕ) :
    Scalar.subi (Scalar.addi (Scalar.muli (BitVec.ofNat 32 b) 1024#32) 1024#32) 1#32
      = BitVec.ofNat 32 (1024 * b + 1023) := by
  rw [first_row_word]
  show BitVec.ofNat 32 (1024 * b) + BitVec.ofNat 32 1024 - BitVec.ofNat 32 1 = _
  rw [← BitVec.ofNat_add, show 1024 * b + 1024 = (1024 * b + 1023) + 1 from by omega, BitVec.ofNat_add,
    BitVec.add_sub_cancel]

/-- The body's test "the range `[w0, w1]` meets the block of rows `[1024 b, 1024 b + 1023]`", for a block number
    below 98: both comparisons are signed, and neither bound wraps. -/
theorem active_test_iff (w0 w1 : BitVec 32) (b : ℕ) (hb : b < 98) :
    Scalar.cmpi .ne (Scalar.extui (Scalar.andi
        (Scalar.cmpi .sge w1 (Scalar.muli (BitVec.ofNat 32 b) 1024#32))
        (Scalar.cmpi .sle w0 (Scalar.subi (Scalar.addi (Scalar.muli (BitVec.ofNat 32 b) 1024#32) 1024#32) 1#32)))) 0#32
      = 1#1
      ↔ (1024 * (b : ℤ) ≤ w1.toInt ∧ w0.toInt ≤ 1024 * (b : ℤ) + 1023) := by
  rw [last_row_word, first_row_word]
  have h1 : (BitVec.ofNat 32 (1024 * b)).toInt = ((1024 * b : ℕ) : ℤ) :=
    Cert.Lib.Selector.toInt_ofNat_small _ (by omega)
  have h2 : (BitVec.ofNat 32 (1024 * b + 1023)).toInt = ((1024 * b + 1023 : ℕ) : ℤ) :=
    Cert.Lib.Selector.toInt_ofNat_small _ (by omega)
  rw [show Scalar.cmpi .sge w1 (BitVec.ofNat 32 (1024 * b)) = BitVec.ofBool ((BitVec.ofNat 32 (1024 * b)).sle w1) from rfl,
    show Scalar.cmpi .sle w0 (BitVec.ofNat 32 (1024 * b + 1023))
      = BitVec.ofBool (w0.sle (BitVec.ofNat 32 (1024 * b + 1023))) from rfl, andi_bits]
  refine (flag_iff ((BitVec.ofNat 32 (1024 * b)).sle w1 && w0.sle (BitVec.ofNat 32 (1024 * b + 1023)))).trans ?_
  rw [Bool.and_eq_true, BitVec.sle, BitVec.sle, decide_eq_true_iff, decide_eq_true_iff, h1, h2]
  push_cast
  exact Iff.rfl

/-! ## First and last along the accumulated axis -/

theorem isFirst0_iff (i : grid0.Coords) : isFirst0 i ↔ (i 1).val = 0 := by
  have hb : (i 1).val < 98 := (i 1).isLt
  exact coord_test_iff (i 1).val 0 (by omega) (by omega)

theorem isLast0_iff (i : grid0.Coords) : isLast0 i ↔ (i 1).val = 97 := by
  have hb : (i 1).val < 98 := (i 1).isLt
  exact coord_test_iff (i 1).val 97 (by omega) (by omega)

theorem not_last0_of_first0 {i : grid0.Coords} (h : isFirst0 i) : ¬ isLast0 i := by
  rw [isFirst0_iff] at h
  rw [isLast0_iff]
  omega

theorem isFirst1_iff (i : grid1.Coords) : isFirst1 i ↔ (i 1).val = 0 := by
  have hb : (i 1).val < 489 := (i 1).isLt
  exact coord_test_iff (i 1).val 0 (by omega) (by omega)

theorem isLast1_iff (i : grid1.Coords) : isLast1 i ↔ (i 1).val = 488 := by
  have hb : (i 1).val < 489 := (i 1).isLt
  exact coord_test_iff (i 1).val 488 (by omega) (by omega)

theorem not_last1_of_first1 {i : grid1.Coords} (h : isFirst1 i) : ¬ isLast1 i := by
  rw [isFirst1_iff] at h
  rw [isLast1_iff]
  omega

/-! ## Active -/

theorem isActive0_iff (T0 T1 : S489.Idx → Elt F .i32) (i : grid0.Coords) :
    isActive0 (F := F) T0 T1 i
      ↔ (1024 * ((i 1).val : ℤ) ≤ (word0_1 T1 i).toInt ∧ (word0_0 T0 i).toInt ≤ 1024 * ((i 1).val : ℤ) + 1023) :=
  active_test_iff (word0_0 T0 i) (word0_1 T1 i) (i 1).val (i 1).isLt

theorem isActive1_iff (T0 T1 : S489.Idx → Elt F .i32) (i : grid1.Coords) :
    isActive1 (F := F) T0 T1 i
      ↔ (1024 * ((i 0).val : ℤ) ≤ (word1_1 T1 i).toInt ∧ (word1_0 T0 i).toInt ≤ 1024 * ((i 0).val : ℤ) + 1023) :=
  active_test_iff (word1_0 T0 i) (word1_1 T1 i) (i 0).val (i 0).isLt

/-! ## The table words

Each table word is read through a one-entry window of the whole table at the offset the point's edge block numbers;
the offset is the coordinate's 32-bit word read back as a number, which for a coordinate below 489 is the coordinate. -/

/-- A grid coordinate's word read back as a number is the coordinate. -/
theorem coord_word (n : ℕ) (hn : n < 2 ^ 32) : (BitVec.ofNat 32 n).toNat = n := by
  rw [BitVec.toNat_ofNat]; exact Nat.mod_eq_of_lt hn

theorem word0_0_eq (T : S489.Idx → Elt F .i32) (i : grid0.Coords) :
    word0_0 T i = T (ValueIdx.ix1 ⟨(i 0).val, (i 0).isLt⟩) := by
  have hb : (i 0).val < 489 := (i 0).isLt
  refine congrArg T (funext fun a => Fin.ext ?_)
  match a with
  | ⟨0, _⟩ =>
    show (BitVec.ofNat 32 (i 0).val).toNat + 1 * 0 = (i 0).val
    rw [coord_word _ (by omega), Nat.mul_zero, Nat.add_zero]

theorem word0_1_eq (T : S489.Idx → Elt F .i32) (i : grid0.Coords) :
    word0_1 T i = T (ValueIdx.ix1 ⟨(i 0).val, (i 0).isLt⟩) := by
  have hb : (i 0).val < 489 := (i 0).isLt
  refine congrArg T (funext fun a => Fin.ext ?_)
  match a with
  | ⟨0, _⟩ =>
    show (BitVec.ofNat 32 (i 0).val).toNat + 1 * 0 = (i 0).val
    rw [coord_word _ (by omega), Nat.mul_zero, Nat.add_zero]

theorem word1_0_eq (T : S489.Idx → Elt F .i32) (i : grid1.Coords) :
    word1_0 T i = T (ValueIdx.ix1 ⟨(i 1).val, (i 1).isLt⟩) := by
  have hb : (i 1).val < 489 := (i 1).isLt
  refine congrArg T (funext fun a => Fin.ext ?_)
  match a with
  | ⟨0, _⟩ =>
    show (BitVec.ofNat 32 (i 1).val).toNat + 1 * 0 = (i 1).val
    rw [coord_word _ (by omega), Nat.mul_zero, Nat.add_zero]

theorem word1_1_eq (T : S489.Idx → Elt F .i32) (i : grid1.Coords) :
    word1_1 T i = T (ValueIdx.ix1 ⟨(i 1).val, (i 1).isLt⟩) := by
  have hb : (i 1).val < 489 := (i 1).isLt
  refine congrArg T (funext fun a => Fin.ext ?_)
  match a with
  | ⟨0, _⟩ =>
    show (BitVec.ofNat 32 (i 1).val).toNat + 1 * 0 = (i 1).val
    rw [coord_word _ (by omega), Nat.mul_zero, Nat.add_zero]

end Cert.Kernel.Decisions

end
-- ==== Proof.Word.GatherData.lean ====
/-
  (The same statements and proofs as for the idealized program, here for the program read at the word level:
  the two printed programs differ in no operation.)

  The gather call as a pipeline: what its staging buffers and its accumulator hold point by point, and the body's
  obligation at every grid point.

  The call runs over a grid of 489 edge blocks by 98 node blocks, the node block the fast coordinate.  For one edge
  block the body clears its accumulator at the first node block, adds one masked product at every node block the two
  table words call active, and at the last node block stores the accumulator times the edge weights into the output
  block.  The output block is therefore left alone at every point but the last of a row, is written back only there
  (the next point's edge block is the same until then), and what the accumulator holds before a point is what the
  points before it left.  This module states that trajectory by recursion over the points, each step being whichever
  of the body's six runs the decisions at the point select; takes as the invariant between points "the accumulator at
  the trajectory's contents, the two tables, the core's other scoped buffers"; and proves that from the invariant and
  the windows' blocks the body at any point runs to its end and re-establishes the invariant at the next point, the
  inputs' buffers unchanged and the output's buffer at the trajectory's block where the point stores it.
-/
import proofs.«179733_j56453050138798_2_alg».proof.Proof.Word.GatherRuns
import proofs.«179733_j56453050138798_2_alg».proof.Proof.Word.Decisions
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.Kernel.Gen

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (a : (pcfg0 (F := F)).Adm)

abbrev cfgA0 : Pipeline.Cfg sig Λ₀ := cfg0 (F := F) a
abbrev crd0 (t : Fin (cfgA0 a).N) : (cfgA0 a).grid.Coords := (cfgA0 a).grid.coords t

abbrev ms0_0 (t : Fin (cfgA0 a).N) : Memref sig .tc .vmem S2048x1 .i32 := spec0_0.stage ((cfgA0 a).slots t (0 : Fin 4))
abbrev hs0_0 (t : Fin (cfgA0 a).N) : (ms0_0 a t).IsWhole := hstage0_0 (((cfgA0 a).slots t (0 : Fin 4)).cast nbuf0_0)
abbrev ms0_1 (t : Fin (cfgA0 a).N) : Memref sig .tc .vmem S2048x1 .f32 := spec0_1.stage ((cfgA0 a).slots t (1 : Fin 4))
abbrev hs0_1 (t : Fin (cfgA0 a).N) : (ms0_1 a t).IsWhole := hstage0_1 (((cfgA0 a).slots t (1 : Fin 4)).cast nbuf0_1)
abbrev ms0_2 (t : Fin (cfgA0 a).N) : Memref sig .tc .vmem S1024x64 .bf16 := spec0_2.stage ((cfgA0 a).slots t (2 : Fin 4))
abbrev hs0_2 (t : Fin (cfgA0 a).N) : (ms0_2 a t).IsWhole := hstage0_2 (((cfgA0 a).slots t (2 : Fin 4)).cast nbuf0_2)
abbrev ms0_3 (t : Fin (cfgA0 a).N) : Memref sig .tc .vmem S2048x64 .bf16 := spec0_3.stage ((cfgA0 a).slots t (3 : Fin 4))
abbrev hs0_3 (t : Fin (cfgA0 a).N) : (ms0_3 a t).IsWhole := hstage0_3 (((cfgA0 a).slots t (3 : Fin 4)).cast nbuf0_3)

abbrev bodyAt0 (t : Fin (cfgA0 a).N) : Prog (TpuEff nD τ sig (Elt F) Λ₀ .tc) PUnit :=
  cc0__gather_kernel (crd0 a t) tbM0_0 (Memref.isWhole_whole _) tbM0_1 (Memref.isWhole_whole _) (ms0_0 a t) (hs0_0 a t) (ms0_1 a t) (hs0_1 a t)
    (ms0_2 a t) (hs0_2 a t) (ms0_3 a t) (hs0_3 a t) scM0_0 (Memref.isWhole_whole _)

theorem body_eq0 (t : Fin (cfgA0 a).N) : defs₀ (F := F) .tc (cfgA0 a).body ((cfgA0 a).bodyArgs t ((cfgA0 a).slots t)) = bodyAt0 a t := rfl
theorem N_eq0 : (cfgA0 a).N = 47922 := N_0
theorem index3 (t : Fin (cfgA0 a).N) : ((cfgA0 a).win (3 : Fin 4)).index t = cc0_transform_3 (crd0 a t) := rfl
theorem idle3 (t : Fin (cfgA0 a).N) : (cfgA0 a).idle (3 : Fin 4) (crd0 a t) = !(k0_cond3 (crd0 a t) == 1#1) := rfl
theorem idle0 (t : Fin (cfgA0 a).N) : (cfgA0 a).idle (0 : Fin 4) (crd0 a t) = false := rfl
theorem isOut3 : ((cfgA0 a).win (3 : Fin 4)).isOut = true := rfl

/-! ## Grid arithmetic -/

/-! ## The blocks, the tables, the trajectory -/

variable (V : (c : Dev nD) → (b : Ref sig .tc) → Buf (Elt F) ((c : Thread nD τ).loc b))

/-- The two tables' contents the pipeline runs at. -/
abbrev tb0_0 : S489.Idx → Elt F .i32 := a.1 (0 : Fin 2)
abbrev tb0_1 : S489.Idx → Elt F .i32 := a.1 (1 : Fin 2)

/-- Window `w`'s block at point `t`, read off its array as the region finds it. -/
def iblk0 (c : Dev nD) (w : Fin (cfgA0 a).W) (t : Fin (cfgA0 a).N) : (((cfgA0 a).win w).xblock (crd0 a t)).Idx → Elt F ((cfgA0 a).win w).elt :=
  (((cfgA0 a).win w).blk t).view.read (Elt F) (V c (Pipeline.arrRef spec0 w))

abbrev ScrBuf0 (c : Dev nD) : Type := Buf (Elt F) ((c : Thread nD τ).loc cc0_scratch0)

/-- One point of the trajectory: from the accumulator's contents before the point, its contents after it and what the
    output block holds after it (junk where the point stores nothing there). -/
def step0 (c : Dev nD) (t : Fin (cfgA0 a).N) (prev : ScrBuf0 (F := F) c) : ScrBuf0 (F := F) c × (S2048x64.Idx → Elt F .bf16) :=
  if h1 : isFirst0 (crd0 a t) then
    if hc : isActive0 (F := F) (tb0_0 a) (tb0_1 a) (crd0 a t) then
      ((kernelRun0_A c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) h1 hc (Decisions.not_last0_of_first0 h1)).1, VO0.read (Elt F) VO0.junk)
    else
      ((kernelRun0_B c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) h1 hc (Decisions.not_last0_of_first0 h1)).1, VO0.read (Elt F) VO0.junk)
  else if h3 : isLast0 (crd0 a t) then
    if hc : isActive0 (F := F) (tb0_0 a) (tb0_1 a) (crd0 a t) then
      ((kernelRun0_E c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) prev h1 hc h3).2.1,
       out0_E c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) prev h1 hc h3)
    else
      ((kernelRun0_G c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) prev h1 hc h3).2.1,
       out0_G c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) prev h1 hc h3)
  else
    if hc : isActive0 (F := F) (tb0_0 a) (tb0_1 a) (crd0 a t) then
      ((kernelRun0_C c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) prev h1 hc h3).1, VO0.read (Elt F) VO0.junk)
    else
      ((kernelRun0_D c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) prev h1 hc h3).1, VO0.read (Elt F) VO0.junk)

/-- The accumulator's contents BEFORE position `n` (junk before the first point, which clears it). -/
def acc0 (c : Dev nD) : ℕ → ScrBuf0 (F := F) c
  | 0 => (View.whole cc0_scratch0).junk
  | n + 1 => if h : n < (cfgA0 a).N then (step0 a V c ⟨n, h⟩ (acc0 c n)).1 else acc0 c n

theorem acc0_succ (c : Dev nD) (t : Fin (cfgA0 a).N) : acc0 a V c (t.val + 1) = (step0 a V c t (acc0 a V c t.val)).1 := by
  rw [acc0, dif_pos t.isLt]

/-- What the output block holds after point `t`. -/
def out0At (c : Dev nD) (t : Fin (cfgA0 a).N) : S2048x64.Idx → Elt F .bf16 := (step0 a V c t (acc0 a V c t.val)).2

/-- The tables as the region holds them, one by one. -/
theorem prefHeld0_eq (c : Dev nD) (q : Fin 2 → PosShare TreeShare) (v : pre0.Contents (Elt F)) :
    (Pipeline.prefHeld (Ix := Unit) (Name := ℕ) (U := Pipeline.UD sig nD τ) (Lvl := ℕ) pre0 c q v : sProp 𝕄)
      = iprop((((c : Thread nD τ).loc main_v28) ↦{q 0} v 0) ∗ (((c : Thread nD τ).loc main_v29) ↦{q 1} v 1)) := by
  unfold Pipeline.prefHeld
  rw [show (Finset.univ : Finset (Fin 2)) = {(0 : Fin 2), (1 : Fin 2)} from by decide, bigSep_insert (by decide), bigSep_singleton]
  rfl

/-- The scoped buffers of the core that are neither a staging buffer of this call nor its accumulator. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- THE INVARIANT before position `t`: the accumulator at what the trajectory says (anything before the first point),
    the two tables, the other scoped buffers. -/
def Phi0 (c : Dev nD) (t : Fin ((cfgA0 a).N + 1)) : sProp 𝕄 :=
  iprop((∃ x, ⌜t.val ≠ 0 → x = acc0 a V c t.val⌝ ∗ (scM0_0.view.loc (c : Thread nD τ) ↦{fullShare} x))
    ∗ (tbM0_0.view.loc (c : Thread nD τ) ↦{fullShare} tb0_0 a) ∗ (tbM0_1.view.loc (c : Thread nD τ) ↦{fullShare} tb0_1 a)
    ∗ others0 c)

/-- The proof data of the gather call on core `c`, at the contents `V` the region is entered with. -/
def dat0 (c : Dev nD) : Dat τ (Elt F) Unit ℕ (Pipeline.UD sig nD τ) ℕ (cfgA0 a) c where
  A w := V c (Pipeline.arrRef spec0 w)
  after w t := match w with
    | ⟨0, _⟩ => iblk0 a V c 0 t
    | ⟨1, _⟩ => iblk0 a V c 1 t
    | ⟨2, _⟩ => iblk0 a V c 2 t
    | ⟨3, _⟩ => out0At a V c t
  Φ t := Phi0 a V c t
  q _ := fullShare
  owed _ := 0

theorem A_eq0 (c : Dev nD) (w : Fin (cfgA0 a).W) : (dat0 a V c).A w = V c (Pipeline.arrRef spec0 w) := by dsimp only [dat0]
theorem after0_0 (c : Dev nD) (t : Fin (cfgA0 a).N) : (dat0 a V c).after 0 t = iblk0 a V c 0 t := rfl
theorem after0_1 (c : Dev nD) (t : Fin (cfgA0 a).N) : (dat0 a V c).after 1 t = iblk0 a V c 1 t := rfl
theorem after0_2 (c : Dev nD) (t : Fin (cfgA0 a).N) : (dat0 a V c).after 2 t = iblk0 a V c 2 t := rfl
theorem after0_3 (c : Dev nD) (t : Fin (cfgA0 a).N) : (dat0 a V c).after 3 t = out0At a V c t := rfl

/-- Each input window's current staging buffer holds its block at every point, fetched there or not. -/
theorem before0_0 (c : Dev nD) (t : Fin (cfgA0 a).N) (d) : (dat0 a V c).before (0 : Fin 4) t d = iblk0 a V c 0 t :=
  ((dat0 a V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin (cfgA0 a).N) (d) : (dat0 a V c).before (1 : Fin 4) t d = iblk0 a V c 1 t :=
  ((dat0 a V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin (cfgA0 a).N) (d) : (dat0 a V c).before (2 : Fin 4) t d = iblk0 a V c 2 t :=
  ((dat0 a V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The schedule of the output window -/

theorem crd_val0 (t : Fin (cfgA0 a).N) : (crd0 a t 0).val = t.val / 98 % 489 := rfl
theorem crd_val1 (t : Fin (cfgA0 a).N) : (crd0 a t 1).val = t.val % 98 := by
  show t.val / 1 % 98 = _
  rw [Nat.div_one]

/-- At a point that is not the last along the accumulated axis the output block is not written back: the next point has
    the same edge block. -/
theorem flush3_of_not_last (t : Fin (cfgA0 a).N) (h3 : ¬ isLast0 (crd0 a t)) : ((cfgA0 a).win (3 : Fin 4)).flush t = false := by
  have hj : t.val % 98 ≠ 97 := fun h => h3 ((Decisions.isLast0_iff _).2 ((crd_val1 a t).trans h))
  have hN : (cfgA0 a).N = 47922 := N_0
  have hN' : (cfgA0 a).grid.N = 47922 := N_0
  have htN := t.isLt
  unfold Window.flush
  rw [isOut3, Bool.true_and, Bool.or_eq_false_iff]
  refine ⟨decide_eq_false (by omega), decide_eq_false ?_⟩
  rintro ⟨h, hne⟩
  apply hne
  rw [index3, index3]
  unfold cc0_transform_3
  dsimp only
  have e : (crd0 a ⟨t.val + 1, h⟩ 0).val = (crd0 a t 0).val := by
    rw [crd_val0, crd_val0]; show (t.val + 1) / 98 % 489 = t.val / 98 % 489
    have : (t.val + 1) / 98 = t.val / 98 := by omega
    rw [this]
  rw [e]

/-- The first position is a first point. -/
theorem isFirst0_of_zero (t : Fin (cfgA0 a).N) (h0 : t.val = 0) : isFirst0 (crd0 a t) :=
  (Decisions.isFirst0_iff _).2 (by rw [crd_val1, h0])

/-! ## The trajectory's step, path by path -/

theorem step0_A (c : Dev nD) (t : Fin (cfgA0 a).N) (prev : ScrBuf0 (F := F) c) (h1 : isFirst0 (crd0 a t)) (hc : isActive0 (F := F) (tb0_0 a) (tb0_1 a) (crd0 a t)) :
    step0 a V c t prev = ((kernelRun0_A c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) h1 hc (Decisions.not_last0_of_first0 h1)).1, VO0.read (Elt F) VO0.junk) := by
  unfold step0; rw [dif_pos h1, dif_pos hc]
theorem step0_B (c : Dev nD) (t : Fin (cfgA0 a).N) (prev : ScrBuf0 (F := F) c) (h1 : isFirst0 (crd0 a t)) (hc : ¬ isActive0 (F := F) (tb0_0 a) (tb0_1 a) (crd0 a t)) :
    step0 a V c t prev = ((kernelRun0_B c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) h1 hc (Decisions.not_last0_of_first0 h1)).1, VO0.read (Elt F) VO0.junk) := by
  unfold step0; rw [dif_pos h1, dif_neg hc]
theorem step0_C (c : Dev nD) (t : Fin (cfgA0 a).N) (prev : ScrBuf0 (F := F) c) (h1 : ¬ isFirst0 (crd0 a t)) (hc : isActive0 (F := F) (tb0_0 a) (tb0_1 a) (crd0 a t)) (h3 : ¬ isLast0 (crd0 a t)) :
    step0 a V c t prev = ((kernelRun0_C c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) prev h1 hc h3).1, VO0.read (Elt F) VO0.junk) := by
  unfold step0; rw [dif_neg h1, dif_neg h3, dif_pos hc]
theorem step0_D (c : Dev nD) (t : Fin (cfgA0 a).N) (prev : ScrBuf0 (F := F) c) (h1 : ¬ isFirst0 (crd0 a t)) (hc : ¬ isActive0 (F := F) (tb0_0 a) (tb0_1 a) (crd0 a t)) (h3 : ¬ isLast0 (crd0 a t)) :
    step0 a V c t prev = ((kernelRun0_D c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) prev h1 hc h3).1, VO0.read (Elt F) VO0.junk) := by
  unfold step0; rw [dif_neg h1, dif_neg h3, dif_neg hc]
theorem step0_E (c : Dev nD) (t : Fin (cfgA0 a).N) (prev : ScrBuf0 (F := F) c) (h1 : ¬ isFirst0 (crd0 a t)) (hc : isActive0 (F := F) (tb0_0 a) (tb0_1 a) (crd0 a t)) (h3 : isLast0 (crd0 a t)) :
    step0 a V c t prev = ((kernelRun0_E c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) prev h1 hc h3).2.1,
       out0_E c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) prev h1 hc h3) := by
  unfold step0; rw [dif_neg h1, dif_pos h3, dif_pos hc]
theorem step0_G (c : Dev nD) (t : Fin (cfgA0 a).N) (prev : ScrBuf0 (F := F) c) (h1 : ¬ isFirst0 (crd0 a t)) (hc : ¬ isActive0 (F := F) (tb0_0 a) (tb0_1 a) (crd0 a t)) (h3 : isLast0 (crd0 a t)) :
    step0 a V c t prev = ((kernelRun0_G c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) prev h1 hc h3).2.1,
       out0_G c (crd0 a t) (ms0_0 a t) (hs0_0 a t) (ms0_1 a t) (hs0_1 a t) (ms0_2 a t) (hs0_2 a t) (ms0_3 a t) (hs0_3 a t) fullShare (tb0_0 a) (tb0_1 a)
        (iblk0 a V c 0 t) (iblk0 a V c 1 t) (iblk0 a V c 2 t) prev h1 hc h3) := by
  unfold step0; rw [dif_neg h1, dif_pos h3, dif_neg hc]

/-! ## The body obligation -/

theorem idle3_of_not_last (t : Fin (cfgA0 a).N) (h3 : ¬ isLast0 (crd0 a t)) : (cfgA0 a).idle (3 : Fin 4) (crd0 a t) = true := by
  rw [idle3]; simp only [Bool.not_eq_true', beq_eq_false_iff_ne, ne_eq]; exact h3
theorem idle3_of_last (t : Fin (cfgA0 a).N) (h3 : isLast0 (crd0 a t)) : (cfgA0 a).idle (3 : Fin 4) (crd0 a t) = false := by
  rw [idle3]; simp only [Bool.not_eq_false', beq_iff_eq]; exact h3

set_option maxHeartbeats 4000000 in
/-- The body at any point: the decisions there tell the path; the inputs hold their blocks, the accumulator what the
    trajectory says; the path's run applies and leaves what the trajectory says next. -/
theorem sound_body0 (c : Dev nD) (t : Fin (cfgA0 a).N) :
    iprop((dat0 a V c).Φ t.castSucc ∗ (dat0 a V c).owesAt () t.castSucc
        ∗ (∃ d, owns (c : Thread nD τ) (ms0_0 a t) fullShare ((dat0 a V c).before (0 : Fin 4) t d))
        ∗ (∃ d, owns (c : Thread nD τ) (ms0_1 a t) fullShare ((dat0 a V c).before (1 : Fin 4) t d))
        ∗ (∃ d, owns (c : Thread nD τ) (ms0_2 a t) fullShare ((dat0 a V c).before (2 : Fin 4) t d))
        ∗ (∃ d, owns (c : Thread nD τ) (ms0_3 a t) fullShare ((dat0 a V c).before (3 : Fin 4) t d)))
      ⊢ wp frame (wpE (defs₀ (F := F)) Variants.none c none) Set.univ (bodyAt0 a t) fun _ =>
          iprop((dat0 a V c).Φ t.succ ∗ (dat0 a V c).owesAt () t.succ
            ∗ bigSep Finset.univ fun w : Fin (cfgA0 a).W =>
                match (cfgA0 a).idle w ((cfgA0 a).grid.coords t) with
                | true =>
                  match ((cfgA0 a).win w).flush t with
                  | false => iprop(∃ d, owns (c : Thread nD τ) (((cfgA0 a).win w).stage ((cfgA0 a).slots t w)) fullShare ((dat0 a V c).before w t d))
                  | true => owns (c : Thread nD τ) (((cfgA0 a).win w).stage ((cfgA0 a).slots t w)) fullShare ((dat0 a V c).after w t)
                | false => owns (c : Thread nD τ) (((cfgA0 a).win w).stage ((cfgA0 a).slots t w)) fullShare ((dat0 a V c).after w t)) := by
  rw [bigSep_W0]
  rewrite [show (cfgA0 a).idle (0 : Fin 4) ((cfgA0 a).grid.coords t) = false from rfl]
  try rewrite [show (cfgA0 a).idle (1 : Fin 4) ((cfgA0 a).grid.coords t) = false from rfl]
  try rewrite [show (cfgA0 a).idle (2 : Fin 4) ((cfgA0 a).grid.coords t) = false from rfl]
  rewrite [show (dat0 a V c).Φ t.succ = Phi0 a V c t.succ from rfl, show (dat0 a V c).Φ t.castSucc = Phi0 a V c t.castSucc from rfl,
    show (dat0 a V c).owesAt () t.succ = (dat0 a V c).owesAt () t.castSucc from rfl]
  by_cases h1 : isFirst0 (crd0 a t)
  · have h3 : ¬ isLast0 (crd0 a t) := Decisions.not_last0_of_first0 h1
    by_cases hc : isActive0 (F := F) (tb0_0 a) (tb0_1 a) (crd0 a t)
    ·
      rewrite [show (cfgA0 a).idle (3 : Fin 4) ((cfgA0 a).grid.coords t) = true from idle3_of_not_last a t h3, flush3_of_not_last a t h3]
      simp only [before0_0, before0_1, before0_2, after0_0, after0_1, after0_2, after0_3]
      unfold Phi0
      simp only [Fin.val_castSucc, Fin.val_succ]
      iintro ⟨⟨⟨%x, %hx, HS0⟩, HT0, HT1, Hoth⟩, Ho, ⟨%d0, H0⟩, ⟨%d1, H1⟩, ⟨%d2, H2⟩, ⟨%d3, H3⟩⟩
      iapply ((kernelRun0_A c (crd0 a t) (ms0_0 a t) (hs0_0 a t) (ms0_1 a t) (hs0_1 a t) (ms0_2 a t) (hs0_2 a t) (ms0_3 a t) (hs0_3 a t) fullShare (tb0_0 a) (tb0_1 a)
          (iblk0 a V c 0 t) (iblk0 a V c 1 t) (iblk0 a V c 2 t) h1 hc h3).2 _ x _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      isplitl [HS0]; · iexact HS0
      iintro ⟨H0, H1, H2, HT0, HT1, H3, HS0⟩
      isplitl [HS0 HT0 HT1 Hoth]
      · isplitl [HS0]
        · iexists _; isplitr; swap
          · iexact HS0
          · ipureintro; intro _; rw [acc0_succ, step0_A a V c t _ h1 hc]
        isplitl [HT0]; · iexact HT0
        isplitl [HT1]; · iexact HT1
        iexact Hoth
      isplitl [Ho]; · iexact Ho
      isplitl [H0]; · iapply owns_of_rep; iexact H0
      isplitl [H1]; · iapply owns_of_rep; iexact H1
      isplitl [H2]; · iapply owns_of_rep; iexact H2
      iexists d3; iexact H3
    ·
      rewrite [show (cfgA0 a).idle (3 : Fin 4) ((cfgA0 a).grid.coords t) = true from idle3_of_not_last a t h3, flush3_of_not_last a t h3]
      simp only [before0_0, before0_1, before0_2, after0_0, after0_1, after0_2, after0_3]
      unfold Phi0
      simp only [Fin.val_castSucc, Fin.val_succ]
      iintro ⟨⟨⟨%x, %hx, HS0⟩, HT0, HT1, Hoth⟩, Ho, ⟨%d0, H0⟩, ⟨%d1, H1⟩, ⟨%d2, H2⟩, ⟨%d3, H3⟩⟩
      iapply ((kernelRun0_B c (crd0 a t) (ms0_0 a t) (hs0_0 a t) (ms0_1 a t) (hs0_1 a t) (ms0_2 a t) (hs0_2 a t) (ms0_3 a t) (hs0_3 a t) fullShare (tb0_0 a) (tb0_1 a)
          (iblk0 a V c 0 t) (iblk0 a V c 1 t) (iblk0 a V c 2 t) h1 hc h3).2 _ x _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexact H3
      isplitl [HS0]; · iexact HS0
      iintro ⟨H0, H1, H2, HT0, HT1, H3, HS0⟩
      isplitl [HS0 HT0 HT1 Hoth]
      · isplitl [HS0]
        · iexists _; isplitr; swap
          · iexact HS0
          · ipureintro; intro _; rw [acc0_succ, step0_B a V c t _ h1 hc]
        isplitl [HT0]; · iexact HT0
        isplitl [HT1]; · iexact HT1
        iexact Hoth
      isplitl [Ho]; · iexact Ho
      isplitl [H0]; · iapply owns_of_rep; iexact H0
      isplitl [H1]; · iapply owns_of_rep; iexact H1
      isplitl [H2]; · iapply owns_of_rep; iexact H2
      iexists d3; iexact H3
  · have hx0 : t.val ≠ 0 := fun h0 => h1 (isFirst0_of_zero a t h0)
    by_cases h3 : isLast0 (crd0 a t)
    · by_cases hc : isActive0 (F := F) (tb0_0 a) (tb0_1 a) (crd0 a t)
      ·
        rewrite [show (cfgA0 a).idle (3 : Fin 4) ((cfgA0 a).grid.coords t) = false from idle3_of_last a t h3]
        simp only [before0_0, before0_1, before0_2, after0_0, after0_1, after0_2, after0_3]
        unfold Phi0
        simp only [Fin.val_castSucc, Fin.val_succ]
        iintro ⟨⟨⟨%x, %hx, HS0⟩, HT0, HT1, Hoth⟩, Ho, ⟨%d0, H0⟩, ⟨%d1, H1⟩, ⟨%d2, H2⟩, ⟨%d3, H3⟩⟩
        obtain rfl := hx hx0
        iapply ((kernelRun0_E c (crd0 a t) (ms0_0 a t) (hs0_0 a t) (ms0_1 a t) (hs0_1 a t) (ms0_2 a t) (hs0_2 a t) (ms0_3 a t) (hs0_3 a t) fullShare (tb0_0 a) (tb0_1 a)
            (iblk0 a V c 0 t) (iblk0 a V c 1 t) (iblk0 a V c 2 t) (acc0 a V c t.val) h1 hc h3).2.2 _)
        isplitl [H0]; · iapply rep_of_owns; iexact H0
        isplitl [H1]; · iapply rep_of_owns; iexact H1
        isplitl [H2]; · iapply rep_of_owns; iexact H2
        isplitl [HT0]; · iexact HT0
        isplitl [HT1]; · iexact HT1
        isplitl [H3]; · iexists _; iexact H3
        isplitl [HS0]; · iexact HS0
        iintro ⟨H0, H1, H2, HT0, HT1, ⟨%e3, H3⟩, HS0⟩
        isplitl [HS0 HT0 HT1 Hoth]
        · isplitl [HS0]
          · iexists _; isplitr; swap
            · iexact HS0
            · ipureintro; intro _; rw [acc0_succ, step0_E a V c t _ h1 hc h3]
          isplitl [HT0]; · iexact HT0
          isplitl [HT1]; · iexact HT1
          iexact Hoth
        isplitl [Ho]; · iexact Ho
        isplitl [H0]; · iapply owns_of_rep; iexact H0
        isplitl [H1]; · iapply owns_of_rep; iexact H1
        isplitl [H2]; · iapply owns_of_rep; iexact H2
        unfold out0At; rw [step0_E a V c t _ h1 hc h3]; dsimp only; unfold out0_E
        unfold owns; iexists _; isplitr
        swap; · iexact H3
        ipureintro; exact View.read_writes_of_cover _ _ _ _ _ (cover0_E c (crd0 a t) (ms0_0 a t) (hs0_0 a t) (ms0_1 a t) (hs0_1 a t) (ms0_2 a t) (hs0_2 a t) (ms0_3 a t) (hs0_3 a t) fullShare (tb0_0 a) (tb0_1 a)
            (iblk0 a V c 0 t) (iblk0 a V c 1 t) (iblk0 a V c 2 t) (acc0 a V c t.val) h1 hc h3)
      ·
        rewrite [show (cfgA0 a).idle (3 : Fin 4) ((cfgA0 a).grid.coords t) = false from idle3_of_last a t h3]
        simp only [before0_0, before0_1, before0_2, after0_0, after0_1, after0_2, after0_3]
        unfold Phi0
        simp only [Fin.val_castSucc, Fin.val_succ]
        iintro ⟨⟨⟨%x, %hx, HS0⟩, HT0, HT1, Hoth⟩, Ho, ⟨%d0, H0⟩, ⟨%d1, H1⟩, ⟨%d2, H2⟩, ⟨%d3, H3⟩⟩
        obtain rfl := hx hx0
        iapply ((kernelRun0_G c (crd0 a t) (ms0_0 a t) (hs0_0 a t) (ms0_1 a t) (hs0_1 a t) (ms0_2 a t) (hs0_2 a t) (ms0_3 a t) (hs0_3 a t) fullShare (tb0_0 a) (tb0_1 a)
            (iblk0 a V c 0 t) (iblk0 a V c 1 t) (iblk0 a V c 2 t) (acc0 a V c t.val) h1 hc h3).2.2 _)
        isplitl [H0]; · iapply rep_of_owns; iexact H0
        isplitl [H1]; · iapply rep_of_owns; iexact H1
        isplitl [H2]; · iapply rep_of_owns; iexact H2
        isplitl [HT0]; · iexact HT0
        isplitl [HT1]; · iexact HT1
        isplitl [H3]; · iexists _; iexact H3
        isplitl [HS0]; · iexact HS0
        iintro ⟨H0, H1, H2, HT0, HT1, ⟨%e3, H3⟩, HS0⟩
        isplitl [HS0 HT0 HT1 Hoth]
        · isplitl [HS0]
          · iexists _; isplitr; swap
            · iexact HS0
            · ipureintro; intro _; rw [acc0_succ, step0_G a V c t _ h1 hc h3]
          isplitl [HT0]; · iexact HT0
          isplitl [HT1]; · iexact HT1
          iexact Hoth
        isplitl [Ho]; · iexact Ho
        isplitl [H0]; · iapply owns_of_rep; iexact H0
        isplitl [H1]; · iapply owns_of_rep; iexact H1
        isplitl [H2]; · iapply owns_of_rep; iexact H2
        unfold out0At; rw [step0_G a V c t _ h1 hc h3]; dsimp only; unfold out0_G
        unfold owns; iexists _; isplitr
        swap; · iexact H3
        ipureintro; exact View.read_writes_of_cover _ _ _ _ _ (cover0_G c (crd0 a t) (ms0_0 a t) (hs0_0 a t) (ms0_1 a t) (hs0_1 a t) (ms0_2 a t) (hs0_2 a t) (ms0_3 a t) (hs0_3 a t) fullShare (tb0_0 a) (tb0_1 a)
            (iblk0 a V c 0 t) (iblk0 a V c 1 t) (iblk0 a V c 2 t) (acc0 a V c t.val) h1 hc h3)
    · by_cases hc : isActive0 (F := F) (tb0_0 a) (tb0_1 a) (crd0 a t)
      ·
        rewrite [show (cfgA0 a).idle (3 : Fin 4) ((cfgA0 a).grid.coords t) = true from idle3_of_not_last a t h3, flush3_of_not_last a t h3]
        simp only [before0_0, before0_1, before0_2, after0_0, after0_1, after0_2, after0_3]
        unfold Phi0
        simp only [Fin.val_castSucc, Fin.val_succ]
        iintro ⟨⟨⟨%x, %hx, HS0⟩, HT0, HT1, Hoth⟩, Ho, ⟨%d0, H0⟩, ⟨%d1, H1⟩, ⟨%d2, H2⟩, ⟨%d3, H3⟩⟩
        obtain rfl := hx hx0
        iapply ((kernelRun0_C c (crd0 a t) (ms0_0 a t) (hs0_0 a t) (ms0_1 a t) (hs0_1 a t) (ms0_2 a t) (hs0_2 a t) (ms0_3 a t) (hs0_3 a t) fullShare (tb0_0 a) (tb0_1 a)
            (iblk0 a V c 0 t) (iblk0 a V c 1 t) (iblk0 a V c 2 t) (acc0 a V c t.val) h1 hc h3).2 _ _)
        isplitl [H0]; · iapply rep_of_owns; iexact H0
        isplitl [H1]; · iapply rep_of_owns; iexact H1
        isplitl [H2]; · iapply rep_of_owns; iexact H2
        isplitl [HT0]; · iexact HT0
        isplitl [HT1]; · iexact HT1
        isplitl [H3]; · iexact H3
        isplitl [HS0]; · iexact HS0
        iintro ⟨H0, H1, H2, HT0, HT1, H3, HS0⟩
        isplitl [HS0 HT0 HT1 Hoth]
        · isplitl [HS0]
          · iexists _; isplitr; swap
            · iexact HS0
            · ipureintro; intro _; rw [acc0_succ, step0_C a V c t _ h1 hc h3]
          isplitl [HT0]; · iexact HT0
          isplitl [HT1]; · iexact HT1
          iexact Hoth
        isplitl [Ho]; · iexact Ho
        isplitl [H0]; · iapply owns_of_rep; iexact H0
        isplitl [H1]; · iapply owns_of_rep; iexact H1
        isplitl [H2]; · iapply owns_of_rep; iexact H2
        iexists d3; iexact H3
      ·
        rewrite [show (cfgA0 a).idle (3 : Fin 4) ((cfgA0 a).grid.coords t) = true from idle3_of_not_last a t h3, flush3_of_not_last a t h3]
        simp only [before0_0, before0_1, before0_2, after0_0, after0_1, after0_2, after0_3]
        unfold Phi0
        simp only [Fin.val_castSucc, Fin.val_succ]
        iintro ⟨⟨⟨%x, %hx, HS0⟩, HT0, HT1, Hoth⟩, Ho, ⟨%d0, H0⟩, ⟨%d1, H1⟩, ⟨%d2, H2⟩, ⟨%d3, H3⟩⟩
        obtain rfl := hx hx0
        iapply ((kernelRun0_D c (crd0 a t) (ms0_0 a t) (hs0_0 a t) (ms0_1 a t) (hs0_1 a t) (ms0_2 a t) (hs0_2 a t) (ms0_3 a t) (hs0_3 a t) fullShare (tb0_0 a) (tb0_1 a)
            (iblk0 a V c 0 t) (iblk0 a V c 1 t) (iblk0 a V c 2 t) (acc0 a V c t.val) h1 hc h3).2 _ _)
        isplitl [H0]; · iapply rep_of_owns; iexact H0
        isplitl [H1]; · iapply rep_of_owns; iexact H1
        isplitl [H2]; · iapply rep_of_owns; iexact H2
        isplitl [HT0]; · iexact HT0
        isplitl [HT1]; · iexact HT1
        isplitl [H3]; · iexact H3
        isplitl [HS0]; · iexact HS0
        iintro ⟨H0, H1, H2, HT0, HT1, H3, HS0⟩
        isplitl [HS0 HT0 HT1 Hoth]
        · isplitl [HS0]
          · iexists _; isplitr; swap
            · iexact HS0
            · ipureintro; intro _; rw [acc0_succ, step0_D a V c t _ h1 hc h3]
          isplitl [HT0]; · iexact HT0
          isplitl [HT1]; · iexact HT1
          iexact Hoth
        isplitl [Ho]; · iexact Ho
        isplitl [H0]; · iapply owns_of_rep; iexact H0
        isplitl [H1]; · iapply owns_of_rep; iexact H1
        isplitl [H2]; · iapply owns_of_rep; iexact H2
        iexists d3; iexact H3

/-- The library's body obligation, at every point. -/
theorem body_obligation0 (c : Dev nD) : BodyObligation (dat0 (F := F) a V c) (defs₀ (F := F)) Variants.none () Set.univ := fun t => by
  rw [bigSep_W0]
  exact sound_body0 a V c t

end Cert.Kernel.Gen

end
-- ==== Proof.Word.ScatterData.lean ====
/-
  (The same statements and proofs as for the idealized program, here for the program read at the word level:
  the two printed programs differ in no operation.)

  The scatter call as a pipeline: what its staging buffers and its accumulator hold point by point, and the body's
  obligation at every grid point.

  The call runs over a grid of 98 node blocks by 489 edge blocks, the edge block the fast coordinate.  For one node
  block the body clears its accumulator at the first edge block, adds one masked transposed product (the 0/1 selector
  of the edges' destination words against the edges' scaled rows) at every edge block the two table words call
  active, and at the last edge block stores the accumulator into the output block.  The output block is therefore
  left alone at every point but the last of a row, is written back only there (the next point's node block is the
  same until then), and what the accumulator holds before a point is what the points before it left.  This module
  states that trajectory by recursion over the points, each step being whichever of the body's six runs the
  decisions at the point select; takes as the invariant between points "the accumulator at the trajectory's contents,
  the two tables, the core's other scoped buffers"; and proves that from the invariant and the windows' blocks the body
  at any point runs to its end and re-establishes the invariant at the next point, the inputs' buffers unchanged and the
  output's buffer at the trajectory's block where the point stores it.
-/
import proofs.«179733_j56453050138798_2_alg».proof.Proof.Word.ScatterRuns
import proofs.«179733_j56453050138798_2_alg».proof.Proof.Word.Decisions
import Idealize.ShloMosaic.Lib.Pipeline.FrameBody
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.Kernel.Gen

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable (a : (pcfg1 (F := F)).Adm)

abbrev cfgA1 : Pipeline.Cfg sig Λ₀ := cfg1 (F := F) a
abbrev crd1 (t : Fin (cfgA1 a).N) : (cfgA1 a).grid.Coords := (cfgA1 a).grid.coords t

abbrev ms1_0 (t : Fin (cfgA1 a).N) : Memref sig .tc .vmem S2048x1 .i32 := spec1_0.stage ((cfgA1 a).slots t (0 : Fin 3))
abbrev hs1_0 (t : Fin (cfgA1 a).N) : (ms1_0 a t).IsWhole := hstage1_0 (((cfgA1 a).slots t (0 : Fin 3)).cast nbuf1_0)
abbrev ms1_1 (t : Fin (cfgA1 a).N) : Memref sig .tc .vmem S2048x64 .bf16 := spec1_1.stage ((cfgA1 a).slots t (1 : Fin 3))
abbrev hs1_1 (t : Fin (cfgA1 a).N) : (ms1_1 a t).IsWhole := hstage1_1 (((cfgA1 a).slots t (1 : Fin 3)).cast nbuf1_1)
abbrev ms1_2 (t : Fin (cfgA1 a).N) : Memref sig .tc .vmem S1024x64 .f32 := spec1_2.stage ((cfgA1 a).slots t (2 : Fin 3))
abbrev hs1_2 (t : Fin (cfgA1 a).N) : (ms1_2 a t).IsWhole := hstage1_2 (((cfgA1 a).slots t (2 : Fin 3)).cast nbuf1_2)

abbrev bodyAt1 (t : Fin (cfgA1 a).N) : Prog (TpuEff nD τ sig (Elt F) Λ₀ .tc) PUnit :=
  cc1__scatter_kernel (crd1 a t) tbM1_0 (Memref.isWhole_whole _) tbM1_1 (Memref.isWhole_whole _) (ms1_0 a t) (hs1_0 a t) (ms1_1 a t) (hs1_1 a t)
    (ms1_2 a t) (hs1_2 a t) scM1_0 (Memref.isWhole_whole _)

theorem body_eq1 (t : Fin (cfgA1 a).N) : defs₀ (F := F) .tc (cfgA1 a).body ((cfgA1 a).bodyArgs t ((cfgA1 a).slots t)) = bodyAt1 a t := rfl
theorem N_eq1 : (cfgA1 a).N = 47922 := N_1
theorem index1_2 (t : Fin (cfgA1 a).N) : ((cfgA1 a).win (2 : Fin 3)).index t = cc1_transform_2 (crd1 a t) := rfl
theorem idleW1_2 (t : Fin (cfgA1 a).N) : (cfgA1 a).idle (2 : Fin 3) (crd1 a t) = !(k1_cond3 (crd1 a t) == 1#1) := rfl
theorem idleW1_0 (t : Fin (cfgA1 a).N) : (cfgA1 a).idle (0 : Fin 3) (crd1 a t) = false := rfl
theorem isOut1_2 : ((cfgA1 a).win (2 : Fin 3)).isOut = true := rfl

/-! ## The blocks, the tables, the trajectory -/

variable (V : (c : Dev nD) → (b : Ref sig .tc) → Buf (Elt F) ((c : Thread nD τ).loc b))

/-- The two tables' contents the pipeline runs at. -/
abbrev tb1_0 : S489.Idx → Elt F .i32 := a.1 (0 : Fin 2)
abbrev tb1_1 : S489.Idx → Elt F .i32 := a.1 (1 : Fin 2)

/-- Window `w`'s block at point `t`, read off its array as the region finds it. -/
def iblk1 (c : Dev nD) (w : Fin (cfgA1 a).W) (t : Fin (cfgA1 a).N) : (((cfgA1 a).win w).xblock (crd1 a t)).Idx → Elt F ((cfgA1 a).win w).elt :=
  (((cfgA1 a).win w).blk t).view.read (Elt F) (V c (Pipeline.arrRef spec1 w))

abbrev ScrBuf1 (c : Dev nD) : Type := Buf (Elt F) ((c : Thread nD τ).loc cc1_scratch0)

/-- One point of the trajectory: from the accumulator's contents before the point, its contents after it and what the
    output block holds after it (junk where the point stores nothing there). -/
def step1 (c : Dev nD) (t : Fin (cfgA1 a).N) (prev : ScrBuf1 (F := F) c) : ScrBuf1 (F := F) c × (S1024x64.Idx → Elt F .f32) :=
  if h1 : isFirst1 (crd1 a t) then
    if hc : isActive1 (F := F) (tb1_0 a) (tb1_1 a) (crd1 a t) then
      ((kernelRun1_A c (crd1 a t) (ms1_0 a t) (hs1_0 a t) (ms1_1 a t) (hs1_1 a t) (ms1_2 a t) (hs1_2 a t) fullShare (tb1_0 a) (tb1_1 a)
        (iblk1 a V c 0 t) (iblk1 a V c 1 t) h1 hc (Decisions.not_last1_of_first1 h1)).1, VO1.read (Elt F) VO1.junk)
    else
      ((kernelRun1_B c (crd1 a t) (ms1_0 a t) (hs1_0 a t) (ms1_1 a t) (hs1_1 a t) (ms1_2 a t) (hs1_2 a t) fullShare (tb1_0 a) (tb1_1 a)
        (iblk1 a V c 0 t) (iblk1 a V c 1 t) h1 hc (Decisions.not_last1_of_first1 h1)).1, VO1.read (Elt F) VO1.junk)
  else if h3 : isLast1 (crd1 a t) then
    if hc : isActive1 (F := F) (tb1_0 a) (tb1_1 a) (crd1 a t) then
      ((kernelRun1_E c (crd1 a t) (ms1_0 a t) (hs1_0 a t) (ms1_1 a t) (hs1_1 a t) (ms1_2 a t) (hs1_2 a t) fullShare (tb1_0 a) (tb1_1 a)
        (iblk1 a V c 0 t) (iblk1 a V c 1 t) prev h1 hc h3).2.1,
       out1_E c (crd1 a t) (ms1_0 a t) (hs1_0 a t) (ms1_1 a t) (hs1_1 a t) (ms1_2 a t) (hs1_2 a t) fullShare (tb1_0 a) (tb1_1 a)
        (iblk1 a V c 0 t) (iblk1 a V c 1 t) prev h1 hc h3)
    else
      ((kernelRun1_G c (crd1 a t) (ms1_0 a t) (hs1_0 a t) (ms1_1 a t) (hs1_1 a t) (ms1_2 a t) (hs1_2 a t) fullShare (tb1_0 a) (tb1_1 a)
        (iblk1 a V c 0 t) (iblk1 a V c 1 t) prev h1 hc h3).2.1,
       out1_G c (crd1 a t) (ms1_0 a t) (hs1_0 a t) (ms1_1 a t) (hs1_1 a t) (ms1_2 a t) (hs1_2 a t) fullShare (tb1_0 a) (tb1_1 a)
        (iblk1 a V c 0 t) (iblk1 a V c 1 t) prev h1 hc h3)
  else
    if hc : isActive1 (F := F) (tb1_0 a) (tb1_1 a) (crd1 a t) then
      ((kernelRun1_C c (crd1 a t) (ms1_0 a t) (hs1_0 a t) (ms1_1 a t) (hs1_1 a t) (ms1_2 a t) (hs1_2 a t) fullShare (tb1_0 a) (tb1_1 a)
        (iblk1 a V c 0 t) (iblk1 a V c 1 t) prev h1 hc h3).1, VO1.read (Elt F) VO1.junk)
    else
      ((kernelRun1_D c (crd1 a t) (ms1_0 a t) (hs1_0 a t) (ms1_1 a t) (hs1_1 a t) (ms1_2 a t) (hs1_2 a t) fullShare (tb1_0 a) (tb1_1 a)
        (iblk1 a V c 0 t) (iblk1 a V c 1 t) prev h1 hc h3).1, VO1.read (Elt F) VO1.junk)

/-- The accumulator's contents BEFORE position `n` (junk before the first point, which clears it). -/
def acc1 (c : Dev nD) : ℕ → ScrBuf1 (F := F) c
  | 0 => (View.whole cc1_scratch0).junk
  | n + 1 => if h : n < (cfgA1 a).N then (step1 a V c ⟨n, h⟩ (acc1 c n)).1 else acc1 c n

theorem acc1_succ (c : Dev nD) (t : Fin (cfgA1 a).N) : acc1 a V c (t.val + 1) = (step1 a V c t (acc1 a V c t.val)).1 := by
  rw [acc1, dif_pos t.isLt]

/-- What the output block holds after point `t`. -/
def out1At (c : Dev nD) (t : Fin (cfgA1 a).N) : S1024x64.Idx → Elt F .f32 := (step1 a V c t (acc1 a V c t.val)).2

/-- The tables as the region holds them, one by one. -/
theorem prefHeld1_eq (c : Dev nD) (q : Fin 2 → PosShare TreeShare) (v : pre1.Contents (Elt F)) :
    (Pipeline.prefHeld (Ix := Unit) (Name := ℕ) (U := Pipeline.UD sig nD τ) (Lvl := ℕ) pre1 c q v : sProp 𝕄)
      = iprop((((c : Thread nD τ).loc main_v49) ↦{q 0} v 0) ∗ (((c : Thread nD τ).loc main_v50) ↦{q 1} v 1)) := by
  unfold Pipeline.prefHeld
  rw [show (Finset.univ : Finset (Fin 2)) = {(0 : Fin 2), (1 : Fin 2)} from by decide, bigSep_insert (by decide), bigSep_singleton]
  rfl

/-- The scoped buffers of the core that are neither a staging buffer of this call nor its accumulator. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- THE INVARIANT before position `t`: the accumulator at what the trajectory says (anything before the first point),
    the two tables, the other scoped buffers. -/
def Phi1 (c : Dev nD) (t : Fin ((cfgA1 a).N + 1)) : sProp 𝕄 :=
  iprop((∃ x, ⌜t.val ≠ 0 → x = acc1 a V c t.val⌝ ∗ (scM1_0.view.loc (c : Thread nD τ) ↦{fullShare} x))
    ∗ (tbM1_0.view.loc (c : Thread nD τ) ↦{fullShare} tb1_0 a) ∗ (tbM1_1.view.loc (c : Thread nD τ) ↦{fullShare} tb1_1 a)
    ∗ others1 c)

/-- The proof data of the scatter call on core `c`, at the contents `V` the region is entered with. -/
def dat1 (c : Dev nD) : Dat τ (Elt F) Unit ℕ (Pipeline.UD sig nD τ) ℕ (cfgA1 a) c where
  A w := V c (Pipeline.arrRef spec1 w)
  after w t := match w with
    | ⟨0, _⟩ => iblk1 a V c 0 t
    | ⟨1, _⟩ => iblk1 a V c 1 t
    | ⟨2, _⟩ => out1At a V c t
  Φ t := Phi1 a V c t
  q _ := fullShare
  owed _ := 0

theorem A_eq1 (c : Dev nD) (w : Fin (cfgA1 a).W) : (dat1 a V c).A w = V c (Pipeline.arrRef spec1 w) := by dsimp only [dat1]
theorem after1_0 (c : Dev nD) (t : Fin (cfgA1 a).N) : (dat1 a V c).after 0 t = iblk1 a V c 0 t := rfl
theorem after1_1 (c : Dev nD) (t : Fin (cfgA1 a).N) : (dat1 a V c).after 1 t = iblk1 a V c 1 t := rfl
theorem after1_2 (c : Dev nD) (t : Fin (cfgA1 a).N) : (dat1 a V c).after 2 t = out1At a V c t := rfl

/-- Each input window's current staging buffer holds its block at every point, fetched there or not. -/
theorem before1_0 (c : Dev nD) (t : Fin (cfgA1 a).N) (d) : (dat1 a V c).before (0 : Fin 3) t d = iblk1 a V c 0 t :=
  ((dat1 a V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin (cfgA1 a).N) (d) : (dat1 a V c).before (1 : Fin 3) t d = iblk1 a V c 1 t :=
  ((dat1 a V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! ## The schedule of the output window -/

theorem crd1_val0 (t : Fin (cfgA1 a).N) : (crd1 a t 0).val = t.val / 489 % 98 := rfl
theorem crd1_val1 (t : Fin (cfgA1 a).N) : (crd1 a t 1).val = t.val % 489 := by
  show t.val / 1 % 489 = _
  rw [Nat.div_one]

/-- At a point that is not the last along the accumulated axis the output block is not written back: the next point has
    the same node block. -/
theorem flush2_of_not_last (t : Fin (cfgA1 a).N) (h3 : ¬ isLast1 (crd1 a t)) : ((cfgA1 a).win (2 : Fin 3)).flush t = false := by
  have hj : t.val % 489 ≠ 488 := fun h => h3 ((Decisions.isLast1_iff _).2 ((crd1_val1 a t).trans h))
  have hN : (cfgA1 a).N = 47922 := N_1
  have hN' : (cfgA1 a).grid.N = 47922 := N_1
  have htN := t.isLt
  unfold Window.flush
  rw [isOut1_2, Bool.true_and, Bool.or_eq_false_iff]
  refine ⟨decide_eq_false (by omega), decide_eq_false ?_⟩
  rintro ⟨h, hne⟩
  apply hne
  rw [index1_2, index1_2]
  unfold cc1_transform_2
  dsimp only
  have e : (crd1 a ⟨t.val + 1, h⟩ 0).val = (crd1 a t 0).val := by
    rw [crd1_val0, crd1_val0]; show (t.val + 1) / 489 % 98 = t.val / 489 % 98
    have : (t.val + 1) / 489 = t.val / 489 := by omega
    rw [this]
  rw [e]

/-- The first position is a first point. -/
theorem isFirst1_of_zero (t : Fin (cfgA1 a).N) (h0 : t.val = 0) : isFirst1 (crd1 a t) :=
  (Decisions.isFirst1_iff _).2 (by rw [crd1_val1, h0])

/-! ## The trajectory's step, path by path -/

theorem step1_A (c : Dev nD) (t : Fin (cfgA1 a).N) (prev : ScrBuf1 (F := F) c) (h1 : isFirst1 (crd1 a t)) (hc : isActive1 (F := F) (tb1_0 a) (tb1_1 a) (crd1 a t)) :
    step1 a V c t prev = ((kernelRun1_A c (crd1 a t) (ms1_0 a t) (hs1_0 a t) (ms1_1 a t) (hs1_1 a t) (ms1_2 a t) (hs1_2 a t) fullShare (tb1_0 a) (tb1_1 a)
        (iblk1 a V c 0 t) (iblk1 a V c 1 t) h1 hc (Decisions.not_last1_of_first1 h1)).1, VO1.read (Elt F) VO1.junk) := by
  unfold step1; rw [dif_pos h1, dif_pos hc]
theorem step1_B (c : Dev nD) (t : Fin (cfgA1 a).N) (prev : ScrBuf1 (F := F) c) (h1 : isFirst1 (crd1 a t)) (hc : ¬ isActive1 (F := F) (tb1_0 a) (tb1_1 a) (crd1 a t)) :
    step1 a V c t prev = ((kernelRun1_B c (crd1 a t) (ms1_0 a t) (hs1_0 a t) (ms1_1 a t) (hs1_1 a t) (ms1_2 a t) (hs1_2 a t) fullShare (tb1_0 a) (tb1_1 a)
        (iblk1 a V c 0 t) (iblk1 a V c 1 t) h1 hc (Decisions.not_last1_of_first1 h1)).1, VO1.read (Elt F) VO1.junk) := by
  unfold step1; rw [dif_pos h1, dif_neg hc]
theorem step1_C (c : Dev nD) (t : Fin (cfgA1 a).N) (prev : ScrBuf1 (F := F) c) (h1 : ¬ isFirst1 (crd1 a t)) (hc : isActive1 (F := F) (tb1_0 a) (tb1_1 a) (crd1 a t)) (h3 : ¬ isLast1 (crd1 a t)) :
    step1 a V c t prev = ((kernelRun1_C c (crd1 a t) (ms1_0 a t) (hs1_0 a t) (ms1_1 a t) (hs1_1 a t) (ms1_2 a t) (hs1_2 a t) fullShare (tb1_0 a) (tb1_1 a)
        (iblk1 a V c 0 t) (iblk1 a V c 1 t) prev h1 hc h3).1, VO1.read (Elt F) VO1.junk) := by
  unfold step1; rw [dif_neg h1, dif_neg h3, dif_pos hc]
theorem step1_D (c : Dev nD) (t : Fin (cfgA1 a).N) (prev : ScrBuf1 (F := F) c) (h1 : ¬ isFirst1 (crd1 a t)) (hc : ¬ isActive1 (F := F) (tb1_0 a) (tb1_1 a) (crd1 a t)) (h3 : ¬ isLast1 (crd1 a t)) :
    step1 a V c t prev = ((kernelRun1_D c (crd1 a t) (ms1_0 a t) (hs1_0 a t) (ms1_1 a t) (hs1_1 a t) (ms1_2 a t) (hs1_2 a t) fullShare (tb1_0 a) (tb1_1 a)
        (iblk1 a V c 0 t) (iblk1 a V c 1 t) prev h1 hc h3).1, VO1.read (Elt F) VO1.junk) := by
  unfold step1; rw [dif_neg h1, dif_neg h3, dif_neg hc]
theorem step1_E (c : Dev nD) (t : Fin (cfgA1 a).N) (prev : ScrBuf1 (F := F) c) (h1 : ¬ isFirst1 (crd1 a t)) (hc : isActive1 (F := F) (tb1_0 a) (tb1_1 a) (crd1 a t)) (h3 : isLast1 (crd1 a t)) :
    step1 a V c t prev = ((kernelRun1_E c (crd1 a t) (ms1_0 a t) (hs1_0 a t) (ms1_1 a t) (hs1_1 a t) (ms1_2 a t) (hs1_2 a t) fullShare (tb1_0 a) (tb1_1 a)
        (iblk1 a V c 0 t) (iblk1 a V c 1 t) prev h1 hc h3).2.1,
       out1_E c (crd1 a t) (ms1_0 a t) (hs1_0 a t) (ms1_1 a t) (hs1_1 a t) (ms1_2 a t) (hs1_2 a t) fullShare (tb1_0 a) (tb1_1 a)
        (iblk1 a V c 0 t) (iblk1 a V c 1 t) prev h1 hc h3) := by
  unfold step1; rw [dif_neg h1, dif_pos h3, dif_pos hc]
theorem step1_G (c : Dev nD) (t : Fin (cfgA1 a).N) (prev : ScrBuf1 (F := F) c) (h1 : ¬ isFirst1 (crd1 a t)) (hc : ¬ isActive1 (F := F) (tb1_0 a) (tb1_1 a) (crd1 a t)) (h3 : isLast1 (crd1 a t)) :
    step1 a V c t prev = ((kernelRun1_G c (crd1 a t) (ms1_0 a t) (hs1_0 a t) (ms1_1 a t) (hs1_1 a t) (ms1_2 a t) (hs1_2 a t) fullShare (tb1_0 a) (tb1_1 a)
        (iblk1 a V c 0 t) (iblk1 a V c 1 t) prev h1 hc h3).2.1,
       out1_G c (crd1 a t) (ms1_0 a t) (hs1_0 a t) (ms1_1 a t) (hs1_1 a t) (ms1_2 a t) (hs1_2 a t) fullShare (tb1_0 a) (tb1_1 a)
        (iblk1 a V c 0 t) (iblk1 a V c 1 t) prev h1 hc h3) := by
  unfold step1; rw [dif_neg h1, dif_pos h3, dif_neg hc]

/-! ## The body obligation -/

theorem idle2_of_not_last (t : Fin (cfgA1 a).N) (h3 : ¬ isLast1 (crd1 a t)) : (cfgA1 a).idle (2 : Fin 3) (crd1 a t) = true := by
  rw [idleW1_2]; simp only [Bool.not_eq_true', beq_eq_false_iff_ne, ne_eq]; exact h3
theorem idle2_of_last (t : Fin (cfgA1 a).N) (h3 : isLast1 (crd1 a t)) : (cfgA1 a).idle (2 : Fin 3) (crd1 a t) = false := by
  rw [idleW1_2]; simp only [Bool.not_eq_false', beq_iff_eq]; exact h3

set_option maxHeartbeats 4000000 in
/-- The body at any point: the decisions there tell the path; the inputs hold their blocks, the accumulator what the
    trajectory says; the path's run applies and leaves what the trajectory says next. -/
theorem sound_body1 (c : Dev nD) (t : Fin (cfgA1 a).N) :
    iprop((dat1 a V c).Φ t.castSucc ∗ (dat1 a V c).owesAt () t.castSucc
        ∗ (∃ d, owns (c : Thread nD τ) (ms1_0 a t) fullShare ((dat1 a V c).before (0 : Fin 3) t d))
        ∗ (∃ d, owns (c : Thread nD τ) (ms1_1 a t) fullShare ((dat1 a V c).before (1 : Fin 3) t d))
        ∗ (∃ d, owns (c : Thread nD τ) (ms1_2 a t) fullShare ((dat1 a V c).before (2 : Fin 3) t d)))
      ⊢ wp frame (wpE (defs₀ (F := F)) Variants.none c none) Set.univ (bodyAt1 a t) fun _ =>
          iprop((dat1 a V c).Φ t.succ ∗ (dat1 a V c).owesAt () t.succ
            ∗ bigSep Finset.univ fun w : Fin (cfgA1 a).W =>
                match (cfgA1 a).idle w ((cfgA1 a).grid.coords t) with
                | true =>
                  match ((cfgA1 a).win w).flush t with
                  | false => iprop(∃ d, owns (c : Thread nD τ) (((cfgA1 a).win w).stage ((cfgA1 a).slots t w)) fullShare ((dat1 a V c).before w t d))
                  | true => owns (c : Thread nD τ) (((cfgA1 a).win w).stage ((cfgA1 a).slots t w)) fullShare ((dat1 a V c).after w t)
                | false => owns (c : Thread nD τ) (((cfgA1 a).win w).stage ((cfgA1 a).slots t w)) fullShare ((dat1 a V c).after w t)) := by
  rw [bigSep_W1]
  rewrite [show (cfgA1 a).idle (0 : Fin 3) ((cfgA1 a).grid.coords t) = false from rfl]
  try rewrite [show (cfgA1 a).idle (1 : Fin 3) ((cfgA1 a).grid.coords t) = false from rfl]
  rewrite [show (dat1 a V c).Φ t.succ = Phi1 a V c t.succ from rfl, show (dat1 a V c).Φ t.castSucc = Phi1 a V c t.castSucc from rfl,
    show (dat1 a V c).owesAt () t.succ = (dat1 a V c).owesAt () t.castSucc from rfl]
  by_cases h1 : isFirst1 (crd1 a t)
  · have h3 : ¬ isLast1 (crd1 a t) := Decisions.not_last1_of_first1 h1
    by_cases hc : isActive1 (F := F) (tb1_0 a) (tb1_1 a) (crd1 a t)
    ·
      rewrite [show (cfgA1 a).idle (2 : Fin 3) ((cfgA1 a).grid.coords t) = true from idle2_of_not_last a t h3, flush2_of_not_last a t h3]
      simp only [before1_0, before1_1, after1_0, after1_1, after1_2]
      unfold Phi1
      simp only [Fin.val_castSucc, Fin.val_succ]
      iintro ⟨⟨⟨%x, %hx, HS0⟩, HT0, HT1, Hoth⟩, Ho, ⟨%d0, H0⟩, ⟨%d1, H1⟩, ⟨%d2, H2⟩⟩
      iapply ((kernelRun1_A c (crd1 a t) (ms1_0 a t) (hs1_0 a t) (ms1_1 a t) (hs1_1 a t) (ms1_2 a t) (hs1_2 a t) fullShare (tb1_0 a) (tb1_1 a)
        (iblk1 a V c 0 t) (iblk1 a V c 1 t) h1 hc h3).2 _ x _)
      isplitl [H0]; · iapply rep_of_owns; iexact H0
      isplitl [H1]; · iapply rep_of_owns; iexact H1
      isplitl [HT0]; · iexact HT0
      isplitl [HT1]; · iexact HT1
      isplitl [H2]; · iexact H2
      isplitl [HS0]; · iexact HS0
      iintro ⟨H0, H1, HT0, HT1, H2, HS0⟩
      isplitl [HS0 HT0 HT1 Hoth]
      · isplitl [HS0]
        · iexists _; isplitr; swap
          · iexact HS0
          · ipureintro; intro _; rw [acc1_succ, step1_A a V c t _ h1 hc]
        isplitl [HT0]; · iexact HT0
        isplitl [HT1]; · iexact HT1
        iexact Hoth
      isplitl [Ho]; · iexact Ho
      isplitl [H0]; · iapply owns_of_rep; iexact H0
      isplitl [H1]; · iapply owns_of_rep; iexact H1
      iexists d2; iexact H2
    ·
      rewrite [show (cfgA1 a).idle (2 : Fin 3) ((cfgA1 a).grid.coords t) = true from idle2_of_not_last a t h3, flush2_of_not_last a t h3]
      simp only [before1_0, before1_1, after1_0, after1_1, after1_2]
      unfold Phi1
      simp only [Fin.val_castSucc, Fin.val_succ]
      iintro ⟨⟨⟨%x, %hx, HS0⟩, HT0, HT1, Hoth⟩, Ho, ⟨%d0, H0⟩, ⟨%d1, H1⟩, ⟨%d2, H2⟩⟩
      iapply ((kernelRun1_B c (crd1 a t) (ms1_0 a t) (hs1_0 a t) (ms1_1 a t) (hs1_1 a t) (ms1_2 a t) (hs1_2 a t) fullShare (tb1_0 a) (tb1_1 a)
        (iblk1 a V c 0 t) (iblk1 a V c 1 t) h1 hc h3).2 _ x _)
      isplitl [H0]; · iapply rep_of_owns; iexact H0
      isplitl [H1]; · iapply rep_of_owns; iexact H1
      isplitl [HT0]; · iexact HT0
      isplitl [HT1]; · iexact HT1
      isplitl [H2]; · iexact H2
      isplitl [HS0]; · iexact HS0
      iintro ⟨H0, H1, HT0, HT1, H2, HS0⟩
      isplitl [HS0 HT0 HT1 Hoth]
      · isplitl [HS0]
        · iexists _; isplitr; swap
          · iexact HS0
          · ipureintro; intro _; rw [acc1_succ, step1_B a V c t _ h1 hc]
        isplitl [HT0]; · iexact HT0
        isplitl [HT1]; · iexact HT1
        iexact Hoth
      isplitl [Ho]; · iexact Ho
      isplitl [H0]; · iapply owns_of_rep; iexact H0
      isplitl [H1]; · iapply owns_of_rep; iexact H1
      iexists d2; iexact H2
  · have hx0 : t.val ≠ 0 := fun h0 => h1 (isFirst1_of_zero a t h0)
    by_cases h3 : isLast1 (crd1 a t)
    · by_cases hc : isActive1 (F := F) (tb1_0 a) (tb1_1 a) (crd1 a t)
      ·
        rewrite [show (cfgA1 a).idle (2 : Fin 3) ((cfgA1 a).grid.coords t) = false from idle2_of_last a t h3]
        simp only [before1_0, before1_1, after1_0, after1_1, after1_2]
        unfold Phi1
        simp only [Fin.val_castSucc, Fin.val_succ]
        iintro ⟨⟨⟨%x, %hx, HS0⟩, HT0, HT1, Hoth⟩, Ho, ⟨%d0, H0⟩, ⟨%d1, H1⟩, ⟨%d2, H2⟩⟩
        obtain rfl := hx hx0
        iapply ((kernelRun1_E c (crd1 a t) (ms1_0 a t) (hs1_0 a t) (ms1_1 a t) (hs1_1 a t) (ms1_2 a t) (hs1_2 a t) fullShare (tb1_0 a) (tb1_1 a)
        (iblk1 a V c 0 t) (iblk1 a V c 1 t) (acc1 a V c t.val) h1 hc h3).2.2 _)
        isplitl [H0]; · iapply rep_of_owns; iexact H0
        isplitl [H1]; · iapply rep_of_owns; iexact H1
        isplitl [HT0]; · iexact HT0
        isplitl [HT1]; · iexact HT1
        isplitl [H2]; · iexists _; iexact H2
        isplitl [HS0]; · iexact HS0
        iintro ⟨H0, H1, HT0, HT1, ⟨%e2, H2⟩, HS0⟩
        isplitl [HS0 HT0 HT1 Hoth]
        · isplitl [HS0]
          · iexists _; isplitr; swap
            · iexact HS0
            · ipureintro; intro _; rw [acc1_succ, step1_E a V c t _ h1 hc h3]
          isplitl [HT0]; · iexact HT0
          isplitl [HT1]; · iexact HT1
          iexact Hoth
        isplitl [Ho]; · iexact Ho
        isplitl [H0]; · iapply owns_of_rep; iexact H0
        isplitl [H1]; · iapply owns_of_rep; iexact H1
        unfold out1At; rw [step1_E a V c t _ h1 hc h3]; dsimp only; unfold out1_E
        unfold owns; iexists _; isplitr
        swap; · iexact H2
        ipureintro; exact View.read_writes_of_cover _ _ _ _ _ (cover1_E c (crd1 a t) (ms1_0 a t) (hs1_0 a t) (ms1_1 a t) (hs1_1 a t) (ms1_2 a t) (hs1_2 a t) fullShare (tb1_0 a) (tb1_1 a)
        (iblk1 a V c 0 t) (iblk1 a V c 1 t) (acc1 a V c t.val) h1 hc h3)
      ·
        rewrite [show (cfgA1 a).idle (2 : Fin 3) ((cfgA1 a).grid.coords t) = false from idle2_of_last a t h3]
        simp only [before1_0, before1_1, after1_0, after1_1, after1_2]
        unfold Phi1
        simp only [Fin.val_castSucc, Fin.val_succ]
        iintro ⟨⟨⟨%x, %hx, HS0⟩, HT0, HT1, Hoth⟩, Ho, ⟨%d0, H0⟩, ⟨%d1, H1⟩, ⟨%d2, H2⟩⟩
        obtain rfl := hx hx0
        iapply ((kernelRun1_G c (crd1 a t) (ms1_0 a t) (hs1_0 a t) (ms1_1 a t) (hs1_1 a t) (ms1_2 a t) (hs1_2 a t) fullShare (tb1_0 a) (tb1_1 a)
        (iblk1 a V c 0 t) (iblk1 a V c 1 t) (acc1 a V c t.val) h1 hc h3).2.2 _)
        isplitl [H0]; · iapply rep_of_owns; iexact H0
        isplitl [H1]; · iapply rep_of_owns; iexact H1
        isplitl [HT0]; · iexact HT0
        isplitl [HT1]; · iexact HT1
        isplitl [H2]; · iexists _; iexact H2
        isplitl [HS0]; · iexact HS0
        iintro ⟨H0, H1, HT0, HT1, ⟨%e2, H2⟩, HS0⟩
        isplitl [HS0 HT0 HT1 Hoth]
        · isplitl [HS0]
          · iexists _; isplitr; swap
            · iexact HS0
            · ipureintro; intro _; rw [acc1_succ, step1_G a V c t _ h1 hc h3]
          isplitl [HT0]; · iexact HT0
          isplitl [HT1]; · iexact HT1
          iexact Hoth
        isplitl [Ho]; · iexact Ho
        isplitl [H0]; · iapply owns_of_rep; iexact H0
        isplitl [H1]; · iapply owns_of_rep; iexact H1
        unfold out1At; rw [step1_G a V c t _ h1 hc h3]; dsimp only; unfold out1_G
        unfold owns; iexists _; isplitr
        swap; · iexact H2
        ipureintro; exact View.read_writes_of_cover _ _ _ _ _ (cover1_G c (crd1 a t) (ms1_0 a t) (hs1_0 a t) (ms1_1 a t) (hs1_1 a t) (ms1_2 a t) (hs1_2 a t) fullShare (tb1_0 a) (tb1_1 a)
        (iblk1 a V c 0 t) (iblk1 a V c 1 t) (acc1 a V c t.val) h1 hc h3)
    · by_cases hc : isActive1 (F := F) (tb1_0 a) (tb1_1 a) (crd1 a t)
      ·
        rewrite [show (cfgA1 a).idle (2 : Fin 3) ((cfgA1 a).grid.coords t) = true from idle2_of_not_last a t h3, flush2_of_not_last a t h3]
        simp only [before1_0, before1_1, after1_0, after1_1, after1_2]
        unfold Phi1
        simp only [Fin.val_castSucc, Fin.val_succ]
        iintro ⟨⟨⟨%x, %hx, HS0⟩, HT0, HT1, Hoth⟩, Ho, ⟨%d0, H0⟩, ⟨%d1, H1⟩, ⟨%d2, H2⟩⟩
        obtain rfl := hx hx0
        iapply ((kernelRun1_C c (crd1 a t) (ms1_0 a t) (hs1_0 a t) (ms1_1 a t) (hs1_1 a t) (ms1_2 a t) (hs1_2 a t) fullShare (tb1_0 a) (tb1_1 a)
        (iblk1 a V c 0 t) (iblk1 a V c 1 t) (acc1 a V c t.val) h1 hc h3).2 _ _)
        isplitl [H0]; · iapply rep_of_owns; iexact H0
        isplitl [H1]; · iapply rep_of_owns; iexact H1
        isplitl [HT0]; · iexact HT0
        isplitl [HT1]; · iexact HT1
        isplitl [H2]; · iexact H2
        isplitl [HS0]; · iexact HS0
        iintro ⟨H0, H1, HT0, HT1, H2, HS0⟩
        isplitl [HS0 HT0 HT1 Hoth]
        · isplitl [HS0]
          · iexists _; isplitr; swap
            · iexact HS0
            · ipureintro; intro _; rw [acc1_succ, step1_C a V c t _ h1 hc h3]
          isplitl [HT0]; · iexact HT0
          isplitl [HT1]; · iexact HT1
          iexact Hoth
        isplitl [Ho]; · iexact Ho
        isplitl [H0]; · iapply owns_of_rep; iexact H0
        isplitl [H1]; · iapply owns_of_rep; iexact H1
        iexists d2; iexact H2
      ·
        rewrite [show (cfgA1 a).idle (2 : Fin 3) ((cfgA1 a).grid.coords t) = true from idle2_of_not_last a t h3, flush2_of_not_last a t h3]
        simp only [before1_0, before1_1, after1_0, after1_1, after1_2]
        unfold Phi1
        simp only [Fin.val_castSucc, Fin.val_succ]
        iintro ⟨⟨⟨%x, %hx, HS0⟩, HT0, HT1, Hoth⟩, Ho, ⟨%d0, H0⟩, ⟨%d1, H1⟩, ⟨%d2, H2⟩⟩
        obtain rfl := hx hx0
        iapply ((kernelRun1_D c (crd1 a t) (ms1_0 a t) (hs1_0 a t) (ms1_1 a t) (hs1_1 a t) (ms1_2 a t) (hs1_2 a t) fullShare (tb1_0 a) (tb1_1 a)
        (iblk1 a V c 0 t) (iblk1 a V c 1 t) (acc1 a V c t.val) h1 hc h3).2 _ _)
        isplitl [H0]; · iapply rep_of_owns; iexact H0
        isplitl [H1]; · iapply rep_of_owns; iexact H1
        isplitl [HT0]; · iexact HT0
        isplitl [HT1]; · iexact HT1
        isplitl [H2]; · iexact H2
        isplitl [HS0]; · iexact HS0
        iintro ⟨H0, H1, HT0, HT1, H2, HS0⟩
        isplitl [HS0 HT0 HT1 Hoth]
        · isplitl [HS0]
          · iexists _; isplitr; swap
            · iexact HS0
            · ipureintro; intro _; rw [acc1_succ, step1_D a V c t _ h1 hc h3]
          isplitl [HT0]; · iexact HT0
          isplitl [HT1]; · iexact HT1
          iexact Hoth
        isplitl [Ho]; · iexact Ho
        isplitl [H0]; · iapply owns_of_rep; iexact H0
        isplitl [H1]; · iapply owns_of_rep; iexact H1
        iexists d2; iexact H2

/-- The library's body obligation, at every point. -/
theorem body_obligation1 (c : Dev nD) : BodyObligation (dat1 (F := F) a V c) (defs₀ (F := F)) Variants.none () Set.univ := fun t => by
  rw [bigSep_W1]
  exact sound_body1 a V c t

end Cert.Kernel.Gen

end
-- ==== Proof.Word.Run.lean ====
/-
  (The same statements and proofs as for the idealized program, here for the program read at the word level:
  the two printed programs differ in no operation.)

  The run of the kernel's whole program: host operations, the gather call, host operations, the scatter call, a slice.

  The contents of every buffer at each boundary between two items of the program are a fold from the launch memory:
  a stretch of host operations applies its operations; a call leaves each of its arrays at what its write-backs leave
  (the inputs as entered) and every other buffer as it was.  Each call is entered with the two tables the host
  computed just before it, which the call's invariant holds while it runs and gives back; the accumulator and the
  core's other scoped buffers are held at some contents around the call.  From the two calls' body obligations the
  composition rule for a program of several calls gives: from any memory, every weakly fair execution terminates
  without a fault, the result buffer ends at the last boundary's contents, and every argument array ends as
  launched — no host operation writes an argument and no call has one among its arrays.
-/
import proofs.«179733_j56453050138798_2_alg».proof.Proof.Word.GatherData
import proofs.«179733_j56453050138798_2_alg».proof.Proof.Word.ScatterData
import proofs.«179733_j56453050138798_2_alg».proof.Proof.Gen.Kernel.Regions
import Idealize.ShloMosaic.Lib.Pipeline.FrameBody
import Idealize.ShloMosaic.Lib.Pipeline.Kit
import Idealize.ShloMosaic.Lib.Pipeline.Regions
import Idealize.ShloMosaic.Lib.Pipeline.RegionsLoop
import Idealize.ShloMosaic.Lib.Pipeline.FrameSuffix
import Idealize.ShloMosaic.Lib.Pipeline.TableIdle
import Idealize.ShloMosaic.Lib.Ring
import Idealize.ShloMosaic.Lib.Tactic

set_option maxRecDepth 16384

noncomputable section

namespace Cert.Kernel.Gen

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-! # The run of @main: the buffers' contents at every boundary, a fold from the launch memory -/

variable (m : (ℓ : Loc nD τ sig) → Buf (Elt F) ℓ) (ρ : Dev nD → PrngReg)

abbrev W0 : Dev nD → Valuation τ sig (Elt F) := fun c b => m ((c : Dev nD), b)
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
abbrev W4 (c : Dev nD) : Valuation τ sig (Elt F) := StableHlo.after hostOps0_3 (W3 m c)
abbrev W5 (c : Dev nD) : Valuation τ sig (Elt F) := StableHlo.after hostOps0_4 (W4 m c)
abbrev W6 (c : Dev nD) : Valuation τ sig (Elt F) := StableHlo.after hostOps0_5 (W5 m c)
abbrev W7 (c : Dev nD) : Valuation τ sig (Elt F) := StableHlo.after hostOps0_6 (W6 m c)
abbrev W8 (c : Dev nD) : Valuation τ sig (Elt F) := StableHlo.after hostOps0_7 (W7 m c)
abbrev W9 (c : Dev nD) : Valuation τ sig (Elt F) := StableHlo.after hostOps0_8 (W8 m c)
abbrev W10 (c : Dev nD) : Valuation τ sig (Elt F) := StableHlo.after hostOps0_9 (W9 m c)
/-- The contents the gather call is entered with. -/
def W11 (c : Dev nD) : Valuation τ sig (Elt F) := StableHlo.after hostOps0_10 (W10 m c)
abbrev E11 : (c : Dev nD) → (b : Ref sig .tc) → Buf (Elt F) ((c : Thread nD τ).loc b) := fun c b => W11 m c b

/-- The gather call's two tables: what the host wrote into them before the call. -/
def adm0 : (pcfg0 (F := F)).Adm := ⟨fun | 0 => E11 m (0 : Dev nD) main_v28 | 1 => E11 m (0 : Dev nD) main_v29 | ⟨_ + 2, h⟩ => absurd h (Nat.not_lt.2 (Nat.le_add_left _ _)), trivial⟩

/-- After the gather call: its arrays at what its write-backs leave, every other buffer as entered. -/
def W12 (c : Dev nD) : Valuation τ sig (Elt F) :=
  Pipeline.withArrays spec0 c (W11 m c) fun w => (dat0 (adm0 m) (E11 m) c).arrAt w (cfgA0 (adm0 m)).N
abbrev E12 : (c : Dev nD) → (b : Ref sig .tc) → Buf (Elt F) ((c : Thread nD τ).loc b) := fun c b => W12 m c b
abbrev W13 (c : Dev nD) : Valuation τ sig (Elt F) := StableHlo.after hostOps1 (W12 m c)
/-- The contents the scatter call is entered with. -/
def W14 (c : Dev nD) : Valuation τ sig (Elt F) := StableHlo.after hostOps1_1 (W13 m c)
abbrev E14 : (c : Dev nD) → (b : Ref sig .tc) → Buf (Elt F) ((c : Thread nD τ).loc b) := fun c b => W14 m c b
def adm1 : (pcfg1 (F := F)).Adm := ⟨fun | 0 => E14 m (0 : Dev nD) main_v49 | 1 => E14 m (0 : Dev nD) main_v50 | ⟨_ + 2, h⟩ => absurd h (Nat.not_lt.2 (Nat.le_add_left _ _)), trivial⟩
def W15 (c : Dev nD) : Valuation τ sig (Elt F) :=
  Pipeline.withArrays spec1 c (W14 m c) fun w => (dat1 (adm1 m) (E14 m) c).arrAt w (cfgA1 (adm1 m)).N
abbrev E15 : (c : Dev nD) → (b : Ref sig .tc) → Buf (Elt F) ((c : Thread nD τ).loc b) := fun c b => W15 m c b
/-- The contents @main returns with. -/
def W16 (c : Dev nD) : Valuation τ sig (Elt F) := StableHlo.after hostOps2 (W15 m c)

theorem W12_arr (c : Dev nD) (w : Fin (cfgA0 (adm0 m)).W) :
    W12 m c (Proc.devRef .tc (Pipeline.arrRef spec0 w)) = (dat0 (adm0 m) (E11 m) c).arrAt w (cfgA0 (adm0 m)).N := by
  unfold W12; exact Pipeline.withArrays_arr spec0 (launch0 (F := F)).win.arr_inj c _ _ w
theorem W12_of_ne (c : Dev nD) (b : Ref sig .tc) (hb : ∀ w, Pipeline.arrRef spec0 w ≠ b) :
    W12 m c (Proc.devRef .tc b) = W11 m c (Proc.devRef .tc b) := by
  unfold W12; exact Pipeline.withArrays_of_ne spec0 c _ _ b hb
theorem hF0 (c : Dev nD) (w : Fin (cfgA0 (adm0 m)).W) : (dat0 (adm0 m) (E11 m) c).arrAt w (cfgA0 (adm0 m)).N = E12 m c (Pipeline.arrRef spec0 w) :=
  (W12_arr m c w).symm
theorem hrest0 (c : Dev nD) : ∀ b, b ∉ Finset.univ.image (Pipeline.arrRef spec0) → E12 m c b = E11 m c b :=
  fun b hb => W12_of_ne m c b fun w e => hb (Finset.mem_image.mpr ⟨w, Finset.mem_univ _, e⟩)
theorem W15_arr (c : Dev nD) (w : Fin (cfgA1 (adm1 m)).W) :
    W15 m c (Proc.devRef .tc (Pipeline.arrRef spec1 w)) = (dat1 (adm1 m) (E14 m) c).arrAt w (cfgA1 (adm1 m)).N := by
  unfold W15; exact Pipeline.withArrays_arr spec1 (launch1 (F := F)).win.arr_inj c _ _ w
theorem W15_of_ne (c : Dev nD) (b : Ref sig .tc) (hb : ∀ w, Pipeline.arrRef spec1 w ≠ b) :
    W15 m c (Proc.devRef .tc b) = W14 m c (Proc.devRef .tc b) := by
  unfold W15; exact Pipeline.withArrays_of_ne spec1 c _ _ b hb
theorem hF1 (c : Dev nD) (w : Fin (cfgA1 (adm1 m)).W) : (dat1 (adm1 m) (E14 m) c).arrAt w (cfgA1 (adm1 m)).N = E15 m c (Pipeline.arrRef spec1 w) :=
  (W15_arr m c w).symm
theorem hrest1 (c : Dev nD) : ∀ b, b ∉ Finset.univ.image (Pipeline.arrRef spec1) → E15 m c b = E14 m c b :=
  fun b hb => W15_of_ne m c b fun w e => hb (Finset.mem_image.mpr ⟨w, Finset.mem_univ _, e⟩)

/-! ## The proof data family and the thread state -/

abbrev adm : (p : Fin 2) → (pcfgs (F := F) p).Adm := fun | ⟨0, _⟩ => adm0 m | ⟨1, _⟩ => adm1 m | ⟨_ + 2, h⟩ => absurd h (by omega)

def pdats : (p : Fin 2) → (c : Dev nD) → Dat τ (Elt F) Unit ℕ (Pipeline.UD sig nD τ) ℕ (Pipeline.pin (pcfgs (F := F)) (adm m) p) c
  | ⟨0, _⟩ => fun c => dat0 (adm0 m) (E11 m) c
  | ⟨1, _⟩ => fun c => dat1 (adm1 m) (E14 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The gather call as a segment -/

/-- The two tables among the buffers the gather call bypasses. -/
def H0 : Finset (Ref sig .tc) := {main_v28, main_v29}
theorem H0_sub : H0 ⊆ Pipeline.restRefs sig spec0 := by decide

section
attribute [local irreducible] W11
theorem adm0_0 : (adm0 m).1 (0 : Fin 2) = E11 m 0 main_v28 := rfl
theorem adm0_1 : (adm0 m).1 (1 : Fin 2) = E11 m 0 main_v29 := rfl

/-- The two tables, held whole at the contents the host wrote, are the call's prefetched tables. -/
theorem tables0_eq (c : Dev nD) :
    ((bigSep H0 fun b => ((c : Thread nD τ).loc b) ↦{fullShare} E11 m c b) : sProp 𝕄)
      = Pipeline.prefHeld pre0 c (fun _ => fullShare) (adm0 m).1 := by
  obtain rfl : c = 0 := Fin.fin_one_eq_zero c
  rw [prefHeld0_eq, adm0_0, adm0_1]
  show (bigSep ({main_v28, main_v29} : Finset (Ref sig .tc)) fun b => (((0 : Dev nD) : Thread nD τ).loc b) ↦{fullShare} E11 m 0 b : sProp 𝕄) = _
  rw [bigSep_insert (by decide), bigSep_singleton]
  rfl
end

theorem rest0_split (c : Dev nD) :
    (Pipeline.unscopedRest (Ix := Unit) (Name := ℕ) (U := Pipeline.UD sig nD τ) (Lvl := ℕ) spec0 c (E11 m c) : sProp 𝕄)
      = iprop((bigSep H0 fun b => ((c : Thread nD τ).loc b) ↦{fullShare} E11 m c b) ∗ (bigSep (Pipeline.restRefs sig spec0 \ H0) fun b => ((c : Thread nD τ).loc b) ↦{fullShare} E11 m c b)) := by
  unfold Pipeline.unscopedRest; exact BI.bigSep_sdiff_split H0_sub

set_option backward.isDefEq.respectTransparency.types false in
/-- The gather call over the thread state: entered with every unscoped buffer at the contents the host left, left
    with its arrays at what its write-backs leave; the two tables go into the invariant and come back as they were. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (adm0 m) (E11 m) c).loose
  hwaits := Pipeline.hwaits_of_owed_zero _ _ _ _ L lv 0 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(emp)
  Y c := Pipeline.prefHeld pre0 c (fun _ => fullShare) (adm0 m).1
  Z c := iprop((∃ r, prngReg c r) ∗ bigSep (Pipeline.restRefs sig spec0 \ H0) fun b => ((c : Thread nD τ).loc b) ↦{fullShare} E11 m c b)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (E11 m c) fun _ => rfl
    rw [Pipeline.unscopedBufs_held] at hsplit
    iintro ⟨⟨Hub, Hp, HO⟩, -, -⟩
    ihave H := hsplit $$ Hub
    icases H with ⟨Ha, Hrest⟩
    ihave H' := (Entails.of_eq (rest0_split m c)) $$ Hrest
    icases H' with ⟨HH, HR⟩
    ihave HT := (Entails.of_eq (tables0_eq m c)) $$ HH
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact HR
  hin c := by
    show iprop(emp ∗ Pipeline.prefHeld pre0 c (fun _ => fullShare) (adm0 m).1 ∗ Pipeline.scopedRest spec0 c) ⊢ Phi0 (adm0 m) (E11 m) c 0
    rw [prefHeld0_eq, scopedRest0_eq]
    unfold Phi0 others0
    iintro ⟨-, ⟨HT0, HT1⟩, ⟨%f, HS⟩, Hoth⟩
    isplitl [HS]
    · iexists f; isplitr; · ipureintro; intro h; exact absurd rfl h
      iexact HS
    isplitl [HT0]; · iexact HT0
    isplitl [HT1]; · iexact HT1
    iexact Hoth
  hout c := by
    rw [Pipeline.ownSems0_none]
    show Phi0 (adm0 m) (E11 m) c (Fin.last _) ⊢ iprop(Pipeline.prefHeld pre0 c (fun _ => fullShare) (adm0 m).1 ∗ emp ∗ Pipeline.scopedRest spec0 c)
    rw [prefHeld0_eq, scopedRest0_eq]
    unfold Phi0 others0
    iintro ⟨⟨%x, -, HS⟩, HT0, HT1, Hoth⟩
    isplitl [HT0 HT1]
    · isplitl [HT0]; · iexact HT0
      iexact HT1
    isplitr; · iempintro
    isplitl [HS]; · iexists x; iexact HS
    iexact Hoth
  hexit c := by
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole c (pdats m) ((pdats m 0 c).share_full fun _ => rfl)
      (E11 m c) (E12 m c) ((pdats m 0 c).arrAt · (cfgA0 (adm0 m)).N) (hF0 m c) (hrest0 m c)
    rw [Pipeline.unscopedBufs_held] at hjoin
    iintro ⟨Ha, HO, HY, ⟨Hp, HR⟩⟩
    ihave HH := (Entails.of_eq (tables0_eq m c).symm) $$ HY
    ihave Hrest := (Entails.of_eq (rest0_split m c).symm) $$ [HH HR]
    · isplitl [HH]; · iexact HH
      iexact HR
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## The scatter call as a segment -/

/-- The two tables among the buffers the scatter call bypasses. -/
def H1 : Finset (Ref sig .tc) := {main_v49, main_v50}
theorem H1_sub : H1 ⊆ Pipeline.restRefs sig spec1 := by decide

section
attribute [local irreducible] W14
theorem adm1_0 : (adm1 m).1 (0 : Fin 2) = E14 m 0 main_v49 := rfl
theorem adm1_1 : (adm1 m).1 (1 : Fin 2) = E14 m 0 main_v50 := rfl

/-- The two tables, held whole at the contents the host wrote, are the call's prefetched tables. -/
theorem tables1_eq (c : Dev nD) :
    ((bigSep H1 fun b => ((c : Thread nD τ).loc b) ↦{fullShare} E14 m c b) : sProp 𝕄)
      = Pipeline.prefHeld pre1 c (fun _ => fullShare) (adm1 m).1 := by
  obtain rfl : c = 0 := Fin.fin_one_eq_zero c
  rw [prefHeld1_eq, adm1_0, adm1_1]
  show (bigSep ({main_v49, main_v50} : Finset (Ref sig .tc)) fun b => (((0 : Dev nD) : Thread nD τ).loc b) ↦{fullShare} E14 m 0 b : sProp 𝕄) = _
  rw [bigSep_insert (by decide), bigSep_singleton]
  rfl
end

theorem rest1_split (c : Dev nD) :
    (Pipeline.unscopedRest (Ix := Unit) (Name := ℕ) (U := Pipeline.UD sig nD τ) (Lvl := ℕ) spec1 c (E14 m c) : sProp 𝕄)
      = iprop((bigSep H1 fun b => ((c : Thread nD τ).loc b) ↦{fullShare} E14 m c b) ∗ (bigSep (Pipeline.restRefs sig spec1 \ H1) fun b => ((c : Thread nD τ).loc b) ↦{fullShare} E14 m c b)) := by
  unfold Pipeline.unscopedRest; exact BI.bigSep_sdiff_split H1_sub

set_option backward.isDefEq.respectTransparency.types false in
/-- The scatter call over the thread state, in the same way. -/
def reg1 : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (adm1 m) (E14 m) c).loose
  hwaits := Pipeline.hwaits_of_owed_zero _ _ _ _ L lv 1 fun _ _ => rfl
  pre c := iprop(StableHlo.held (c : Thread nD τ) (Pipeline.ucRefs τ sig) (W14 m c) ∗ R c)
  post c := iprop(StableHlo.held (c : Thread nD τ) (Pipeline.ucRefs τ sig) (W15 m c) ∗ R c)
  X c := iprop(emp)
  Y c := Pipeline.prefHeld pre1 c (fun _ => fullShare) (adm1 m).1
  Z c := iprop((∃ r, prngReg c r) ∗ bigSep (Pipeline.restRefs sig spec1 \ H1) fun b => ((c : Thread nD τ).loc b) ↦{fullShare} E14 m c b)
  hentry c := by
    rw [Pipeline.ownSems0_none]
    have hsplit := Pipeline.arrays_of_unscopedBufs (p := 1) (pcfgs (F := F)) (adm m) (pdats m) (launch1 (F := F)).win (launch1 (F := F)).arr_whole c
      ((pdats m 1 c).share_full fun _ => rfl) (E14 m c) fun _ => rfl
    rw [Pipeline.unscopedBufs_held] at hsplit
    iintro ⟨⟨Hub, Hp, HO⟩, -, -⟩
    ihave H := hsplit $$ Hub
    icases H with ⟨Ha, Hrest⟩
    ihave H' := (Entails.of_eq (rest1_split m c)) $$ Hrest
    icases H' with ⟨HH, HR⟩
    ihave HT := (Entails.of_eq (tables1_eq m c)) $$ HH
    imodintro
    isplitl [Ha]; · iexact Ha
    isplitl [HT]; · iexact HT
    isplitl [HO]
    · unfold Pipeline.Dat.owesAt Pipeline.owesWithin
      icases HO with ⟨%W, HO⟩; iexists W; isplitr; · ipureintro; exact fun _ _ => Or.inl trivial
      iexact HO
    isplitr; · iempintro
    isplitl [Hp]; · iexact Hp
    iexact HR
  hin c := by
    show iprop(emp ∗ Pipeline.prefHeld pre1 c (fun _ => fullShare) (adm1 m).1 ∗ Pipeline.scopedRest spec1 c) ⊢ Phi1 (adm1 m) (E14 m) c 0
    rw [prefHeld1_eq, scopedRest1_eq]
    unfold Phi1 others1
    iintro ⟨-, ⟨HT0, HT1⟩, HR0, HR1, HR2, HR3, HR4, HR5, HR6, HR7, HR8, ⟨%f, HS⟩⟩
    isplitl [HS]
    · iexists f; isplitr; · ipureintro; intro h; exact absurd rfl h
      iexact HS
    isplitl [HT0]; · iexact HT0
    isplitl [HT1]; · iexact HT1
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    iexact HR8
  hout c := by
    rw [Pipeline.ownSems0_none]
    show Phi1 (adm1 m) (E14 m) c (Fin.last _) ⊢ iprop(Pipeline.prefHeld pre1 c (fun _ => fullShare) (adm1 m).1 ∗ emp ∗ Pipeline.scopedRest spec1 c)
    rw [prefHeld1_eq, scopedRest1_eq]
    unfold Phi1 others1
    iintro ⟨⟨%x, -, HS⟩, HT0, HT1, HR0, HR1, HR2, HR3, HR4, HR5, HR6, HR7, HR8⟩
    isplitl [HT0 HT1]
    · isplitl [HT0]; · iexact HT0
      iexact HT1
    isplitr; · iempintro
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    iexists x; iexact HS
  hexit c := by
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole c (pdats m) ((pdats m 1 c).share_full fun _ => rfl)
      (E14 m c) (E15 m c) ((pdats m 1 c).arrAt · (cfgA1 (adm1 m)).N) (hF1 m c) (hrest1 m c)
    rw [Pipeline.unscopedBufs_held] at hjoin
    iintro ⟨Ha, HO, HY, ⟨Hp, HR⟩⟩
    ihave HH := (Entails.of_eq (tables1_eq m c).symm) $$ HY
    ihave Hrest := (Entails.of_eq (rest1_split m c).symm) $$ [HH HR]
    · isplitl [HH]; · iexact HH
      iexact HR
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## The arguments end as launched -/

theorem W16_main_arg0 (c : Dev nD) : W16 m c (Proc.devRef .tc main_arg0) = m ((c : Thread nD τ).loc main_arg0) :=
  calc W16 m c (Proc.devRef .tc main_arg0)
    _ = W15 m c (Proc.devRef .tc main_arg0) := StableHlo.after_of_writes_sub hostOps2 _ hostOps2_writes (r := main_arg0) (by decide)
    _ = W14 m c (Proc.devRef .tc main_arg0) := W15_of_ne m c main_arg0 (by decide)
    _ = W13 m c (Proc.devRef .tc main_arg0) := StableHlo.after_of_writes_sub hostOps1_1 _ hostOps1_1_writes (r := main_arg0) (by decide)
    _ = W12 m c (Proc.devRef .tc main_arg0) := StableHlo.after_of_writes_sub hostOps1 _ hostOps1_writes (r := main_arg0) (by decide)
    _ = W11 m c (Proc.devRef .tc main_arg0) := W12_of_ne m c main_arg0 (by decide)
    _ = W10 m c (Proc.devRef .tc main_arg0) := StableHlo.after_of_writes_sub hostOps0_10 _ hostOps0_10_writes (r := main_arg0) (by decide)
    _ = W9 m c (Proc.devRef .tc main_arg0) := StableHlo.after_of_writes_sub hostOps0_9 _ hostOps0_9_writes (r := main_arg0) (by decide)
    _ = W8 m c (Proc.devRef .tc main_arg0) := StableHlo.after_of_writes_sub hostOps0_8 _ hostOps0_8_writes (r := main_arg0) (by decide)
    _ = W7 m c (Proc.devRef .tc main_arg0) := StableHlo.after_of_writes_sub hostOps0_7 _ hostOps0_7_writes (r := main_arg0) (by decide)
    _ = W6 m c (Proc.devRef .tc main_arg0) := StableHlo.after_of_writes_sub hostOps0_6 _ hostOps0_6_writes (r := main_arg0) (by decide)
    _ = W5 m c (Proc.devRef .tc main_arg0) := StableHlo.after_of_writes_sub hostOps0_5 _ hostOps0_5_writes (r := main_arg0) (by decide)
    _ = W4 m c (Proc.devRef .tc main_arg0) := StableHlo.after_of_writes_sub hostOps0_4 _ hostOps0_4_writes (r := main_arg0) (by decide)
    _ = W3 m c (Proc.devRef .tc main_arg0) := StableHlo.after_of_writes_sub hostOps0_3 _ hostOps0_3_writes (r := main_arg0) (by decide)
    _ = W2 m c (Proc.devRef .tc main_arg0) := StableHlo.after_of_writes_sub hostOps0_2 _ hostOps0_2_writes (r := main_arg0) (by decide)
    _ = W1 m c (Proc.devRef .tc main_arg0) := StableHlo.after_of_writes_sub hostOps0_1 _ hostOps0_1_writes (r := main_arg0) (by decide)
    _ = W0 m c (Proc.devRef .tc main_arg0) := StableHlo.after_of_writes_sub hostOps0 _ hostOps0_writes (r := main_arg0) (by decide)
    _ = m ((c : Thread nD τ).loc main_arg0) := rfl

theorem W16_main_arg1 (c : Dev nD) : W16 m c (Proc.devRef .tc main_arg1) = m ((c : Thread nD τ).loc main_arg1) :=
  calc W16 m c (Proc.devRef .tc main_arg1)
    _ = W15 m c (Proc.devRef .tc main_arg1) := StableHlo.after_of_writes_sub hostOps2 _ hostOps2_writes (r := main_arg1) (by decide)
    _ = W14 m c (Proc.devRef .tc main_arg1) := W15_of_ne m c main_arg1 (by decide)
    _ = W13 m c (Proc.devRef .tc main_arg1) := StableHlo.after_of_writes_sub hostOps1_1 _ hostOps1_1_writes (r := main_arg1) (by decide)
    _ = W12 m c (Proc.devRef .tc main_arg1) := StableHlo.after_of_writes_sub hostOps1 _ hostOps1_writes (r := main_arg1) (by decide)
    _ = W11 m c (Proc.devRef .tc main_arg1) := W12_of_ne m c main_arg1 (by decide)
    _ = W10 m c (Proc.devRef .tc main_arg1) := StableHlo.after_of_writes_sub hostOps0_10 _ hostOps0_10_writes (r := main_arg1) (by decide)
    _ = W9 m c (Proc.devRef .tc main_arg1) := StableHlo.after_of_writes_sub hostOps0_9 _ hostOps0_9_writes (r := main_arg1) (by decide)
    _ = W8 m c (Proc.devRef .tc main_arg1) := StableHlo.after_of_writes_sub hostOps0_8 _ hostOps0_8_writes (r := main_arg1) (by decide)
    _ = W7 m c (Proc.devRef .tc main_arg1) := StableHlo.after_of_writes_sub hostOps0_7 _ hostOps0_7_writes (r := main_arg1) (by decide)
    _ = W6 m c (Proc.devRef .tc main_arg1) := StableHlo.after_of_writes_sub hostOps0_6 _ hostOps0_6_writes (r := main_arg1) (by decide)
    _ = W5 m c (Proc.devRef .tc main_arg1) := StableHlo.after_of_writes_sub hostOps0_5 _ hostOps0_5_writes (r := main_arg1) (by decide)
    _ = W4 m c (Proc.devRef .tc main_arg1) := StableHlo.after_of_writes_sub hostOps0_4 _ hostOps0_4_writes (r := main_arg1) (by decide)
    _ = W3 m c (Proc.devRef .tc main_arg1) := StableHlo.after_of_writes_sub hostOps0_3 _ hostOps0_3_writes (r := main_arg1) (by decide)
    _ = W2 m c (Proc.devRef .tc main_arg1) := StableHlo.after_of_writes_sub hostOps0_2 _ hostOps0_2_writes (r := main_arg1) (by decide)
    _ = W1 m c (Proc.devRef .tc main_arg1) := StableHlo.after_of_writes_sub hostOps0_1 _ hostOps0_1_writes (r := main_arg1) (by decide)
    _ = W0 m c (Proc.devRef .tc main_arg1) := StableHlo.after_of_writes_sub hostOps0 _ hostOps0_writes (r := main_arg1) (by decide)
    _ = m ((c : Thread nD τ).loc main_arg1) := rfl

theorem W16_main_arg2 (c : Dev nD) : W16 m c (Proc.devRef .tc main_arg2) = m ((c : Thread nD τ).loc main_arg2) :=
  calc W16 m c (Proc.devRef .tc main_arg2)
    _ = W15 m c (Proc.devRef .tc main_arg2) := StableHlo.after_of_writes_sub hostOps2 _ hostOps2_writes (r := main_arg2) (by decide)
    _ = W14 m c (Proc.devRef .tc main_arg2) := W15_of_ne m c main_arg2 (by decide)
    _ = W13 m c (Proc.devRef .tc main_arg2) := StableHlo.after_of_writes_sub hostOps1_1 _ hostOps1_1_writes (r := main_arg2) (by decide)
    _ = W12 m c (Proc.devRef .tc main_arg2) := StableHlo.after_of_writes_sub hostOps1 _ hostOps1_writes (r := main_arg2) (by decide)
    _ = W11 m c (Proc.devRef .tc main_arg2) := W12_of_ne m c main_arg2 (by decide)
    _ = W10 m c (Proc.devRef .tc main_arg2) := StableHlo.after_of_writes_sub hostOps0_10 _ hostOps0_10_writes (r := main_arg2) (by decide)
    _ = W9 m c (Proc.devRef .tc main_arg2) := StableHlo.after_of_writes_sub hostOps0_9 _ hostOps0_9_writes (r := main_arg2) (by decide)
    _ = W8 m c (Proc.devRef .tc main_arg2) := StableHlo.after_of_writes_sub hostOps0_8 _ hostOps0_8_writes (r := main_arg2) (by decide)
    _ = W7 m c (Proc.devRef .tc main_arg2) := StableHlo.after_of_writes_sub hostOps0_7 _ hostOps0_7_writes (r := main_arg2) (by decide)
    _ = W6 m c (Proc.devRef .tc main_arg2) := StableHlo.after_of_writes_sub hostOps0_6 _ hostOps0_6_writes (r := main_arg2) (by decide)
    _ = W5 m c (Proc.devRef .tc main_arg2) := StableHlo.after_of_writes_sub hostOps0_5 _ hostOps0_5_writes (r := main_arg2) (by decide)
    _ = W4 m c (Proc.devRef .tc main_arg2) := StableHlo.after_of_writes_sub hostOps0_4 _ hostOps0_4_writes (r := main_arg2) (by decide)
    _ = W3 m c (Proc.devRef .tc main_arg2) := StableHlo.after_of_writes_sub hostOps0_3 _ hostOps0_3_writes (r := main_arg2) (by decide)
    _ = W2 m c (Proc.devRef .tc main_arg2) := StableHlo.after_of_writes_sub hostOps0_2 _ hostOps0_2_writes (r := main_arg2) (by decide)
    _ = W1 m c (Proc.devRef .tc main_arg2) := StableHlo.after_of_writes_sub hostOps0_1 _ hostOps0_1_writes (r := main_arg2) (by decide)
    _ = W0 m c (Proc.devRef .tc main_arg2) := StableHlo.after_of_writes_sub hostOps0 _ hostOps0_writes (r := main_arg2) (by decide)
    _ = m ((c : Thread nD τ).loc main_arg2) := rfl

theorem W16_main_arg3 (c : Dev nD) : W16 m c (Proc.devRef .tc main_arg3) = m ((c : Thread nD τ).loc main_arg3) :=
  calc W16 m c (Proc.devRef .tc main_arg3)
    _ = W15 m c (Proc.devRef .tc main_arg3) := StableHlo.after_of_writes_sub hostOps2 _ hostOps2_writes (r := main_arg3) (by decide)
    _ = W14 m c (Proc.devRef .tc main_arg3) := W15_of_ne m c main_arg3 (by decide)
    _ = W13 m c (Proc.devRef .tc main_arg3) := StableHlo.after_of_writes_sub hostOps1_1 _ hostOps1_1_writes (r := main_arg3) (by decide)
    _ = W12 m c (Proc.devRef .tc main_arg3) := StableHlo.after_of_writes_sub hostOps1 _ hostOps1_writes (r := main_arg3) (by decide)
    _ = W11 m c (Proc.devRef .tc main_arg3) := W12_of_ne m c main_arg3 (by decide)
    _ = W10 m c (Proc.devRef .tc main_arg3) := StableHlo.after_of_writes_sub hostOps0_10 _ hostOps0_10_writes (r := main_arg3) (by decide)
    _ = W9 m c (Proc.devRef .tc main_arg3) := StableHlo.after_of_writes_sub hostOps0_9 _ hostOps0_9_writes (r := main_arg3) (by decide)
    _ = W8 m c (Proc.devRef .tc main_arg3) := StableHlo.after_of_writes_sub hostOps0_8 _ hostOps0_8_writes (r := main_arg3) (by decide)
    _ = W7 m c (Proc.devRef .tc main_arg3) := StableHlo.after_of_writes_sub hostOps0_7 _ hostOps0_7_writes (r := main_arg3) (by decide)
    _ = W6 m c (Proc.devRef .tc main_arg3) := StableHlo.after_of_writes_sub hostOps0_6 _ hostOps0_6_writes (r := main_arg3) (by decide)
    _ = W5 m c (Proc.devRef .tc main_arg3) := StableHlo.after_of_writes_sub hostOps0_5 _ hostOps0_5_writes (r := main_arg3) (by decide)
    _ = W4 m c (Proc.devRef .tc main_arg3) := StableHlo.after_of_writes_sub hostOps0_4 _ hostOps0_4_writes (r := main_arg3) (by decide)
    _ = W3 m c (Proc.devRef .tc main_arg3) := StableHlo.after_of_writes_sub hostOps0_3 _ hostOps0_3_writes (r := main_arg3) (by decide)
    _ = W2 m c (Proc.devRef .tc main_arg3) := StableHlo.after_of_writes_sub hostOps0_2 _ hostOps0_2_writes (r := main_arg3) (by decide)
    _ = W1 m c (Proc.devRef .tc main_arg3) := StableHlo.after_of_writes_sub hostOps0_1 _ hostOps0_1_writes (r := main_arg3) (by decide)
    _ = W0 m c (Proc.devRef .tc main_arg3) := StableHlo.after_of_writes_sub hostOps0 _ hostOps0_writes (r := main_arg3) (by decide)
    _ = m ((c : Thread nD τ).loc main_arg3) := rfl

/-! ## @main as segments, and the launch -/

abbrev mainSegs : List (Pipeline.Seg (pcfgs (F := F)) (adm m) (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .host (hseg hostOps0_7 hostOps0_7_sub hostOps0_7_fresh (W7 m)),
    .host (hseg hostOps0_8 hostOps0_8_sub hostOps0_8_fresh (W8 m)),
    .host (hseg hostOps0_9 hostOps0_9_sub hostOps0_9_fresh (W9 m)),
    .host (hseg hostOps0_10 hostOps0_10_sub hostOps0_10_fresh (W10 m)),
    .region (reg0 m),
    .host (hseg hostOps1 hostOps1_sub hostOps1_fresh (W12 m)),
    .host (hseg hostOps1_1 hostOps1_1_sub hostOps1_1_fresh (W13 m)),
    .region (reg1 m),
    .host (hseg hostOps2 hostOps2_sub hostOps2_fresh (W15 m)) ]

set_option backward.isDefEq.respectTransparency.types false in
/-- From any memory with zero counters, every weakly fair execution of @main terminates without a fault; it ends with the
    result buffer at the last boundary's contents and every argument array as launched. -/
theorem run : θ_run defs (onTc (τ := τ) (main (F := F))) ⟨m, fun _ => 0, ρ⟩ (fun r => ∀ c : Dev nD,
      r.2.mem ((c.tc : Thread nD τ).loc main_v53) = W16 m c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) (adm m) (pdats m) () (cellOf_inj (adm m)) embL defs₀ 𝒱₀ L lv m ρ main (mainSegs m)
    (fun c Q => by
      rewrite [main_chain c, Pipeline.Seg.run_eq_chain,
        show (mainSegs m).map Pipeline.Seg.prog = [
          StableHlo.seq hostOps0, StableHlo.seq hostOps0_1, StableHlo.seq hostOps0_2, StableHlo.seq hostOps0_3, StableHlo.seq hostOps0_4,
          StableHlo.seq hostOps0_5, StableHlo.seq hostOps0_6, StableHlo.seq hostOps0_7, StableHlo.seq hostOps0_8, StableHlo.seq hostOps0_9,
          StableHlo.seq hostOps0_10, Prog.lift (.customCall (Pipeline.entry 0) ()), StableHlo.seq hostOps1, StableHlo.seq hostOps1_1,
          Prog.lift (.customCall (Pipeline.entry 1) ()), StableHlo.seq hostOps2 ] from rfl]
      exact .rfl)
    (by simp only [mainSegs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W16 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show iprop(StableHlo.held (c : Thread nD τ) (Pipeline.ucRefs τ sig) (W16 m c) ∗ R c)
          ⊢ iprop((StableHlo.held (c : Thread nD τ) (Pipeline.ucRefs τ sig) (W16 m c) ∗ ∃ r, prngReg c r) ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m c b)
    (hfin := fun c s' => by
      iintro ⟨⟨Hh, -⟩, HSI⟩
      unfold StableHlo.held
      imodintro
      iapply (pointsTo_read_all (Pipeline.ucRefs τ sig) (fun b => (((c : Thread nD τ)).1, b)) (W16 m c) s')
      isplitl [Hh] <;> iassumption)
    (hQ := fun s h c =>
      ⟨h c _ (mem_uc main_v53 (by decide)),
       (h c _ (mem_uc main_arg0 (by decide))).trans (W16_main_arg0 m c),
       (h c _ (mem_uc main_arg1 (by decide))).trans (W16_main_arg1 m c),
       (h c _ (mem_uc main_arg2 (by decide))).trans (W16_main_arg2 m c),
       (h c _ (mem_uc main_arg3 (by decide))).trans (W16_main_arg3 m c)⟩)

end Cert.Kernel.Gen

end
-- ==== Proof.RefRun.lean ====
/-
  The reference program's run and its stages read at an index: this module only brings the two generated
  modules (the run of the host program, and its operations read one at a time) into the proof's import closure.
-/
import proofs.«179733_j56453050138798_2_alg».proof.Proof.Gen.ReferenceIdeal.Run
import proofs.«179733_j56453050138798_2_alg».proof.Proof.Gen.ReferenceIdeal.Read
-- ==== Proof.Spec.lean ====
/-
  The sparse product both programs compute, as one function on the extended reals.

  An edge `e` carries a destination word `rows e`, a row `row e` of the feature table and a weight `ev e`.
  Entry `(p, j)` of the result is the sum, over the edges whose destination word read as a signed integer
  is `p`, of the table's entry `(row e, j)` times the weight.  An edge whose destination is no row of the
  result (negative, or at least the number of rows) contributes to no entry.

  Which table row an edge selects is a parameter: the reference reads it off the edge's column word by its own
  rule for words outside the table (`refRow`: a negative word is first raised by the table's height, and the
  signed value is then clamped into the table); for a word inside the table that is the word's value.
-/
import Idealize.ShloMosaic.PureOps.Ideal
import Idealize.ShloMosaic.Lib.ValueIdx

noncomputable section

namespace Cert.Spmm

open Idealize.ShloMosaic

/-- Entry `(p, j)` of the sparse product: the sum over the edges `e` whose destination word is `p` of
    `emb (row e) j * ev e`. -/
def spmm (rows : Fin 1000000 → BitVec 32) (row : Fin 1000000 → Fin 100000) (ev : Fin 1000000 → EReal)
    (emb : Fin 100000 → Fin 64 → EReal) (p : Fin 100000) (j : Fin 64) : EReal :=
  ∑ e ∈ Finset.univ.filter (fun e : Fin 1000000 => (rows e).toInt = (p.val : Int)), emb (row e) j * ev e

/-- The table row the reference reads for a column word: a negative word is raised by 100000 (with 32-bit
    wrap-around), and the signed value of the outcome is clamped into `[0, 99999]`. -/
def refRow (c : BitVec 32) : Fin 100000 :=
  ⟨min (if c.toInt < 0 then c + 100000#32 else c).toInt.toNat 99999, by omega⟩

/-- For a column word inside the table the reference's row is the word's value. -/
theorem refRow_val_of_inRange (c : BitVec 32) (h0 : 0 ≤ c.toInt) (h1 : c.toInt < 100000) :
    (refRow c).val = c.toInt.toNat := by
  unfold refRow
  have hneg : ¬ c.toInt < 0 := by omega
  simp only [hneg, if_false]
  omega

end Cert.Spmm

end
-- ==== Proof.LibGatherScatterRead.lean ====
/-
  The host's row gather and accumulating row scatter, read at an index.

  A gather of whole rows of an `n × f` array at `m` start indices (one index word per result row) returns, at
  result element `(e, j)`, the operand's element `(r, j)` where `r` is the start word of `e` read as a signed
  integer and clamped into `[0, n - 1]`. An accumulating scatter of `m` rows into an `n × f` array adds, at
  element `(p, j)`, the entries `(e, j)` of exactly those update rows `e` whose start word, read as a signed
  integer, is `p`: a row whose start word is not a row of the operand is dropped. The same two readings for
  vectors (no second axis). Generic in the extents and in the width of the index words.
-/
import Idealize.ShloMosaic.Lib.ValueIdx
import Idealize.ShloMosaic.PureOps.Ideal
import Idealize.ShloMosaic.PureOps.Ideal.Laws
import Idealize.ShloMosaic.PureOps.Contract

noncomputable section

open scoped BigOperators

namespace Idealize.ShloMosaic.GatherScatterRead

open Idealize.ShloMosaic Idealize.ShloMosaic.ValueIdx

/-! ## Gather of rows -/

section GatherRows
variable {α : Type}

/-- The dimension numbers of a gather of whole rows: operand `[n, f]`, start indices `[m, 1]`, result `[m, f]`;
    the row axis is collapsed and indexed, the second axis is the offset axis with the full slice `f`. -/
abbrev rowsGatherDims (n m f : Nat)
    (wf : GatherDims.WF ⟨2, ![n, f]⟩ ⟨2, ![m, 1]⟩ ⟨2, ![m, f]⟩ [1] [0] [] [0] [] 1 ![1, f]) :
    GatherDims ⟨2, ![n, f]⟩ ⟨2, ![m, 1]⟩ ⟨2, ![m, f]⟩ where
  offsetDims := [1]
  collapsedSliceDims := [0]
  operandBatchingDims := []
  startIndicesBatchingDims := []
  startIndexMap := [0]
  indexVectorDim := 1
  sliceSizes := ![1, f]
  wf := wf

/-- The row gather read at `(e, j)`: the operand at row `idx[e, 0]`, read signed and clamped into `[0, n - 1]`,
    and column `j`. -/
theorem gather_rows_apply {n m f w : Nat} (hn : 0 < n)
    (wf : GatherDims.WF ⟨2, ![n, f]⟩ ⟨2, ![m, 1]⟩ ⟨2, ![m, f]⟩ [1] [0] [] [0] [] 1 ![1, f])
    (x : (⟨2, ![n, f]⟩ : Shape).Idx → α) (idx : IVec ⟨2, ![m, 1]⟩ w) (e : Fin m) (j : Fin f) :
    Host.gather (rowsGatherDims n m f wf) x idx (ix2 e j)
      = x (ix2 ⟨min (idx (ix2 e 0)).toInt.toNat (n - 1), by omega⟩ j) := by
  unfold Host.gather
  congr 1
  funext a
  refine Fin.ext ?_
  match a with
  | ⟨0, _⟩ =>
    show (rowsGatherDims n m f wf).start (ix2 e j) idx 0 + (rowsGatherDims n m f wf).batchCoord (ix2 e j) 0
      + (rowsGatherDims n m f wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGatherDims n m f wf).startIndexMap from List.mem_singleton.mpr rfl)]
    have hsi : (rowsGatherDims n m f wf).siIdx (ix2 e j) ⟨List.idxOf (0 : Fin 2) (rowsGatherDims n m f wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsGatherDims n m f wf).start (ix2 e j) idx 1 + (rowsGatherDims n m f wf).batchCoord (ix2 e j) 1
      + (rowsGatherDims n m f wf).offCoord (ix2 e j) 1 = j.val
    rw [GatherDims.batchCoord_eq_zero _ _ _ List.not_mem_nil]
    have hst : (rowsGatherDims n m f wf).start (ix2 e j) idx 1 = 0 := by
      unfold GatherDims.start
      rw [dif_neg (show (1 : Fin 2) ∉ ([0] : List (Fin 2)) by decide)]
    rw [hst]
    have hoff : (rowsGatherDims n m f wf).offCoord (ix2 e j) 1 = j.val := by
      unfold GatherDims.offCoord
      rw [dif_pos ((GatherDims.mem_sKept _ _).mpr ⟨show (1 : Fin 2) ∉ ([0] : List (Fin 2)) by decide, List.not_mem_nil⟩)]
      rfl
    rw [hoff]; omega

end GatherRows

/-! ## Accumulating scatter of rows -/

section ScatterRows

/-- The dimension numbers of a scatter of whole rows: operand `[n, f]`, scatter indices `[m, 1]`, updates `[m, f]`;
    the row axis is the inserted and indexed one, the second axis is the window axis. -/
abbrev rowsScatterDims (n m f : Nat)
    (wf : ScatterDims.WF ⟨2, ![n, f]⟩ ⟨2, ![m, 1]⟩ ⟨2, ![m, f]⟩ [1] [0] [0] 1) :
    ScatterDims ⟨2, ![n, f]⟩ ⟨2, ![m, 1]⟩ ⟨2, ![m, f]⟩ where
  updateWindowDims := [1]
  insertedWindowDims := [0]
  scatterDimsToOperandDims := [0]
  indexVectorDim := 1
  wf := wf

variable {n m f w : Nat} (wf : ScatterDims.WF ⟨2, ![n, f]⟩ ⟨2, ![m, 1]⟩ ⟨2, ![m, f]⟩ [1] [0] [0] 1)

local notation "D" => rowsScatterDims n m f wf

/-- On the row axis the window of update `(e, j)` starts at the start word of `e`, read signed. -/
theorem rows_start_zero (idx : IVec ⟨2, ![m, 1]⟩ w) (e : Fin m) (j : Fin f) :
    (D).start (ix2 e j) idx 0 = (idx (ix2 e 0)).toInt := by
  unfold ScatterDims.start
  rw [dif_pos (show (0 : Fin 2) ∈ (D).scatterDimsToOperandDims from List.mem_singleton.mpr rfl)]
  have hsi : (D).siIdx (ix2 e j)
      ⟨List.idxOf (0 : Fin 2) (D).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the second axis the window starts at `0`. -/
theorem rows_start_one (idx : IVec ⟨2, ![m, 1]⟩ w) (e : Fin m) (j : Fin f) :
    (D).start (ix2 e j) idx 1 = 0 := by
  unfold ScatterDims.start
  rw [dif_neg (show (1 : Fin 2) ∉ ([0] : List (Fin 2)) by decide)]

/-- The row axis is inserted: its window coordinate is `0`. -/
theorem rows_window_zero (e : Fin m) (j : Fin f) : (D).window (ix2 e j) 0 = 0 := by
  unfold ScatterDims.window
  rw [dif_neg (show (0 : Fin 2) ∉ (⟨2, ![n, f]⟩ : Shape).kept [0] by
    simp [Shape.kept, List.mem_filter])]

/-- On the second axis the window coordinate of update `(e, j)` is `j`. -/
theorem rows_window_one (e : Fin m) (j : Fin f) : (D).window (ix2 e j) 1 = j.val := by
  unfold ScatterDims.window
  rw [dif_pos (show (1 : Fin 2) ∈ (⟨2, ![n, f]⟩ : Shape).kept [0] by
    simp [Shape.kept, List.mem_filter, List.mem_finRange])]
  rfl

/-- Update `(e, j')` lands on operand element `(p, j)` exactly when the start word of `e`, read signed, is `p`
    and `j' = j`. -/
theorem rows_resultIdx?_eq_some_iff (idx : IVec ⟨2, ![m, 1]⟩ w) (e : Fin m) (j' : Fin f) (p : Fin n) (j : Fin f) :
    (D).resultIdx? (ix2 e j') idx = some (ix2 p j)
      ↔ (idx (ix2 e 0)).toInt = (p.val : Int) ∧ j' = j := by
  have h0 : (D).start (ix2 e j') idx 0 + ((D).window (ix2 e j') 0 : Int) = (idx (ix2 e 0)).toInt := by
    rw [rows_start_zero, rows_window_zero]; simp
  have h1 : (D).start (ix2 e j') idx 1 + ((D).window (ix2 e j') 1 : Int) = (j'.val : Int) := by
    rw [rows_start_one, rows_window_one]; simp
  unfold ScatterDims.resultIdx?
  constructor
  · intro h
    split at h
    · rename_i hall
      have hq := Option.some.inj h
      have q0 : ((D).start (ix2 e j') idx 0 + ((D).window (ix2 e j') 0 : Int)).toNat = p.val :=
        congrArg (fun q => ((q 0 : Fin _) : Nat)) hq
      have q1 : ((D).start (ix2 e j') idx 1 + ((D).window (ix2 e j') 1 : Int)).toNat = j.val :=
        congrArg (fun q => ((q 1 : Fin _) : Nat)) hq
      have a0 : 0 ≤ (D).start (ix2 e j') idx 0 + ((D).window (ix2 e j') 0 : Int) := (hall 0).1
      rw [h0] at q0 a0
      rw [h1] at q1
      exact ⟨by omega, Fin.ext (by omega)⟩
    · exact absurd h (by simp)
  · rintro ⟨hp, rfl⟩
    have hall : ∀ a, 0 ≤ (D).start (ix2 e j') idx a + ((D).window (ix2 e j') a : Int)
        ∧ (D).start (ix2 e j') idx a + ((D).window (ix2 e j') a : Int) < ((⟨2, ![n, f]⟩ : Shape).size a : Int) := by
      intro a
      match a with
      | ⟨0, _⟩ =>
        exact (show 0 ≤ (D).start (ix2 e j') idx 0 + ((D).window (ix2 e j') 0 : Int)
          ∧ (D).start (ix2 e j') idx 0 + ((D).window (ix2 e j') 0 : Int) < (n : Int) by
            rw [h0, hp]; have := p.isLt; omega)
      | ⟨1, _⟩ =>
        exact (show 0 ≤ (D).start (ix2 e j') idx 1 + ((D).window (ix2 e j') 1 : Int)
          ∧ (D).start (ix2 e j') idx 1 + ((D).window (ix2 e j') 1 : Int) < (f : Int) by
            rw [h1]; have := j'.isLt; omega)
    rw [dif_pos hall]
    congr 1
    funext a
    refine Fin.ext ?_
    match a with
    | ⟨0, _⟩ =>
      show (((D).start (ix2 e j') idx 0 + ((D).window (ix2 e j') 0 : Int)).toNat) = p.val
      rw [h0, hp]; simp
    | ⟨1, _⟩ =>
      show (((D).start (ix2 e j') idx 1 + ((D).window (ix2 e j') 1 : Int)).toNat) = j'.val
      rw [h1]; simp

/-- The accumulating row scatter read at `(p, j)`: the operand's element plus the entries `(e, j)` of the update
    rows `e` whose start word `idx[e, 0]`, read signed, is `p`. -/
theorem scatterAdd_rows_apply {φ : FTy} (x : FVec Ideal ⟨2, ![n, f]⟩ φ) (idx : IVec ⟨2, ![m, 1]⟩ w)
    (upd : FVec Ideal ⟨2, ![m, f]⟩ φ) (p : Fin n) (j : Fin f) :
    Host.scatterAdd (rowsScatterDims n m f wf) x idx upd (ix2 p j)
      = x (ix2 p j) + ∑ e ∈ Finset.univ.filter (fun e : Fin m => (idx (ix2 e 0)).toInt = (p.val : Int)),
          upd (ix2 e j) := by
  show x (ix2 p j) + ∑ q ∈ Finset.univ.filter (fun q => (D).resultIdx? q idx = some (ix2 p j)), upd q = _
  congr 1
  rw [Finset.sum_filter, sum_idx2, Finset.sum_filter]
  refine Finset.sum_congr rfl fun e _ => ?_
  simp only [rows_resultIdx?_eq_some_iff]
  by_cases h : (idx (ix2 e 0)).toInt = (p.val : Int)
  · simp [h]
  · simp [h]

end ScatterRows

/-! ## The same two readings for vectors -/

section Vectors

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (g : (⟨1, ![n]⟩ : Shape).Idx → M) :
    ∑ i, g i = ∑ a : Fin n, g (ix1 a) := by
  rw [← Equiv.sum_comp (idxEquiv1 (n := n)).symm g]
  rfl

/-- The dimension numbers of a gather of single elements of a vector: operand `[n]`, start indices `[m, 1]`,
    result `[m]`; the one operand axis is collapsed and indexed. -/
abbrev vecGatherDims (n m : Nat)
    (wf : GatherDims.WF ⟨1, ![n]⟩ ⟨2, ![m, 1]⟩ ⟨1, ![m]⟩ [] [0] [] [0] [] 1 ![1]) :
    GatherDims ⟨1, ![n]⟩ ⟨2, ![m, 1]⟩ ⟨1, ![m]⟩ where
  offsetDims := []
  collapsedSliceDims := [0]
  operandBatchingDims := []
  startIndicesBatchingDims := []
  startIndexMap := [0]
  indexVectorDim := 1
  sliceSizes := ![1]
  wf := wf

/-- The vector gather read at `e`: the operand at `idx[e, 0]`, read signed and clamped into `[0, n - 1]`. -/
theorem gather_vec_apply {α : Type} {n m w : Nat} (hn : 0 < n)
    (wf : GatherDims.WF ⟨1, ![n]⟩ ⟨2, ![m, 1]⟩ ⟨1, ![m]⟩ [] [0] [] [0] [] 1 ![1])
    (x : (⟨1, ![n]⟩ : Shape).Idx → α) (idx : IVec ⟨2, ![m, 1]⟩ w) (e : Fin m) :
    Host.gather (vecGatherDims n m wf) x idx (ix1 e)
      = x (ix1 ⟨min (idx (ix2 e 0)).toInt.toNat (n - 1), by omega⟩) := by
  unfold Host.gather
  congr 1
  funext a
  obtain rfl : a = 0 := Subsingleton.elim _ _
  refine Fin.ext ?_
  show (vecGatherDims n m wf).start (ix1 e) idx 0 + (vecGatherDims n m wf).batchCoord (ix1 e) 0
    + (vecGatherDims n m wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims n m wf).startIndexMap from List.mem_singleton.mpr rfl)]
  have hsi : (vecGatherDims n m wf).siIdx (ix1 e) ⟨List.idxOf (0 : Fin 1) (vecGatherDims n m wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The dimension numbers of a scatter of single elements into a vector: operand `[n]`, scatter indices `[m, 1]`,
    updates `[m]`; the one operand axis is the inserted and indexed one, and there is no window axis. -/
abbrev vecScatterDims (n m : Nat)
    (wf : ScatterDims.WF ⟨1, ![n]⟩ ⟨2, ![m, 1]⟩ ⟨1, ![m]⟩ [] [0] [0] 1) :
    ScatterDims ⟨1, ![n]⟩ ⟨2, ![m, 1]⟩ ⟨1, ![m]⟩ where
  updateWindowDims := []
  insertedWindowDims := [0]
  scatterDimsToOperandDims := [0]
  indexVectorDim := 1
  wf := wf

variable {n m w : Nat} (wf : ScatterDims.WF ⟨1, ![n]⟩ ⟨2, ![m, 1]⟩ ⟨1, ![m]⟩ [] [0] [0] 1)

local notation "V" => vecScatterDims n m wf

/-- The window of update `e` starts at the start word of `e`, read signed. -/
theorem vec_start_zero (idx : IVec ⟨2, ![m, 1]⟩ w) (e : Fin m) :
    (V).start (ix1 e) idx 0 = (idx (ix2 e 0)).toInt := by
  unfold ScatterDims.start
  rw [dif_pos (show (0 : Fin 1) ∈ (V).scatterDimsToOperandDims from List.mem_singleton.mpr rfl)]
  have hsi : (V).siIdx (ix1 e)
      ⟨List.idxOf (0 : Fin 1) (V).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted: its window coordinate is `0`. -/
theorem vec_window_zero (e : Fin m) : (V).window (ix1 e) 0 = 0 := by
  unfold ScatterDims.window
  rw [dif_neg (show (0 : Fin 1) ∉ (⟨1, ![n]⟩ : Shape).kept [0] by
    simp [Shape.kept, List.mem_filter])]

/-- Update `e` lands on operand element `p` exactly when the start word of `e`, read signed, is `p`. -/
theorem vec_resultIdx?_eq_some_iff (idx : IVec ⟨2, ![m, 1]⟩ w) (e : Fin m) (p : Fin n) :
    (V).resultIdx? (ix1 e) idx = some (ix1 p) ↔ (idx (ix2 e 0)).toInt = (p.val : Int) := by
  have h0 : (V).start (ix1 e) idx 0 + ((V).window (ix1 e) 0 : Int) = (idx (ix2 e 0)).toInt := by
    rw [vec_start_zero, vec_window_zero]; simp
  unfold ScatterDims.resultIdx?
  constructor
  · intro h
    split at h
    · rename_i hall
      have hq := Option.some.inj h
      have q0 : ((V).start (ix1 e) idx 0 + ((V).window (ix1 e) 0 : Int)).toNat = p.val :=
        congrArg (fun q => ((q 0 : Fin _) : Nat)) hq
      have a0 : 0 ≤ (V).start (ix1 e) idx 0 + ((V).window (ix1 e) 0 : Int) := (hall 0).1
      rw [h0] at q0 a0
      omega
    · exact absurd h (by simp)
  · intro hp
    have hall : ∀ a, 0 ≤ (V).start (ix1 e) idx a + ((V).window (ix1 e) a : Int)
        ∧ (V).start (ix1 e) idx a + ((V).window (ix1 e) a : Int) < ((⟨1, ![n]⟩ : Shape).size a : Int) := by
      intro a
      obtain rfl : a = 0 := Subsingleton.elim _ _
      exact (show 0 ≤ (V).start (ix1 e) idx 0 + ((V).window (ix1 e) 0 : Int)
        ∧ (V).start (ix1 e) idx 0 + ((V).window (ix1 e) 0 : Int) < (n : Int) by
          rw [h0, hp]; have := p.isLt; omega)
    rw [dif_pos hall]
    congr 1
    funext a
    obtain rfl : a = 0 := Subsingleton.elim _ _
    refine Fin.ext ?_
    show (((V).start (ix1 e) idx 0 + ((V).window (ix1 e) 0 : Int)).toNat) = p.val
    rw [h0, hp]; simp

/-- The accumulating vector scatter read at `p`: the operand's element plus the updates `e` whose start word
    `idx[e, 0]`, read signed, is `p`. -/
theorem scatterAdd_vec_apply {φ : FTy} (x : FVec Ideal ⟨1, ![n]⟩ φ) (idx : IVec ⟨2, ![m, 1]⟩ w)
    (upd : FVec Ideal ⟨1, ![m]⟩ φ) (p : Fin n) :
    Host.scatterAdd (vecScatterDims n m wf) x idx upd (ix1 p)
      = x (ix1 p) + ∑ e ∈ Finset.univ.filter (fun e : Fin m => (idx (ix2 e 0)).toInt = (p.val : Int)),
          upd (ix1 e) := by
  show x (ix1 p) + ∑ q ∈ Finset.univ.filter (fun q => (V).resultIdx? q idx = some (ix1 p)), upd q = _
  congr 1
  rw [Finset.sum_filter, sum_idx1, Finset.sum_filter]
  refine Finset.sum_congr rfl fun e _ => ?_
  simp only [vec_resultIdx?_eq_some_iff]

end Vectors

/-! ## The records at literal extents -/

section Literal

/-- At literal extents the fields of the row scatter's record compute to the stated lists. -/
example (wf : ScatterDims.WF ⟨2, ![100000, 8]⟩ ⟨2, ![3200000, 1]⟩ ⟨2, ![3200000, 8]⟩ [1] [0] [0] 1) :
    (rowsScatterDims 100000 3200000 8 wf).updateWindowDims = [1] := rfl

end Literal

end Idealize.ShloMosaic.GatherScatterRead

end
-- ==== Proof.RefIsSpec.lean ====
/-
  The reference's result is the sparse product.

  The reference multiplies each edge's gathered table row by the edge's weight and adds the products into the rows of
  a zero array by the edges' destination words.  Read at entry `(p, j)` the accumulating scatter is the zero entry
  plus the sum, over the edges whose destination word read signed is `p`, of update entry `(e, j)`; the update entry
  is the gathered entry times the weight; and the gathered entry is the table's entry at the row the edge's column
  word selects: a negative word is first raised by the table's height, and the signed value of the outcome is clamped
  into the table.  That is the sparse product with the reference's row rule.
-/
import proofs.«179733_j56453050138798_2_alg».proof.Proof.Spec
import proofs.«179733_j56453050138798_2_alg».proof.Proof.Gen.ReferenceIdeal.Read
import proofs.«179733_j56453050138798_2_alg».proof.Proof.LibGatherScatterRead

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.GatherScatterRead

/-- The printed scatter record is the row scatter's record at the literal extents. -/
theorem scatter_eq :
    scatter_S100000x64_S1000000x1_S1000000x64_1_0_0_1
      = rowsScatterDims 100000 1000000 64 scatter_S100000x64_S1000000x1_S1000000x64_1_0_0_1_wf := rfl

/-- The printed gather record is the row gather's record at the literal extents. -/
theorem gather_eq :
    gather_S100000x64_S1000000x1_S1000000x64_1_0_n_n_0_1_164
      = rowsGatherDims 100000 1000000 64 gather_S100000x64_S1000000x1_S1000000x64_1_0_n_n_0_1_164_wf := rfl

/-- The reference's choice between the raised word and the word itself is the `if` on the word's sign. -/
theorem select_raise (c : BitVec 32) :
    Scalar.select (IntOp.cmpi .slt c 0#32) (IntOp.addi c 100000#32) c
      = if c.toInt < 0 then c + 100000#32 else c := by
  unfold Scalar.select IntOp.cmpi IntOp.addi
  by_cases h : c.toInt < 0
  · have hs : c.slt 0#32 = true := by simp [BitVec.slt, h]
    simp [hs, h]
  · have hs : c.slt 0#32 = false := by simp [BitVec.slt, h]
    simp [hs, h]

/-- The column word the gather reads for edge `e`: the reference's select on the edge's column word. -/
theorem start_word (x1 : IVec S1000000 32) (e : Fin 1000000) :
    val_main_v5 (F := Ideal) x1 (ix2 e 0)
      = if (x1 (ix1 e)).toInt < 0 then x1 (ix1 e) + 100000#32 else x1 (ix1 e) := by
  have h5 : idx_main_v5 (ix2 e (0 : Fin 1)) = ix1 e :=
    funext fun a => Fin.ext (by match a with | ⟨0, _⟩ => rfl)
  rw [val_main_v5_apply, h5, val_main_v4_apply, val_main_v1_apply, val_main_v3_apply, val_main_v0_apply,
    val_main_v2_apply, val_main_c_apply, val_main_c_0_apply]
  exact select_raise _

/-- The gathered entry `(e, j)` is the table's entry at the row the reference's rule selects for the edge's column
    word. -/
theorem gathered (x1 : IVec S1000000 32) (x3 : FVec Ideal S100000x64 .f32) (e : Fin 1000000) (j : Fin 64) :
    val_main_v6 (F := Ideal) x1 x3 (ix2 e j) = x3 (ix2 (Cert.Spmm.refRow (x1 (ix1 e))) j) := by
  unfold val_main_v6
  rw [gather_eq, gather_rows_apply (by decide)]
  refine congrArg (fun r => x3 (ix2 r j)) (Fin.ext ?_)
  show min (val_main_v5 (F := Ideal) x1 (ix2 e 0)).toInt.toNat (100000 - 1) = (Cert.Spmm.refRow (x1 (ix1 e))).val
  rw [start_word]
  rfl

/-- The weight broadcast along the rows reads the edge's weight. -/
theorem weight (x2 : FVec Ideal S1000000 .f32) (e : Fin 1000000) (j : Fin 64) :
    val_main_v8 (F := Ideal) x2 (ix2 e j) = x2 (ix1 e) := by
  have h : idx_main_v7 (idx_main_v8 (ix2 e j)) = ix1 e :=
    funext fun a => Fin.ext (by match a with | ⟨0, _⟩ => rfl)
  rw [val_main_v8_apply, val_main_v7_apply, h]

/-- The destination word the scatter reads for edge `e`. -/
theorem dest_word (x0 : IVec S1000000 32) (e : Fin 1000000) :
    val_main_v11 (F := Ideal) x0 (ix2 e 0) = x0 (ix1 e) := by
  have h : idx_main_v11 (ix2 e (0 : Fin 1)) = ix1 e :=
    funext fun a => Fin.ext (by match a with | ⟨0, _⟩ => rfl)
  rw [val_main_v11_apply, h]

/-- The array the scatter adds into is zero everywhere. -/
theorem zero_operand (i : S100000x64.Idx) : val_main_v10 (F := Ideal) i = 0 := by
  rw [val_main_v10_apply, val_main_cst_apply]
  exact Ideal.ofBits_zero_f32

/-- Entry `(p, j)` of the reference's result is the sparse product's, with the reference's row rule. -/
theorem ref_eq (x0 x1 : IVec Cert.ReferenceIdeal.S1000000 32) (x2 : FVec Ideal Cert.ReferenceIdeal.S1000000 .f32)
    (x3 : FVec Ideal Cert.ReferenceIdeal.S100000x64 .f32) (p : Fin 100000) (j : Fin 64) :
    Cert.ReferenceIdeal.Read.val_main_v12 (F := Ideal) x0 x1 x2 x3 (ValueIdx.ix2 p j)
      = Cert.Spmm.spmm (fun e => x0 (ValueIdx.ix1 e)) (fun e => Cert.Spmm.refRow (x1 (ValueIdx.ix1 e)))
          (fun e => x2 (ValueIdx.ix1 e)) (fun r c => x3 (ValueIdx.ix2 r c)) p j := by
  unfold val_main_v12 Cert.Spmm.spmm
  rw [scatter_eq, scatterAdd_rows_apply, zero_operand, zero_add]
  simp only [dest_word]
  refine Finset.sum_congr rfl fun e _ => ?_
  rw [val_main_v9_apply, gathered, weight]
  rfl

end Cert.ReferenceIdeal.RefValue

end
-- ==== Proof.PreDecode.lean ====
/-
  The precondition read back: when the printed predicate is all ones, every column word is inside the feature table.

  The predicate is the conjunction of four reductions by "and" to a single truth value: every weight is finite, every
  table entry is finite, every column word is at least 0, every column word is below 100000.  A conjunction that is 1
  has every conjunct 1, and a reduction by "and" that is 1 has every reduced element 1; the last two reductions'
  elements are the signed comparisons of a column word with 0 and with 100000.
-/
import proofs.«179733_j56453050138798_2_alg».proof.Pre_finite_inputs
import Idealize.ShloMosaic.Lib.ReduceAll
import Idealize.ShloMosaic.Lib.Affine
import Idealize.ShloMosaic.Lib.ValueIdx

noncomputable section

namespace Cert.Pre_finite_inputs.Decode

open Idealize.ShloMosaic Cert.Pre_finite_inputs

variable [Facts]
open Facts

instance : Subsingleton S_.Idx := ⟨fun a b => funext fun d => d.elim0⟩

/-- Under the precondition every column word, read signed, lies in `[0, 100000)`. -/
theorem cols_in_range (a0 a1 : IVec S1000000 32) (a2 : FVec Ideal S1000000 .f32) (a3 : FVec Ideal S100000x64 .f32)
    (h : fn (F := Ideal) a0 a1 a2 a3 = fun _ => 1#1) (x : S1000000.Idx) :
    0 ≤ (a1 x).toInt ∧ (a1 x).toInt < 100000 := by
  have h0 := congrFun h ValueIdx.ix0
  dsimp only [fn, fn_part1] at h0
  obtain ⟨h12, h15⟩ := IntOp.andi_eq_one.1 h0
  obtain ⟨-, h11⟩ := IntOp.andi_eq_one.1 h12
  have hge := Host.reduce_andi_all _ _ _ _ _ h11 x
  have hlt := Host.reduce_andi_all _ _ _ _ _ h15 x
  have hge' := IntOp.cmpi_sge.1 hge
  have hlt' := IntOp.cmpi_slt.1 hlt
  have z0 : ((broadcastInDim S1000000 ![] bcast_S_S1000000 (constantI S_ 32 0#32) : IVec S1000000 32) x).toInt = 0 := by
    show (0#32 : BitVec 32).toInt = 0; decide
  have z1 : ((broadcastInDim S1000000 ![] bcast_S_S1000000 (constantI S_ 32 100000#32) : IVec S1000000 32) x).toInt = 100000 := by
    show (100000#32 : BitVec 32).toInt = 100000; decide
  rw [z0] at hge'
  rw [z1] at hlt'
  exact ⟨hge', hlt'⟩

end Cert.Pre_finite_inputs.Decode

end
-- ==== Proof.SpmmCore.lean ====
/-
  The algebra that joins the kernel's two-stage computation to the sparse product.

  The kernel pads the edge list to 1,001,472 entries (destination and column words padded with the sentinel 100352,
  weights with zero) and the feature table to 100,352 rows (zero rows), reorders the padded edges twice (by column,
  then by destination), and computes for destination `p` the sum, over the reordered edges whose destination word is
  `p`, of "the padded table's row the edge's column word selects — nothing when the word is outside the padded table —
  times the edge's weight".  Summing over a reordering is summing over the edges themselves (a bijection of the index
  set); a padded edge's destination is the sentinel, which is no destination below 100000, so the padded edges drop
  out; and for an edge whose column word is inside the table the padded table's row is the table's row.  Addition of
  extended reals is commutative and associative, so no finiteness is needed.
-/
import proofs.«179733_j56453050138798_2_alg».proof.Proof.Spec

noncomputable section

namespace Cert.Spmm

open Idealize.ShloMosaic

/-- A word list padded to 1,001,472 entries with the sentinel 100352. -/
def padW (f : Fin 1000000 → BitVec 32) (e : Fin 1001472) : BitVec 32 :=
  if h : e.val < 1000000 then f ⟨e.val, h⟩ else 100352#32
/-- A weight list padded with zeros. -/
def padR (f : Fin 1000000 → EReal) (e : Fin 1001472) : EReal :=
  if h : e.val < 1000000 then f ⟨e.val, h⟩ else 0
/-- The feature table padded to 100,352 rows with zero rows. -/
def padT (emb : Fin 100000 → Fin 64 → EReal) (n : Fin 100352) (d : Fin 64) : EReal :=
  if h : n.val < 100000 then emb ⟨n.val, h⟩ d else 0

/-- The entry in column `j` of the padded table's row a column word selects; nothing when the word is outside the
    padded table. -/
def sel (emb : Fin 100000 → Fin 64 → EReal) (j : Fin 64) (w : BitVec 32) : EReal :=
  if h : 0 ≤ w.toInt ∧ w.toInt < 100352 then padT emb ⟨w.toInt.toNat, by omega⟩ j else 0

/-- What one (padded) edge contributes to column `j` of its destination: the selected entry times its weight. -/
def contrib (cols : Fin 1000000 → BitVec 32) (ev : Fin 1000000 → EReal) (emb : Fin 100000 → Fin 64 → EReal)
    (j : Fin 64) (x : Fin 1001472) : EReal :=
  sel emb j (padW cols x) * padR ev x

/-- Summing a function of the reordered edges over the reordered edges with a given destination is summing it over
    the edges with that destination. -/
theorem sum_reorder {n : ℕ} (σ : Fin n → Fin n) (hσ : Function.Bijective σ) (P : Fin n → Prop) [DecidablePred P] (f : Fin n → EReal) :
    ∑ e ∈ Finset.univ.filter (fun e => P (σ e)), f (σ e) = ∑ x ∈ Finset.univ.filter P, f x := by
  rw [Finset.sum_filter, Finset.sum_filter]
  exact Fintype.sum_bijective σ hσ _ _ (fun e => rfl)

/-- THE JOIN: the doubly reordered, padded sum is the sparse product's entry, for column words inside the table. -/
theorem two_stage_eq (rows cols : Fin 1000000 → BitVec 32) (ev : Fin 1000000 → EReal) (emb : Fin 100000 → Fin 64 → EReal)
    (σ₁ σ₂ : Fin 1001472 → Fin 1001472) (h₁ : Function.Bijective σ₁) (h₂ : Function.Bijective σ₂)
    (hcols : ∀ x, 0 ≤ (cols x).toInt ∧ (cols x).toInt < 100000) (p : Fin 100000) (j : Fin 64) :
    ∑ e ∈ Finset.univ.filter (fun e : Fin 1001472 => (padW rows (σ₁ (σ₂ e))).toInt = (p.val : ℤ)), contrib cols ev emb j (σ₁ (σ₂ e))
      = spmm rows (fun x => refRow (cols x)) ev emb p j := by
  have e2 := sum_reorder σ₂ h₂ (fun x => (padW rows (σ₁ x)).toInt = (p.val : ℤ)) (fun x => contrib cols ev emb j (σ₁ x))
  have e1 := sum_reorder σ₁ h₁ (fun x => (padW rows x).toInt = (p.val : ℤ)) (fun x => contrib cols ev emb j x)
  rw [e2, e1]
  -- the padded edges have the sentinel as destination, which is not `p`
  unfold spmm
  rw [Finset.sum_filter, Finset.sum_filter]
  have hsplit : (∑ x : Fin 1001472, if (padW rows x).toInt = (p.val : ℤ) then contrib cols ev emb j x else 0)
      = ∑ x : Fin 1000000, (if (rows x).toInt = (p.val : ℤ) then emb (refRow (cols x)) j * ev x else 0) := by
    have hle : 1000000 ≤ 1001472 := by norm_num
    rw [← Finset.sum_subset (Finset.subset_univ (Finset.univ.map (Fin.castLEEmb hle)))]
    · rw [Finset.sum_map]
      refine Finset.sum_congr rfl fun x _ => ?_
      have hx : (Fin.castLEEmb hle x).val < 1000000 := x.isLt
      have hW : ∀ f : Fin 1000000 → BitVec 32, padW f (Fin.castLEEmb hle x) = f x := fun f => by
        unfold padW; rw [dif_pos hx]; exact congrArg f (Fin.ext rfl)
      have hR : padR ev (Fin.castLEEmb hle x) = ev x := by
        unfold padR; rw [dif_pos hx]; exact congrArg ev (Fin.ext rfl)
      rw [hW rows]
      split_ifs with hp
      · unfold contrib
        rw [hW cols, hR]
        obtain ⟨c0, c1⟩ := hcols x
        have hin : 0 ≤ (cols x).toInt ∧ (cols x).toInt < 100352 := ⟨c0, by omega⟩
        unfold sel
        rw [dif_pos hin]
        have hrow : (cols x).toInt.toNat < 100000 := by omega
        unfold padT
        rw [dif_pos (show (⟨(cols x).toInt.toNat, by omega⟩ : Fin 100352).val < 100000 from hrow)]
        have : (⟨(cols x).toInt.toNat, hrow⟩ : Fin 100000) = refRow (cols x) :=
          Fin.ext (refRow_val_of_inRange (cols x) c0 c1).symm
        rw [this]
      · rfl
    · intro x _ hx
      have hge : ¬ x.val < 1000000 := fun hlt => hx (Finset.mem_map.mpr ⟨⟨x.val, hlt⟩, Finset.mem_univ _, Fin.ext rfl⟩)
      have : padW rows x = 100352#32 := by unfold padW; rw [dif_neg hge]
      rw [this]
      have hp : (100352#32 : BitVec 32).toInt ≠ (p.val : ℤ) := by
        have : (100352#32 : BitVec 32).toInt = 100352 := by decide
        rw [this]; have := p.isLt; omega
      rw [if_neg hp]
  exact hsplit

end Cert.Spmm

end
-- ==== Proof.ValueCore.lean ====
/-
  The kernel's result is the sparse product, given what the host operations and the two calls compute.

  The hypotheses are the pieces proved elsewhere: the host puts into the gather call's buffers the padded column words
  and weights in the order of the first sort and the padded feature table; the gather call leaves, row by row, the
  selected table entry times the weight; the host then puts into the scatter call's buffers the destination words and
  the gather call's rows in the order of the second sort; the scatter call leaves, for each destination, the sum of
  the rows whose destination word it is; the last host operation keeps the first 100000 destinations.  Both sorts
  being bijections of the padded edge list, the algebra of the two-stage sum gives the sparse product.
-/
import proofs.«179733_j56453050138798_2_alg».proof.Proof.Run
import proofs.«179733_j56453050138798_2_alg».proof.Proof.SpmmCore
import Idealize.ShloMosaic.Lib.ValueIdx

noncomputable section
namespace Cert.KernelIdeal.Gen
open Cert.KernelIdeal Idealize.ShloMosaic Idealize.ShloMosaic.TcCoe Idealize.SL.Sem Cert.Spmm

variable (m : (ℓ : Loc nD τ sig) → Buf (Elt Ideal) ℓ) (c : Dev nD)
attribute [local irreducible] W12 W15 W11 W14 W16

abbrev rowsA : Fin 1000000 → BitVec 32 := fun x => m ((c.tc : Thread nD τ).loc main_arg0) (ValueIdx.ix1 x)
abbrev colsA : Fin 1000000 → BitVec 32 := fun x => m ((c.tc : Thread nD τ).loc main_arg1) (ValueIdx.ix1 x)
abbrev evA : Fin 1000000 → EReal := fun x => m ((c.tc : Thread nD τ).loc main_arg2) (ValueIdx.ix1 x)
abbrev embA : Fin 100000 → Fin 64 → EReal := fun r d => m ((c.tc : Thread nD τ).loc main_arg3) (ValueIdx.ix2 r d)

abbrev colW : Fin 1001472 → BitVec 32 := fun e => (E11 m c main_v30 : Vec Ideal S1001472x1 .i32) (ValueIdx.ix2 e 0)
abbrev wgt : Fin 1001472 → EReal := fun e => (E11 m c main_v31 : Vec Ideal S1001472x1 .f32) (ValueIdx.ix2 e 0)
abbrev tbl : Fin 100352 → Fin 64 → EReal := fun n d => (E11 m c main_v4 : Vec Ideal S100352x64 .bf16) (ValueIdx.ix2 n d)
abbrev rowW : Fin 1001472 → BitVec 32 := fun e => (E14 m c main_v51 : Vec Ideal S1001472x1 .i32) (ValueIdx.ix2 e 0)
abbrev scaled : Fin 1001472 → Fin 64 → EReal := fun e d => (E14 m c main_v47 : Vec Ideal S1001472x64 .bf16) (ValueIdx.ix2 e d)
abbrev gout : Fin 1001472 → Fin 64 → EReal := fun e d => (E12 m c main_v32 : Vec Ideal S1001472x64 .bf16) (ValueIdx.ix2 e d)

theorem arr1_2 : Pipeline.arrRef spec1 (2 : Fin 3) = main_v52 := rfl
theorem arr0_3 : Pipeline.arrRef spec0 (3 : Fin 4) = main_v32 := rfl

theorem kernel_value_core
    (σ₁ σ₂ : Fin 1001472 → Fin 1001472) (h₁ : Function.Bijective σ₁) (h₂ : Function.Bijective σ₂)
    (g1a : ∀ e : Fin 1001472, colW m c e = padW (colsA m c) (σ₁ e))
    (g1b : ∀ e : Fin 1001472, wgt m c e = padR (evA m c) (σ₁ e))
    (g1c : ∀ (n : Fin 100352) (d : Fin 64), tbl m c n d = padT (embA m c) n d)
    (g2a : ∀ e : Fin 1001472, rowW m c e = padW (rowsA m c) (σ₁ (σ₂ e)))
    (g2b : ∀ (e : Fin 1001472) (d : Fin 64), scaled m c e d = gout m c (σ₂ e) d)
    (ga : ∀ (e : Fin 1001472) (d : Fin 64), ((dat0 (adm0 m) (E11 m) c).arrAt 3 (cfgA0 (adm0 m)).N : Vec Ideal S1001472x64 .bf16) (ValueIdx.ix2 e d)
        = (if h : 0 ≤ (colW m c e).toInt ∧ (colW m c e).toInt < 100352 then tbl m c ⟨(colW m c e).toInt.toNat, by omega⟩ d else 0) * wgt m c e)
    (sa : ∀ (n : Fin 100352) (d : Fin 64), ((dat1 (adm1 m) (E14 m) c).arrAt 2 (cfgA1 (adm1 m)).N : Vec Ideal S100352x64 .f32) (ValueIdx.ix2 n d)
        = ∑ e ∈ Finset.univ.filter (fun e : Fin 1001472 => (rowW m c e).toInt = (n.val : ℤ)), scaled m c e d)
    (s : ∀ (p : Fin 100000) (j : Fin 64), (W16 m c (Proc.devRef .tc main_v53) : Vec Ideal S100000x64 .f32) (ValueIdx.ix2 p j) = (E15 m c main_v52 : Vec Ideal S100352x64 .f32) (ValueIdx.ix2 ⟨p.val, by omega⟩ j))
    (hcols : ∀ x : Fin 1000000, 0 ≤ (colsA m c x).toInt ∧ (colsA m c x).toInt < 100000)
    (p : Fin 100000) (j : Fin 64) :
    (W16 m c (Proc.devRef .tc main_v53) : Vec Ideal S100000x64 .f32) (ValueIdx.ix2 p j)
      = spmm (rowsA m c) (fun x => refRow (colsA m c x)) (evA m c) (embA m c) p j := by
  -- the selected entry of the padded table, as a function of the word
  have selEq : ∀ (w : BitVec 32) (d : Fin 64),
      (if h : 0 ≤ w.toInt ∧ w.toInt < 100352 then tbl m c ⟨w.toInt.toNat, by omega⟩ d else 0) = sel (embA m c) d w := by
    intro w d; unfold sel; split_ifs with h
    · exact g1c _ _
    · rfl
  have hrow : ∀ (e' : Fin 1001472) (d : Fin 64), gout m c e' d = contrib (colsA m c) (evA m c) (embA m c) d (σ₁ e') := by
    intro e' d
    have h32 : gout m c e' d = ((dat0 (adm0 m) (E11 m) c).arrAt 3 (cfgA0 (adm0 m)).N : Vec Ideal S1001472x64 .bf16) (ValueIdx.ix2 e' d) :=
      congrFun (W12_arr m c 3) _
    rw [h32, ga, selEq, g1a, g1b]
    rfl
  rw [s]
  have h52 : ∀ n d, (E15 m c main_v52 : Vec Ideal S100352x64 .f32) (ValueIdx.ix2 n d) = ((dat1 (adm1 m) (E14 m) c).arrAt 2 (cfgA1 (adm1 m)).N : Vec Ideal S100352x64 .f32) (ValueIdx.ix2 n d) :=
    fun n d => congrFun (W15_arr m c 2) _
  rw [h52, sa]
  simp only [g2a, g2b, hrow]
  exact two_stage_eq (rowsA m c) (colsA m c) (evA m c) (embA m c) σ₁ σ₂ h₁ h₂ hcols p j

end Cert.KernelIdeal.Gen
end
-- ==== Proof.GatherSteps.lean ====
/-
  The gather kernel's body, read per control path.

  The body's six runs (first or not, active or not, last or not along the accumulated axis) each leave the
  accumulator and, on the last paths, the output block as whatever the run found.  This module states them in closed
  form over `S0`, the accumulator read as a [2048, 64] function, and the three blocks the pipeline fetched (the
  edges' column words `x0`, their weights `x1`, the table block `x2`): a first point clears the accumulator (the
  zero fill), an active point adds one selector product to what the accumulator held (to the zero fill on a first
  point), a point that is not active leaves the buffer as it was, and a last point stores the accumulator it ends
  with times the weights.  Every store writes its buffer whole, so a buffer reads back as its last store's payload, and
  every load reads its buffer whole.  The statements hold for every interpretation of the floats.
-/
import proofs.«179733_j56453050138798_2_alg».proof.Proof.GatherRuns
import Idealize.ShloMosaic.Lib.Pipeline.Value

set_option maxRecDepth 16384

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (c : Dev nD) (i : grid0.Coords)
  (arg4 : Memref sig .tc .vmem S2048x1 .i32) (harg4 : arg4.IsWhole)
  (arg5 : Memref sig .tc .vmem S2048x1 .f32) (harg5 : arg5.IsWhole)
  (arg6 : Memref sig .tc .vmem S1024x64 .bf16) (harg6 : arg6.IsWhole)
  (arg7 : Memref sig .tc .vmem S2048x64 .bf16) (harg7 : arg7.IsWhole)
  (qT : PosShare TreeShare) (T0 T1 : S489.Idx → Elt F .i32)
  (x0 : S2048x1.Idx → Elt F .i32) (x1 : S2048x1.Idx → Elt F .f32) (x2 : S1024x64.Idx → Elt F .bf16)
  (xa0 : Buf (Elt F) ((c : Thread nD τ).loc cc0_scratch0))

/-- The accumulator's contents as a [2048, 64] function. -/
abbrev S0 (xa : Buf (Elt F) ((c : Thread nD τ).loc cc0_scratch0)) : Vec F S2048x64 .f32 := scM0_0.view.read (Elt F) xa

/-- Each buffer's one rectangle: the whole buffer at the origin. -/
abbrev rS0 : Rect S2048x64 := Rect.unit (s := S2048x64) ![0, 0] S2048x64.size inb_S2048x64_S2048x64_0_0
abbrev rC0 : Rect S2048x1 := Rect.unit (s := S2048x1) ![0, 0] S2048x1.size inb_S2048x1_S2048x1_0_0
abbrev rT0 : Rect S1024x64 := Rect.unit (s := S1024x64) ![0, 0] S1024x64.size inb_S1024x64_S1024x64_0_0

theorem hz2 : (![0, 0] : Fin 2 → Nat) = fun _ => 0 := funext fun a => by fin_cases a <;> rfl

/-- The column words' block the body loads: the staged representative read whole. -/
theorem load0_x0 : View.readAt (Elt F) arg4.view rC0.toLoadRect (arg4.view.rep x0) = x0 := by
  rw [View.readAt_eq_ld, View.read_rep, View.ld_unit_zero (S := S2048x1) hz2]
/-- The weights' block the body loads. -/
theorem load0_x1 : View.readAt (Elt F) arg5.view rC0.toLoadRect (arg5.view.rep x1) = x1 := by
  rw [View.readAt_eq_ld, View.read_rep, View.ld_unit_zero (S := S2048x1) hz2]
/-- The table block the body loads. -/
theorem load0_x2 : View.readAt (Elt F) arg6.view rT0.toLoadRect (arg6.view.rep x2) = x2 := by
  rw [View.readAt_eq_ld, View.read_rep, View.ld_unit_zero (S := S1024x64) hz2]
/-- The accumulator the body loads: its contents whole. -/
theorem load0_S : View.readAt (Elt F) scM0_0.view rS0.toLoadRect xa0 = S0 c xa0 := by
  rw [View.readAt_eq_ld, View.ld_unit_zero (S := S2048x64) hz2]

/-- The accumulator after a list of stores whose last one writes it whole reads as that store's payload. -/
theorem read0_last (p : Vec F S2048x64 .f32) (L : List (View.Piece (Elt F) S2048x64 .f32)) :
    scM0_0.view.read (Elt F) (scM0_0.view.writes (Elt F) scM0_0.view.junk (⟨rS0, p⟩ :: L)) = p := by
  rw [View.read_writes_junk_eq_canon, View.canon_cons_unit_zero hz2]
/-- The output block after a list of stores whose last one writes it whole reads as that store's payload. -/
theorem readO0_last (p : Vec F S2048x64 .bf16) (L : List (View.Piece (Elt F) S2048x64 .bf16)) :
    VO0.read (Elt F) (VO0.writes (Elt F) VO0.junk (⟨rS0, p⟩ :: L)) = p := by
  rw [View.read_writes_junk_eq_canon, View.canon_cons_unit_zero hz2]

/-! ## The accumulator after each path -/

/-- First and active: cleared, then one product added. -/
theorem acc_A (h1 hc h3) :
    S0 c (kernelRun0_A c i arg4 harg4 arg5 harg5 arg6 harg6 arg7 harg7 qT T0 T1 x0 x1 x2 h1 hc h3).1
      = k0_pay2 i x0 x2 (k0_pay1 (F := F)) := by
  unfold kernelRun0_A
  dsimp only
  unfold kernelRun0_A.sl.HS0_2 kernelRun0_A.sl.v31 kernelRun0_A.sl.HS0_1
  refine (read0_last _ _).trans ?_
  rw [View.readCov_cons_toLoadRect, load0_x0, load0_x2]

/-- First and not active: cleared. -/
theorem acc_B (h1 hc h3) :
    S0 c (kernelRun0_B c i arg4 harg4 arg5 harg5 arg6 harg6 arg7 harg7 qT T0 T1 x0 x1 x2 h1 hc h3).1
      = k0_pay1 (F := F) := by
  unfold kernelRun0_B
  dsimp only
  unfold kernelRun0_B.sl.HS0_1
  exact read0_last _ _

/-- Neither first nor last, active: one product added. -/
theorem acc_C (h1 hc h3) :
    S0 c (kernelRun0_C c i arg4 harg4 arg5 harg5 arg6 harg6 arg7 harg7 qT T0 T1 x0 x1 x2 xa0 h1 hc h3).1
      = k0_pay2 i x0 x2 (S0 c xa0) := by
  unfold kernelRun0_C
  dsimp only
  unfold kernelRun0_C.sl.HS0_1
  refine (read0_last _ _).trans ?_
  rw [load0_S, load0_x0, load0_x2]

/-- Neither first nor last, not active: untouched. -/
theorem acc_D (h1 hc h3) :
    (kernelRun0_D c i arg4 harg4 arg5 harg5 arg6 harg6 arg7 harg7 qT T0 T1 x0 x1 x2 xa0 h1 hc h3).1 = xa0 := by
  unfold kernelRun0_D
  dsimp only

/-- Last and active: one product added, -/
theorem acc_E (h1 hc h3) :
    S0 c (kernelRun0_E c i arg4 harg4 arg5 harg5 arg6 harg6 arg7 harg7 qT T0 T1 x0 x1 x2 xa0 h1 hc h3).2.1
      = k0_pay2 i x0 x2 (S0 c xa0) := by
  unfold kernelRun0_E
  dsimp only
  unfold kernelRun0_E.sl.HS0_1
  refine (read0_last _ _).trans ?_
  rw [load0_S, load0_x0, load0_x2]

/-- and the output block is that sum scaled by the weights. -/
theorem out_E (h1 hc h3) :
    out0_E c i arg4 harg4 arg5 harg5 arg6 harg6 arg7 harg7 qT T0 T1 x0 x1 x2 xa0 h1 hc h3
      = k0_pay3 x1 (k0_pay2 i x0 x2 (S0 c xa0)) := by
  unfold out0_E kernelRun0_E
  dsimp only
  unfold kernelRun0_E.sl.HO_1 kernelRun0_E.sl.v20 kernelRun0_E.sl.HS0_1
  refine (readO0_last _ _).trans ?_
  rw [View.readCov_cons_toLoadRect, load0_x1, load0_S, load0_x0, load0_x2]

/-- Last and not active: the accumulator untouched, -/
theorem acc_G (h1 hc h3) :
    (kernelRun0_G c i arg4 harg4 arg5 harg5 arg6 harg6 arg7 harg7 qT T0 T1 x0 x1 x2 xa0 h1 hc h3).2.1 = xa0 := by
  unfold kernelRun0_G
  dsimp only

/-- and the output block is the accumulator scaled by the weights. -/
theorem out_G (h1 hc h3) :
    out0_G c i arg4 harg4 arg5 harg5 arg6 harg6 arg7 harg7 qT T0 T1 x0 x1 x2 xa0 h1 hc h3
      = k0_pay3 x1 (S0 c xa0) := by
  unfold out0_G kernelRun0_G
  dsimp only
  unfold kernelRun0_G.sl.HO_1
  refine (readO0_last _ _).trans ?_
  rw [load0_x1, load0_S]

end Cert.KernelIdeal.Gen

end
-- ==== Proof.PayloadAt.lean ====
/-
  The kernel bodies' stored values, read at one entry.

  Both kernels write a gather or a scatter-add as a product with a 0/1 selector matrix.  For an edge with column word
  `c` and a block of 1024 consecutive rows starting at `off`, the selector's entry `(e, n)` compares the 32-bit word
  `c - off` with the word of `n`; since `off + n` stays below 2³¹ the two words are equal exactly when, read signed,
  `c = off + n`.  Converted to a float the comparison bit is the real 1 or 0, and a change of float format is the identity
  on the extended reals.  The gather kernel multiplies the selector's row by the table block (one contracted axis, the
  block's rows): the row picks the block's row `c - off`, or nothing when `c` is outside the block.  The scatter kernel
  contracts the selector's edge axis against the edges' values: column `n` sums the values of the edges whose word is
  `off + n`.  The remaining stored values are a zero fill and a product with a weight column broadcast along the rows.
-/
import proofs.«179733_j56453050138798_2_alg».proof.Proof.Gen.KernelIdeal.Skeleton
import proofs.«179733_j56453050138798_2_alg».proof.Proof.LibSelector
import Idealize.ShloMosaic.Lib.ValueIdx
import Idealize.ShloMosaic.Lib.Pipeline.Value
import Idealize.ShloMosaic.PureOps.Ideal.Laws

noncomputable section

open scoped BigOperators

namespace Cert.KernelIdeal.PayloadAt

open Idealize.ShloMosaic Idealize.ShloMosaic.ValueIdx Cert.KernelIdeal Cert.KernelIdeal.Gen

/-! ## The zero fills -/

/-- The gather kernel's first store writes zero everywhere. -/
theorem gather_zero (e : Fin 2048) (d : Fin 64) : k0_pay1 (F := Ideal) (ix2 e d) = 0 := by
  unfold k0_pay1
  rw [shapeCast_self]
  exact Ideal.ofBits_zero_f32

/-- The scatter kernel's first store writes zero everywhere. -/
theorem scatter_zero (n : Fin 1024) (d : Fin 64) : k1_pay1 (F := Ideal) (ix2 n d) = 0 := by
  unfold k1_pay1
  rw [shapeCast_self]
  exact Ideal.ofBits_zero_f32

/-! ## The scaling by the weight column -/

/-- A `[2048, 1]` column broadcast to `[2048, b]` reads, at `(e, c)`, the column's entry `e`. -/
theorem broadcastTo_col_apply {α : Type} {b : ℕ} (v : (⟨2, ![2048, 1]⟩ : Shape).Idx → α)
    (h : (⟨2, ![2048, 1]⟩ : Shape).Broadcasts ⟨2, ![2048, b]⟩) (e : Fin 2048) (c : Fin b) :
    broadcastTo ⟨2, ![2048, b]⟩ v h (ix2 e c) = v (ix2 e (0 : Fin 1)) := by
  refine broadcastTo_apply v h (ix2 e c) (ix2 e (0 : Fin 1)) fun ax => ?_
  match ax with
  | ⟨0, _⟩ => rfl
  | ⟨1, _⟩ => rfl

/-- The gather kernel's last store: the accumulated entry times the edge's weight. -/
theorem gather_scale (v18 : Vec Ideal S2048x1 .f32) (v20 : Vec Ideal S2048x64 .f32) (e : Fin 2048) (d : Fin 64) :
    k0_pay3 v18 v20 (ix2 e d) = v20 (ix2 e d) * v18 (ix2 e 0) := by
  unfold k0_pay3
  rw [truncf_apply, mulf_apply, broadcastTo_col_apply, shapeCast_self]

/-! ## The selector's entries -/

/-- The word of a block's first row: the block number times 1024. -/
theorem off_word (b : ℕ) : Scalar.muli (BitVec.ofNat 32 b) 1024#32 = BitVec.ofNat 32 (1024 * b) := by
  show BitVec.ofNat 32 b * BitVec.ofNat 32 1024 = _
  rw [← BitVec.ofNat_mul, Nat.mul_comm]

/-- For a block below row 2³¹ - 1024 the word `c - off` is the word of `n < 1024` exactly when, read signed,
    `c = off + n`. -/
theorem sel_word (c : BitVec 32) (b : ℕ) (hb : b < 98) (n : ℕ) (hn : n < 1024) :
    c - BitVec.ofNat 32 (1024 * b) = BitVec.ofNat 32 n ↔ c.toInt = 1024 * (b : ℤ) + (n : ℤ) := by
  have key : c = BitVec.ofNat 32 (n + 1024 * b) ↔ c.toInt = 1024 * (b : ℤ) + (n : ℤ) := by
    rw [Cert.Lib.Selector.word_eq_iff c (n + 1024 * b) (by omega)]
    push_cast
    constructor <;> intro h <;> omega
  constructor
  · intro h
    refine key.mp ?_
    rw [BitVec.ofNat_add, ← h, BitVec.sub_add_cancel]
  · intro h
    rw [key.mpr h, BitVec.ofNat_add, BitVec.add_sub_cancel]

/-- A comparison bit widened to a word reads, signed, as the bit's number. -/
theorem toInt_bit : ∀ b : BitVec 1, (b.setWidth 32).toInt = (b.toNat : ℤ) := by decide

/-- The selector's entry for an edge with column word `c`, the block at `1024 * b` and row `n` of the block: the real 1
    when `c = 1024 * b + n` read signed, else 0. -/
theorem sel_entry (c : BitVec 32) (b : ℕ) (hb : b < 98) (n : Fin 1024) :
    (FloatOps.sitofp .f32 ((IntOp.cmpi .eq (IntOp.subi c (Scalar.muli (BitVec.ofNat 32 b) 1024#32))
        (BitVec.ofNat 32 n.val)).setWidth 32) : Ideal .f32)
      = if c.toInt - 1024 * (b : ℤ) = (n.val : ℤ) then (1 : EReal) else 0 := by
  rw [off_word b]
  show ((((BitVec.ofBool (c - BitVec.ofNat 32 (1024 * b) == BitVec.ofNat 32 n.val)).setWidth 32).toInt : ℝ) : EReal) = _
  rw [toInt_bit]
  by_cases h : c.toInt - 1024 * (b : ℤ) = (n.val : ℤ)
  · have hw : c - BitVec.ofNat 32 (1024 * b) = BitVec.ofNat 32 n.val :=
      (sel_word c b hb n.val n.isLt).mpr (by omega)
    simp [hw, h]
  · have hw : ¬ c - BitVec.ofNat 32 (1024 * b) = BitVec.ofNat 32 n.val := fun hw =>
      h (by have := (sel_word c b hb n.val n.isLt).mp hw; omega)
    simp [hw, h]

/-! ## The two products read at an entry -/

/-- The gather kernel's product into a zero accumulator: entry `(e, d)` is the sum over the block's rows `n` of the
    left operand's `(e, n)` times the right operand's `(n, d)`. -/
theorem gather_dot (A : FVec Ideal S2048x1024 .bf16) (B : FVec Ideal S1024x64 .bf16) (e : Fin 2048) (d : Fin 64) :
    matmul dot_S2048x1024_S1024x64_S2048x64_1_0_0_1_n_n none A B (constant (F := Ideal) S2048x64 .f32 0x00000000#32) (ix2 e d)
      = ∑ n : Fin 1024, A (ix2 e n) * B (ix2 n d) := by
  refine (Ideal.matmul_constant_zero_apply _ none A B (ix2 e d)).trans ?_
  rw [← Equiv.sum_comp (contrEquiv1 dot_S2048x1024_S1024x64_S2048x64_1_0_0_1_n_n 1024 rfl rfl).symm]
  refine Finset.sum_congr rfl fun n _ => ?_
  have hl : dot_S2048x1024_S1024x64_S2048x64_1_0_0_1_n_n.lhsIdx (ix2 e d)
      ((contrEquiv1 dot_S2048x1024_S1024x64_S2048x64_1_0_0_1_n_n 1024 rfl rfl).symm n) = ix2 e n := by
    funext a; refine Fin.ext ?_
    match a with
    | ⟨0, _⟩ => rfl
    | ⟨1, _⟩ =>
      exact (DotDims.lhsIdx_val_of_single dot_S2048x1024_S1024x64_S2048x64_1_0_0_1_n_n (cl := (1 : Fin 2)) rfl _ _).trans (contrEquiv1_symm_val dot_S2048x1024_S1024x64_S2048x64_1_0_0_1_n_n 1024 rfl rfl n)
  have hr : dot_S2048x1024_S1024x64_S2048x64_1_0_0_1_n_n.rhsIdx (ix2 e d)
      ((contrEquiv1 dot_S2048x1024_S1024x64_S2048x64_1_0_0_1_n_n 1024 rfl rfl).symm n) = ix2 n d := by
    funext a; refine Fin.ext ?_
    match a with
    | ⟨0, _⟩ =>
      exact (DotDims.rhsIdx_val_of_single dot_S2048x1024_S1024x64_S2048x64_1_0_0_1_n_n (cr := (0 : Fin 2)) rfl _ _).trans (contrEquiv1_symm_val dot_S2048x1024_S1024x64_S2048x64_1_0_0_1_n_n 1024 rfl rfl n)
    | ⟨1, _⟩ => rfl
  rw [hl, hr]

/-- The scatter kernel's product into a zero accumulator, contracted over the edges on both sides: entry `(n, d)` is the
    sum over the edges `e` of the left operand's `(e, n)` times the right operand's `(e, d)`. -/
theorem scatter_dot (A : FVec Ideal S2048x1024 .bf16) (B : FVec Ideal S2048x64 .bf16) (n : Fin 1024) (d : Fin 64) :
    matmul dot_S2048x1024_S2048x64_S1024x64_0_0_1_1_n_n none A B (constant (F := Ideal) S1024x64 .f32 0x00000000#32) (ix2 n d)
      = ∑ e : Fin 2048, A (ix2 e n) * B (ix2 e d) := by
  refine (Ideal.matmul_constant_zero_apply _ none A B (ix2 n d)).trans ?_
  rw [← Equiv.sum_comp (contrEquiv1 dot_S2048x1024_S2048x64_S1024x64_0_0_1_1_n_n 2048 rfl rfl).symm]
  refine Finset.sum_congr rfl fun e _ => ?_
  have hl : dot_S2048x1024_S2048x64_S1024x64_0_0_1_1_n_n.lhsIdx (ix2 n d)
      ((contrEquiv1 dot_S2048x1024_S2048x64_S1024x64_0_0_1_1_n_n 2048 rfl rfl).symm e) = ix2 e n := by
    funext a; refine Fin.ext ?_
    match a with
    | ⟨0, _⟩ =>
      exact (DotDims.lhsIdx_val_of_single dot_S2048x1024_S2048x64_S1024x64_0_0_1_1_n_n (cl := (0 : Fin 2)) rfl _ _).trans (contrEquiv1_symm_val dot_S2048x1024_S2048x64_S1024x64_0_0_1_1_n_n 2048 rfl rfl e)
    | ⟨1, _⟩ => rfl
  have hr : dot_S2048x1024_S2048x64_S1024x64_0_0_1_1_n_n.rhsIdx (ix2 n d)
      ((contrEquiv1 dot_S2048x1024_S2048x64_S1024x64_0_0_1_1_n_n 2048 rfl rfl).symm e) = ix2 e d := by
    funext a; refine Fin.ext ?_
    match a with
    | ⟨0, _⟩ =>
      exact (DotDims.rhsIdx_val_of_single dot_S2048x1024_S2048x64_S1024x64_0_0_1_1_n_n (cr := (0 : Fin 2)) rfl _ _).trans (contrEquiv1_symm_val dot_S2048x1024_S2048x64_S1024x64_0_0_1_1_n_n 2048 rfl rfl e)
    | ⟨1, _⟩ => rfl
  rw [hl, hr]

/-! ## The selector matrix and the two accumulation steps -/

/-- The selector matrix of block `b` as both kernels compute it from the edges' words: the comparison of the word less
    the block's first row with the row number, as a float. -/
def sel (b : ℕ) (v18 : IVec S2048x1 32) : FVec Ideal S2048x1024 .bf16 :=
  truncf .bf16 (sitofp .f32 (extui 32 (cmpi .eq
    (broadcastTo S2048x1024 (subi v18 (broadcast S2048x1 (Scalar.muli (BitVec.ofNat 32 b) 1024#32)))
      broadcasts_S2048x1_S2048x1024)
    (iota .tc S2048x1024 32 [1] iota_S2048x1024_d1_w32)) natLt_1_32)) bitsLt_bf16_f32

/-- The selector's entry `(e, n)`: the real 1 when edge `e`'s word, read signed, is row `n` of the block, else 0. -/
theorem sel_apply (b : ℕ) (hb : b < 98) (v18 : IVec S2048x1 32) (e : Fin 2048) (n : Fin 1024) :
    sel b v18 (ix2 e n) = if (v18 (ix2 e 0)).toInt - 1024 * (b : ℤ) = (n.val : ℤ) then (1 : EReal) else 0 := by
  unfold sel
  rw [truncf_apply, sitofp_apply, extui_apply]
  show FloatOps.sitofp .f32 ((IntOp.cmpi .eq
      (broadcastTo S2048x1024 (subi v18 (broadcast S2048x1 (Scalar.muli (BitVec.ofNat 32 b) 1024#32)))
        broadcasts_S2048x1_S2048x1024 (ix2 e n))
      (iota .tc S2048x1024 32 [1] iota_S2048x1024_d1_w32 (ix2 e n))).setWidth 32) = _
  rw [broadcastTo_col_apply, iota_single_apply]
  exact sel_entry (v18 (ix2 e 0)) b hb n

/-- The first table row of the gather kernel's block at a grid point. -/
abbrev off0 (i : grid0.Coords) : ℤ := 1024 * ((i 1).val : ℤ)

/-- The first result row of the scatter kernel's block at a grid point. -/
abbrev off1 (i : grid1.Coords) : ℤ := 1024 * ((i 0).val : ℤ)

/-- The gather kernel's accumulation is the accumulator plus the selector times the table block. -/
theorem k0_pay2_eq (i : grid0.Coords) (v18 : Vec Ideal S2048x1 .i32) (v28 : Vec Ideal S1024x64 .bf16)
    (v31 : Vec Ideal S2048x64 .f32) :
    k0_pay2 i v18 v28 v31
      = addf v31 (matmul (φ₂ := .bf16) dot_S2048x1024_S1024x64_S2048x64_1_0_0_1_n_n none (sel (i 1).val v18) v28
          (constant (F := Ideal) S2048x64 .f32 0x00000000#32)) := by
  unfold k0_pay2 sel
  simp only [shapeCast_self]

/-- The gather kernel's accumulation at `(e, d)`: the accumulator plus the table block's row that the edge's column word
    selects, or nothing when the word is outside the block. -/
theorem gather_step (i : grid0.Coords) (v18 : Vec Ideal S2048x1 .i32) (v28 : Vec Ideal S1024x64 .bf16)
    (v31 : Vec Ideal S2048x64 .f32) (e : Fin 2048) (d : Fin 64) :
    k0_pay2 i v18 v28 v31 (ix2 e d)
      = v31 (ix2 e d) + (if h : off0 i ≤ (v18 (ix2 e 0)).toInt ∧ (v18 (ix2 e 0)).toInt < off0 i + 1024
          then v28 (ix2 ⟨((v18 (ix2 e 0)).toInt - off0 i).toNat, by omega⟩ d) else 0) := by
  have hb : (i 1).val < 98 := (i 1).isLt
  have hoff : off0 i = 1024 * (((i 1).val : ℕ) : ℤ) := rfl
  rw [k0_pay2_eq, addf_apply, gather_dot]
  refine congrArg (v31 (ix2 e d) + ·) ?_
  simp only [sel_apply _ hb]
  by_cases h : off0 i ≤ (v18 (ix2 e 0)).toInt ∧ (v18 (ix2 e 0)).toInt < off0 i + 1024
  · rw [dif_pos h]
    have hs : (v18 (ix2 e 0)).toInt - 1024 * (((i 1).val : ℕ) : ℤ)
        = ((((v18 (ix2 e 0)).toInt - off0 i).toNat : ℕ) : ℤ) := by omega
    exact Cert.Lib.Selector.selector_row_mul _
      (⟨((v18 (ix2 e 0)).toInt - off0 i).toNat, by omega⟩ : Fin 1024) hs (fun n => v28 (ix2 n d))
  · rw [dif_neg h]
    exact Cert.Lib.Selector.selector_row_mul_of_ne _ (fun n hn => h (by have := n.isLt; omega))
      (fun n => v28 (ix2 n d))

/-- The scatter kernel's accumulation is the accumulator plus the transposed selector times the edges' values. -/
theorem k1_pay2_eq (i : grid1.Coords) (v18 : Vec Ideal S2048x1 .i32) (v28 : Vec Ideal S2048x64 .bf16)
    (v31 : Vec Ideal S1024x64 .f32) :
    k1_pay2 i v18 v28 v31
      = addf v31 (matmul (φ₂ := .bf16) dot_S2048x1024_S2048x64_S1024x64_0_0_1_1_n_n none (sel (i 0).val v18) v28
          (constant (F := Ideal) S1024x64 .f32 0x00000000#32)) := by
  unfold k1_pay2 sel
  simp only [shapeCast_self]

/-- The scatter kernel's accumulation at `(n, d)`: the accumulator plus the values of the edges whose destination word is
    row `n` of the block. -/
theorem scatter_step (i : grid1.Coords) (v18 : Vec Ideal S2048x1 .i32) (v28 : Vec Ideal S2048x64 .bf16)
    (v31 : Vec Ideal S1024x64 .f32) (n : Fin 1024) (d : Fin 64) :
    k1_pay2 i v18 v28 v31 (ix2 n d)
      = v31 (ix2 n d) + ∑ e ∈ Finset.univ.filter (fun e : Fin 2048 => (v18 (ix2 e 0)).toInt = off1 i + (n.val : ℤ)),
          v28 (ix2 e d) := by
  have hb : (i 0).val < 98 := (i 0).isLt
  have hoff : off1 i = 1024 * (((i 0).val : ℕ) : ℤ) := rfl
  rw [k1_pay2_eq, addf_apply, scatter_dot]
  refine congrArg (v31 (ix2 n d) + ·) ?_
  simp only [sel_apply _ hb]
  rw [Finset.sum_filter]
  refine Finset.sum_congr rfl fun e _ => ?_
  by_cases h : (v18 (ix2 e 0)).toInt = off1 i + (n.val : ℤ)
  · have h' : (v18 (ix2 e 0)).toInt - 1024 * (((i 0).val : ℕ) : ℤ) = (n.val : ℤ) := by omega
    rw [if_pos h', if_pos h, one_mul]
  · have h' : ¬ (v18 (ix2 e 0)).toInt - 1024 * (((i 0).val : ℕ) : ℤ) = (n.val : ℤ) := fun h' => h (by omega)
    rw [if_neg h', if_neg h, zero_mul]

end Cert.KernelIdeal.PayloadAt

end
-- ==== Proof.GatherArray.lean ====
/-
  The gather call's output array after the run, in closed form.

  For one edge block the grid walks the 98 node blocks; at each, the body adds to the accumulator's entry `(e', d)` the
  table block's row that the edge's column word selects, when the word is one of the node block's 1024 rows, and nothing
  otherwise (at a node block the tables call inactive the body adds nothing, and rightly: the tables bound the edge
  block's words, so none of them is a row of that node block).  After the node blocks `0 … k` the entry is therefore the
  table's row `w` when the word `w` is a row below `1024 (k + 1)`, and zero otherwise; after the last node block it is the
  row of the whole padded table, or zero when `w` is no row of it, and the body stores it times the edge's weight.  Only
  `0 + x = x`, `x + 0 = x` are used of the extended reals, so no finiteness is needed.  Every row of the output array lies
  in the block the last point of its edge block's row of the grid writes back, so the array ends holding that product
  everywhere.
-/
import proofs.«179733_j56453050138798_2_alg».proof.Proof.GatherData
import proofs.«179733_j56453050138798_2_alg».proof.Proof.GatherSteps
import proofs.«179733_j56453050138798_2_alg».proof.Proof.PayloadAt
import proofs.«179733_j56453050138798_2_alg».proof.Proof.Decisions
import Idealize.ShloMosaic.Lib.Pipeline.Value

set_option maxRecDepth 16384

noncomputable section

open scoped BigOperators

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable (a : (pcfg0 (F := Ideal)).Adm)
variable (V : (c : Dev nD) → (b : Ref sig .tc) → Buf (Elt Ideal) ((c : Thread nD τ).loc b)) (c : Dev nD)

/-- A grid coordinate's word read back as a number is the coordinate. -/
theorem coordNat (n : ℕ) (hn : n < 2 ^ 32) : (BitVec.ofNat 32 n).toNat = n := by
  rw [BitVec.toNat_ofNat]; exact Nat.mod_eq_of_lt hn

theorem crd0_lt0 (t : Fin (cfgA0 a).N) : (crd0 a t 0).val < 489 := (crd0 a t 0).isLt
theorem crd0_lt1 (t : Fin (cfgA0 a).N) : (crd0 a t 1).val < 98 := (crd0 a t 1).isLt

/-- The column words' block at a point: rows `2048 b …` of the words' array, `b` the point's edge block. -/
theorem iblk0_0_apply (t : Fin (cfgA0 a).N) (e' : Fin 2048) (k : S1001472x1.Idx)
    (hk0 : (k 0).val = 2048 * (crd0 a t 0).val + e'.val) :
    (iblk0 a V c 0 t : S2048x1.Idx → Elt Ideal .i32) (ValueIdx.ix2 e' 0) = (V c main_v30 : S1001472x1.Idx → Elt Ideal .i32) k := by
  have hb := crd0_lt0 a t
  have hk1 : (k 1).val < 1 := (k 1).isLt
  unfold iblk0
  show V c main_v30 _ = V c main_v30 _
  refine congrArg (V c main_v30) (funext fun ax => Fin.ext ?_)
  match ax with
  | ⟨0, _⟩ =>
    show (BitVec.ofNat 32 (crd0 a t 0).val).toNat * 2048 + 1 * e'.val = (k 0).val
    rw [coordNat _ (by omega), hk0]; omega
  | ⟨1, _⟩ =>
    show 0 * 1 + 1 * 0 = (k 1).val
    omega

/-- The weights' block at a point: rows `2048 b …` of the weights' array. -/
theorem iblk0_1_apply (t : Fin (cfgA0 a).N) (e' : Fin 2048) (k : S1001472x1.Idx)
    (hk0 : (k 0).val = 2048 * (crd0 a t 0).val + e'.val) :
    (iblk0 a V c 1 t : S2048x1.Idx → Elt Ideal .f32) (ValueIdx.ix2 e' 0) = (V c main_v31 : S1001472x1.Idx → Elt Ideal .f32) k := by
  have hb := crd0_lt0 a t
  have hk1 : (k 1).val < 1 := (k 1).isLt
  unfold iblk0
  show V c main_v31 _ = V c main_v31 _
  refine congrArg (V c main_v31) (funext fun ax => Fin.ext ?_)
  match ax with
  | ⟨0, _⟩ =>
    show (BitVec.ofNat 32 (crd0 a t 0).val).toNat * 2048 + 1 * e'.val = (k 0).val
    rw [coordNat _ (by omega), hk0]; omega
  | ⟨1, _⟩ =>
    show 0 * 1 + 1 * 0 = (k 1).val
    omega

/-- The table block at a point: rows `1024 k …` of the table, `k` the point's node block. -/
theorem iblk0_2_apply (t : Fin (cfgA0 a).N) (r : Fin 1024) (d : Fin 64) (k : S100352x64.Idx)
    (hk0 : (k 0).val = 1024 * (crd0 a t 1).val + r.val) (hk1 : (k 1).val = d.val) :
    (iblk0 a V c 2 t : S1024x64.Idx → Elt Ideal .bf16) (ValueIdx.ix2 r d) = (V c main_v4 : S100352x64.Idx → Elt Ideal .bf16) k := by
  have hb := crd0_lt1 a t
  unfold iblk0
  show V c main_v4 _ = V c main_v4 _
  refine congrArg (V c main_v4) (funext fun ax => Fin.ext ?_)
  match ax with
  | ⟨0, _⟩ =>
    show (BitVec.ofNat 32 (crd0 a t 1).val).toNat * 1024 + 1 * r.val = (k 0).val
    rw [coordNat _ (by omega), hk0]; omega
  | ⟨1, _⟩ =>
    show 0 * 64 + 1 * d.val = (k 1).val
    omega

/-! ## One row of the grid, as arithmetic

For an edge whose column word reads `w`, after the node blocks `0 … k` the accumulator holds the table's row `w` when
`w` is a row below `1024 (k + 1)`, and zero otherwise: each node block adds the row when `w` is one of its 1024 rows and
nothing otherwise. -/

section RowArithmetic
variable (T : Fin 100352 → Fin 64 → EReal)

/-- The accumulator's entry after node blocks `0 … k`. -/
def rowAcc (w : ℤ) (k : ℕ) (d : Fin 64) : EReal :=
  if h : 0 ≤ w ∧ w < 100352 then (if w < 1024 * ((k : ℤ) + 1) then T ⟨w.toNat, by omega⟩ d else 0) else 0

/-- What node block `k` adds: the table block's row `w - 1024 k` when `w` is in the block. -/
def blockTerm (w : ℤ) (k : ℕ) (hk : k < 98) (d : Fin 64) : EReal :=
  if h : 1024 * (k : ℤ) ≤ w ∧ w < 1024 * (k : ℤ) + 1024 then T ⟨1024 * k + (w - 1024 * (k : ℤ)).toNat, by omega⟩ d else 0

theorem rowAcc_zero (w : ℤ) (d : Fin 64) : rowAcc T w 0 d = 0 + blockTerm T w 0 (by omega) d := by
  unfold rowAcc blockTerm
  rw [zero_add]
  by_cases h : 0 ≤ w ∧ w < 1024
  · have h' : 0 ≤ w ∧ w < 100352 := ⟨h.1, by omega⟩
    have h'' : 1024 * ((0 : ℕ) : ℤ) ≤ w ∧ w < 1024 * ((0 : ℕ) : ℤ) + 1024 := by omega
    rw [dif_pos h', dif_pos h'', if_pos (by omega)]
    exact congrArg (fun r => T r d) (Fin.ext (by show w.toNat = 1024 * 0 + (w - 1024 * ((0 : ℕ) : ℤ)).toNat; omega))
  · have h'' : ¬ (1024 * ((0 : ℕ) : ℤ) ≤ w ∧ w < 1024 * ((0 : ℕ) : ℤ) + 1024) := by omega
    rw [dif_neg h'']
    by_cases h' : 0 ≤ w ∧ w < 100352
    · rw [dif_pos h', if_neg (by omega)]
    · rw [dif_neg h']

theorem rowAcc_succ (w : ℤ) (k : ℕ) (hk : k + 1 < 98) (d : Fin 64) :
    rowAcc T w (k + 1) d = rowAcc T w k d + blockTerm T w (k + 1) hk d := by
  unfold rowAcc blockTerm
  by_cases h' : 0 ≤ w ∧ w < 100352
  · rw [dif_pos h', dif_pos h']
    by_cases h1 : w < 1024 * ((k : ℤ) + 1)
    · have h'' : ¬ (1024 * ((k + 1 : ℕ) : ℤ) ≤ w ∧ w < 1024 * ((k + 1 : ℕ) : ℤ) + 1024) := by push_cast; omega
      rw [if_pos h1, if_pos (by push_cast; omega), dif_neg h'', add_zero]
    · rw [if_neg h1, zero_add]
      by_cases h2 : w < 1024 * (((k + 1 : ℕ) : ℤ) + 1)
      · have h'' : 1024 * ((k + 1 : ℕ) : ℤ) ≤ w ∧ w < 1024 * ((k + 1 : ℕ) : ℤ) + 1024 := by push_cast at h2 ⊢; omega
        rw [if_pos h2, dif_pos h'']
        exact congrArg (fun r => T r d) (Fin.ext (by
          show w.toNat = 1024 * (k + 1) + (w - 1024 * ((k + 1 : ℕ) : ℤ)).toNat
          push_cast at h'' ⊢; omega))
      · have h'' : ¬ (1024 * ((k + 1 : ℕ) : ℤ) ≤ w ∧ w < 1024 * ((k + 1 : ℕ) : ℤ) + 1024) := by push_cast at h2 ⊢; omega
        rw [if_neg h2, dif_neg h'']
  · have h'' : ¬ (1024 * ((k + 1 : ℕ) : ℤ) ≤ w ∧ w < 1024 * ((k + 1 : ℕ) : ℤ) + 1024) := by push_cast; omega
    rw [dif_neg h', dif_neg h', dif_neg h'', add_zero]

theorem blockTerm_of_out (w : ℤ) (k : ℕ) (hk : k < 98) (d : Fin 64)
    (hout : ¬ (1024 * (k : ℤ) ≤ w ∧ w < 1024 * (k : ℤ) + 1024)) : blockTerm T w k hk d = 0 := by
  unfold blockTerm; rw [dif_neg hout]

theorem rowAcc_last (w : ℤ) (d : Fin 64) :
    rowAcc T w 97 d = if h : 0 ≤ w ∧ w < 100352 then T ⟨w.toNat, by omega⟩ d else 0 := by
  unfold rowAcc
  by_cases h' : 0 ≤ w ∧ w < 100352
  · rw [dif_pos h', dif_pos h', if_pos (by push_cast; omega)]
  · rw [dif_neg h', dif_neg h']

end RowArithmetic

/-! ## The arrays the call reads, by row -/

/-- The column word of row `r` of the words' array, read signed (zero past the array). -/
def colW0 (r : ℕ) : ℤ :=
  if h : r < 1001472 then ((V c main_v30 : S1001472x1.Idx → BitVec 32) (ValueIdx.ix2 ⟨r, h⟩ 0)).toInt else 0
/-- The weight of row `r` of the weights' array (zero past the array). -/
def wgt0 (r : ℕ) : EReal :=
  if h : r < 1001472 then (V c main_v31 : S1001472x1.Idx → EReal) (ValueIdx.ix2 ⟨r, h⟩ 0) else 0
/-- The table, by row and column. -/
def tbl0 : Fin 100352 → Fin 64 → EReal := fun r d => (V c main_v4 : S100352x64.Idx → EReal) (ValueIdx.ix2 r d)

/-- The words' block at a point, read signed: the words of rows `2048 b + e'`. -/
theorem x0_toInt (t : Fin (cfgA0 a).N) (e' : Fin 2048) :
    ((iblk0 a V c 0 t : S2048x1.Idx → BitVec 32) (ValueIdx.ix2 e' 0)).toInt = colW0 V c (2048 * (crd0 a t 0).val + e'.val) := by
  have hb := crd0_lt0 a t
  have hr : 2048 * (crd0 a t 0).val + e'.val < 1001472 := by omega
  unfold colW0
  rw [dif_pos hr]
  exact congrArg BitVec.toInt (iblk0_0_apply a V c t e' (ValueIdx.ix2 ⟨_, hr⟩ 0) rfl)

/-- The weights' block at a point: the weights of rows `2048 b + e'`. -/
theorem x1_eq (t : Fin (cfgA0 a).N) (e' : Fin 2048) :
    (iblk0 a V c 1 t : S2048x1.Idx → EReal) (ValueIdx.ix2 e' 0) = wgt0 V c (2048 * (crd0 a t 0).val + e'.val) := by
  have hb := crd0_lt0 a t
  have hr : 2048 * (crd0 a t 0).val + e'.val < 1001472 := by omega
  unfold wgt0
  rw [dif_pos hr]
  exact iblk0_1_apply a V c t e' (ValueIdx.ix2 ⟨_, hr⟩ 0) rfl

/-- The table block at a point: the table's rows `1024 k + r`. -/
theorem x2_eq (t : Fin (cfgA0 a).N) (r : Fin 1024) (d : Fin 64) (h : 1024 * (crd0 a t 1).val + r.val < 100352) :
    (iblk0 a V c 2 t : S1024x64.Idx → EReal) (ValueIdx.ix2 r d) = tbl0 V c ⟨1024 * (crd0 a t 1).val + r.val, h⟩ d :=
  iblk0_2_apply a V c t r d (ValueIdx.ix2 ⟨_, h⟩ d) rfl rfl

/-! ## One point's product -/

/-- The accumulation adds, at `(e', d)`, what the node block contributes for the edge's word: stated over any blocks
    whose words and table rows are known. -/
theorem pay2_abs (i : grid0.Coords) (x0 : Vec Ideal S2048x1 .i32) (x2 : Vec Ideal S1024x64 .bf16)
    (v31 : Vec Ideal S2048x64 .f32) (T : Fin 100352 → Fin 64 → EReal) (w : ℤ) (e' : Fin 2048) (d : Fin 64)
    (hw : (x0 (ValueIdx.ix2 e' 0)).toInt = w)
    (hx2 : ∀ (r : Fin 1024) (h : 1024 * (i 1).val + r.val < 100352),
      x2 (ValueIdx.ix2 r d) = T ⟨1024 * (i 1).val + r.val, h⟩ d) :
    k0_pay2 i x0 x2 v31 (ValueIdx.ix2 e' d)
      = v31 (ValueIdx.ix2 e' d) + blockTerm T w (i 1).val (i 1).isLt d := by
  have hk : (i 1).val < 98 := (i 1).isLt
  subst hw
  refine (PayloadAt.gather_step i x0 x2 v31 e' d).trans ?_
  refine congrArg (v31 (ValueIdx.ix2 e' d) + ·) ?_
  have hoff : PayloadAt.off0 i = 1024 * (((i 1).val : ℕ) : ℤ) := rfl
  unfold blockTerm
  by_cases h : PayloadAt.off0 i ≤ (x0 (ValueIdx.ix2 e' 0)).toInt ∧ (x0 (ValueIdx.ix2 e' 0)).toInt < PayloadAt.off0 i + 1024
  · have h' : 1024 * (((i 1).val : ℕ) : ℤ) ≤ (x0 (ValueIdx.ix2 e' 0)).toInt
        ∧ (x0 (ValueIdx.ix2 e' 0)).toInt < 1024 * (((i 1).val : ℕ) : ℤ) + 1024 := by rw [← hoff]; exact h
    rw [dif_pos h, dif_pos h']
    refine (hx2 _ (by
      show 1024 * (i 1).val + ((x0 (ValueIdx.ix2 e' 0)).toInt - PayloadAt.off0 i).toNat < 100352
      omega)).trans ?_
    exact congrArg (fun r => T r d) (Fin.ext (by
      show 1024 * (i 1).val + ((x0 (ValueIdx.ix2 e' 0)).toInt - PayloadAt.off0 i).toNat
        = 1024 * (i 1).val + ((x0 (ValueIdx.ix2 e' 0)).toInt - 1024 * (((i 1).val : ℕ) : ℤ)).toNat
      rw [hoff]))
  · have h' : ¬ (1024 * (((i 1).val : ℕ) : ℤ) ≤ (x0 (ValueIdx.ix2 e' 0)).toInt
        ∧ (x0 (ValueIdx.ix2 e' 0)).toInt < 1024 * (((i 1).val : ℕ) : ℤ) + 1024) := by rw [← hoff]; exact h
    rw [dif_neg h, dif_neg h']

/-- At any point of the call, over the point's own blocks. -/
theorem pay2_at (t : Fin (cfgA0 a).N) (v31 : Vec Ideal S2048x64 .f32) (e' : Fin 2048) (d : Fin 64) :
    k0_pay2 (crd0 a t) (iblk0 a V c 0 t) (iblk0 a V c 2 t) v31 (ValueIdx.ix2 e' d)
      = v31 (ValueIdx.ix2 e' d)
        + blockTerm (tbl0 V c) (colW0 V c (2048 * (crd0 a t 0).val + e'.val)) (crd0 a t 1).val (crd0_lt1 a t) d :=
  pay2_abs (crd0 a t) (iblk0 a V c 0 t) (iblk0 a V c 2 t) v31 (tbl0 V c) _ e' d (x0_toInt a V c t e')
    (fun r h => x2_eq a V c t r d h)

/-! ## The tables bound the blocks' words -/

/-- The hypothesis on the two tables: entry `b` of the first is at most, and of the second at least, every column
    word of edge block `b`. -/
def TablesBound0 : Prop :=
  ∀ (b : Fin 489) (k : Fin 2048),
    (tb0_0 a (ValueIdx.ix1 b)).toInt ≤ (V c main_v30 (ValueIdx.ix2 ⟨2048 * b.val + k.val, by omega⟩ 0)).toInt
      ∧ (V c main_v30 (ValueIdx.ix2 ⟨2048 * b.val + k.val, by omega⟩ 0)).toInt ≤ (tb0_1 a (ValueIdx.ix1 b)).toInt

theorem tablesBound0_colW (hT : TablesBound0 a V c) (b : Fin 489) (k : Fin 2048) :
    (tb0_0 a (ValueIdx.ix1 b)).toInt ≤ colW0 V c (2048 * b.val + k.val)
      ∧ colW0 V c (2048 * b.val + k.val) ≤ (tb0_1 a (ValueIdx.ix1 b)).toInt := by
  have hr : 2048 * b.val + k.val < 1001472 := by omega
  unfold colW0
  rw [dif_pos hr]
  exact hT b k

/-- A node block that is not active holds no word of the edge block: it adds nothing. -/
theorem blockTerm_of_not_active (hT : TablesBound0 a V c) (t : Fin (cfgA0 a).N)
    (hc : ¬ isActive0 (F := Ideal) (tb0_0 a) (tb0_1 a) (crd0 a t)) (e' : Fin 2048) (d : Fin 64) :
    blockTerm (tbl0 V c) (colW0 V c (2048 * (crd0 a t 0).val + e'.val)) (crd0 a t 1).val (crd0_lt1 a t) d = 0 := by
  refine blockTerm_of_out _ _ _ _ _ fun hin => hc ?_
  have hb : (tb0_0 a (ValueIdx.ix1 ⟨(crd0 a t 0).val, crd0_lt0 a t⟩)).toInt ≤ colW0 V c (2048 * (crd0 a t 0).val + e'.val)
      ∧ colW0 V c (2048 * (crd0 a t 0).val + e'.val) ≤ (tb0_1 a (ValueIdx.ix1 ⟨(crd0 a t 0).val, crd0_lt0 a t⟩)).toInt :=
    tablesBound0_colW a V c hT ⟨(crd0 a t 0).val, crd0_lt0 a t⟩ e'
  rw [Decisions.isActive0_iff, Decisions.word0_0_eq, Decisions.word0_1_eq]
  have e0 : (ValueIdx.ix1 ⟨(crd0 a t 0).val, (crd0 a t 0).isLt⟩ : S489.Idx) = ValueIdx.ix1 ⟨(crd0 a t 0).val, crd0_lt0 a t⟩ := rfl
  rw [e0]
  constructor
  · exact le_trans hin.1 hb.2
  · have := hin.2; have := hb.1; omega

/-! ## The accumulator after one point, path by path -/

section Paths
variable (t : Fin (cfgA0 a).N) (prev : ScrBuf0 (F := Ideal) c)

theorem S0_step_A (h1 : isFirst0 (crd0 a t)) (hc : isActive0 (F := Ideal) (tb0_0 a) (tb0_1 a) (crd0 a t)) :
    S0 c (step0 a V c t prev).1 = k0_pay2 (crd0 a t) (iblk0 a V c 0 t) (iblk0 a V c 2 t) (k0_pay1 (F := Ideal)) := by
  have e2 := acc_A c (crd0 a t) (ms0_0 a t) (hs0_0 a t) (ms0_1 a t) (hs0_1 a t) (ms0_2 a t) (hs0_2 a t) (ms0_3 a t) (hs0_3 a t)
      fullShare (tb0_0 a) (tb0_1 a) (iblk0 a V c 0 t) (iblk0 a V c 1 t) (iblk0 a V c 2 t) h1 hc (Decisions.not_last0_of_first0 h1)
  rw [step0_A a V c t prev h1 hc]
  dsimp only
  exact e2

theorem S0_step_B (h1 : isFirst0 (crd0 a t)) (hc : ¬ isActive0 (F := Ideal) (tb0_0 a) (tb0_1 a) (crd0 a t)) :
    S0 c (step0 a V c t prev).1 = k0_pay1 (F := Ideal) := by
  have e2 := acc_B c (crd0 a t) (ms0_0 a t) (hs0_0 a t) (ms0_1 a t) (hs0_1 a t) (ms0_2 a t) (hs0_2 a t) (ms0_3 a t) (hs0_3 a t)
      fullShare (tb0_0 a) (tb0_1 a) (iblk0 a V c 0 t) (iblk0 a V c 1 t) (iblk0 a V c 2 t) h1 hc (Decisions.not_last0_of_first0 h1)
  rw [step0_B a V c t prev h1 hc]
  dsimp only
  exact e2

theorem S0_step_C (h1 : ¬ isFirst0 (crd0 a t)) (hc : isActive0 (F := Ideal) (tb0_0 a) (tb0_1 a) (crd0 a t)) (h3 : ¬ isLast0 (crd0 a t)) :
    S0 c (step0 a V c t prev).1 = k0_pay2 (crd0 a t) (iblk0 a V c 0 t) (iblk0 a V c 2 t) (S0 c prev) := by
  have e2 := acc_C c (crd0 a t) (ms0_0 a t) (hs0_0 a t) (ms0_1 a t) (hs0_1 a t) (ms0_2 a t) (hs0_2 a t) (ms0_3 a t) (hs0_3 a t)
      fullShare (tb0_0 a) (tb0_1 a) (iblk0 a V c 0 t) (iblk0 a V c 1 t) (iblk0 a V c 2 t) prev h1 hc h3
  rw [step0_C a V c t prev h1 hc h3]
  dsimp only
  exact e2

theorem S0_step_D (h1 : ¬ isFirst0 (crd0 a t)) (hc : ¬ isActive0 (F := Ideal) (tb0_0 a) (tb0_1 a) (crd0 a t)) (h3 : ¬ isLast0 (crd0 a t)) :
    S0 c (step0 a V c t prev).1 = S0 c prev := by
  have e2 := acc_D c (crd0 a t) (ms0_0 a t) (hs0_0 a t) (ms0_1 a t) (hs0_1 a t) (ms0_2 a t) (hs0_2 a t) (ms0_3 a t) (hs0_3 a t)
      fullShare (tb0_0 a) (tb0_1 a) (iblk0 a V c 0 t) (iblk0 a V c 1 t) (iblk0 a V c 2 t) prev h1 hc h3
  rw [step0_D a V c t prev h1 hc h3]
  dsimp only
  exact congrArg (S0 c) e2

theorem S0_step_E (h1 : ¬ isFirst0 (crd0 a t)) (hc : isActive0 (F := Ideal) (tb0_0 a) (tb0_1 a) (crd0 a t)) (h3 : isLast0 (crd0 a t)) :
    S0 c (step0 a V c t prev).1 = k0_pay2 (crd0 a t) (iblk0 a V c 0 t) (iblk0 a V c 2 t) (S0 c prev) := by
  have e2 := acc_E c (crd0 a t) (ms0_0 a t) (hs0_0 a t) (ms0_1 a t) (hs0_1 a t) (ms0_2 a t) (hs0_2 a t) (ms0_3 a t) (hs0_3 a t)
      fullShare (tb0_0 a) (tb0_1 a) (iblk0 a V c 0 t) (iblk0 a V c 1 t) (iblk0 a V c 2 t) prev h1 hc h3
  rw [step0_E a V c t prev h1 hc h3]
  dsimp only
  exact e2

theorem S0_step_G (h1 : ¬ isFirst0 (crd0 a t)) (hc : ¬ isActive0 (F := Ideal) (tb0_0 a) (tb0_1 a) (crd0 a t)) (h3 : isLast0 (crd0 a t)) :
    S0 c (step0 a V c t prev).1 = S0 c prev := by
  have e2 := acc_G c (crd0 a t) (ms0_0 a t) (hs0_0 a t) (ms0_1 a t) (hs0_1 a t) (ms0_2 a t) (hs0_2 a t) (ms0_3 a t) (hs0_3 a t)
      fullShare (tb0_0 a) (tb0_1 a) (iblk0 a V c 0 t) (iblk0 a V c 1 t) (iblk0 a V c 2 t) prev h1 hc h3
  rw [step0_G a V c t prev h1 hc h3]
  dsimp only
  exact congrArg (S0 c) e2

/-- What a last point stores: the accumulator it ends with, times the weights. -/
theorem out_step_last (h1 : ¬ isFirst0 (crd0 a t)) (h3 : isLast0 (crd0 a t)) :
    (step0 a V c t prev).2 = k0_pay3 (iblk0 a V c 1 t) (S0 c (step0 a V c t prev).1) := by
  by_cases hc : isActive0 (F := Ideal) (tb0_0 a) (tb0_1 a) (crd0 a t)
  · have e2 := out_E c (crd0 a t) (ms0_0 a t) (hs0_0 a t) (ms0_1 a t) (hs0_1 a t) (ms0_2 a t) (hs0_2 a t) (ms0_3 a t) (hs0_3 a t)
      fullShare (tb0_0 a) (tb0_1 a) (iblk0 a V c 0 t) (iblk0 a V c 1 t) (iblk0 a V c 2 t) prev h1 hc h3
    rw [S0_step_E a V c t prev h1 hc h3, step0_E a V c t prev h1 hc h3]
    dsimp only
    exact e2
  · have e2 := out_G c (crd0 a t) (ms0_0 a t) (hs0_0 a t) (ms0_1 a t) (hs0_1 a t) (ms0_2 a t) (hs0_2 a t) (ms0_3 a t) (hs0_3 a t)
      fullShare (tb0_0 a) (tb0_1 a) (iblk0 a V c 0 t) (iblk0 a V c 1 t) (iblk0 a V c 2 t) prev h1 hc h3
    rw [S0_step_G a V c t prev h1 hc h3, step0_G a V c t prev h1 hc h3]
    dsimp only
    exact e2

end Paths

/-! ## The accumulator along a row of the grid -/

section RowArithmetic'
variable (T : Fin 100352 → Fin 64 → EReal)

theorem rowAcc_first (w : ℤ) (k : ℕ) (hk : k < 98) (hk0 : k = 0) (d : Fin 64) :
    rowAcc T w k d = 0 + blockTerm T w k hk d := by
  subst hk0; exact rowAcc_zero T w d

theorem rowAcc_next (w : ℤ) (k : ℕ) (hk : k < 98) (hk0 : k ≠ 0) (d : Fin 64) :
    rowAcc T w k d = rowAcc T w (k - 1) d + blockTerm T w k hk d := by
  obtain ⟨m, rfl⟩ : ∃ m, k = m + 1 := ⟨k - 1, by omega⟩
  exact rowAcc_succ T w m hk d

end RowArithmetic'

/-- ONE POINT: whatever the decisions there, if the accumulator held the row's entry after the node blocks before this
    one (nothing is asked at a first point), it holds the row's entry after this node block. -/
theorem acc_after (hT : TablesBound0 a V c) (t : Fin (cfgA0 a).N) (prev : ScrBuf0 (F := Ideal) c) (e' : Fin 2048) (d : Fin 64)
    (hprev : ¬ isFirst0 (crd0 a t) → S0 c prev (ValueIdx.ix2 e' d)
      = rowAcc (tbl0 V c) (colW0 V c (2048 * (crd0 a t 0).val + e'.val)) ((crd0 a t 1).val - 1) d) :
    S0 c (step0 a V c t prev).1 (ValueIdx.ix2 e' d)
      = rowAcc (tbl0 V c) (colW0 V c (2048 * (crd0 a t 0).val + e'.val)) (crd0 a t 1).val d := by
  have hk := crd0_lt1 a t
  by_cases h1 : isFirst0 (crd0 a t)
  · have hk0 : (crd0 a t 1).val = 0 := (Decisions.isFirst0_iff _).1 h1
    rw [rowAcc_first _ _ _ hk hk0]
    by_cases hc : isActive0 (F := Ideal) (tb0_0 a) (tb0_1 a) (crd0 a t)
    · rw [S0_step_A a V c t prev h1 hc]
      refine (pay2_at a V c t (k0_pay1 (F := Ideal)) e' d).trans ?_
      rw [PayloadAt.gather_zero e' d]
    · rw [S0_step_B a V c t prev h1 hc, PayloadAt.gather_zero e' d, blockTerm_of_not_active a V c hT t hc e' d, add_zero]
  · have hk0 : (crd0 a t 1).val ≠ 0 := fun h => h1 ((Decisions.isFirst0_iff _).2 h)
    rw [rowAcc_next _ _ _ hk hk0, ← hprev h1]
    by_cases hc : isActive0 (F := Ideal) (tb0_0 a) (tb0_1 a) (crd0 a t)
    · have hS : S0 c (step0 a V c t prev).1 = k0_pay2 (crd0 a t) (iblk0 a V c 0 t) (iblk0 a V c 2 t) (S0 c prev) := by
        by_cases h3 : isLast0 (crd0 a t)
        · exact S0_step_E a V c t prev h1 hc h3
        · exact S0_step_C a V c t prev h1 hc h3
      rw [hS]
      exact pay2_at a V c t (S0 c prev) e' d
    · have hS : S0 c (step0 a V c t prev).1 = S0 c prev := by
        by_cases h3 : isLast0 (crd0 a t)
        · exact S0_step_G a V c t prev h1 hc h3
        · exact S0_step_D a V c t prev h1 hc h3
      rw [hS, blockTerm_of_not_active a V c hT t hc e' d, add_zero]

/-- THE ROW INVARIANT: after position `n` the accumulator holds, for each edge of the edge block `n / 98`, the row's
    entry after the node blocks `0 … n % 98`. -/
theorem acc0_closed (hT : TablesBound0 a V c) (n : ℕ) (hn : n < (cfgA0 a).N) (e' : Fin 2048) (d : Fin 64) :
    S0 c (acc0 a V c (n + 1)) (ValueIdx.ix2 e' d)
      = rowAcc (tbl0 V c) (colW0 V c (2048 * (n / 98) + e'.val)) (n % 98) d := by
  have hN : (cfgA0 a).N = 47922 := N_0
  induction n with
  | zero =>
    have key := acc_after a V c hT ⟨0, hn⟩ (acc0 a V c 0) e' d (fun h1 => absurd (isFirst0_of_zero a ⟨0, hn⟩ rfl) h1)
    rw [crd_val0, crd_val1] at key
    rw [acc0_succ a V c ⟨0, hn⟩]
    change _ = rowAcc (tbl0 V c) (colW0 V c (2048 * (0 / 98 % 489) + e'.val)) (0 % 98) d at key
    have e1 : 0 / 98 % 489 = 0 / 98 := rfl
    rw [e1] at key
    exact key
  | succ m ih =>
    have hm : m < (cfgA0 a).N := by omega
    have e1 : (m + 1) / 98 % 489 = (m + 1) / 98 := by omega
    have key := acc_after a V c hT ⟨m + 1, hn⟩ (acc0 a V c (m + 1)) e' d (fun h1 => by
      have hne : (m + 1) % 98 ≠ 0 := fun h => h1 ((Decisions.isFirst0_iff _).2 ((crd_val1 a ⟨m + 1, hn⟩).trans h))
      rw [ih hm, crd_val0, crd_val1]
      show rowAcc (tbl0 V c) (colW0 V c (2048 * (m / 98) + e'.val)) (m % 98) d
        = rowAcc (tbl0 V c) (colW0 V c (2048 * ((m + 1) / 98 % 489) + e'.val)) ((m + 1) % 98 - 1) d
      have e3 : (m + 1) / 98 % 489 = m / 98 := by omega
      have e2 : (m + 1) % 98 - 1 = m % 98 := by omega
      rw [e3, e2])
    rw [crd_val0, crd_val1] at key
    rw [acc0_succ a V c ⟨m + 1, hn⟩]
    change _ = rowAcc (tbl0 V c) (colW0 V c (2048 * ((m + 1) / 98 % 489) + e'.val)) ((m + 1) % 98) d at key
    rw [e1] at key
    exact key

/-! ## What a last point writes back, and the array after the run -/

/-- The output row of edge `r`: the table's row its column word selects (nothing outside the table), times its weight. -/
def rowOut (r : ℕ) (d : Fin 64) : EReal :=
  (if h : 0 ≤ colW0 V c r ∧ colW0 V c r < 100352 then tbl0 V c ⟨(colW0 V c r).toNat, by omega⟩ d else 0) * wgt0 V c r

/-- The output array in closed form. -/
def G0 : S1001472x64.Idx → EReal := fun j => rowOut V c (j 0).val ⟨(j 1).val, (j 1).isLt⟩

/-- The output block after a last point: the rows of the point's edge block. -/
theorem out0At_last (hT : TablesBound0 a V c) (t : Fin (cfgA0 a).N) (h3 : isLast0 (crd0 a t)) (e' : Fin 2048) (d : Fin 64) :
    out0At a V c t (ValueIdx.ix2 e' d) = rowOut V c (2048 * (crd0 a t 0).val + e'.val) d := by
  have hN : (cfgA0 a).N = 47922 := N_0
  have hk97 : (crd0 a t 1).val = 97 := (Decisions.isLast0_iff _).1 h3
  have h1 : ¬ isFirst0 (crd0 a t) := fun h => by have := (Decisions.isFirst0_iff _).1 h; omega
  have hmod : t.val % 98 = 97 := (crd_val1 a t).symm.trans hk97
  have hdiv : (crd0 a t 0).val = t.val / 98 := by rw [crd_val0]; have := t.isLt; omega
  unfold out0At
  rw [out_step_last a V c t (acc0 a V c t.val) h1 h3, ← acc0_succ a V c t]
  refine (PayloadAt.gather_scale (iblk0 a V c 1 t) (S0 c (acc0 a V c (t.val + 1))) e' d).trans ?_
  rw [acc0_closed a V c hT t.val t.isLt e' d, hmod, rowAcc_last, x1_eq a V c t e', hdiv]
  rfl

/-- A point that is last along the accumulated axis writes its block back. -/
theorem flush3_of_last (t : Fin (cfgA0 a).N) (h3 : isLast0 (crd0 a t)) : ((cfgA0 a).win (3 : Fin 4)).flush t = true := by
  have hN : (cfgA0 a).N = 47922 := N_0
  have hN' : (cfgA0 a).grid.N = 47922 := N_0
  have hmod : t.val % 98 = 97 := (crd_val1 a t).symm.trans ((Decisions.isLast0_iff _).1 h3)
  have htN := t.isLt
  unfold Window.flush
  rw [isOut3, Bool.true_and, Bool.or_eq_true]
  by_cases hlast : t.val + 1 = (cfgA0 a).grid.N
  · exact Or.inl (decide_eq_true hlast)
  · refine Or.inr (decide_eq_true ⟨by omega, fun heq => ?_⟩)
    have hlt : t.val + 1 < (cfgA0 a).N := by omega
    have h0 : (BitVec.ofNat 32 (crd0 a ⟨t.val + 1, hlt⟩ 0).val).toNat = (BitVec.ofNat 32 (crd0 a t 0).val).toNat :=
      congrFun heq 0
    have hb1 := crd0_lt0 a ⟨t.val + 1, hlt⟩
    have hb2 := crd0_lt0 a t
    rw [coordNat _ (by omega), coordNat _ (by omega), crd_val0, crd_val0] at h0
    change (t.val + 1) / 98 % 489 = t.val / 98 % 489 at h0
    omega

/-- WHAT A FLUSHING POINT WRITES BACK is its block of the closed form. -/
theorem flushed0_eq (hT : TablesBound0 a V c) (t : Fin (cfgA0 a).N) (hf : ((cfgA0 a).win (3 : Fin 4)).flush t = true) :
    (dat0 a V c).flushed 3 t = (((cfgA0 a).win 3).blk t).view.read (Elt Ideal) (G0 V c) := by
  have h3 : isLast0 (crd0 a t) := by
    by_contra h3
    rw [flush3_of_not_last a t h3] at hf
    exact Bool.false_ne_true hf
  have hb := crd0_lt0 a t
  show ((cfgA0 a).win 3).cut ((cfgA0 a).grid.coords t) ((dat0 a V c).after 3 t) = _
  rw [after0_3]
  refine funext fun (y : S2048x64.Idx) => ?_
  have hy0 : (y 0).val < 2048 := (y 0).isLt
  have hy1 : (y 1).val < 64 := (y 1).isLt
  have hx : ((cfgA0 a).win 3).xinj ((cfgA0 a).grid.coords t) y = ValueIdx.ix2 (⟨(y 0).val, hy0⟩ : Fin 2048) (⟨(y 1).val, hy1⟩ : Fin 64) :=
    funext fun ax => match ax with
      | ⟨0, _⟩ => rfl
      | ⟨1, _⟩ => rfl
  show out0At a V c t (((cfgA0 a).win 3).xinj ((cfgA0 a).grid.coords t) y) = G0 V c ((((cfgA0 a).win 3).blk t).view.emb y)
  refine (congrArg (out0At a V c t) hx).trans ?_
  refine (out0At_last a V c hT t h3 _ _).trans ?_
  have he0 : (fun j : S1001472x64.Idx => (j 0).val) ((((cfgA0 a).win 3).blk t).view.emb y) = 2048 * (crd0 a t 0).val + (y 0).val := by
    show (BitVec.ofNat 32 (crd0 a t 0).val).toNat * 2048 + 1 * (y 0).val = _
    rw [coordNat _ (by omega)]; omega
  have he1 : (fun j : S1001472x64.Idx => (j 1).val) ((((cfgA0 a).win 3).blk t).view.emb y) = (y 1).val := by
    show 0 * 64 + 1 * (y 1).val = _
    omega
  unfold G0
  exact (congrArg₂ (rowOut V c) he0 (Fin.ext he1)).symm

/-- Every row of the output array is in the block of the last point of its edge block's row of the grid. -/
theorem cover0 (i : S1001472x64.Idx) :
    ∃ t : Fin (cfgA0 a).N, ((cfgA0 a).win (3 : Fin 4)).flush t = true ∧ i ∈ (((cfgA0 a).win 3).blk t).view.set := by
  have hN : (cfgA0 a).N = 47922 := N_0
  have hi0 : (i 0).val < 1001472 := (i 0).isLt
  have hi1 : (i 1).val < 64 := (i 1).isLt
  have htN : 98 * ((i 0).val / 2048) + 97 < (cfgA0 a).N := by omega
  let t : Fin (cfgA0 a).N := ⟨98 * ((i 0).val / 2048) + 97, htN⟩
  have hc1 : (crd0 a t 1).val = 97 := by rw [crd_val1]; show (98 * ((i 0).val / 2048) + 97) % 98 = 97; omega
  have hc0 : (crd0 a t 0).val = (i 0).val / 2048 := by
    rw [crd_val0]; show (98 * ((i 0).val / 2048) + 97) / 98 % 489 = (i 0).val / 2048; omega
  have h3 : isLast0 (crd0 a t) := (Decisions.isLast0_iff _).2 hc1
  refine ⟨t, flush3_of_last a t h3, ?_⟩
  have hs : (((cfgA0 a).win 3).blk t).view.set = (((cfgA0 a).win 3).rect t).set := View.set_slice_whole main_v32 _
  refine (Finset.ext_iff.1 hs i).2 (Rect.mem_set_unit.2 fun ax => ?_)
  match ax with
  | ⟨0, _⟩ =>
    show (BitVec.ofNat 32 (crd0 a t 0).val).toNat * 2048 ≤ (i 0).val ∧ (i 0).val < (BitVec.ofNat 32 (crd0 a t 0).val).toNat * 2048 + 2048
    rw [coordNat _ (by omega), hc0]; omega
  | ⟨1, _⟩ =>
    show 0 * 64 ≤ (i 1).val ∧ (i 1).val < 0 * 64 + 64
    omega

/-- The call's arrays at an entry, typed: the column word and the weight of edge `e`, the table's entry `(n, d)`, and the
    output array's entry `(e, d)` after the run. -/
abbrev colA0 (e : Fin 1001472) : BitVec 32 := (V c main_v30 : Vec Ideal S1001472x1 .i32) (ValueIdx.ix2 e 0)
abbrev wgtA0 (e : Fin 1001472) : EReal := (V c main_v31 : Vec Ideal S1001472x1 .f32) (ValueIdx.ix2 e 0)
abbrev tblA0 (n : Fin 100352) (d : Fin 64) : EReal := (V c main_v4 : Vec Ideal S100352x64 .bf16) (ValueIdx.ix2 n d)
abbrev goutA0 (e : Fin 1001472) (d : Fin 64) : EReal :=
  ((dat0 a V c).arrAt 3 (cfgA0 a).N : Vec Ideal S1001472x64 .bf16) (ValueIdx.ix2 e d)

/-- THE OUTPUT ARRAY AFTER THE RUN, entry by entry: the row of the padded table the edge's column word selects (nothing
    when the word is outside the table), times the edge's weight. -/
theorem gather_array (hT : TablesBound0 a V c) (e : Fin 1001472) (d : Fin 64) :
    goutA0 a V c e d
      = (if h : 0 ≤ (colA0 V c e).toInt ∧ (colA0 V c e).toInt < 100352
          then tblA0 V c ⟨(colA0 V c e).toInt.toNat, by omega⟩ d else 0) * wgtA0 V c e := by
  unfold goutA0
  rw [(dat0 a V c).arrAt_eq_of_cover 3 (G0 V c) (fun t hf => flushed0_eq a V c hT t hf) (cover0 a)]
  show rowOut V c e.val ⟨d.val, d.isLt⟩ = _
  unfold rowOut colW0 wgt0 tbl0
  simp only [dif_pos e.isLt]

end Cert.KernelIdeal.Gen

end
-- ==== Proof.ScatterSteps.lean ====
/-
  The scatter kernel's body, read per control path.

  The body's six runs (first or not, active or not, last or not along the accumulated axis) each leave the
  accumulator and, on the last paths, the output block as whatever the run found.  This module states them in closed
  form over `S1`, the accumulator read as a [1024, 64] function, and the two blocks the pipeline fetched (the
  edges' destination words `x0` and their scaled rows `x1`): a first point clears the accumulator (the zero fill),
  an active point adds one transposed selector product to what the accumulator held (to the zero fill on a first
  point), a point that is not active leaves the buffer as it was, and a last point stores the accumulator it ends
  with, unchanged, into the output block.  Every store writes its buffer whole, so a buffer reads back as its last
  store's payload, and every load reads its buffer whole.  The statements hold for every interpretation of the floats.
-/
import proofs.«179733_j56453050138798_2_alg».proof.Proof.ScatterRuns
import Idealize.ShloMosaic.Lib.Pipeline.Value

set_option maxRecDepth 16384

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (c : Dev nD) (i : grid1.Coords)
  (arg4 : Memref sig .tc .vmem S2048x1 .i32) (harg4 : arg4.IsWhole)
  (arg5 : Memref sig .tc .vmem S2048x64 .bf16) (harg5 : arg5.IsWhole)
  (arg6 : Memref sig .tc .vmem S1024x64 .f32) (harg6 : arg6.IsWhole)
  (qT : PosShare TreeShare) (T0 T1 : S489.Idx → Elt F .i32)
  (x0 : S2048x1.Idx → Elt F .i32) (x1 : S2048x64.Idx → Elt F .bf16)
  (xa0 : Buf (Elt F) ((c : Thread nD τ).loc cc1_scratch0))

/-- The accumulator's contents as a [1024, 64] function. -/
abbrev S1 (xa : Buf (Elt F) ((c : Thread nD τ).loc cc1_scratch0)) : Vec F S1024x64 .f32 := scM1_0.view.read (Elt F) xa

/-- Each buffer's one rectangle: the whole buffer at the origin. -/
abbrev rS1 : Rect S1024x64 := Rect.unit (s := S1024x64) ![0, 0] S1024x64.size inb_S1024x64_S1024x64_0_0
abbrev rC1 : Rect S2048x1 := Rect.unit (s := S2048x1) ![0, 0] S2048x1.size inb_S2048x1_S2048x1_0_0
abbrev rV1 : Rect S2048x64 := Rect.unit (s := S2048x64) ![0, 0] S2048x64.size inb_S2048x64_S2048x64_0_0

theorem hz2' : (![0, 0] : Fin 2 → Nat) = fun _ => 0 := funext fun a => by fin_cases a <;> rfl

/-- The destination words' block the body loads: the staged representative read whole. -/
theorem load1_x0 : View.readAt (Elt F) arg4.view rC1.toLoadRect (arg4.view.rep x0) = x0 := by
  rw [View.readAt_eq_ld, View.read_rep, View.ld_unit_zero (S := S2048x1) hz2']
/-- The scaled rows' block the body loads. -/
theorem load1_x1 : View.readAt (Elt F) arg5.view rV1.toLoadRect (arg5.view.rep x1) = x1 := by
  rw [View.readAt_eq_ld, View.read_rep, View.ld_unit_zero (S := S2048x64) hz2']
/-- The accumulator the body loads: its contents whole. -/
theorem load1_S : View.readAt (Elt F) scM1_0.view rS1.toLoadRect xa0 = S1 c xa0 := by
  rw [View.readAt_eq_ld, View.ld_unit_zero (S := S1024x64) hz2']

/-- The accumulator after a list of stores whose last one writes it whole reads as that store's payload. -/
theorem read1_last (p : Vec F S1024x64 .f32) (L : List (View.Piece (Elt F) S1024x64 .f32)) :
    scM1_0.view.read (Elt F) (scM1_0.view.writes (Elt F) scM1_0.view.junk (⟨rS1, p⟩ :: L)) = p := by
  rw [View.read_writes_junk_eq_canon, View.canon_cons_unit_zero hz2']
/-- The output block after a list of stores whose last one writes it whole reads as that store's payload. -/
theorem readO1_last (p : Vec F S1024x64 .f32) (L : List (View.Piece (Elt F) S1024x64 .f32)) :
    VO1.read (Elt F) (VO1.writes (Elt F) VO1.junk (⟨rS1, p⟩ :: L)) = p := by
  rw [View.read_writes_junk_eq_canon, View.canon_cons_unit_zero hz2']

/-! ## The accumulator after each path -/

/-- First and active: cleared, then one product added. -/
theorem acc1_A (h1 hc h3) :
    S1 c (kernelRun1_A c i arg4 harg4 arg5 harg5 arg6 harg6 qT T0 T1 x0 x1 h1 hc h3).1 = k1_pay2 i x0 x1 (k1_pay1 (F := F)) := by
  unfold kernelRun1_A
  dsimp only
  unfold kernelRun1_A.sl.HS0_2 kernelRun1_A.sl.v31 kernelRun1_A.sl.HS0_1
  refine (read1_last _ _).trans ?_
  rw [View.readCov_cons_toLoadRect, load1_x0, load1_x1]

/-- First and not active: cleared. -/
theorem acc1_B (h1 hc h3) :
    S1 c (kernelRun1_B c i arg4 harg4 arg5 harg5 arg6 harg6 qT T0 T1 x0 x1 h1 hc h3).1 = k1_pay1 (F := F) := by
  unfold kernelRun1_B
  dsimp only
  unfold kernelRun1_B.sl.HS0_1
  exact read1_last _ _

/-- Neither first nor last, active: one product added. -/
theorem acc1_C (h1 hc h3) :
    S1 c (kernelRun1_C c i arg4 harg4 arg5 harg5 arg6 harg6 qT T0 T1 x0 x1 xa0 h1 hc h3).1 = k1_pay2 i x0 x1 (S1 c xa0) := by
  unfold kernelRun1_C
  dsimp only
  unfold kernelRun1_C.sl.HS0_1
  refine (read1_last _ _).trans ?_
  rw [load1_S, load1_x0, load1_x1]

/-- Neither first nor last, not active: untouched. -/
theorem acc1_D (h1 hc h3) : (kernelRun1_D c i arg4 harg4 arg5 harg5 arg6 harg6 qT T0 T1 x0 x1 xa0 h1 hc h3).1 = xa0 := by
  unfold kernelRun1_D
  dsimp only

/-- Last and active: one product added, -/
theorem acc1_E (h1 hc h3) :
    S1 c (kernelRun1_E c i arg4 harg4 arg5 harg5 arg6 harg6 qT T0 T1 x0 x1 xa0 h1 hc h3).2.1 = k1_pay2 i x0 x1 (S1 c xa0) := by
  unfold kernelRun1_E
  dsimp only
  unfold kernelRun1_E.sl.HS0_1
  refine (read1_last _ _).trans ?_
  rw [load1_S, load1_x0, load1_x1]

/-- and the output block is that sum. -/
theorem out1_E_eq (h1 hc h3) :
    out1_E c i arg4 harg4 arg5 harg5 arg6 harg6 qT T0 T1 x0 x1 xa0 h1 hc h3 = k1_pay2 i x0 x1 (S1 c xa0) := by
  unfold out1_E kernelRun1_E
  dsimp only
  unfold kernelRun1_E.sl.HO_1 kernelRun1_E.sl.v18 kernelRun1_E.sl.HS0_1
  refine (readO1_last _ _).trans ?_
  rw [View.readCov_cons_toLoadRect, load1_S, load1_x0, load1_x1]

/-- Last and not active: the accumulator untouched, -/
theorem acc1_G (h1 hc h3) : (kernelRun1_G c i arg4 harg4 arg5 harg5 arg6 harg6 qT T0 T1 x0 x1 xa0 h1 hc h3).2.1 = xa0 := by
  unfold kernelRun1_G
  dsimp only

/-- and the output block is the accumulator. -/
theorem out1_G_eq (h1 hc h3) :
    out1_G c i arg4 harg4 arg5 harg5 arg6 harg6 qT T0 T1 x0 x1 xa0 h1 hc h3 = S1 c xa0 := by
  unfold out1_G kernelRun1_G
  dsimp only
  unfold kernelRun1_G.sl.HO_1
  refine (readO1_last _ _).trans ?_
  rw [load1_S]

end Cert.KernelIdeal.Gen

end
-- ==== Proof.ScatterArray.lean ====
/-
  The scatter call's output array after the run, in closed form.

  For one node block the grid walks the 489 edge blocks; at each, the body adds to the accumulator's entry `(n', d)` the
  scaled rows' entries `(e, d)` of the edge block's edges whose destination word is the node block's row `n'` (nothing at
  an edge block the tables call inactive: the tables bound the block's words, so no word of it is a row of the node
  block).  After the last edge block the accumulator holds, and the body stores, the sum over all edges whose destination
  word is the row: the partial sums are sums over the edge blocks so far, and the 489 blocks of 2048 edges are all the
  edges.  Every row of the output array lies in the block the last point of its node block's row of the grid writes
  back, so the array ends holding that sum everywhere.
-/
import proofs.«179733_j56453050138798_2_alg».proof.Proof.ScatterData
import proofs.«179733_j56453050138798_2_alg».proof.Proof.ScatterSteps
import proofs.«179733_j56453050138798_2_alg».proof.Proof.PayloadAt
import proofs.«179733_j56453050138798_2_alg».proof.Proof.Decisions
import proofs.«179733_j56453050138798_2_alg».proof.Proof.LibSelector
import Idealize.ShloMosaic.Lib.Pipeline.Value

set_option maxRecDepth 16384

noncomputable section

open scoped BigOperators

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable (a : (pcfg1 (F := Ideal)).Adm)
variable (V : (c : Dev nD) → (b : Ref sig .tc) → Buf (Elt Ideal) ((c : Thread nD τ).loc b)) (c : Dev nD)

/-- A grid coordinate's word read back as a number is the coordinate. -/
theorem coordNat1 (n : ℕ) (hn : n < 2 ^ 32) : (BitVec.ofNat 32 n).toNat = n := by
  rw [BitVec.toNat_ofNat]; exact Nat.mod_eq_of_lt hn

theorem crd1_lt0 (t : Fin (cfgA1 a).N) : (crd1 a t 0).val < 98 := (crd1 a t 0).isLt
theorem crd1_lt1 (t : Fin (cfgA1 a).N) : (crd1 a t 1).val < 489 := (crd1 a t 1).isLt

/-! ## The blocks at a point, as rows of the call's arrays -/

/-- The destination words' block at a point: rows `2048 j …` of the words' array, `j` the point's edge block. -/
theorem iblk1_0_apply (t : Fin (cfgA1 a).N) (e' : Fin 2048) (k : S1001472x1.Idx)
    (hk0 : (k 0).val = 2048 * (crd1 a t 1).val + e'.val) :
    (iblk1 a V c 0 t : S2048x1.Idx → Elt Ideal .i32) (ValueIdx.ix2 e' 0) = (V c main_v51 : S1001472x1.Idx → Elt Ideal .i32) k := by
  have hb := crd1_lt1 a t
  have hk1 : (k 1).val < 1 := (k 1).isLt
  unfold iblk1
  show V c main_v51 _ = V c main_v51 _
  refine congrArg (V c main_v51) (funext fun ax => Fin.ext ?_)
  match ax with
  | ⟨0, _⟩ =>
    show (BitVec.ofNat 32 (crd1 a t 1).val).toNat * 2048 + 1 * e'.val = (k 0).val
    rw [coordNat1 _ (by omega), hk0]; omega
  | ⟨1, _⟩ =>
    show 0 * 1 + 1 * 0 = (k 1).val
    omega

/-- The scaled rows' block at a point: rows `2048 j …` of the scaled rows' array. -/
theorem iblk1_1_apply (t : Fin (cfgA1 a).N) (e' : Fin 2048) (d : Fin 64) (k : S1001472x64.Idx)
    (hk0 : (k 0).val = 2048 * (crd1 a t 1).val + e'.val) (hk1 : (k 1).val = d.val) :
    (iblk1 a V c 1 t : S2048x64.Idx → Elt Ideal .bf16) (ValueIdx.ix2 e' d) = (V c main_v47 : S1001472x64.Idx → Elt Ideal .bf16) k := by
  have hb := crd1_lt1 a t
  unfold iblk1
  show V c main_v47 _ = V c main_v47 _
  refine congrArg (V c main_v47) (funext fun ax => Fin.ext ?_)
  match ax with
  | ⟨0, _⟩ =>
    show (BitVec.ofNat 32 (crd1 a t 1).val).toNat * 2048 + 1 * e'.val = (k 0).val
    rw [coordNat1 _ (by omega), hk0]; omega
  | ⟨1, _⟩ =>
    show 0 * 64 + 1 * d.val = (k 1).val
    omega

/-! ## The arrays the call reads, by row -/

/-- The destination word of row `r` of the words' array, read signed (zero past the array). -/
def rowW1 (r : ℕ) : ℤ :=
  if h : r < 1001472 then ((V c main_v51 : S1001472x1.Idx → BitVec 32) (ValueIdx.ix2 ⟨r, h⟩ 0)).toInt else 0
/-- The scaled row `r`'s entry `d` (zero past the array). -/
def scaled1 (r : ℕ) (d : Fin 64) : EReal :=
  if h : r < 1001472 then (V c main_v47 : S1001472x64.Idx → EReal) (ValueIdx.ix2 ⟨r, h⟩ d) else 0

theorem x0_toInt1 (t : Fin (cfgA1 a).N) (e' : Fin 2048) :
    ((iblk1 a V c 0 t : S2048x1.Idx → BitVec 32) (ValueIdx.ix2 e' 0)).toInt = rowW1 V c (2048 * (crd1 a t 1).val + e'.val) := by
  have hb := crd1_lt1 a t
  have hr : 2048 * (crd1 a t 1).val + e'.val < 1001472 := by omega
  unfold rowW1
  rw [dif_pos hr]
  exact congrArg BitVec.toInt (iblk1_0_apply a V c t e' (ValueIdx.ix2 ⟨_, hr⟩ 0) rfl)

theorem x1_eq1 (t : Fin (cfgA1 a).N) (e' : Fin 2048) (d : Fin 64) :
    (iblk1 a V c 1 t : S2048x64.Idx → EReal) (ValueIdx.ix2 e' d) = scaled1 V c (2048 * (crd1 a t 1).val + e'.val) d := by
  have hb := crd1_lt1 a t
  have hr : 2048 * (crd1 a t 1).val + e'.val < 1001472 := by omega
  unfold scaled1
  rw [dif_pos hr]
  exact iblk1_1_apply a V c t e' d (ValueIdx.ix2 ⟨_, hr⟩ d) rfl rfl

/-! ## One row of the grid, as sums -/

/-- What edge block `j` adds to the entry of the row with destination word `tgt`. -/
def blockSum (tgt : ℤ) (j : ℕ) (d : Fin 64) : EReal :=
  ∑ e' ∈ Finset.univ.filter (fun e' : Fin 2048 => rowW1 V c (2048 * j + e'.val) = tgt), scaled1 V c (2048 * j + e'.val) d

/-- The accumulator's entry after the edge blocks `0 … j`. -/
def rowAcc1 (tgt : ℤ) (j : ℕ) (d : Fin 64) : EReal := ∑ jj ∈ Finset.range (j + 1), blockSum V c tgt jj d

theorem rowAcc1_first (tgt : ℤ) (j : ℕ) (hj : j = 0) (d : Fin 64) : rowAcc1 V c tgt j d = 0 + blockSum V c tgt j d := by
  subst hj; unfold rowAcc1; rw [Finset.sum_range_one]; exact (zero_add _).symm

theorem rowAcc1_next (tgt : ℤ) (j : ℕ) (hj : j ≠ 0) (d : Fin 64) :
    rowAcc1 V c tgt j d = rowAcc1 V c tgt (j - 1) d + blockSum V c tgt j d := by
  obtain ⟨m, rfl⟩ : ∃ m, j = m + 1 := ⟨j - 1, by omega⟩
  unfold rowAcc1
  rw [Finset.sum_range_succ]
  rfl

/-! ## One point's product -/

/-- The accumulation adds, at `(n', d)`, the edge block's sum for the row `1024 b + n'`: over any blocks whose words and
    rows are known. -/
theorem pay2_abs1 (i : grid1.Coords) (x0 : Vec Ideal S2048x1 .i32) (x1 : Vec Ideal S2048x64 .bf16)
    (v31 : Vec Ideal S1024x64 .f32) (j : ℕ) (n' : Fin 1024) (d : Fin 64)
    (hw : ∀ e' : Fin 2048, (x0 (ValueIdx.ix2 e' 0)).toInt = rowW1 V c (2048 * j + e'.val))
    (hx : ∀ e' : Fin 2048, x1 (ValueIdx.ix2 e' d) = scaled1 V c (2048 * j + e'.val) d) :
    k1_pay2 i x0 x1 v31 (ValueIdx.ix2 n' d)
      = v31 (ValueIdx.ix2 n' d) + blockSum V c (1024 * ((i 0).val : ℤ) + (n'.val : ℤ)) j d := by
  refine (PayloadAt.scatter_step i x0 x1 v31 n' d).trans ?_
  refine congrArg (v31 (ValueIdx.ix2 n' d) + ·) ?_
  unfold blockSum
  have hf : (Finset.univ.filter (fun e : Fin 2048 => (x0 (ValueIdx.ix2 e 0)).toInt = PayloadAt.off1 i + (n'.val : ℤ)))
      = Finset.univ.filter (fun e' : Fin 2048 => rowW1 V c (2048 * j + e'.val) = 1024 * ((i 0).val : ℤ) + (n'.val : ℤ)) :=
    Finset.filter_congr fun e' _ => by rw [hw e']
  rw [hf]
  exact Finset.sum_congr rfl fun e' _ => hx e'

theorem pay2_at1 (t : Fin (cfgA1 a).N) (v31 : Vec Ideal S1024x64 .f32) (n' : Fin 1024) (d : Fin 64) :
    k1_pay2 (crd1 a t) (iblk1 a V c 0 t) (iblk1 a V c 1 t) v31 (ValueIdx.ix2 n' d)
      = v31 (ValueIdx.ix2 n' d) + blockSum V c (1024 * ((crd1 a t 0).val : ℤ) + (n'.val : ℤ)) (crd1 a t 1).val d :=
  pay2_abs1 V c (crd1 a t) (iblk1 a V c 0 t) (iblk1 a V c 1 t) v31 (crd1 a t 1).val n' d
    (fun e' => x0_toInt1 a V c t e') (fun e' => x1_eq1 a V c t e' d)

/-! ## The tables bound the blocks' words -/

/-- The hypothesis on the two tables: entry `b` of the first is at most, and of the second at least, every destination
    word of edge block `b`. -/
def TablesBound1 : Prop :=
  ∀ (b : Fin 489) (k : Fin 2048),
    (tb1_0 a (ValueIdx.ix1 b)).toInt ≤ (V c main_v51 (ValueIdx.ix2 ⟨2048 * b.val + k.val, by omega⟩ 0)).toInt
      ∧ (V c main_v51 (ValueIdx.ix2 ⟨2048 * b.val + k.val, by omega⟩ 0)).toInt ≤ (tb1_1 a (ValueIdx.ix1 b)).toInt

theorem tablesBound1_rowW (hT : TablesBound1 a V c) (b : Fin 489) (k : Fin 2048) :
    (tb1_0 a (ValueIdx.ix1 b)).toInt ≤ rowW1 V c (2048 * b.val + k.val)
      ∧ rowW1 V c (2048 * b.val + k.val) ≤ (tb1_1 a (ValueIdx.ix1 b)).toInt := by
  have hr : 2048 * b.val + k.val < 1001472 := by omega
  unfold rowW1
  rw [dif_pos hr]
  exact hT b k

/-- An edge block that is not active holds no word that is a row of the node block: it adds nothing. -/
theorem blockSum_of_not_active (hT : TablesBound1 a V c) (t : Fin (cfgA1 a).N)
    (hc : ¬ isActive1 (F := Ideal) (tb1_0 a) (tb1_1 a) (crd1 a t)) (n' : Fin 1024) (d : Fin 64) :
    blockSum V c (1024 * ((crd1 a t 0).val : ℤ) + (n'.val : ℤ)) (crd1 a t 1).val d = 0 := by
  unfold blockSum
  refine Finset.sum_eq_zero fun e' he' => absurd ?_ hc
  have hin : rowW1 V c (2048 * (crd1 a t 1).val + e'.val) = 1024 * ((crd1 a t 0).val : ℤ) + (n'.val : ℤ) :=
    (Finset.mem_filter.1 he').2
  have hb : (tb1_0 a (ValueIdx.ix1 ⟨(crd1 a t 1).val, crd1_lt1 a t⟩)).toInt ≤ rowW1 V c (2048 * (crd1 a t 1).val + e'.val)
      ∧ rowW1 V c (2048 * (crd1 a t 1).val + e'.val) ≤ (tb1_1 a (ValueIdx.ix1 ⟨(crd1 a t 1).val, crd1_lt1 a t⟩)).toInt :=
    tablesBound1_rowW a V c hT ⟨(crd1 a t 1).val, crd1_lt1 a t⟩ e'
  rw [Decisions.isActive1_iff, Decisions.word1_0_eq, Decisions.word1_1_eq]
  have e0 : (ValueIdx.ix1 ⟨(crd1 a t 1).val, (crd1 a t 1).isLt⟩ : S489.Idx) = ValueIdx.ix1 ⟨(crd1 a t 1).val, crd1_lt1 a t⟩ := rfl
  rw [e0]
  have hn := n'.isLt
  constructor
  · have := hb.2; omega
  · have := hb.1; omega

/-! ## The accumulator after one point, path by path -/

section Paths
variable (t : Fin (cfgA1 a).N) (prev : ScrBuf1 (F := Ideal) c)

theorem S1_step_A (h1 : isFirst1 (crd1 a t)) (hc : isActive1 (F := Ideal) (tb1_0 a) (tb1_1 a) (crd1 a t)) :
    S1 c (step1 a V c t prev).1 = k1_pay2 (crd1 a t) (iblk1 a V c 0 t) (iblk1 a V c 1 t) (k1_pay1 (F := Ideal)) := by
  have e2 := acc1_A c (crd1 a t) (ms1_0 a t) (hs1_0 a t) (ms1_1 a t) (hs1_1 a t) (ms1_2 a t) (hs1_2 a t)
      fullShare (tb1_0 a) (tb1_1 a) (iblk1 a V c 0 t) (iblk1 a V c 1 t) h1 hc (Decisions.not_last1_of_first1 h1)
  rw [step1_A a V c t prev h1 hc]
  dsimp only
  exact e2

theorem S1_step_B (h1 : isFirst1 (crd1 a t)) (hc : ¬ isActive1 (F := Ideal) (tb1_0 a) (tb1_1 a) (crd1 a t)) :
    S1 c (step1 a V c t prev).1 = k1_pay1 (F := Ideal) := by
  have e2 := acc1_B c (crd1 a t) (ms1_0 a t) (hs1_0 a t) (ms1_1 a t) (hs1_1 a t) (ms1_2 a t) (hs1_2 a t)
      fullShare (tb1_0 a) (tb1_1 a) (iblk1 a V c 0 t) (iblk1 a V c 1 t) h1 hc (Decisions.not_last1_of_first1 h1)
  rw [step1_B a V c t prev h1 hc]
  dsimp only
  exact e2

theorem S1_step_C (h1 : ¬ isFirst1 (crd1 a t)) (hc : isActive1 (F := Ideal) (tb1_0 a) (tb1_1 a) (crd1 a t)) (h3 : ¬ isLast1 (crd1 a t)) :
    S1 c (step1 a V c t prev).1 = k1_pay2 (crd1 a t) (iblk1 a V c 0 t) (iblk1 a V c 1 t) (S1 c prev) := by
  have e2 := acc1_C c (crd1 a t) (ms1_0 a t) (hs1_0 a t) (ms1_1 a t) (hs1_1 a t) (ms1_2 a t) (hs1_2 a t)
      fullShare (tb1_0 a) (tb1_1 a) (iblk1 a V c 0 t) (iblk1 a V c 1 t) prev h1 hc h3
  rw [step1_C a V c t prev h1 hc h3]
  dsimp only
  exact e2

theorem S1_step_D (h1 : ¬ isFirst1 (crd1 a t)) (hc : ¬ isActive1 (F := Ideal) (tb1_0 a) (tb1_1 a) (crd1 a t)) (h3 : ¬ isLast1 (crd1 a t)) :
    S1 c (step1 a V c t prev).1 = S1 c prev := by
  have e2 := acc1_D c (crd1 a t) (ms1_0 a t) (hs1_0 a t) (ms1_1 a t) (hs1_1 a t) (ms1_2 a t) (hs1_2 a t)
      fullShare (tb1_0 a) (tb1_1 a) (iblk1 a V c 0 t) (iblk1 a V c 1 t) prev h1 hc h3
  rw [step1_D a V c t prev h1 hc h3]
  dsimp only
  exact congrArg (S1 c) e2

theorem S1_step_E (h1 : ¬ isFirst1 (crd1 a t)) (hc : isActive1 (F := Ideal) (tb1_0 a) (tb1_1 a) (crd1 a t)) (h3 : isLast1 (crd1 a t)) :
    S1 c (step1 a V c t prev).1 = k1_pay2 (crd1 a t) (iblk1 a V c 0 t) (iblk1 a V c 1 t) (S1 c prev) := by
  have e2 := acc1_E c (crd1 a t) (ms1_0 a t) (hs1_0 a t) (ms1_1 a t) (hs1_1 a t) (ms1_2 a t) (hs1_2 a t)
      fullShare (tb1_0 a) (tb1_1 a) (iblk1 a V c 0 t) (iblk1 a V c 1 t) prev h1 hc h3
  rw [step1_E a V c t prev h1 hc h3]
  dsimp only
  exact e2

theorem S1_step_G (h1 : ¬ isFirst1 (crd1 a t)) (hc : ¬ isActive1 (F := Ideal) (tb1_0 a) (tb1_1 a) (crd1 a t)) (h3 : isLast1 (crd1 a t)) :
    S1 c (step1 a V c t prev).1 = S1 c prev := by
  have e2 := acc1_G c (crd1 a t) (ms1_0 a t) (hs1_0 a t) (ms1_1 a t) (hs1_1 a t) (ms1_2 a t) (hs1_2 a t)
      fullShare (tb1_0 a) (tb1_1 a) (iblk1 a V c 0 t) (iblk1 a V c 1 t) prev h1 hc h3
  rw [step1_G a V c t prev h1 hc h3]
  dsimp only
  exact congrArg (S1 c) e2

/-- What a last point stores: the accumulator it ends with. -/
theorem out1_step_last (h1 : ¬ isFirst1 (crd1 a t)) (h3 : isLast1 (crd1 a t)) :
    (step1 a V c t prev).2 = S1 c (step1 a V c t prev).1 := by
  by_cases hc : isActive1 (F := Ideal) (tb1_0 a) (tb1_1 a) (crd1 a t)
  · have e2 := out1_E_eq c (crd1 a t) (ms1_0 a t) (hs1_0 a t) (ms1_1 a t) (hs1_1 a t) (ms1_2 a t) (hs1_2 a t)
      fullShare (tb1_0 a) (tb1_1 a) (iblk1 a V c 0 t) (iblk1 a V c 1 t) prev h1 hc h3
    rw [S1_step_E a V c t prev h1 hc h3, step1_E a V c t prev h1 hc h3]
    dsimp only
    exact e2
  · have e2 := out1_G_eq c (crd1 a t) (ms1_0 a t) (hs1_0 a t) (ms1_1 a t) (hs1_1 a t) (ms1_2 a t) (hs1_2 a t)
      fullShare (tb1_0 a) (tb1_1 a) (iblk1 a V c 0 t) (iblk1 a V c 1 t) prev h1 hc h3
    rw [S1_step_G a V c t prev h1 hc h3, step1_G a V c t prev h1 hc h3]
    dsimp only
    exact e2

end Paths

/-! ## The accumulator along a row of the grid -/

/-- ONE POINT: whatever the decisions there, if the accumulator held the row's sum over the edge blocks before this one
    (nothing is asked at a first point), it holds the row's sum through this edge block. -/
theorem acc1_after (hT : TablesBound1 a V c) (t : Fin (cfgA1 a).N) (prev : ScrBuf1 (F := Ideal) c) (n' : Fin 1024) (d : Fin 64)
    (hprev : ¬ isFirst1 (crd1 a t) → S1 c prev (ValueIdx.ix2 n' d)
      = rowAcc1 V c (1024 * ((crd1 a t 0).val : ℤ) + (n'.val : ℤ)) ((crd1 a t 1).val - 1) d) :
    S1 c (step1 a V c t prev).1 (ValueIdx.ix2 n' d)
      = rowAcc1 V c (1024 * ((crd1 a t 0).val : ℤ) + (n'.val : ℤ)) (crd1 a t 1).val d := by
  by_cases h1 : isFirst1 (crd1 a t)
  · have hk0 : (crd1 a t 1).val = 0 := (Decisions.isFirst1_iff _).1 h1
    rw [rowAcc1_first V c _ _ hk0]
    by_cases hc : isActive1 (F := Ideal) (tb1_0 a) (tb1_1 a) (crd1 a t)
    · rw [S1_step_A a V c t prev h1 hc]
      refine (pay2_at1 a V c t (k1_pay1 (F := Ideal)) n' d).trans ?_
      rw [PayloadAt.scatter_zero n' d]
    · rw [S1_step_B a V c t prev h1 hc, PayloadAt.scatter_zero n' d, blockSum_of_not_active a V c hT t hc n' d, add_zero]
  · have hk0 : (crd1 a t 1).val ≠ 0 := fun h => h1 ((Decisions.isFirst1_iff _).2 h)
    rw [rowAcc1_next V c _ _ hk0, ← hprev h1]
    by_cases hc : isActive1 (F := Ideal) (tb1_0 a) (tb1_1 a) (crd1 a t)
    · have hS : S1 c (step1 a V c t prev).1 = k1_pay2 (crd1 a t) (iblk1 a V c 0 t) (iblk1 a V c 1 t) (S1 c prev) := by
        by_cases h3 : isLast1 (crd1 a t)
        · exact S1_step_E a V c t prev h1 hc h3
        · exact S1_step_C a V c t prev h1 hc h3
      rw [hS]
      exact pay2_at1 a V c t (S1 c prev) n' d
    · have hS : S1 c (step1 a V c t prev).1 = S1 c prev := by
        by_cases h3 : isLast1 (crd1 a t)
        · exact S1_step_G a V c t prev h1 hc h3
        · exact S1_step_D a V c t prev h1 hc h3
      rw [hS, blockSum_of_not_active a V c hT t hc n' d, add_zero]

/-- THE ROW INVARIANT: after position `n` the accumulator holds, for each row of the node block `n / 489`, the sum over
    the edge blocks `0 … n % 489`. -/
theorem acc1_closed (hT : TablesBound1 a V c) (n : ℕ) (hn : n < (cfgA1 a).N) (n' : Fin 1024) (d : Fin 64) :
    S1 c (acc1 a V c (n + 1)) (ValueIdx.ix2 n' d)
      = rowAcc1 V c (1024 * ((n / 489 : ℕ) : ℤ) + (n'.val : ℤ)) (n % 489) d := by
  have hN : (cfgA1 a).N = 47922 := N_1
  induction n with
  | zero =>
    have key := acc1_after a V c hT ⟨0, hn⟩ (acc1 a V c 0) n' d (fun h1 => absurd (isFirst1_of_zero a ⟨0, hn⟩ rfl) h1)
    rw [crd1_val0, crd1_val1] at key
    rw [acc1_succ a V c ⟨0, hn⟩]
    change _ = rowAcc1 V c (1024 * ((0 / 489 % 98 : ℕ) : ℤ) + (n'.val : ℤ)) (0 % 489) d at key
    have e1 : 0 / 489 % 98 = 0 / 489 := rfl
    rw [e1] at key
    exact key
  | succ m ih =>
    have hm : m < (cfgA1 a).N := by omega
    have e1 : (m + 1) / 489 % 98 = (m + 1) / 489 := by omega
    have key := acc1_after a V c hT ⟨m + 1, hn⟩ (acc1 a V c (m + 1)) n' d (fun h1 => by
      have hne : (m + 1) % 489 ≠ 0 := fun h => h1 ((Decisions.isFirst1_iff _).2 ((crd1_val1 a ⟨m + 1, hn⟩).trans h))
      rw [ih hm, crd1_val0, crd1_val1]
      show rowAcc1 V c (1024 * ((m / 489 : ℕ) : ℤ) + (n'.val : ℤ)) (m % 489) d
        = rowAcc1 V c (1024 * (((m + 1) / 489 % 98 : ℕ) : ℤ) + (n'.val : ℤ)) ((m + 1) % 489 - 1) d
      have e3 : (m + 1) / 489 % 98 = m / 489 := by omega
      have e2 : (m + 1) % 489 - 1 = m % 489 := by omega
      rw [e3, e2])
    rw [crd1_val0, crd1_val1] at key
    rw [acc1_succ a V c ⟨m + 1, hn⟩]
    change _ = rowAcc1 V c (1024 * (((m + 1) / 489 % 98 : ℕ) : ℤ) + (n'.val : ℤ)) ((m + 1) % 489) d at key
    rw [e1] at key
    exact key

/-! ## What a last point writes back, and the array after the run -/

/-- All the edge blocks are all the edges: the row's sum through the last edge block is the sum over every edge whose
    destination word is the row. -/
theorem rowAcc1_total (tgt : ℤ) (d : Fin 64) :
    rowAcc1 V c tgt 488 d
      = ∑ e ∈ Finset.univ.filter (fun e : Fin 1001472 => rowW1 V c e.val = tgt), scaled1 V c e.val d := by
  unfold rowAcc1 blockSum
  show ∑ jj ∈ Finset.range 489, _ = _
  rw [Finset.sum_range, Finset.sum_filter]
  have h := Cert.Lib.Selector.sum_chunks (C := 489) (B := 2048)
    (fun n : Fin (489 * 2048) => if rowW1 V c n.val = tgt then scaled1 V c n.val d else 0)
  refine Eq.trans ?_ h
  refine Finset.sum_congr rfl fun jj _ => ?_
  rw [Finset.sum_filter]
  refine Finset.sum_congr rfl fun e' _ => ?_
  have hv : (finProdFinEquiv (jj, e')).val = 2048 * jj.val + e'.val := by
    rw [finProdFinEquiv_apply_val]
    show e'.val + 2048 * jj.val = 2048 * jj.val + e'.val
    omega
  simp only [hv]

/-- The output array in closed form. -/
def G1 : S100352x64.Idx → EReal := fun j => rowAcc1 V c (((j 0).val : ℕ) : ℤ) 488 ⟨(j 1).val, (j 1).isLt⟩

/-- The output block after a last point: the rows of the point's node block. -/
theorem out1At_last (hT : TablesBound1 a V c) (t : Fin (cfgA1 a).N) (h3 : isLast1 (crd1 a t)) (n' : Fin 1024) (d : Fin 64) :
    out1At a V c t (ValueIdx.ix2 n' d) = rowAcc1 V c (1024 * ((crd1 a t 0).val : ℤ) + (n'.val : ℤ)) 488 d := by
  have hN : (cfgA1 a).N = 47922 := N_1
  have hk : (crd1 a t 1).val = 488 := (Decisions.isLast1_iff _).1 h3
  have h1 : ¬ isFirst1 (crd1 a t) := fun h => by have := (Decisions.isFirst1_iff _).1 h; omega
  have hmod : t.val % 489 = 488 := (crd1_val1 a t).symm.trans hk
  have hdiv : (crd1 a t 0).val = t.val / 489 := by rw [crd1_val0]; have := t.isLt; omega
  unfold out1At
  rw [out1_step_last a V c t (acc1 a V c t.val) h1 h3, ← acc1_succ a V c t,
    acc1_closed a V c hT t.val t.isLt n' d, hmod, hdiv]

/-- A point that is last along the accumulated axis writes its block back. -/
theorem flush2_of_last (t : Fin (cfgA1 a).N) (h3 : isLast1 (crd1 a t)) : ((cfgA1 a).win (2 : Fin 3)).flush t = true := by
  have hN : (cfgA1 a).N = 47922 := N_1
  have hN' : (cfgA1 a).grid.N = 47922 := N_1
  have hmod : t.val % 489 = 488 := (crd1_val1 a t).symm.trans ((Decisions.isLast1_iff _).1 h3)
  have htN := t.isLt
  unfold Window.flush
  rw [isOut1_2, Bool.true_and, Bool.or_eq_true]
  by_cases hlast : t.val + 1 = (cfgA1 a).grid.N
  · exact Or.inl (decide_eq_true hlast)
  · refine Or.inr (decide_eq_true ⟨by omega, fun heq => ?_⟩)
    have hlt : t.val + 1 < (cfgA1 a).N := by omega
    have h0 : (BitVec.ofNat 32 (crd1 a ⟨t.val + 1, hlt⟩ 0).val).toNat = (BitVec.ofNat 32 (crd1 a t 0).val).toNat :=
      congrFun heq 0
    have hb1 := crd1_lt0 a ⟨t.val + 1, hlt⟩
    have hb2 := crd1_lt0 a t
    rw [coordNat1 _ (by omega), coordNat1 _ (by omega), crd1_val0, crd1_val0] at h0
    change (t.val + 1) / 489 % 98 = t.val / 489 % 98 at h0
    omega

/-- WHAT A FLUSHING POINT WRITES BACK is its block of the closed form. -/
theorem flushed1_eq (hT : TablesBound1 a V c) (t : Fin (cfgA1 a).N) (hf : ((cfgA1 a).win (2 : Fin 3)).flush t = true) :
    (dat1 a V c).flushed 2 t = (((cfgA1 a).win 2).blk t).view.read (Elt Ideal) (G1 V c) := by
  have h3 : isLast1 (crd1 a t) := by
    by_contra h3
    rw [flush2_of_not_last a t h3] at hf
    exact Bool.false_ne_true hf
  have hb := crd1_lt0 a t
  show ((cfgA1 a).win 2).cut ((cfgA1 a).grid.coords t) ((dat1 a V c).after 2 t) = _
  rw [after1_2]
  refine funext fun (y : S1024x64.Idx) => ?_
  have hy0 : (y 0).val < 1024 := (y 0).isLt
  have hy1 : (y 1).val < 64 := (y 1).isLt
  have hx : ((cfgA1 a).win 2).xinj ((cfgA1 a).grid.coords t) y = ValueIdx.ix2 (⟨(y 0).val, hy0⟩ : Fin 1024) (⟨(y 1).val, hy1⟩ : Fin 64) :=
    funext fun ax => match ax with
      | ⟨0, _⟩ => rfl
      | ⟨1, _⟩ => rfl
  show out1At a V c t (((cfgA1 a).win 2).xinj ((cfgA1 a).grid.coords t) y) = G1 V c ((((cfgA1 a).win 2).blk t).view.emb y)
  refine (congrArg (out1At a V c t) hx).trans ?_
  refine (out1At_last a V c hT t h3 _ _).trans ?_
  have he0n : (fun j : S100352x64.Idx => (j 0).val) ((((cfgA1 a).win 2).blk t).view.emb y) = 1024 * (crd1 a t 0).val + (y 0).val := by
    show (BitVec.ofNat 32 (crd1 a t 0).val).toNat * 1024 + 1 * (y 0).val = _
    rw [coordNat1 _ (by omega)]; omega
  have he0 : (fun j : S100352x64.Idx => (((j 0).val : ℕ) : ℤ)) ((((cfgA1 a).win 2).blk t).view.emb y)
      = 1024 * ((crd1 a t 0).val : ℤ) + ((y 0).val : ℤ) := by
    show (((fun j : S100352x64.Idx => (j 0).val) ((((cfgA1 a).win 2).blk t).view.emb y) : ℕ) : ℤ) = _
    rw [he0n]; push_cast; rfl
  have he1 : (fun j : S100352x64.Idx => (j 1).val) ((((cfgA1 a).win 2).blk t).view.emb y) = (y 1).val := by
    show 0 * 64 + 1 * (y 1).val = _
    omega
  unfold G1
  exact (congrArg₂ (fun w d => rowAcc1 V c w 488 d) he0 (Fin.ext he1)).symm

/-- Every row of the output array is in the block of the last point of its node block's row of the grid. -/
theorem cover1 (i : S100352x64.Idx) :
    ∃ t : Fin (cfgA1 a).N, ((cfgA1 a).win (2 : Fin 3)).flush t = true ∧ i ∈ (((cfgA1 a).win 2).blk t).view.set := by
  have hN : (cfgA1 a).N = 47922 := N_1
  have hi0 : (i 0).val < 100352 := (i 0).isLt
  have hi1 : (i 1).val < 64 := (i 1).isLt
  have htN : 489 * ((i 0).val / 1024) + 488 < (cfgA1 a).N := by omega
  let t : Fin (cfgA1 a).N := ⟨489 * ((i 0).val / 1024) + 488, htN⟩
  have hc1 : (crd1 a t 1).val = 488 := by rw [crd1_val1]; show (489 * ((i 0).val / 1024) + 488) % 489 = 488; omega
  have hc0 : (crd1 a t 0).val = (i 0).val / 1024 := by
    rw [crd1_val0]; show (489 * ((i 0).val / 1024) + 488) / 489 % 98 = (i 0).val / 1024; omega
  have h3 : isLast1 (crd1 a t) := (Decisions.isLast1_iff _).2 hc1
  refine ⟨t, flush2_of_last a t h3, ?_⟩
  have hs : (((cfgA1 a).win 2).blk t).view.set = (((cfgA1 a).win 2).rect t).set := View.set_slice_whole main_v52 _
  refine (Finset.ext_iff.1 hs i).2 (Rect.mem_set_unit.2 fun ax => ?_)
  match ax with
  | ⟨0, _⟩ =>
    show (BitVec.ofNat 32 (crd1 a t 0).val).toNat * 1024 ≤ (i 0).val ∧ (i 0).val < (BitVec.ofNat 32 (crd1 a t 0).val).toNat * 1024 + 1024
    rw [coordNat1 _ (by omega), hc0]; omega
  | ⟨1, _⟩ =>
    show 0 * 64 ≤ (i 1).val ∧ (i 1).val < 0 * 64 + 64
    omega

/-- The call's arrays at an entry, typed: the destination word of edge `e`, the scaled rows' entry `(e, d)`, and the output
    array's entry `(n, d)` after the run. -/
abbrev rowA1 (e : Fin 1001472) : BitVec 32 := (V c main_v51 : Vec Ideal S1001472x1 .i32) (ValueIdx.ix2 e 0)
abbrev scaledA1 (e : Fin 1001472) (d : Fin 64) : EReal := (V c main_v47 : Vec Ideal S1001472x64 .bf16) (ValueIdx.ix2 e d)
abbrev soutA1 (n : Fin 100352) (d : Fin 64) : EReal :=
  ((dat1 a V c).arrAt 2 (cfgA1 a).N : Vec Ideal S100352x64 .f32) (ValueIdx.ix2 n d)

/-- THE OUTPUT ARRAY AFTER THE RUN, entry by entry: the sum of the scaled rows' entries over the edges whose destination
    word is the row. -/
theorem scatter_array (hT : TablesBound1 a V c) (n : Fin 100352) (d : Fin 64) :
    soutA1 a V c n d
      = ∑ e ∈ Finset.univ.filter (fun e : Fin 1001472 => (rowA1 V c e).toInt = (n.val : ℤ)), scaledA1 V c e d := by
  unfold soutA1
  rw [(dat1 a V c).arrAt_eq_of_cover 2 (G1 V c) (fun t hf => flushed1_eq a V c hT t hf) (cover1 a)]
  show rowAcc1 V c ((n.val : ℕ) : ℤ) 488 ⟨d.val, d.isLt⟩ = _
  rw [rowAcc1_total]
  unfold rowW1 scaled1
  simp only [Fin.is_lt, dite_true, Fin.eta]

end Cert.KernelIdeal.Gen

end
-- ==== Proof.HostTables.lean ====
/-
  The tables the host computes before each call bound the call's edge blocks.

  Before the gather call the host recasts the sorted column words as 489 blocks of 2048, takes each block's signed
  minimum and maximum (folds of the two-word minimum and maximum from the extreme words), and recasts the same words as
  one column for the call.  A fold of minima is at most every word folded, a fold of maxima at least, whatever the start;
  so entry `b` of the first table is at most, and of the second at least, every word of edge block `b` of the column the
  call reads.  The same holds before the scatter call for the sorted destination words.  What the words are (a sort and
  a gather of the padded arguments) plays no part: they stay one unopened vector.
-/
import proofs.«179733_j56453050138798_2_alg».proof.Proof.Run
import proofs.«179733_j56453050138798_2_alg».proof.Proof.GatherArray
import proofs.«179733_j56453050138798_2_alg».proof.Proof.ScatterArray
import Idealize.ShloMosaic.Lib.ValueIdx
import Idealize.ShloMosaic.Lib.Pipeline.Value

set_option maxRecDepth 16384

noncomputable section

namespace Cert.KernelIdeal.HostTables

open Cert.KernelIdeal Cert.KernelIdeal.Gen
open Idealize.ShloMosaic
open Idealize.ShloMosaic.TcCoe Idealize.ShloMosaic.Tactic
open Idealize.ShloMosaic.StableHlo

/-! ## Folds of minima and maxima -/

section Folds
open Finset

/-- The least of a family of words, folded from any start, is at most each of them (as signed integers). -/
theorem fold_minsi_le {ι : Type} [DecidableEq ι] (s : Finset ι) (b : BitVec 32) (x : ι → BitVec 32) (i : ι) (hi : i ∈ s) :
    (s.fold IntOp.minsi b x).toInt ≤ (x i).toInt := by
  induction s using Finset.induction_on with
  | empty => exact absurd hi (Finset.notMem_empty i)
  | insert a s ha ih =>
    rw [Finset.fold_insert ha]
    have hm : ∀ p q : BitVec 32, (IntOp.minsi p q).toInt = min p.toInt q.toInt := by
      intro p q; unfold IntOp.minsi; rw [BitVec.slt]; by_cases h : p.toInt < q.toInt <;> simp [h] <;> omega
    rw [hm]
    rcases Finset.mem_insert.mp hi with rfl | h
    · exact min_le_left _ _
    · exact (min_le_right _ _).trans (ih h)

/-- The greatest of a family of words, folded from any start, is at least each of them (as signed integers). -/
theorem le_fold_maxsi {ι : Type} [DecidableEq ι] (s : Finset ι) (b : BitVec 32) (x : ι → BitVec 32) (i : ι) (hi : i ∈ s) :
    (x i).toInt ≤ (s.fold IntOp.maxsi b x).toInt := by
  induction s using Finset.induction_on with
  | empty => exact absurd hi (Finset.notMem_empty i)
  | insert a s ha ih =>
    rw [Finset.fold_insert ha]
    have hm : ∀ p q : BitVec 32, (IntOp.maxsi p q).toInt = max p.toInt q.toInt := by
      intro p q; unfold IntOp.maxsi; rw [BitVec.slt]; by_cases h : q.toInt < p.toInt <;> simp [h] <;> omega
    rw [hm]
    rcases Finset.mem_insert.mp hi with rfl | h
    · exact le_max_left _ _
    · exact (ih h).trans (le_max_right _ _)

end Folds

/-! ## A block's reduction against its entries, and the two recasts -/

section Blocks

theorem lift_blk (h : S489x2048.Reduces [1] S489) (b : Fin 489) (k : Fin 2048) :
    h.lift (ValueIdx.ix1 b) k = ValueIdx.ix2 b k := by
  funext c
  refine Fin.ext ?_
  match c with
  | ⟨0, _⟩ => rfl
  | ⟨1, _⟩ => rfl

/-- The block minimum is at most every entry of the block. -/
theorem blk_min_le (X : IVec S489x2048 32) (init : S_.Idx → BitVec 32) (b : Fin 489) (k : Fin 2048) :
    (Host.reduce IntOp.minsi X init reducesTo_S489x2048_S489_d1 h_S_ (ValueIdx.ix1 b)).toInt ≤ (X (ValueIdx.ix2 b k)).toInt := by
  have h : S489x2048.Reduces [1] S489 := by decide
  rw [Host.reduce_eq_fold_single IntOp.minsi X init reducesTo_S489x2048_S489_d1 h h_S_]
  have e : (X ∘ h.lift (ValueIdx.ix1 b)) k = X (ValueIdx.ix2 b k) := congrArg X (lift_blk h b k)
  exact (fold_minsi_le Finset.univ (init (Shape.Idx.first h_S_)) (X ∘ h.lift (ValueIdx.ix1 b)) k (Finset.mem_univ _)).trans_eq
    (congrArg BitVec.toInt e)

/-- The block maximum is at least every entry of the block. -/
theorem le_blk_max (X : IVec S489x2048 32) (init : S_.Idx → BitVec 32) (b : Fin 489) (k : Fin 2048) :
    (X (ValueIdx.ix2 b k)).toInt ≤ (Host.reduce IntOp.maxsi X init reducesTo_S489x2048_S489_d1 h_S_ (ValueIdx.ix1 b)).toInt := by
  have h : S489x2048.Reduces [1] S489 := by decide
  rw [Host.reduce_eq_fold_single IntOp.maxsi X init reducesTo_S489x2048_S489_d1 h h_S_]
  have e : (X ∘ h.lift (ValueIdx.ix1 b)) k = X (ValueIdx.ix2 b k) := congrArg X (lift_blk h b k)
  exact (congrArg BitVec.toInt e).symm.trans_le
    (le_fold_maxsi Finset.univ (init (Shape.Idx.first h_S_)) (X ∘ h.lift (ValueIdx.ix1 b)) k (Finset.mem_univ _))

/-- A vector recast to one column, read at `(e, 0)`, is the vector at `e`. -/
theorem castCol_apply {α : Type} (x : S1001472.Idx → α) (e : Fin 1001472) (z : Fin 1) :
    shapeCast S1001472x1 x shapeCasts_S1001472_S1001472x1 (ValueIdx.ix2 e z) = x (ValueIdx.ix1 e) :=
  shapeCast_apply x _ _ _ (by
    rw [Shape.rowMajor_val_two, Shape.rowMajor_val_one]
    show e.val = e.val * 1 + z.val
    omega)

/-- A vector recast to 489 blocks of 2048, read at `(b, k)`, is the vector at `2048 b + k`. -/
theorem castBlk_apply {α : Type} (x : S1001472.Idx → α) (b : Fin 489) (k : Fin 2048) :
    shapeCast S489x2048 x shapeCasts_S1001472_S489x2048 (ValueIdx.ix2 b k)
      = x (ValueIdx.ix1 ⟨2048 * b.val + k.val, by omega⟩) :=
  shapeCast_apply x _ _ _ (by
    rw [Shape.rowMajor_val_two, Shape.rowMajor_val_one]
    show 2048 * b.val + k.val = b.val * 2048 + k.val
    omega)

/-- THE BOUND, for any vector of words: the block minima of its recast to blocks are at most, and the block maxima at
    least, the entries of its recast to a column. -/
theorem bounds_of_casts (X : IVec S1001472 32) (i0 i1 : S_.Idx → BitVec 32) (b : Fin 489) (k : Fin 2048) :
    (Host.reduce IntOp.minsi (shapeCast S489x2048 X shapeCasts_S1001472_S489x2048) i0 reducesTo_S489x2048_S489_d1 h_S_ (ValueIdx.ix1 b)).toInt
        ≤ (shapeCast S1001472x1 X shapeCasts_S1001472_S1001472x1 (ValueIdx.ix2 ⟨2048 * b.val + k.val, by omega⟩ 0)).toInt
      ∧ (shapeCast S1001472x1 X shapeCasts_S1001472_S1001472x1 (ValueIdx.ix2 ⟨2048 * b.val + k.val, by omega⟩ 0)).toInt
        ≤ (Host.reduce IntOp.maxsi (shapeCast S489x2048 X shapeCasts_S1001472_S489x2048) i1 reducesTo_S489x2048_S489_d1 h_S_ (ValueIdx.ix1 b)).toInt := by
  rw [castCol_apply, ← castBlk_apply X b k]
  exact ⟨blk_min_le _ i0 b k, le_blk_max _ i1 b k⟩

end Blocks

/-! ## The host's last operations before each call, whatever the buffers hold -/

section Reads
variable {F : FTy → Type} [FloatOps F]

/-- The wrap the host applies to a gather's start words: a negative word has the extent added. -/
def wrapIdx (p : IVec S1001472 32) : IVec S1001472x1 32 :=
  broadcastInDim S1001472x1 ![0] bcast_S1001472_S1001472x1_0
    (select (cmpi .slt p (broadcastInDim S1001472 ![] bcast_S_S1001472 (constantI S_ 32 0#32)))
      (addi p (broadcastInDim S1001472 ![] bcast_S_S1001472 (constantI S_ 32 1001472#32))) p)

variable (V : Valuation τ sig (Elt F))

/-- The sorted column words, as the host gathers them: one vector, not opened. -/
def words0 : IVec S1001472 32 :=
  Host.gather gather_S1001472_S1001472x1_S1001472_n_0_n_n_0_1_1 (V (Proc.devRef .tc main_v1)) (wrapIdx (V (Proc.devRef .tc main_v5)))

/-- The sorted destination words, as the host gathers them. -/
def words1 : IVec S1001472 32 :=
  Host.gather gather_S1001472_S1001472x1_S1001472_n_0_n_n_0_1_1 (V (Proc.devRef .tc main_v19)) (wrapIdx (V (Proc.devRef .tc main_v33)))

set_option maxHeartbeats 400000 in
theorem read10_v28 : StableHlo.after hostOps0_10 V (Proc.devRef .tc main_v28)
    = Host.reduce IntOp.minsi (shapeCast S489x2048 (words0 V) shapeCasts_S1001472_S489x2048)
        (constantI S_ 32 2147483647#32) reducesTo_S489x2048_S489_d1 h_S_ := by
  unfold words0 wrapIdx; after_results_simp; rfl
set_option maxHeartbeats 400000 in
theorem read10_v29 : StableHlo.after hostOps0_10 V (Proc.devRef .tc main_v29)
    = Host.reduce IntOp.maxsi (shapeCast S489x2048 (words0 V) shapeCasts_S1001472_S489x2048)
        (constantI S_ 32 2147483648#32) reducesTo_S489x2048_S489_d1 h_S_ := by
  unfold words0 wrapIdx; after_results_simp; rfl
set_option maxHeartbeats 400000 in
theorem read10_v30 : StableHlo.after hostOps0_10 V (Proc.devRef .tc main_v30)
    = shapeCast S1001472x1 (words0 V) shapeCasts_S1001472_S1001472x1 := by
  unfold words0 wrapIdx; after_results_simp; rfl

set_option maxHeartbeats 400000 in
theorem read11_v49 : StableHlo.after hostOps1_1 V (Proc.devRef .tc main_v49)
    = Host.reduce IntOp.minsi (shapeCast S489x2048 (words1 V) shapeCasts_S1001472_S489x2048)
        (constantI S_ 32 2147483647#32) reducesTo_S489x2048_S489_d1 h_S_ := by
  unfold words1 wrapIdx; after_results_simp; rfl
set_option maxHeartbeats 400000 in
theorem read11_v50 : StableHlo.after hostOps1_1 V (Proc.devRef .tc main_v50)
    = Host.reduce IntOp.maxsi (shapeCast S489x2048 (words1 V) shapeCasts_S1001472_S489x2048)
        (constantI S_ 32 2147483648#32) reducesTo_S489x2048_S489_d1 h_S_ := by
  unfold words1 wrapIdx; after_results_simp; rfl
set_option maxHeartbeats 400000 in
theorem read11_v51 : StableHlo.after hostOps1_1 V (Proc.devRef .tc main_v51)
    = shapeCast S1001472x1 (words1 V) shapeCasts_S1001472_S1001472x1 := by
  unfold words1 wrapIdx; after_results_simp; rfl

end Reads

/-! ## The two tables at the contents the run has -/

section Bounds
variable (m : (ℓ : Loc nD τ sig) → Buf (Elt Ideal) ℓ) (c : Dev nD)

/-- The gather call's tables bound its edge blocks' column words. -/
theorem tables0_bound : TablesBound0 (adm0 m) (E11 m) c := by
  obtain rfl : c = 0 := Fin.fin_one_eq_zero c
  have e28 : E11 m 0 main_v28 = Host.reduce IntOp.minsi (shapeCast S489x2048 (words0 (W10 m 0)) shapeCasts_S1001472_S489x2048)
      (constantI S_ 32 2147483647#32) reducesTo_S489x2048_S489_d1 h_S_ := by
    show W11 m 0 (Proc.devRef .tc main_v28) = _
    unfold W11
    exact read10_v28 (W10 m 0)
  have e29 : E11 m 0 main_v29 = Host.reduce IntOp.maxsi (shapeCast S489x2048 (words0 (W10 m 0)) shapeCasts_S1001472_S489x2048)
      (constantI S_ 32 2147483648#32) reducesTo_S489x2048_S489_d1 h_S_ := by
    show W11 m 0 (Proc.devRef .tc main_v29) = _
    unfold W11
    exact read10_v29 (W10 m 0)
  have e30 : E11 m 0 main_v30 = shapeCast S1001472x1 (words0 (W10 m 0)) shapeCasts_S1001472_S1001472x1 := by
    show W11 m 0 (Proc.devRef .tc main_v30) = _
    unfold W11
    exact read10_v30 (W10 m 0)
  have h0 : tb0_0 (adm0 m) = E11 m 0 main_v28 := adm0_0 m
  have h1 : tb0_1 (adm0 m) = E11 m 0 main_v29 := adm0_1 m
  intro b k
  have key := bounds_of_casts (words0 (W10 m 0)) (constantI S_ 32 2147483647#32) (constantI S_ 32 2147483648#32) b k
  constructor
  · exact (le_of_eq (congrArg BitVec.toInt (congrFun (h0.trans e28) (ValueIdx.ix1 b)))).trans
      (key.1.trans_eq (congrArg BitVec.toInt (congrFun e30 _)).symm)
  · exact (le_of_eq (congrArg BitVec.toInt (congrFun e30 _))).trans
      (key.2.trans_eq (congrArg BitVec.toInt (congrFun (h1.trans e29) (ValueIdx.ix1 b))).symm)

/-- The scatter call's tables bound its edge blocks' destination words. -/
theorem tables1_bound : TablesBound1 (adm1 m) (E14 m) c := by
  obtain rfl : c = 0 := Fin.fin_one_eq_zero c
  have e49 : E14 m 0 main_v49 = Host.reduce IntOp.minsi (shapeCast S489x2048 (words1 (W13 m 0)) shapeCasts_S1001472_S489x2048)
      (constantI S_ 32 2147483647#32) reducesTo_S489x2048_S489_d1 h_S_ := by
    show W14 m 0 (Proc.devRef .tc main_v49) = _
    unfold W14
    exact read11_v49 (W13 m 0)
  have e50 : E14 m 0 main_v50 = Host.reduce IntOp.maxsi (shapeCast S489x2048 (words1 (W13 m 0)) shapeCasts_S1001472_S489x2048)
      (constantI S_ 32 2147483648#32) reducesTo_S489x2048_S489_d1 h_S_ := by
    show W14 m 0 (Proc.devRef .tc main_v50) = _
    unfold W14
    exact read11_v50 (W13 m 0)
  have e51 : E14 m 0 main_v51 = shapeCast S1001472x1 (words1 (W13 m 0)) shapeCasts_S1001472_S1001472x1 := by
    show W14 m 0 (Proc.devRef .tc main_v51) = _
    unfold W14
    exact read11_v51 (W13 m 0)
  have h0 : tb1_0 (adm1 m) = E14 m 0 main_v49 := adm1_0 m
  have h1 : tb1_1 (adm1 m) = E14 m 0 main_v50 := adm1_1 m
  intro b k
  have key := bounds_of_casts (words1 (W13 m 0)) (constantI S_ 32 2147483647#32) (constantI S_ 32 2147483648#32) b k
  constructor
  · exact (le_of_eq (congrArg BitVec.toInt (congrFun (h0.trans e49) (ValueIdx.ix1 b)))).trans
      (key.1.trans_eq (congrArg BitVec.toInt (congrFun e51 _)).symm)
  · exact (le_of_eq (congrArg BitVec.toInt (congrFun e51 _))).trans
      (key.2.trans_eq (congrArg BitVec.toInt (congrFun (h1.trans e50) (ValueIdx.ix1 b))).symm)

end Bounds

end Cert.KernelIdeal.HostTables

end
-- ==== Proof.HostSide.lean ====
/-
  The host side of the kernel's program: what the host operations put into the buffers the two calls read, as plain
  functions of the program's four arguments.

  The host pads the three edge vectors to 1001472 entries (the two index vectors with the word 100352, the weights
  with zero) and the node table to 100352 rows of zeros; sorts the padded column indices together with their
  positions and reads the three edge vectors through the resulting order; takes, block of 2048 by block, the least
  and the greatest sorted column index; and after the first call does the same with the row indices, reading the row
  indices and the first call's output rows through the second order.  Every gather reads its operand at the start
  word wrapped (a negative word has the extent added) and clamped into the operand; on the words a sort of positions
  produces that is the position itself, so each order is the sort's own permutation of the positions.
-/
import proofs.«179733_j56453050138798_2_alg».proof.Proof.Run
import proofs.«179733_j56453050138798_2_alg».proof.Proof.LibGatherScatterRead
import proofs.«179733_j56453050138798_2_alg».proof.Proof.SpmmCore
import Idealize.ShloMosaic.Lib.ValueIdx
import Idealize.ShloMosaic.Lib.Pipeline.Value
import Idealize.ShloMosaic.Lib.SortFacts
import Idealize.ShloMosaic.Lib.KernelVsHost

set_option maxRecDepth 16384

noncomputable section

namespace Cert.KernelIdeal.Host

open Cert.KernelIdeal Cert.KernelIdeal.Gen
open Idealize.ShloMosaic
open Idealize.ShloMosaic.TcCoe Idealize.ShloMosaic.Tactic
open Idealize.ShloMosaic.StableHlo
open Idealize.ShloMosaic.GatherScatterRead
open Cert.Spmm

/-! ## The slice after the second call, and the buffer the host leaves alone between the calls -/

section Generic
variable {F : FTy → Type} [FloatOps F]
variable (m : (ℓ : Loc nD τ sig) → Buf (Elt F) ℓ)

/-- The first call's output is what the second call is entered with: neither stretch between the calls writes it. -/
theorem E14_main_v32 (c : Dev nD) : E14 m c main_v32 = E12 m c main_v32 :=
  calc W14 m c (Proc.devRef .tc main_v32)
    _ = W13 m c (Proc.devRef .tc main_v32) := by
        unfold W14; exact StableHlo.after_of_writes_sub hostOps1_1 _ hostOps1_1_writes (r := main_v32) (by decide)
    _ = W12 m c (Proc.devRef .tc main_v32) := StableHlo.after_of_writes_sub hostOps1 _ hostOps1_writes (r := main_v32) (by decide)

/-- The last stretch is one slice of the second call's output, whatever the buffers hold. -/
theorem slice_read (V : Valuation τ sig (Elt F)) :
    StableHlo.after hostOps2 V (Proc.devRef .tc main_v53)
      = extractStridedSlice S100000x64 ![0, 0] (V (Proc.devRef .tc main_v52)) slices_S100352x64_S100000x64_0_0 := by
  after_results

/-- The result is the first 100000 rows of the second call's output. -/
theorem W16_main_v53 (c : Dev nD) (p : Fin 100000) (j : Fin 64) :
    W16 m c (Proc.devRef .tc main_v53) (ValueIdx.ix2 p j) = E15 m c main_v52 (ValueIdx.ix2 ⟨p.val, by omega⟩ j) := by
  unfold W16
  rw [slice_read]
  refine extractStridedSlice_apply _ _ _ _ _ fun a => ?_
  match a with
  | ⟨0, _⟩ => simp
  | ⟨1, _⟩ => simp

end Generic

/-! ## General readings: a column broadcast, an argsort, a wrapped and clamped start word, a block reduction -/

section General
variable {α β : Type}

/-- A vector broadcast to one column, read at `(e, 0)`, is the vector at `e`. -/
theorem bcastCol_apply {n : Nat} (h : (⟨1, ![n]⟩ : Shape).BroadcastsInDim ⟨2, ![n, 1]⟩ (![0] : Fin 1 → Fin 2)) (hn : n ≠ 1)
    (x : (⟨1, ![n]⟩ : Shape).Idx → α) (e : Fin n) (z : Fin 1) :
    broadcastInDim ⟨2, ![n, 1]⟩ ![0] h x (ValueIdx.ix2 e z) = x (ValueIdx.ix1 e) := by
  unfold broadcastInDim
  refine congrArg x (funext fun a => ?_)
  match a with
  | ⟨0, _⟩ =>
    split
    · rename_i h1; exact absurd h1 hn
    · rfl

/-- The second result of a sort of two vectors along their one axis reads the second vector through one self-map of
    the positions: the stable sort's order under the comparator on the pairs. -/
theorem sort2_snd_rank1 {n : Nat} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

theorem ofFin_eq_ix1 {n : Nat} (k : Fin n) : (Shape.Idx.ofFin k : (⟨1, ![n]⟩ : Shape).Idx) = ValueIdx.ix1 k := by
  funext a; match a with | ⟨0, _⟩ => rfl

/-- A position below the extent, as a 32-bit word, is not negative, so the wrap leaves it and the clamp returns it. -/
theorem clampWrap_ofNat {n k : Nat} (hk : k < n) (hn : n < 2147483648) :
    min (Scalar.select (IntOp.cmpi .slt (BitVec.ofNat 32 k) 0#32) (IntOp.addi (BitVec.ofNat 32 k) (BitVec.ofNat 32 n))
      (BitVec.ofNat 32 k)).toInt.toNat (n - 1) = k := by
  have hk' : (BitVec.ofNat 32 k).toNat = k := by rw [BitVec.toNat_ofNat]; exact Nat.mod_eq_of_lt (by omega)
  have hi : (BitVec.ofNat 32 k).toInt = (k : Int) := by
    rw [BitVec.toInt_eq_toNat_cond, hk']; split <;> omega
  have h0 : IntOp.cmpi .slt (BitVec.ofNat 32 k) 0#32 = 0#1 := by
    show BitVec.ofBool ((BitVec.ofNat 32 k).slt 0#32) = 0#1
    have : (BitVec.ofNat 32 k).slt 0#32 = false := by
      rw [BitVec.slt, hi]; simp
    rw [this]; rfl
  rw [h0, ValueIdx.select_zero, hi]
  simp only [Int.toNat_natCast]
  omega

end General

/-! ## The first stage: what the gather call is entered with -/

section Stage1
variable {F : FTy → Type} [FloatOps F]

/-- The wrap the host applies to a gather's start words: a negative word has the extent added. -/
def wrapIdx (p : IVec S1001472 32) : IVec S1001472x1 32 :=
  broadcastInDim S1001472x1 ![0] bcast_S1001472_S1001472x1_0
    (select (cmpi .slt p (broadcastInDim S1001472 ![] bcast_S_S1001472 (constantI S_ 32 0#32)))
      (addi p (broadcastInDim S1001472 ![] bcast_S_S1001472 (constantI S_ 32 1001472#32))) p)

theorem wrapIdx_apply (p : IVec S1001472 32) (e : Fin 1001472) :
    wrapIdx p (ValueIdx.ix2 e 0)
      = Scalar.select (IntOp.cmpi .slt (p (ValueIdx.ix1 e)) 0#32) (IntOp.addi (p (ValueIdx.ix1 e)) 1001472#32) (p (ValueIdx.ix1 e)) := by
  unfold wrapIdx
  rw [bcastCol_apply _ (by decide)]
  rfl

/-- Where a gather through the start words `p` reads its operand for result entry `e`: the wrapped word, clamped. -/
def posOf (p : IVec S1001472 32) (e : Fin 1001472) : Fin 1001472 :=
  ⟨min (wrapIdx p (ValueIdx.ix2 e 0)).toInt.toNat (1001472 - 1), by omega⟩

/-- The vector gather reads its operand at `posOf`. -/
theorem gatherVec_apply {α : Type} (x : S1001472.Idx → α) (p : IVec S1001472 32) (e : Fin 1001472) :
    Host.gather gather_S1001472_S1001472x1_S1001472_n_0_n_n_0_1_1 x (wrapIdx p) (ValueIdx.ix1 e) = x (ValueIdx.ix1 (posOf p e)) :=
  gather_vec_apply (n := 1001472) (m := 1001472) (by decide) gather_S1001472_S1001472x1_S1001472_n_0_n_n_0_1_1_wf x (wrapIdx p) e

/-- A vector recast to one column, read at `(e, 0)`, is the vector at `e`. -/
theorem castCol_apply {α : Type} (x : S1001472.Idx → α) (e : Fin 1001472) (z : Fin 1) :
    shapeCast S1001472x1 x shapeCasts_S1001472_S1001472x1 (ValueIdx.ix2 e z) = x (ValueIdx.ix1 e) :=
  shapeCast_apply x _ _ _ (by
    rw [Shape.rowMajor_val_two, Shape.rowMajor_val_one]
    show e.val = e.val * 1 + z.val
    omega)

/-- A vector recast to 489 blocks of 2048, read at `(b, k)`, is the vector at `2048 b + k`. -/
theorem castBlk_apply {α : Type} (x : S1001472.Idx → α) (b : Fin 489) (k : Fin 2048) :
    shapeCast S489x2048 x shapeCasts_S1001472_S489x2048 (ValueIdx.ix2 b k)
      = x (ValueIdx.ix1 ⟨2048 * b.val + k.val, by omega⟩) :=
  shapeCast_apply x _ _ _ (by
    rw [Shape.rowMajor_val_two, Shape.rowMajor_val_one]
    show 2048 * b.val + k.val = b.val * 2048 + k.val
    omega)

variable (V : Valuation τ sig (Elt F))

theorem read10_v30 : StableHlo.after hostOps0_10 V (Proc.devRef .tc main_v30)
    = shapeCast S1001472x1 (Host.gather gather_S1001472_S1001472x1_S1001472_n_0_n_n_0_1_1 (V (Proc.devRef .tc main_v1))
        (wrapIdx (V (Proc.devRef .tc main_v5)))) shapeCasts_S1001472_S1001472x1 := by
  unfold wrapIdx; after_results_simp; rfl

end Stage1

section Stage1b
variable {F : FTy → Type} [FloatOps F]

/-! ### The pads read at an index -/

theorem padVec_apply {α : Type} (x : S1000000.Idx → α) (v : S_.Idx → α) (e : Fin 1001472) :
    pad S1001472 ![0] ![1472] ![0] x v pads_S1000000_S1001472_014720 h_S_ (ValueIdx.ix1 e)
      = if h : e.val < 1000000 then x (ValueIdx.ix1 ⟨e.val, h⟩) else v ValueIdx.ix0 := by
  by_cases h : e.val < 1000000
  · rw [dif_pos h]
    refine pad_apply_of_inside _ _ _ x v _ _ _ _ fun a => ?_
    match a with
    | ⟨0, _⟩ => show e.val = 0 + e.val * (0 + 1); omega
  · rw [dif_neg h]
    refine (pad_apply_of_not_inside _ _ _ x v _ _ _ (0 : Fin 1) ?_).trans (congrArg v (ValueIdx.eq_ix0 _))
    rintro ⟨_, _, h3⟩
    exact h (by simpa using h3)

theorem padRows_apply {α : Type} (x : S100000x64.Idx → α) (v : S_.Idx → α) (n : Fin 100352) (d : Fin 64) :
    pad S100352x64 ![0, 0] ![352, 0] ![0, 0] x v pads_S100000x64_S100352x64_03520_000 h_S_ (ValueIdx.ix2 n d)
      = if h : n.val < 100000 then x (ValueIdx.ix2 ⟨n.val, h⟩ d) else v ValueIdx.ix0 := by
  by_cases h : n.val < 100000
  · rw [dif_pos h]
    refine pad_apply_of_inside _ _ _ x v _ _ _ _ fun a => ?_
    match a with
    | ⟨0, _⟩ => show n.val = 0 + n.val * (0 + 1); omega
    | ⟨1, _⟩ => show d.val = 0 + d.val * (0 + 1); omega
  · rw [dif_neg h]
    refine (pad_apply_of_not_inside _ _ _ x v _ _ _ (0 : Fin 2) ?_).trans (congrArg v (ValueIdx.eq_ix0 _))
    rintro ⟨_, _, h3⟩
    exact h (by simpa using h3)

end Stage1b
section Stage1b
variable {F : FTy → Type} [FloatOps F]
/-! ### The sort of positions -/

/-- The order in which the host's argsort of `keys` lists the positions: the stable sort's. -/
def sortOrd (keys : IVec S1001472 32) : Fin 1001472 → Fin 1001472 :=
  sortedFrom (fun k k' => comparator_i32_i32_d0 (keys (Shape.Idx.ofFin k), iotaInDim S1001472 32 0 (Shape.Idx.ofFin k))
    (keys (Shape.Idx.ofFin k'), iotaInDim S1001472 32 0 (Shape.Idx.ofFin k')) == 1#1)

theorem sortOrd_bij (keys : IVec S1001472 32) : Function.Bijective (sortOrd keys) :=
  ⟨sortedFrom_injective _, sortedFrom_surjective _⟩

/-- The position vector at a position is that position, as a word. -/
theorem iota_ofFin (s : Fin 1001472) : iotaInDim S1001472 32 0 (Shape.Idx.ofFin s) = BitVec.ofNat 32 s.val := by
  unfold iotaInDim
  rw [Shape.Idx.ofFin_zero]

set_option maxHeartbeats 50000 in
/-- The argsort's word at `e` is the position the order lists there. -/
theorem argsort_apply (keys : IVec S1001472 32) (e : Fin 1001472) :
    (Host.sort2 S1001472 0 comparator_i32_i32_d0 keys (iotaInDim S1001472 32 0)).2 (ValueIdx.ix1 e)
      = BitVec.ofNat 32 (sortOrd keys e).val := by
  rw [sort2_snd_rank1]
  unfold sortOrd
  have h0 : (ValueIdx.ix1 e : S1001472.Idx) 0 = e := rfl
  rw [h0]
  generalize sortedFrom _ e = s
  exact iota_ofFin s

attribute [irreducible] sortOrd

/-- Through start words that are the positions an order lists, a gather reads at that order. -/
theorem posOf_of_ofNat (p : IVec S1001472 32) (s : Fin 1001472 → Fin 1001472)
    (hp : ∀ e, p (ValueIdx.ix1 e) = BitVec.ofNat 32 (s e).val) (e : Fin 1001472) : posOf p e = s e := by
  refine Fin.ext ?_
  show min (wrapIdx p (ValueIdx.ix2 e 0)).toInt.toNat (1001472 - 1) = (s e).val
  rw [wrapIdx_apply, hp e]
  exact clampWrap_ofNat (s e).isLt (by norm_num)

end Stage1b
section Stage1b
variable {F : FTy → Type} [FloatOps F]
/-! ### The stretches before the gather call, whatever the buffers hold -/

variable (V : Valuation τ sig (Elt F))

theorem read10_v31 : StableHlo.after hostOps0_10 V (Proc.devRef .tc main_v31)
    = shapeCast S1001472x1 (Host.gather gather_S1001472_S1001472x1_S1001472_n_0_n_n_0_1_1 (V (Proc.devRef .tc main_v2))
        (wrapIdx (V (Proc.devRef .tc main_v5)))) shapeCasts_S1001472_S1001472x1 := by
  unfold wrapIdx; after_results_simp; rfl
theorem read10_v19 : StableHlo.after hostOps0_10 V (Proc.devRef .tc main_v19)
    = Host.gather gather_S1001472_S1001472x1_S1001472_n_0_n_n_0_1_1 (V (Proc.devRef .tc main_v0))
        (wrapIdx (V (Proc.devRef .tc main_v5))) := by
  unfold wrapIdx; after_results_simp
theorem read10_v28 : StableHlo.after hostOps0_10 V (Proc.devRef .tc main_v28)
    = Host.reduce IntOp.minsi (shapeCast S489x2048 (Host.gather gather_S1001472_S1001472x1_S1001472_n_0_n_n_0_1_1
        (V (Proc.devRef .tc main_v1)) (wrapIdx (V (Proc.devRef .tc main_v5)))) shapeCasts_S1001472_S489x2048)
        (constantI S_ 32 2147483647#32) reducesTo_S489x2048_S489_d1 h_S_ := by
  unfold wrapIdx; after_results_simp; rfl
theorem read10_v29 : StableHlo.after hostOps0_10 V (Proc.devRef .tc main_v29)
    = Host.reduce IntOp.maxsi (shapeCast S489x2048 (Host.gather gather_S1001472_S1001472x1_S1001472_n_0_n_n_0_1_1
        (V (Proc.devRef .tc main_v1)) (wrapIdx (V (Proc.devRef .tc main_v5)))) shapeCasts_S1001472_S489x2048)
        (constantI S_ 32 2147483648#32) reducesTo_S489x2048_S489_d1 h_S_ := by
  unfold wrapIdx; after_results_simp; rfl

end Stage1b

/-! ## The first stage, from the arguments -/

section Final1
variable {F : FTy → Type} [FloatOps F]
variable (m : (ℓ : Loc nD τ sig) → Buf (Elt F) ℓ) (c : Dev nD)

/-- The padded column words and the padded destination words, as vectors. -/
def colsPv : IVec S1001472 32 :=
  pad S1001472 ![0] ![1472] ![0] (m ((c : Thread nD τ).loc main_arg1)) (constantI S_ 32 100352#32) pads_S1000000_S1001472_014720 h_S_
def rowsPv : IVec S1001472 32 :=
  pad S1001472 ![0] ![1472] ![0] (m ((c : Thread nD τ).loc main_arg0)) (constantI S_ 32 100352#32) pads_S1000000_S1001472_014720 h_S_

theorem colsPv_apply (e : Fin 1001472) :
    colsPv m c (ValueIdx.ix1 e) = padW (fun x => m ((c : Thread nD τ).loc main_arg1) (ValueIdx.ix1 x)) e := by
  unfold colsPv padW; rw [padVec_apply]; rfl
theorem rowsPv_apply (e : Fin 1001472) :
    rowsPv m c (ValueIdx.ix1 e) = padW (fun x => m ((c : Thread nD τ).loc main_arg0) (ValueIdx.ix1 x)) e := by
  unfold rowsPv padW; rw [padVec_apply]; rfl

theorem W10_v1 : W10 m c (Proc.devRef .tc main_v1) = colsPv m c := by
  unfold colsPv; after_results; rfl
theorem W10_v0 : W10 m c (Proc.devRef .tc main_v0) = rowsPv m c := by
  unfold rowsPv; after_results; rfl
theorem W10_v5 : W10 m c (Proc.devRef .tc main_v5)
    = (Host.sort2 S1001472 0 comparator_i32_i32_d0 (colsPv m c) (iotaInDim S1001472 32 0)).2 := by
  unfold colsPv; after_results; rfl

/-- The first order: the stable argsort of the padded column words. -/
def σ₁ : Fin 1001472 → Fin 1001472 := sortOrd (colsPv m c)

theorem σ₁_bij : Function.Bijective (σ₁ m c) := sortOrd_bij _

theorem v5_apply (e : Fin 1001472) : W10 m c (Proc.devRef .tc main_v5) (ValueIdx.ix1 e) = BitVec.ofNat 32 (σ₁ m c e).val := by
  rw [W10_v5]; exact argsort_apply _ e

/-- Every gather of the first stage reads its operand through the first order. -/
theorem pos1 (e : Fin 1001472) : posOf (W10 m c (Proc.devRef .tc main_v5)) e = σ₁ m c e :=
  posOf_of_ofNat _ _ (v5_apply m c) e

/-- The sorted column words the gather call reads are the padded column words in the first order. -/
theorem g1a_gen (e : Fin 1001472) :
    E11 m c main_v30 (ValueIdx.ix2 e 0) = padW (fun x => m ((c : Thread nD τ).loc main_arg1) (ValueIdx.ix1 x)) (σ₁ m c e) := by
  show W11 m c (Proc.devRef .tc main_v30) (ValueIdx.ix2 e 0) = _
  unfold W11
  rw [read10_v30, castCol_apply, gatherVec_apply, pos1, W10_v1]
  exact colsPv_apply m c _

end Final1

/-! ## The second stage: what the scatter call is entered with -/

section Stage2
variable {F : FTy → Type} [FloatOps F]

/-- The row gather reads its operand's rows at `posOf`. -/
theorem gatherRows_apply {α : Type} (x : S1001472x64.Idx → α) (p : IVec S1001472 32) (e : Fin 1001472) (d : Fin 64) :
    Host.gather gather_S1001472x64_S1001472x1_S1001472x64_1_0_n_n_0_1_164 x (wrapIdx p) (ValueIdx.ix2 e d)
      = x (ValueIdx.ix2 (posOf p e) d) :=
  gather_rows_apply (n := 1001472) (m := 1001472) (f := 64) (by decide)
    gather_S1001472x64_S1001472x1_S1001472x64_1_0_n_n_0_1_164_wf x (wrapIdx p) e d

variable (V : Valuation τ sig (Elt F))

theorem read1_v33 : StableHlo.after hostOps1 V (Proc.devRef .tc main_v33)
    = (Host.sort2 S1001472 0 comparator_i32_i32_d0 (V (Proc.devRef .tc main_v19)) (iotaInDim S1001472 32 0)).2 := by
  after_results; rfl
theorem read11_v51 : StableHlo.after hostOps1_1 V (Proc.devRef .tc main_v51)
    = shapeCast S1001472x1 (Host.gather gather_S1001472_S1001472x1_S1001472_n_0_n_n_0_1_1 (V (Proc.devRef .tc main_v19))
        (wrapIdx (V (Proc.devRef .tc main_v33)))) shapeCasts_S1001472_S1001472x1 := by
  unfold wrapIdx; after_results_simp; rfl
theorem read11_v47 : StableHlo.after hostOps1_1 V (Proc.devRef .tc main_v47)
    = Host.gather gather_S1001472x64_S1001472x1_S1001472x64_1_0_n_n_0_1_164 (V (Proc.devRef .tc main_v32))
        (wrapIdx (V (Proc.devRef .tc main_v33))) := by
  unfold wrapIdx; after_results_simp

end Stage2

section Final2
variable {F : FTy → Type} [FloatOps F]
variable (m : (ℓ : Loc nD τ sig) → Buf (Elt F) ℓ) (c : Dev nD)

/-- The keys of the second sort: the destination words in the first order. -/
def keys2 : IVec S1001472 32 := W11 m c (Proc.devRef .tc main_v19)

theorem keys2_apply (e : Fin 1001472) :
    keys2 m c (ValueIdx.ix1 e) = padW (fun x => m ((c : Thread nD τ).loc main_arg0) (ValueIdx.ix1 x)) (σ₁ m c e) := by
  unfold keys2 W11
  rw [read10_v19, gatherVec_apply, pos1, W10_v0]
  exact rowsPv_apply m c _

theorem W13_v19 : W13 m c (Proc.devRef .tc main_v19) = keys2 m c :=
  calc W13 m c (Proc.devRef .tc main_v19)
    _ = W12 m c (Proc.devRef .tc main_v19) := StableHlo.after_of_writes_sub hostOps1 _ hostOps1_writes (r := main_v19) (by decide)
    _ = W11 m c (Proc.devRef .tc main_v19) := W12_of_ne m c main_v19 (by decide)

theorem W13_v32 : W13 m c (Proc.devRef .tc main_v32) = W12 m c (Proc.devRef .tc main_v32) :=
  StableHlo.after_of_writes_sub hostOps1 _ hostOps1_writes (r := main_v32) (by decide)

/-- The second order: the stable argsort of the destination words as the first order lists them. -/
def σ₂ : Fin 1001472 → Fin 1001472 := sortOrd (keys2 m c)

theorem σ₂_bij : Function.Bijective (σ₂ m c) := sortOrd_bij _

theorem W13_v33 : W13 m c (Proc.devRef .tc main_v33)
    = (Host.sort2 S1001472 0 comparator_i32_i32_d0 (keys2 m c) (iotaInDim S1001472 32 0)).2 := by
  rw [← W13_v19]; exact read1_v33 _

theorem v33_apply (e : Fin 1001472) : W13 m c (Proc.devRef .tc main_v33) (ValueIdx.ix1 e) = BitVec.ofNat 32 (σ₂ m c e).val := by
  rw [W13_v33]; exact argsort_apply _ e

/-- Every gather of the second stage reads its operand through the second order. -/
theorem pos2 (e : Fin 1001472) : posOf (W13 m c (Proc.devRef .tc main_v33)) e = σ₂ m c e :=
  posOf_of_ofNat _ _ (v33_apply m c) e

/-- The sorted destination words the scatter call reads are the padded destination words in the two orders composed. -/
theorem g2a_gen (e : Fin 1001472) :
    E14 m c main_v51 (ValueIdx.ix2 e 0)
      = padW (fun x => m ((c : Thread nD τ).loc main_arg0) (ValueIdx.ix1 x)) (σ₁ m c (σ₂ m c e)) := by
  show W14 m c (Proc.devRef .tc main_v51) (ValueIdx.ix2 e 0) = _
  unfold W14
  rw [read11_v51, castCol_apply, gatherVec_apply, pos2, W13_v19]
  exact keys2_apply m c _

/-- The rows the scatter call reads are the gather call's output rows in the second order. -/
theorem g2b_gen (e : Fin 1001472) (d : Fin 64) :
    E14 m c main_v47 (ValueIdx.ix2 e d) = E12 m c main_v32 (ValueIdx.ix2 (σ₂ m c e) d) := by
  show W14 m c (Proc.devRef .tc main_v47) (ValueIdx.ix2 e d) = W12 m c (Proc.devRef .tc main_v32) (ValueIdx.ix2 (σ₂ m c e) d)
  unfold W14
  rw [read11_v47, gatherRows_apply, pos2, W13_v32]

end Final2

/-! ## The float buffers of the first stage, at the ideal reading -/

section Floats
variable (m : (ℓ : Loc nD τ sig) → Buf (Elt Ideal) ℓ) (c : Dev nD)

theorem W10_v2 : W10 m c (Proc.devRef .tc main_v2)
    = pad S1001472 ![0] ![1472] ![0] (m ((c : Thread nD τ).loc main_arg2)) (constant (F := Ideal) S_ .f32 0x00000000#32)
        pads_S1000000_S1001472_014720 h_S_ := by
  after_results; rfl

theorem W10_v4 : W10 m c (Proc.devRef .tc main_v4)
    = truncf .bf16 (pad S100352x64 ![0, 0] ![352, 0] ![0, 0] (m ((c : Thread nD τ).loc main_arg3))
        (sitofp (F := Ideal) .f32 (constantI S_ 32 0#32)) pads_S100000x64_S100352x64_03520_000 h_S_) bitsLt_bf16_f32 := by
  after_results; rfl

/-- The weights the gather call reads are the padded weights in the first order. -/
theorem g1b (e : Fin 1001472) :
    (E11 m c main_v31 : Vec Ideal S1001472x1 .f32) (ValueIdx.ix2 e 0)
      = padR (fun x => m ((c : Thread nD τ).loc main_arg2) (ValueIdx.ix1 x)) (σ₁ m c e) := by
  show W11 m c (Proc.devRef .tc main_v31) (ValueIdx.ix2 e 0) = _
  unfold W11
  rw [read10_v31, castCol_apply, gatherVec_apply, pos1, W10_v2, padVec_apply]
  unfold padR
  split
  · rfl
  · exact Ideal.ofBits_zero_f32

/-- The table the gather call reads is the padded feature table (a change of float format is the identity here). -/
theorem g1c (n : Fin 100352) (d : Fin 64) :
    (E11 m c main_v4 : Vec Ideal S100352x64 .bf16) (ValueIdx.ix2 n d)
      = padT (fun r d => m ((c : Thread nD τ).loc main_arg3) (ValueIdx.ix2 r d)) n d := by
  show W11 m c (Proc.devRef .tc main_v4) (ValueIdx.ix2 n d) = _
  unfold W11
  rw [StableHlo.after_of_writes_sub hostOps0_10 _ hostOps0_10_writes (r := main_v4) (by decide), W10_v4]
  rw [ValueIdx.truncf_apply, padRows_apply]
  unfold padT
  split
  · rfl
  · show (((0#32 : BitVec 32).toInt : ℝ) : EReal) = 0
    simp

/-- The statements on the integer buffers, at the ideal reading and in the typed spelling. -/
theorem g1a (e : Fin 1001472) :
    (E11 m c main_v30 : Vec Ideal S1001472x1 .i32) (ValueIdx.ix2 e 0)
      = padW (fun x => m ((c : Thread nD τ).loc main_arg1) (ValueIdx.ix1 x)) (σ₁ m c e) := g1a_gen m c e
theorem g2a (e : Fin 1001472) :
    (E14 m c main_v51 : Vec Ideal S1001472x1 .i32) (ValueIdx.ix2 e 0)
      = padW (fun x => m ((c : Thread nD τ).loc main_arg0) (ValueIdx.ix1 x)) (σ₁ m c (σ₂ m c e)) := g2a_gen m c e
theorem g2b (e : Fin 1001472) (d : Fin 64) :
    (E14 m c main_v47 : Vec Ideal S1001472x64 .bf16) (ValueIdx.ix2 e d)
      = (E12 m c main_v32 : Vec Ideal S1001472x64 .bf16) (ValueIdx.ix2 (σ₂ m c e) d) := g2b_gen m c e d
theorem s_out (p : Fin 100000) (j : Fin 64) :
    (W16 m c (Proc.devRef .tc main_v53) : Vec Ideal S100000x64 .f32) (ValueIdx.ix2 p j)
      = (E15 m c main_v52 : Vec Ideal S100352x64 .f32) (ValueIdx.ix2 ⟨p.val, by omega⟩ j) := W16_main_v53 m c p j

end Floats

attribute [irreducible] σ₁ σ₂ keys2 colsPv rowsPv

end Cert.KernelIdeal.Host

end
-- ==== Proof.KernelValue.lean ====
/-
  The kernel's result buffer holds the sparse product of its arguments, when every column word is a row of the table.

  Everything is in place: what the host operations put into the two calls' buffers, in the orders of the two sorts
  (bijections of the padded edge list); that each call's tables bound the blocks they describe; what each call leaves
  in its output array; and the algebra of the two-stage sum.  This module only instantiates the one with the others.
-/
import proofs.«179733_j56453050138798_2_alg».proof.Proof.ValueCore
import proofs.«179733_j56453050138798_2_alg».proof.Proof.GatherArray
import proofs.«179733_j56453050138798_2_alg».proof.Proof.ScatterArray
import proofs.«179733_j56453050138798_2_alg».proof.Proof.HostTables
import proofs.«179733_j56453050138798_2_alg».proof.Proof.HostSide

noncomputable section

namespace Cert.KernelIdeal.Gen

open Cert.KernelIdeal Idealize.ShloMosaic Idealize.ShloMosaic.TcCoe Idealize.SL.Sem Cert.Spmm

/-- Entry `(p, j)` of the kernel's result is the sparse product's. -/
theorem kernel_value_at (m : (ℓ : Loc nD τ sig) → Buf (Elt Ideal) ℓ) (c : Dev nD)
    (hcols : ∀ x : Fin 1000000, 0 ≤ (colsA m c x).toInt ∧ (colsA m c x).toInt < 100000) (p : Fin 100000) (j : Fin 64) :
    (W16 m c (Proc.devRef .tc main_v53) : Vec Ideal S100000x64 .f32) (ValueIdx.ix2 p j)
      = spmm (rowsA m c) (fun x => refRow (colsA m c x)) (evA m c) (embA m c) p j :=
  kernel_value_core m c (Cert.KernelIdeal.Host.σ₁ m c) (Cert.KernelIdeal.Host.σ₂ m c) (Cert.KernelIdeal.Host.σ₁_bij m c) (Cert.KernelIdeal.Host.σ₂_bij m c)
    (Cert.KernelIdeal.Host.g1a m c) (Cert.KernelIdeal.Host.g1b m c) (Cert.KernelIdeal.Host.g1c m c) (Cert.KernelIdeal.Host.g2a m c) (Cert.KernelIdeal.Host.g2b m c)
    (fun e d => gather_array (adm0 m) (E11 m) c (Cert.KernelIdeal.HostTables.tables0_bound m c) e d)
    (fun n d => scatter_array (adm1 m) (E14 m) c (Cert.KernelIdeal.HostTables.tables1_bound m c) n d)
    (Cert.KernelIdeal.Host.s_out m c) hcols p j

end Cert.KernelIdeal.Gen

end
-- ==== Proof.lean ====
/-
  The certificate's five claims.

  The three frames: for the kernel's program, read at the word level and at the ideal level, the run of the whole
  program (host operations, the gather call, host operations, the scatter call, a slice) terminates without a fault and
  leaves every argument array as launched; for the reference, its run as a list of host operations does.  The kernel's
  idealization rewrote nothing, so it preserves the program trivially.  The value claim: at the ideal level the
  kernel's result and the reference's are both the sparse product — entry (p, j) is the sum over the edges with
  destination p of the feature table's entry (column of the edge, j) times the edge's weight — provided every column
  word is a row of the table, which the precondition states: the reference reads a column word outside the table by
  its own rule (a negative word raised by the table's height, then clamped into the table), where the kernel's
  one-hot selection over the padded table finds nothing.
-/
import proofs.«179733_j56453050138798_2_alg».proof.Defs
import proofs.«179733_j56453050138798_2_alg».proof.Proof.Gen.Kernel
import proofs.«179733_j56453050138798_2_alg».proof.Proof.Gen.KernelIdeal
import proofs.«179733_j56453050138798_2_alg».proof.Proof.Gen.ReferenceIdeal
import proofs.«179733_j56453050138798_2_alg».proof.Proof.Gen.Pre_finite_inputs
import proofs.«179733_j56453050138798_2_alg».proof.Proof.Run
import proofs.«179733_j56453050138798_2_alg».proof.Proof.Word.Run
import proofs.«179733_j56453050138798_2_alg».proof.Proof.RefRun
import proofs.«179733_j56453050138798_2_alg».proof.Proof.RefIsSpec
import proofs.«179733_j56453050138798_2_alg».proof.Proof.PreDecode
import proofs.«179733_j56453050138798_2_alg».proof.Proof.KernelValue
import Idealize.ShloMosaic.Adequacy
import Idealize.ShloMosaic.Init

noncomputable section

namespace Cert.Proof

open Idealize.ShloMosaic Idealize.SL.Sem Idealize.ShloMosaic.TcCoe

/-! ## The frames and the idealization -/

theorem frame_p : Cert.frame_Kernel := fun m ρ _ =>
  (θ_run Cert.Kernel.defs _ _).mono (fun _ h c => (h c).2) (Cert.Kernel.Gen.run (F := Bits) m ρ)

theorem frame_pi : Cert.frame_KernelIdeal := fun m ρ _ =>
  (θ_run Cert.KernelIdeal.defs _ _).mono (fun _ h c => (h c).2) (Cert.KernelIdeal.Gen.run (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-! ## The value claim -/

/-- The sparse product of four argument arrays, as the contents of a result buffer. -/
def product (a0 a1 : IVec Cert.KernelIdeal.S1000000 32) (a2 : FVec Ideal Cert.KernelIdeal.S1000000 .f32) (a3 : FVec Ideal Cert.KernelIdeal.S100000x64 .f32) :
    Cert.KernelIdeal.S100000x64.Idx → EReal := fun i =>
  Cert.Spmm.spmm (fun e => a0 (ValueIdx.ix1 e)) (fun e => Cert.Spmm.refRow (a1 (ValueIdx.ix1 e))) (fun e => a2 (ValueIdx.ix1 e)) (fun r d => a3 (ValueIdx.ix2 r d)) (i 0) (i 1)

/-- The kernel's result buffer holds the product of its arguments, for column words inside the table. -/
theorem kernel_value (m : (ℓ : Loc Cert.KernelIdeal.nD Cert.KernelIdeal.τ Cert.KernelIdeal.sig) → Buf (Elt Ideal) ℓ) (c : Dev Cert.KernelIdeal.nD)
    (hcols : ∀ x : Cert.KernelIdeal.S1000000.Idx, 0 ≤ ((m ((c.tc : Thread Cert.KernelIdeal.nD Cert.KernelIdeal.τ).loc Cert.KernelIdeal.main_arg1)) x).toInt ∧ ((m ((c.tc : Thread Cert.KernelIdeal.nD Cert.KernelIdeal.τ).loc Cert.KernelIdeal.main_arg1)) x).toInt < 100000) :
    Cert.KernelIdeal.Gen.W16 (F := Ideal) m c (Proc.devRef .tc Cert.KernelIdeal.main_v53) = product (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  funext i
  obtain ⟨p, j, rfl⟩ : ∃ (p : Fin 100000) (j : Fin 64), i = ValueIdx.ix2 p j := ⟨i 0, i 1, ValueIdx.eq_ix2 i⟩
  exact Cert.KernelIdeal.Gen.kernel_value_at m c (fun x => hcols (ValueIdx.ix1 x)) p j

/-- The reference's result term is the product of its arguments. -/
theorem ref_value (x0 x1 : IVec Cert.ReferenceIdeal.S1000000 32) (x2 : FVec Ideal Cert.ReferenceIdeal.S1000000 .f32) (x3 : FVec Ideal Cert.ReferenceIdeal.S100000x64 .f32) :
    Cert.ReferenceIdeal.Read.val_main_v12 (F := Ideal) x0 x1 x2 x3 = product x0 x1 x2 x3 := by
  funext i
  obtain ⟨p, j, rfl⟩ : ∃ (p : Fin 100000) (j : Fin 64), i = ValueIdx.ix2 p j := ⟨i 0, i 1, ValueIdx.eq_ix2 i⟩
  exact Cert.ReferenceIdeal.RefValue.ref_eq x0 x1 x2 x3 p j

/-- Run from memories agreeing on the arguments, both programs end with the product of the arguments in their result
    buffers; the column words are inside the table by the precondition. -/
theorem algebraic : Cert.algebraic_KernelIdeal_ReferenceIdeal := by
  intro m ρ m' ρ' hpre hagree
  refine ⟨fun c => product (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩) (Cert.KernelIdeal.Gen.run (F := Ideal) m ρ)
    exact kernel_value m c (Cert.Pre_finite_inputs.Decode.cols_in_range _ _ _ _ (hpre c))
  · refine (θ_run Cert.ReferenceIdeal.defs _ _).mono (fun r h c => ⟨(h c).1.trans ?_, (h c).2⟩) (Cert.ReferenceIdeal.Value.run (F := Ideal) m' ρ')
    rw [(hagree c).1, (hagree c).2.1, (hagree c).2.2.1, (hagree c).2.2.2]
    exact (Cert.ReferenceIdeal.Read.val_main_v12_eq _ _ _ _).trans (ref_value _ _ _ _)

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
